-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S2048x2048 : Shape := ⟨2, ![2048, 2048]⟩
abbrev S4096x4096 : Shape := ⟨2, ![4096, 4096]⟩
abbrev S2048x4096 : Shape := ⟨2, ![2048, 4096]⟩
abbrev S4096x16 : Shape := ⟨2, ![4096, 16]⟩
abbrev S128x128 : Shape := ⟨2, ![128, 128]⟩
abbrev S16x16 : Shape := ⟨2, ![16, 16]⟩
abbrev S16x1 : Shape := ⟨2, ![16, 1]⟩
abbrev S128x1 : Shape := ⟨2, ![128, 1]⟩
abbrev S128 : Shape := ⟨1, ![128]⟩
abbrev S16 : Shape := ⟨1, ![16]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S2048x4096 : S_.BroadcastsInDim S2048x4096 (![] : Fin 0 → Fin S2048x4096.rank)
  reducesTo_S2048x4096_S_d0_1 : S2048x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S128x128 : S_.BroadcastsInDim S128x128 (![] : Fin 0 → Fin S128x128.rank)
  reducesTo_S128x128_S_d0_1 : S128x128.ReducesTo [0, 1] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S128x1 : S_.BroadcastsInDim S128x1 (![] : Fin 0 → Fin S128x1.rank)
  reducesTo_S128x1_S_d0_1 : S128x1.ReducesTo [0, 1] S_
  bcast_S_S128 : S_.BroadcastsInDim S128 (![] : Fin 0 → Fin S128.rank)
  reducesTo_S128_S_d0 : S128.ReducesTo [0] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg7 : FVec F S16x1 .f32) (main_arg8 : FVec F S128x1 .f32) (main_arg9 : FVec F S128 .f32) (main_arg10 : FVec F S16 .f32) (main_v33 : IVec S_ 1) : IVec S_ 1 :=
  let main_v34 : FVec F S16x1 .f32 := Host.absf main_arg7
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S128x1 .f32 := Host.absf main_arg8
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg4 : FVec F S4096x16 .f32) (main_arg5 : FVec F S128x128 .f32) (main_arg6 : FVec F S16x16 .f32) (main_arg7 : FVec F S16x1 .f32) (main_arg8 : FVec F S128x1 .f32) (main_arg9 : FVec F S128 .f32) (main_arg10 : FVec F S16 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S16x16 .f32 := Host.absf main_arg6
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S2048x128 .f32) (main_arg1 : FVec F S2048x2048 .f32) (main_arg2 : FVec F S4096x4096 .f32) (main_arg3 : FVec F S2048x4096 .f32) (main_arg4 : FVec F S4096x16 .f32) (main_arg5 : FVec F S128x128 .f32) (main_arg6 : FVec F S16x16 .f32) (main_arg7 : FVec F S16x1 .f32) (main_arg8 : FVec F S128x1 .f32) (main_arg9 : FVec F S128 .f32) (main_arg10 : FVec F S16 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S2048x128 : Shape := ⟨2, ![2048, 128]⟩
abbrev S2048x2048 : Shape := ⟨2, ![2048, 2048]⟩
abbrev S4096x4096 : Shape := ⟨2, ![4096, 4096]⟩
abbrev S2048x4096 : Shape := ⟨2, ![2048, 4096]⟩
abbrev S4096x16 : Shape := ⟨2, ![4096, 16]⟩
abbrev S128x128 : Shape := ⟨2, ![128, 128]⟩
abbrev S16x16 : Shape := ⟨2, ![16, 16]⟩
abbrev S16x1 : Shape := ⟨2, ![16, 1]⟩
abbrev S128x1 : Shape := ⟨2, ![128, 1]⟩
abbrev S128 : Shape := ⟨1, ![128]⟩
abbrev S16 : Shape := ⟨1, ![16]⟩
abbrev S1x128 : Shape := ⟨2, ![1, 128]⟩
abbrev S1x16 : Shape := ⟨2, ![1, 16]⟩
abbrev S512x512 : Shape := ⟨2, ![512, 512]⟩
abbrev S512x128 : Shape := ⟨2, ![512, 128]⟩
abbrev S512x4096 : Shape := ⟨2, ![512, 4096]⟩
abbrev S1x4096 : Shape := ⟨2, ![1, 4096]⟩
abbrev S2048x512 : Shape := ⟨2, ![2048, 512]⟩
abbrev S2048x1 : Shape := ⟨2, ![2048, 1]⟩
abbrev S512x16 : Shape := ⟨2, ![512, 16]⟩

abbrev nBuf : Space → Nat
  | .hbm => 16
  | .vmem => 22
  | .smem => 0
  | _ => 0

abbrev bufTy : (tb : Table) → Fin (tcTables nBuf tb) → BufTy
  | .hbm, ⟨0, _⟩ => ⟨S2048x128, .f32⟩
  | .hbm, ⟨1, _⟩ => ⟨S2048x2048, .f32⟩
  | .hbm, ⟨2, _⟩ => ⟨S4096x4096, .f32⟩
  | .hbm, ⟨3, _⟩ => ⟨S2048x4096, .f32⟩
  | .hbm, ⟨4, _⟩ => ⟨S4096x16, .f32⟩
  | .hbm, ⟨5, _⟩ => ⟨S128x128, .f32⟩
  | .hbm, ⟨6, _⟩ => ⟨S16x16, .f32⟩
  | .hbm, ⟨7, _⟩ => ⟨S16x1, .f32⟩
  | .hbm, ⟨8, _⟩ => ⟨S128x1, .f32⟩
  | .hbm, ⟨9, _⟩ => ⟨S128, .f32⟩
  | .hbm, ⟨10, _⟩ => ⟨S16, .f32⟩
  | .hbm, ⟨11, _⟩ => ⟨S1x128, .f32⟩
  | .hbm, ⟨12, _⟩ => ⟨S1x16, .f32⟩
  | .hbm, ⟨13, _⟩ => ⟨S2048x4096, .bf16⟩
  | .hbm, ⟨14, _⟩ => ⟨S2048x128, .f32⟩
  | .hbm, ⟨15, _⟩ => ⟨S4096x16, .f32⟩
  | .local _ .vmem, ⟨0, _⟩ => ⟨S2048x4096, .bf16⟩
  | .local _ .vmem, ⟨1, _⟩ => ⟨S512x512, .f32⟩
  | .local _ .vmem, ⟨2, _⟩ => ⟨S512x512, .f32⟩
  | .local _ .vmem, ⟨3, _⟩ => ⟨S2048x128, .f32⟩
  | .local _ .vmem, ⟨4, _⟩ => ⟨S128x128, .f32⟩
  | .local _ .vmem, ⟨5, _⟩ => ⟨S4096x16, .f32⟩
  | .local _ .vmem, ⟨6, _⟩ => ⟨S16x1, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x4096, .bf16⟩
  | .local _ .vmem, ⟨11, _⟩ => ⟨S2048x4096, .bf16⟩
  | .local _ .vmem, ⟨12, _⟩ => ⟨S512x512, .f32⟩
  | .local _ .vmem, ⟨13, _⟩ => ⟨S512x512, .f32⟩
  | .local _ .vmem, ⟨14, _⟩ => ⟨S2048x128, .f32⟩
  | .local _ .vmem, ⟨15, _⟩ => ⟨S128x1, .f32⟩
  | .local _ .vmem, ⟨16, _⟩ => ⟨S4096x16, .f32⟩
  | .local _ .vmem, ⟨17, _⟩ => ⟨S16x16, .f32⟩
  | .local _ .vmem, ⟨18, _⟩ => ⟨S1x16, .f32⟩
  | .local _ .vmem, ⟨19, _⟩ => ⟨S4096x16, .f32⟩
  | .local _ .vmem, ⟨20, _⟩ => ⟨S4096x16, .f32⟩
  | .local _ .vmem, ⟨21, _⟩ => ⟨S2048x512, .bf16⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_scratch0 : Ref sig .tc := ⟨.vmem, 20, rfl⟩
abbrev cc1_scratch1 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let c512_i32_20 : BitVec 32 := 512#32
  let v29 : BitVec 32 := Scalar.muli arg0 c512_i32_20
  let v30 : Index := Scalar.indexCast v29
  let c0_21 : Index := 0#32
  ![v30.toNat, 0]
def k0_off2 (i : grid0.Coords) : Fin 2 → Nat :=
  let arg1 : BitVec 32 := BitVec.ofNat 32 (i 1).val
  let c512_i32 : BitVec 32 := 512#32
  let v3 : BitVec 32 := Scalar.muli arg1 c512_i32
  let v4 : Index := Scalar.indexCast v3
  let c0 : Index := 0#32
  ![v4.toNat, 0]
def k0_off3 (i : grid0.Coords) : Fin 2 → Nat :=
  let arg1 : BitVec 32 := BitVec.ofNat 32 (i 1).val
  let c512_i32_5 : BitVec 32 := 512#32
  let v11 : BitVec 32 := Scalar.muli arg1 c512_i32_5
  let v12 : Index := Scalar.indexCast v11
  let c0_6 : Index := 0#32
  ![v12.toNat, 0]
def k0_cond2 (i : grid0.Coords) : BitVec 1 :=
  let arg1 : BitVec 32 := BitVec.ofNat 32 (i 1).val
  let c0_i32_11 : BitVec 32 := 0#32
  let v19 : BitVec 1 := Scalar.cmpi .eq arg1 c0_i32_11
  let v20 : BitVec 32 := Scalar.extui v19
  let c0_i32_12 : BitVec 32 := 0#32
  let v21 : BitVec 1 := Scalar.cmpi .ne v20 c0_i32_12
  v21

def k0_off4 (i : grid0.Coords) : Fin 2 → Nat :=
  let arg0 : BitVec 32 := BitVec.ofNat 32 (i 0).val
  let c512_i32_15 : BitVec 32 := 512#32
  let v25 : BitVec 32 := Scalar.muli arg0 c512_i32_15
  let v26 : Index := Scalar.indexCast v25
  let c0_16 : Index := 0#32
  ![v26.toNat, 0]
def k0_cond3 (i : grid0.Coords) : BitVec 1 :=
  let arg1 : BitVec 32 := BitVec.ofNat 32 (i 1).val
  let c0_i32_13 : BitVec 32 := 0#32
  let v22 : BitVec 1 := Scalar.cmpi .ne arg1 c0_i32_13
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4096x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![8, 8], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_off1 (i : grid1.Coords) : Fin 2 → Nat :=
  let c0_24 : Index := 0#32
  let arg0 : BitVec 32 := BitVec.ofNat 32 (i 0).val
  let c512_i32_23 : BitVec 32 := 512#32
  let v36 : BitVec 32 := Scalar.muli arg0 c512_i32_23
  let v37 : Index := Scalar.indexCast v36
  ![0, v37.toNat]
def k1_off2 (i : grid1.Coords) : Fin 2 → Nat :=
  let c0 : Index := 0#32
  let arg1 : BitVec 32 := BitVec.ofNat 32 (i 1).val
  let c512_i32 : BitVec 32 := 512#32
  let v3 : BitVec 32 := Scalar.muli arg1 c512_i32
  let v4 : Index := Scalar.indexCast v3
  ![0, v4.toNat]
def k1_off3 (i : grid1.Coords) : Fin 2 → Nat :=
  let arg0 : BitVec 32 := BitVec.ofNat 32 (i 0).val
  let c512_i32_5 : BitVec 32 := 512#32
  let v11 : BitVec 32 := Scalar.muli arg0 c512_i32_5
  let v12 : Index := Scalar.indexCast v11
  let c0_6 : Index := 0#32
  ![v12.toNat, 0]
def k1_cond2 (i : grid1.Coords) : BitVec 1 :=
  let arg0 : BitVec 32 := BitVec.ofNat 32 (i 0).val
  let c0_i32_12 : BitVec 32 := 0#32
  let v20 : BitVec 1 := Scalar.cmpi .eq arg0 c0_i32_12
  let v21 : BitVec 32 := Scalar.extui v20
  let c0_i32_13 : BitVec 32 := 0#32
  let v22 : BitVec 1 := Scalar.cmpi .ne v21 c0_i32_13
  v22

def k1_off4 (i : grid1.Coords) : Fin 2 → Nat :=
  let arg1 : BitVec 32 := BitVec.ofNat 32 (i 1).val
  let c512_i32_11 : BitVec 32 := 512#32
  let v19 : BitVec 32 := Scalar.muli arg1 c512_i32_11
  let v32 : Index := Scalar.indexCast v19
  let c0_18 : Index := 0#32
  ![v32.toNat, 0]
def k1_cond3 (i : grid1.Coords) : BitVec 1 :=
  let arg0 : BitVec 32 := BitVec.ofNat 32 (i 0).val
  let c0_i32_14 : BitVec 32 := 0#32
  let v23 : BitVec 1 := Scalar.cmpi .ne arg0 c0_i32_14
  let c7_i32 : BitVec 32 := 7#32
  let v24 : BitVec 1 := Scalar.cmpi .ne arg0 c7_i32
  let v25 : BitVec 1 := Scalar.andi v23 v24
  let v26 : BitVec 32 := Scalar.extui v25
  let c0_i32_15 : BitVec 32 := 0#32
  let v27 : BitVec 1 := Scalar.cmpi .ne v26 c0_i32_15
  v27

def k1_off5 (i : grid1.Coords) : Fin 2 → Nat :=
  let arg1 : BitVec 32 := BitVec.ofNat 32 (i 1).val
  let c512_i32_11 : BitVec 32 := 512#32
  let v19 : BitVec 32 := Scalar.muli arg1 c512_i32_11
  let v32 : Index := Scalar.indexCast v19
  let c0_18 : Index := 0#32
  ![v32.toNat, 0]
def k1_cond4 (i : grid1.Coords) : BitVec 1 :=
  let arg0 : BitVec 32 := BitVec.ofNat 32 (i 0).val
  let c7_i32_16 : BitVec 32 := 7#32
  let v28 : BitVec 1 := Scalar.cmpi .eq arg0 c7_i32_16
  let v_true : BitVec 1 := 1#1
  let v29 : BitVec 1 := Scalar.andi v28 v_true
  let v30 : BitVec 32 := Scalar.extui v29
  let c0_i32_17 : BitVec 32 := 0#32
  let v31 : BitVec 1 := Scalar.cmpi .ne v30 c0_i32_17
  v31

def k1_off6 (i : grid1.Coords) : Fin 2 → Nat :=
  let arg1 : BitVec 32 := BitVec.ofNat 32 (i 1).val
  let c512_i32_11 : BitVec 32 := 512#32
  let v19 : BitVec 32 := Scalar.muli arg1 c512_i32_11
  let v32 : Index := Scalar.indexCast v19
  let c0_18 : Index := 0#32
  ![v32.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S2048x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S4096x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S16x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S4096x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

class Facts₀ : Prop where
  shapeCasts_S128_S1x128 : S128.ShapeCasts S1x128
  shapeCasts_S16_S1x16 : S16.ShapeCasts S1x16
  bitsLt_bf16_f32 : FTy.bits .bf16 < FTy.bits .f32
  inb_S16x1_S16x1_0_0 : ∀ a, (![0, 0] : Fin 2 → Nat) a + S16x1.size a ≤ S16x1.size a
  h_S16x1 : 0 < S16x1.numel
  inb_S4096x16_S4096x16_0_0 : ∀ a, (![0, 0] : Fin 2 → Nat) a + S4096x16.size a ≤ S4096x16.size a
  h_S4096x16 : 0 < S4096x16.numel
  h_S512x4096 : 0 < S512x4096.numel
  shapeCasts_S512x4096_S512x4096 : S512x4096.ShapeCasts S512x4096
  broadcasts_S1x4096_S512x4096 : S1x4096.Broadcasts S512x4096
  inb_S512x4096_S512x4096_0_0 : ∀ a, (![0, 0] : Fin 2 → Nat) a + S512x4096.size a ≤ S512x4096.size a
  packedbf16_S512x4096_S512x4096_0_0 : (Rect.unit (s := S512x4096) ![0, 0] S512x4096.size inb_S512x4096_S512x4096_0_0).PackedRows (EltTy.packing .bf16)
  inb_S512x512_S512x512_0_0 : ∀ a, (![0, 0] : Fin 2 → Nat) a + S512x512.size a ≤ S512x512.size a
  h_S512x512 : 0 < S512x512.numel
  h_S512x128 : 0 < S512x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  inb_S128x1_S128x1_0_0 : ∀ a, (![0, 0] : Fin 2 → Nat) a + S128x1.size a ≤ S128x1.size a
  h_S128x1 : 0 < S128x1.numel
  h_S2048x512 : 0 < S2048x512.numel
  shapeCasts_S2048x512_S2048x512 : S2048x512.ShapeCasts S2048x512
  broadcasts_S2048x1_S2048x512 : S2048x1.Broadcasts S2048x512
  inb_S2048x512_S2048x512_0_0 : ∀ a, (![0, 0] : Fin 2 → Nat) a + S2048x512.size a ≤ S2048x512.size a
  packedbf16_S2048x512_S2048x512_0_0 : (Rect.unit (s := S2048x512) ![0, 0] S2048x512.size inb_S2048x512_S2048x512_0_0).PackedRows (EltTy.packing .bf16)
  h_S512x16 : 0 < S512x16.numel
  inb_S16x16_S16x16_0_0 : ∀ a, (![0, 0] : Fin 2 → Nat) a + S16x16.size a ≤ S16x16.size a
  h_S16x16 : 0 < S16x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  shapeCasts_S512x16_S512x16 : S512x16.ShapeCasts S512x16
  dot_S16x1_S4096x16_S1x4096_0_1_1_0_n_n_wf : DotDims.WF S16x1 S4096x16 S1x4096 [0] [1] [1] [0] [] []
  dot_S512x4096_S512x4096_S512x512_1_1_0_0_n_n_wf : DotDims.WF S512x4096 S512x4096 S512x512 [1] [1] [0] [0] [] []
  dot_S512x128_S128x128_S512x128_1_0_0_1_n_n_wf : DotDims.WF S512x128 S128x128 S512x128 [1] [0] [0] [1] [] []
  dot_S512x512_S512x128_S512x128_1_0_0_1_n_n_wf : DotDims.WF S512x512 S512x128 S512x128 [1] [0] [0] [1] [] []
  dot_S2048x128_S128x1_S2048x1_1_0_0_1_n_n_wf : DotDims.WF S2048x128 S128x1 S2048x1 [1] [0] [0] [1] [] []
  dot_S2048x512_S2048x512_S512x512_0_0_1_1_n_n_wf : DotDims.WF S2048x512 S2048x512 S512x512 [0] [0] [1] [1] [] []
  dot_S512x16_S16x16_S512x16_1_0_0_1_n_n_wf : DotDims.WF S512x16 S16x16 S512x16 [1] [0] [0] [1] [] []
  dot_S512x512_S512x16_S512x16_1_0_0_1_n_n_wf : DotDims.WF S512x512 S512x16 S512x16 [1] [0] [0] [1] [] []
  hrank0 : 0 < grid0.rank
  k0_off1_inb : ∀ i : grid0.Coords, ∀ (k0_h1 : k0_cond1 i = 1#1), ∀ a, (k0_off1 i) a + S512x4096.size a ≤ S2048x4096.size a
  k0_off2_inb : ∀ i : grid0.Coords, ∀ a, (k0_off2 i) a + S512x4096.size a ≤ S2048x4096.size a
  k0_off3_inb : ∀ i : grid0.Coords, ∀ a, (k0_off3 i) a + S512x128.size a ≤ S2048x128.size a
  k0_off4_inb : ∀ i : grid0.Coords, ∀ (k0_h2 : k0_cond2 i = 1#1), ∀ a, (k0_off4 i) a + S512x128.size a ≤ S2048x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S2048x4096.size a
  hwx0_0 : ∀ i : grid0.Coords, EltTy.bits .bf16 = 32 ∨ (Rect.block (s := S2048x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x2048.size a
  hwx0_1 : ∀ i : grid0.Coords, EltTy.bits .f32 = 32 ∨ (Rect.block (s := S2048x2048) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S2048x128.size a
  hwx0_2 : ∀ i : grid0.Coords, EltTy.bits .f32 = 32 ∨ (Rect.block (s := S2048x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x16.size a ≤ S4096x16.size a
  hwx0_4 : ∀ i : grid0.Coords, EltTy.bits .f32 = 32 ∨ (Rect.block (s := S4096x16) S4096x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S2048x128.size a
  hwx0_7 : ∀ i : grid0.Coords, EltTy.bits .f32 = 32 ∨ (Rect.block (s := S2048x128) S512x128.size (cc0_transform_7 i) (hinb0_7 i)).WholeWords (EltTy.packing .f32)
  hrank1 : 0 < grid1.rank
  k1_off1_inb : ∀ i : grid1.Coords, ∀ (k1_h1 : k1_cond1 i = 1#1), ∀ a, (k1_off1 i) a + S2048x512.size a ≤ S2048x4096.size a
  k1_off2_inb : ∀ i : grid1.Coords, ∀ a, (k1_off2 i) a + S2048x512.size a ≤ S2048x4096.size a
  k1_off3_inb : ∀ i : grid1.Coords, ∀ a, (k1_off3 i) a + S512x16.size a ≤ S4096x16.size a
  k1_off4_inb : ∀ i : grid1.Coords, ∀ (k1_h2 : k1_cond2 i = 1#1), ∀ a, (k1_off4 i) a + S512x16.size a ≤ S4096x16.size a
  k1_off5_inb : ∀ i : grid1.Coords, ∀ (k1_h3 : k1_cond3 i = 1#1), ∀ a, (k1_off5 i) a + S512x16.size a ≤ S4096x16.size a
  k1_off6_inb : ∀ i : grid1.Coords, ∀ (k1_h4 : k1_cond4 i = 1#1), ∀ a, (k1_off6 i) a + S512x16.size a ≤ S4096x16.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x4096.size a ≤ S2048x4096.size a
  hwx1_0 : ∀ i : grid1.Coords, EltTy.bits .bf16 = 32 ∨ (Rect.block (s := S2048x4096) S2048x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x4096.size a
  hwx1_1 : ∀ i : grid1.Coords, EltTy.bits .f32 = 32 ∨ (Rect.block (s := S4096x4096) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S2048x128.size a
  hwx1_2 : ∀ i : grid1.Coords, EltTy.bits .f32 = 32 ∨ (Rect.block (s := S2048x128) S2048x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .f32 = 32 ∨ (Rect.block (s := S128x1) S128x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x16.size a ≤ S4096x16.size a
  hwx1_4 : ∀ i : grid1.Coords, EltTy.bits .f32 = 32 ∨ (Rect.block (s := S4096x16) S4096x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x16.size a ≤ S16x16.size a
  hwx1_5 : ∀ i : grid1.Coords, EltTy.bits .f32 = 32 ∨ (Rect.block (s := S16x16) S16x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x16.size a ≤ S1x16.size a
  hwx1_6 : ∀ i : grid1.Coords, EltTy.bits .f32 = 32 ∨ (Rect.block (s := S1x16) S1x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S4096x16.size a ≤ S4096x16.size a
  hwx1_7 : ∀ i : grid1.Coords, EltTy.bits .f32 = 32 ∨ (Rect.block (s := S4096x16) S4096x16.size (cc1_transform_7 i) (hinb1_7 i)).WholeWords (EltTy.packing .f32)

variable [Facts₀]

def dot_S16x1_S4096x16_S1x4096_0_1_1_0_n_n : DotDims S16x1 S4096x16 S1x4096 where
  lhsContracting := [0]
  rhsContracting := [1]
  lhsNonContracting := [1]
  rhsNonContracting := [0]
  lhsBatch := []
  rhsBatch := []
  wf := dot_S16x1_S4096x16_S1x4096_0_1_1_0_n_n_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf
def dot_S2048x512_S2048x512_S512x512_0_0_1_1_n_n : DotDims S2048x512 S2048x512 S512x512 where
  lhsContracting := [0]
  rhsContracting := [0]
  lhsNonContracting := [1]
  rhsNonContracting := [1]
  lhsBatch := []
  rhsBatch := []
  wf := dot_S2048x512_S2048x512_S512x512_0_0_1_1_n_n_wf
def dot_S512x16_S16x16_S512x16_1_0_0_1_n_n : DotDims S512x16 S16x16 S512x16 where
  lhsContracting := [1]
  rhsContracting := [0]
  lhsNonContracting := [0]
  rhsNonContracting := [1]
  lhsBatch := []
  rhsBatch := []
  wf := dot_S512x16_S16x16_S512x16_1_0_0_1_n_n_wf
def dot_S512x512_S512x16_S512x16_1_0_0_1_n_n : DotDims S512x512 S512x16 S512x16 where
  lhsContracting := [1]
  rhsContracting := [0]
  lhsNonContracting := [0]
  rhsNonContracting := [1]
  lhsBatch := []
  rhsBatch := []
  wf := dot_S512x512_S512x16_S512x16_1_0_0_1_n_n_wf

abbrev win0_0 : Pipeline.Window sig grid0 :=
  Pipeline.Window.ofSpec (Memref.whole main_v2) S2048x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2048x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4096x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S16x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) && !(k0_cond3 i == 1#1) | ⟨_ + 8, h⟩ => absurd h (Nat.not_lt.2 (Nat.le_add_left _ _))

abbrev win1_0 : Pipeline.Window sig grid1 :=
  Pipeline.Window.ofSpec (Memref.whole main_v2) S2048x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2048x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S4096x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S16x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v1) S1x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v4) S4096x16.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond4 i == 1#1) | ⟨_ + 8, h⟩ => absurd h (Nat.not_lt.2 (Nat.le_add_left _ _))

class Facts : Prop extends Facts₀ where

variable [Facts]
-- ==== ReferenceIdeal.lean ====
abbrev S2048x128 : Shape := ⟨2, ![2048, 128]⟩
abbrev S2048x2048 : Shape := ⟨2, ![2048, 2048]⟩
abbrev S4096x4096 : Shape := ⟨2, ![4096, 4096]⟩
abbrev S2048x4096 : Shape := ⟨2, ![2048, 4096]⟩
abbrev S4096x16 : Shape := ⟨2, ![4096, 16]⟩
abbrev S128x128 : Shape := ⟨2, ![128, 128]⟩
abbrev S16x16 : Shape := ⟨2, ![16, 16]⟩
abbrev S16x1 : Shape := ⟨2, ![16, 1]⟩
abbrev S128x1 : Shape := ⟨2, ![128, 1]⟩
abbrev S128 : Shape := ⟨1, ![128]⟩
abbrev S16 : Shape := ⟨1, ![16]⟩
abbrev S4096x1 : Shape := ⟨2, ![4096, 1]⟩
abbrev S4096 : Shape := ⟨1, ![4096]⟩
abbrev S1x4096 : Shape := ⟨2, ![1, 4096]⟩
abbrev S4096x2048 : Shape := ⟨2, ![4096, 2048]⟩
abbrev S1x128 : Shape := ⟨2, ![1, 128]⟩
abbrev S2048x1 : Shape := ⟨2, ![2048, 1]⟩
abbrev S2048 : Shape := ⟨1, ![2048]⟩
abbrev S1x2048 : Shape := ⟨2, ![1, 2048]⟩
abbrev S1x16 : Shape := ⟨2, ![1, 16]⟩

abbrev nBuf : Space → Nat
  | .hbm => 39
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x2048, .f32⟩
  | .hbm, ⟨2, _⟩ => ⟨S4096x4096, .f32⟩
  | .hbm, ⟨3, _⟩ => ⟨S2048x4096, .f32⟩
  | .hbm, ⟨4, _⟩ => ⟨S4096x16, .f32⟩
  | .hbm, ⟨5, _⟩ => ⟨S128x128, .f32⟩
  | .hbm, ⟨6, _⟩ => ⟨S16x16, .f32⟩
  | .hbm, ⟨7, _⟩ => ⟨S16x1, .f32⟩
  | .hbm, ⟨8, _⟩ => ⟨S128x1, .f32⟩
  | .hbm, ⟨9, _⟩ => ⟨S128, .f32⟩
  | .hbm, ⟨10, _⟩ => ⟨S16, .f32⟩
  | .hbm, ⟨11, _⟩ => ⟨S4096x1, .f32⟩
  | .hbm, ⟨12, _⟩ => ⟨S4096, .f32⟩
  | .hbm, ⟨13, _⟩ => ⟨S1x4096, .f32⟩
  | .hbm, ⟨14, _⟩ => ⟨S2048x4096, .f32⟩
  | .hbm, ⟨15, _⟩ => ⟨S2048x4096, .f32⟩
  | .hbm, ⟨16, _⟩ => ⟨S4096x2048, .f32⟩
  | .hbm, ⟨17, _⟩ => ⟨S2048x2048, .f32⟩
  | .hbm, ⟨18, _⟩ => ⟨S2048x2048, .f32⟩
  | .hbm, ⟨19, _⟩ => ⟨S2048x128, .f32⟩
  | .hbm, ⟨20, _⟩ => ⟨S2048x128, .f32⟩
  | .hbm, ⟨21, _⟩ => ⟨S1x128, .f32⟩
  | .hbm, ⟨22, _⟩ => ⟨S2048x128, .f32⟩
  | .hbm, ⟨23, _⟩ => ⟨S2048x128, .f32⟩
  | .hbm, ⟨24, _⟩ => ⟨S2048x1, .f32⟩
  | .hbm, ⟨25, _⟩ => ⟨S2048, .f32⟩
  | .hbm, ⟨26, _⟩ => ⟨S4096x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x4096, .f32⟩
  | .hbm, ⟨31, _⟩ => ⟨S4096x4096, .f32⟩
  | .hbm, ⟨32, _⟩ => ⟨S4096x16, .f32⟩
  | .hbm, ⟨33, _⟩ => ⟨S4096x16, .f32⟩
  | .hbm, ⟨34, _⟩ => ⟨S1x16, .f32⟩
  | .hbm, ⟨35, _⟩ => ⟨S4096x16, .f32⟩
  | .hbm, ⟨36, _⟩ => ⟨S4096x16, .f32⟩
  | .hbm, ⟨37, _⟩ => ⟨S2048x128, .f32⟩
  | .hbm, ⟨38, _⟩ => ⟨S4096x16, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  shapeCasts_S4096x1_S4096 : S4096x1.ShapeCasts S4096
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  transposes_S2048x4096_S4096x2048_1_0 : S2048x4096.Transposes [1, 0] S4096x2048
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  shapeCasts_S2048x1_S2048 : S2048x1.ShapeCasts S2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  dot_S4096x16_S16x1_S4096x1_1_0_0_1_n_n_wf : DotDims.WF S4096x16 S16x1 S4096x1 [1] [0] [0] [1] [] []
  dot_S2048x4096_S4096x2048_S2048x2048_1_0_0_1_n_n_wf : DotDims.WF S2048x4096 S4096x2048 S2048x2048 [1] [0] [0] [1] [] []
  dot_S2048x128_S128x128_S2048x128_1_0_0_1_n_n_wf : DotDims.WF S2048x128 S128x128 S2048x128 [1] [0] [0] [1] [] []
  dot_S2048x2048_S2048x128_S2048x128_1_0_0_1_n_n_wf : DotDims.WF S2048x2048 S2048x128 S2048x128 [1] [0] [0] [1] [] []
  dot_S2048x128_S128x1_S2048x1_1_0_0_1_n_n_wf : DotDims.WF S2048x128 S128x1 S2048x1 [1] [0] [0] [1] [] []
  dot_S4096x2048_S2048x4096_S4096x4096_1_0_0_1_n_n_wf : DotDims.WF S4096x2048 S2048x4096 S4096x4096 [1] [0] [0] [1] [] []
  dot_S4096x16_S16x16_S4096x16_1_0_0_1_n_n_wf : DotDims.WF S4096x16 S16x16 S4096x16 [1] [0] [0] [1] [] []
  dot_S4096x4096_S4096x16_S4096x16_1_0_0_1_n_n_wf : DotDims.WF S4096x4096 S4096x16 S4096x16 [1] [0] [0] [1] [] []

variable [Facts₀]

def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf
def dot_S2048x4096_S4096x2048_S2048x2048_1_0_0_1_n_n : DotDims S2048x4096 S4096x2048 S2048x2048 where
  lhsContracting := [1]
  rhsContracting := [0]
  lhsNonContracting := [0]
  rhsNonContracting := [1]
  lhsBatch := []
  rhsBatch := []
  wf := dot_S2048x4096_S4096x2048_S2048x2048_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf
def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def dot_S4096x16_S16x16_S4096x16_1_0_0_1_n_n : DotDims S4096x16 S16x16 S4096x16 where
  lhsContracting := [1]
  rhsContracting := [0]
  lhsNonContracting := [0]
  rhsNonContracting := [1]
  lhsBatch := []
  rhsBatch := []
  wf := dot_S4096x16_S16x16_S4096x16_1_0_0_1_n_n_wf
def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf

class Facts : Prop extends Facts₀ where

variable [Facts]
-- ==== Proof.K.NodeBody.lean ====
import proofs.«151053_g24051816857981_cont_8to1_1327_4_alg».proof.Proof.Gen.Kernel.Launch
import proofs.«151053_g24051816857981_cont_8to1_1327_4_alg».proof.Proof.Gen.Kernel.Skeleton
import proofs.«151053_g24051816857981_cont_8to1_1327_4_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The node kernel's body at one grid point

The body has two shapes, by the column block j of the point (i, j). At j = 0 it first fills the scratch with
the row block i of the incidence matrix scaled column by column (k0_pay1), then stores into the output block
x[i] + b + contribution (k0_pay3). At j ≠ 0 it leaves the scratch alone and adds the point's contribution to
what the output block already holds (k0_pay4). -/

theorem zero2 : (![0, 0] : Fin 2 → Nat) = fun _ => 0 := by
  funext a; fin_cases a <;> rfl

/-- Row block i of the incidence matrix (the rows the scratch is built from). -/
abbrev rInc1 (i : grid0.Coords) (h : k0_cond1 i = 1#1) : Rect S2048x4096 :=
  Rect.unit (s := S2048x4096) (k0_off1 i) S512x4096.size (k0_off1_inb i h)
/-- Row block j of the incidence matrix. -/
abbrev rInc2 (i : grid0.Coords) : Rect S2048x4096 :=
  Rect.unit (s := S2048x4096) (k0_off2 i) S512x4096.size (k0_off2_inb i)
/-- Row block j of the node features. -/
abbrev rX3 (i : grid0.Coords) : Rect S2048x128 :=
  Rect.unit (s := S2048x128) (k0_off3 i) S512x128.size (k0_off3_inb i)
/-- Row block i of the node features (the residual term). -/
abbrev rX4 (i : grid0.Coords) (h : k0_cond2 i = 1#1) : Rect S2048x128 :=
  Rect.unit (s := S2048x128) (k0_off4 i) S512x128.size (k0_off4_inb i h)

/-- What the scratch holds after a point with j = 0. -/
def scrA (i : grid0.Coords) (h1 : k0_cond1 i = 1#1) (x0 : Vec F S2048x4096 .bf16) (x4 : Vec F S4096x16 .f32) (x5 : Vec F S16x1 .f32) :
    Vec F S512x4096 .bf16 :=
  k0_pay1 x5 x4 (View.ld x0 (rInc1 i h1))

/-- What the output block holds after a point with j = 0. -/
def outA (i : grid0.Coords) (h1 : k0_cond1 i = 1#1) (h2 : k0_cond2 i = 1#1) (x0 : Vec F S2048x4096 .bf16) (x1 : Vec F S512x512 .f32)
    (x2 : Vec F S2048x128 .f32) (x3 : Vec F S128x128 .f32) (x4 : Vec F S4096x16 .f32) (x5 : Vec F S16x1 .f32) (x6 : Vec F S1x128 .f32) :
    Vec F S512x128 .f32 :=
  k0_pay3 (View.ld x0 (rInc2 i)) (scrA i h1 x0 x4 x5) x1 (View.ld x2 (rX3 i)) x3 (View.ld x2 (rX4 i h2)) x6

/-- What the output block holds after a point with j ≠ 0, from what it held before (y) and the scratch (s). -/
def outB (i : grid0.Coords) (x0 : Vec F S2048x4096 .bf16) (x1 : Vec F S512x512 .f32) (x2 : Vec F S2048x128 .f32) (x3 : Vec F S128x128 .f32)
    (y : Vec F S512x128 .f32) (s : Vec F S512x4096 .bf16) : Vec F S512x128 .f32 :=
  k0_pay4 (View.ld x0 (rInc2 i)) s x1 (View.ld x2 (rX3 i)) x3 y

set_option maxHeartbeats 1000000 in
theorem caseB (c : Dev nD) (E : Set ℕ) (i : grid0.Coords)
    (arg2 : Memref sig .tc .vmem S2048x4096 .bf16) (harg2 : arg2.IsWhole) (arg3 : Memref sig .tc .vmem S512x512 .f32) (harg3 : arg3.IsWhole)
    (arg4 : Memref sig .tc .vmem S2048x128 .f32) (harg4 : arg4.IsWhole) (arg5 : Memref sig .tc .vmem S128x128 .f32) (harg5 : arg5.IsWhole)
    (arg6 : Memref sig .tc .vmem S4096x16 .f32) (harg6 : arg6.IsWhole) (arg7 : Memref sig .tc .vmem S16x1 .f32) (harg7 : arg7.IsWhole)
    (arg8 : Memref sig .tc .vmem S1x128 .f32) (harg8 : arg8.IsWhole) (arg9 : Memref sig .tc .vmem S512x128 .f32) (harg9 : arg9.IsWhole)
    (arg10 : Memref sig .tc .vmem S512x4096 .bf16) (harg10 : arg10.IsWhole)
    (hc1 : ¬ k0_cond1 i = 1#1) (hc2 : ¬ k0_cond2 i = 1#1) (hc3 : k0_cond3 i = 1#1)
    (x0 : Vec F S2048x4096 .bf16) (x1 : Vec F S512x512 .f32) (x2 : Vec F S2048x128 .f32) (x3 : Vec F S128x128 .f32)
    (x4 : Vec F S4096x16 .f32) (x5 : Vec F S16x1 .f32) (x6 : Vec F S1x128 .f32) (y : Vec F S512x128 .f32) (s : Vec F S512x4096 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare y ∗ owns (c : Thread nD τ) arg10 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (outB i x0 x1 x2 x3 y s)
            ∗ owns (c : Thread nD τ) arg10 fullShare (s)) -∗ K ⟨⟩))
      ⊢ wp frame (wpE (defs₀ (F := F)) Variants.none c none) E (cc0__node_kernel i arg2 harg2 arg3 harg3 arg4 harg4 arg5 harg5 arg6 harg6 arg7 harg7 arg8 harg8 arg9 harg9 arg10 harg10) K := by
  simp only [cc0__node_kernel_eq_skeleton]; unfold cc0__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf9; obtain rfl := harg10.eq_unread hf10
  sl_exec (disch := first | exact hc1 | exact hc2 | exact hc3)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H9]
  · iexists _; isplitr
    swap
    · iexact H9
    ipureintro
    rw [View.read_writes_eq_canon _ _ _ (fun y' => ⟨_, List.mem_singleton_self _, View.mem_set_unit_zero zero2 inb_S512x128_S512x128_0_0 y'⟩),
      View.canon_unit_zero zero2]
    unfold outB
    simp only [View.readAt_eq_ld, Memref.IsWhole.read_unread, View.ld_unit_zero (S := S512x4096) zero2,
      View.ld_unit_zero (S := S512x512) zero2, View.ld_unit_zero (S := S128x128) zero2, View.ld_unit_zero (S := S512x128) zero2]
  iexists _; isplitr
  · ipureintro; exact harg10.read_unread _
  iexact H10

set_option maxHeartbeats 1000000 in
theorem caseA (c : Dev nD) (E : Set ℕ) (i : grid0.Coords)
    (arg2 : Memref sig .tc .vmem S2048x4096 .bf16) (harg2 : arg2.IsWhole) (arg3 : Memref sig .tc .vmem S512x512 .f32) (harg3 : arg3.IsWhole)
    (arg4 : Memref sig .tc .vmem S2048x128 .f32) (harg4 : arg4.IsWhole) (arg5 : Memref sig .tc .vmem S128x128 .f32) (harg5 : arg5.IsWhole)
    (arg6 : Memref sig .tc .vmem S4096x16 .f32) (harg6 : arg6.IsWhole) (arg7 : Memref sig .tc .vmem S16x1 .f32) (harg7 : arg7.IsWhole)
    (arg8 : Memref sig .tc .vmem S1x128 .f32) (harg8 : arg8.IsWhole) (arg9 : Memref sig .tc .vmem S512x128 .f32) (harg9 : arg9.IsWhole)
    (arg10 : Memref sig .tc .vmem S512x4096 .bf16) (harg10 : arg10.IsWhole)
    (hc1 : k0_cond1 i = 1#1) (hc2 : k0_cond2 i = 1#1) (hc3 : ¬ k0_cond3 i = 1#1)
    (x0 : Vec F S2048x4096 .bf16) (x1 : Vec F S512x512 .f32) (x2 : Vec F S2048x128 .f32) (x3 : Vec F S128x128 .f32)
    (x4 : Vec F S4096x16 .f32) (x5 : Vec F S16x1 .f32) (x6 : Vec F S1x128 .f32) (y : Vec F S512x128 .f32) (s : Vec F S512x4096 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare y ∗ owns (c : Thread nD τ) arg10 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (outA i hc1 hc2 x0 x1 x2 x3 x4 x5 x6)
            ∗ owns (c : Thread nD τ) arg10 fullShare (scrA i hc1 x0 x4 x5)) -∗ K ⟨⟩))
      ⊢ wp frame (wpE (defs₀ (F := F)) Variants.none c none) E (cc0__node_kernel i arg2 harg2 arg3 harg3 arg4 harg4 arg5 harg5 arg6 harg6 arg7 harg7 arg8 harg8 arg9 harg9 arg10 harg10) K := by
  simp only [cc0__node_kernel_eq_skeleton]; unfold cc0__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf9; obtain rfl := harg10.eq_unread hf10
  sl_exec (disch := first | exact hc1 | exact hc2 | exact hc3)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H9]
  · iexists _; isplitr
    swap
    · iexact H9
    ipureintro
    rw [View.read_writes_eq_canon _ _ _ (fun y' => ⟨_, List.mem_singleton_self _, View.mem_set_unit_zero zero2 inb_S512x128_S512x128_0_0 y'⟩),
      View.canon_unit_zero zero2]
    sl_unfold_run_names
    rw [View.readCov_unit_zero (S := S512x4096) _ zero2]
    unfold outA scrA
    simp only [View.readAt_eq_ld, Memref.IsWhole.read_unread, View.ld_unit_zero (S := S512x4096) zero2,
      View.ld_unit_zero (S := S512x512) zero2, View.ld_unit_zero (S := S128x128) zero2, View.ld_unit_zero (S := S512x128) zero2,
      View.ld_unit_zero (S := S16x1) zero2, View.ld_unit_zero (S := S4096x16) zero2, View.ld_unit_zero (S := S1x128) zero2]
  iexists _; isplitr
  swap
  · iexact H10
  ipureintro
  sl_unfold_run_names
  rw [View.read_writes_eq_canon _ _ _ (fun y' => ⟨_, List.mem_singleton_self _, View.mem_set_unit_zero zero2 inb_S512x4096_S512x4096_0_0 y'⟩),
    View.canon_unit_zero zero2]
  unfold scrA
  simp only [View.readAt_eq_ld, Memref.IsWhole.read_unread, View.ld_unit_zero (S := S16x1) zero2, View.ld_unit_zero (S := S4096x16) zero2]

end Cert.Kernel.Node

end
-- ==== Proof.K.NodeData.lean ====
import proofs.«151053_g24051816857981_cont_8to1_1327_4_alg».proof.Proof.K.NodeBody
import proofs.«151053_g24051816857981_cont_8to1_1327_4_alg».proof.Proof.Gen.Kernel.Launch
import proofs.«151053_g24051816857981_cont_8to1_1327_4_alg».proof.Proof.Gen.Kernel.Skeleton
import proofs.«151053_g24051816857981_cont_8to1_1327_4_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

/-! ## The node region's proof data, relationally

What the body leaves in each window's staging buffer at a point is stated as a relation to what it was handed:
an input window is left as found; the output block is set to x[i] + b + contribution where j = 0 and has the point's
contribution added to what it held where j ≠ 0. The scratch (row block i of the incidence matrix with its columns
scaled) is carried by the invariant at a named value from the first point of each row of the grid on. -/

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three branch conditions over the grid: the first two hold exactly at the points with j = 0, the third at the others. -/
theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
theorem hcond2 : ∀ t : Fin cfg0.N, k0_cond2 (grid0.coords t) = 1#1 ↔ t.val % 4 = 0 :=
  (by decide +kernel : ∀ t : Fin grid0.N, k0_cond2 (grid0.coords t) = 1#1 ↔ t.val % 4 = 0)
theorem hcond3 : ∀ t : Fin cfg0.N, k0_cond3 (grid0.coords t) = 1#1 ↔ ¬ t.val % 4 = 0 :=
  (by decide +kernel : ∀ t : Fin grid0.N, k0_cond3 (grid0.coords t) = 1#1 ↔ ¬ t.val % 4 = 0)

/-- The scratch after point n: recomputed at the points with j = 0, kept at the others. -/
def scrAt (c : Dev nD) : (n : ℕ) → n < cfg0.N → Vec F S512x4096 .bf16
  | 0, h => scrA (grid0.coords ⟨0, h⟩) ((hcond1 ⟨0, h⟩).mpr (Nat.zero_mod _)) (iblk V c 0 ⟨0, h⟩) (iblk V c 4 ⟨0, h⟩) (iblk V c 5 ⟨0, h⟩)
  | n + 1, h =>
    if h0 : (n + 1) % 4 = 0 then
      scrA (grid0.coords ⟨n + 1, h⟩) ((hcond1 ⟨n + 1, h⟩).mpr h0) (iblk V c 0 ⟨n + 1, h⟩) (iblk V c 4 ⟨n + 1, h⟩) (iblk V c 5 ⟨n + 1, h⟩)
    else scrAt c n (Nat.lt_of_succ_lt h)

theorem scrAt_start (c : Dev nD) (t : Fin cfg0.N) (h0 : t.val % 4 = 0) :
    scrAt V c t.val t.isLt = scrA (grid0.coords t) ((hcond1 t).mpr h0) (iblk V c 0 t) (iblk V c 4 t) (iblk V c 5 t) := by
  obtain ⟨n, hn⟩ := t
  cases n with
  | zero => rfl
  | succ n => exact dif_pos h0

theorem scrAt_keep (c : Dev nD) (t : Fin cfg0.N) (h0 : ¬ t.val % 4 = 0) :
    scrAt V c t.val t.isLt = scrAt V c (t.val - 1) (Nat.lt_of_le_of_lt (Nat.sub_le _ _) t.isLt) := by
  obtain ⟨n, hn⟩ := t
  cases n with
  | zero => exact absurd (Nat.zero_mod _) h0
  | succ n => exact dif_neg h0

/-- What the output block holds after point t, given what it held before (Y). -/
def outStep (c : Dev nD) (t : Fin cfg0.N) (Y : Vec F S512x128 .f32) : Vec F S512x128 .f32 :=
  if h0 : t.val % 4 = 0 then
    outA (grid0.coords t) ((hcond1 t).mpr h0) ((hcond2 t).mpr h0) (iblk V c 0 t) (iblk V c 1 t) (iblk V c 2 t) (iblk V c 3 t)
      (iblk V c 4 t) (iblk V c 5 t) (iblk V c 6 t)
  else outB (grid0.coords t) (iblk V c 0 t) (iblk V c 1 t) (iblk V c 2 t) (iblk V c 3 t) Y (scrAt V c t.val t.isLt)

/-- The scratch operand. -/
abbrev scM : Memref sig .tc .vmem S512x4096 .bf16 := Memref.whole cc0_scratch0

/-- The core's other scoped buffers that this region does not stage (the second region's), each at some contents. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The class invariant with the scratch as a memref owned at some contents. -/
theorem PhiA_eq (c : Dev nD) :
    (Pipeline.ΦA spec0 c : sProp 𝕄)
      = iprop(((∃ d, owns (c : Thread nD τ) scM fullShare d) ∗ restS c) ∗ (∃ r, prngReg c r)) := by
  unfold Pipeline.ΦA restS; rw [scopedRest0_eq]; simp only [scM, owns_whole]; rfl

/-- The region invariant before position n: at first every scoped buffer at anything; afterwards the scratch at what the
    point before left in it. -/
def PhiS (c : Dev nD) : (n : ℕ) → n ≤ cfg0.N → sProp 𝕄
  | 0, _ => Pipeline.ΦA spec0 c
  | n + 1, hn => iprop((owns (c : Thread nD τ) scM fullShare (scrAt V c n hn) ∗ restS c) ∗ (∃ r, prngReg c r))

theorem PhiS_pos (c : Dev nD) (n : ℕ) (h : n ≤ cfg0.N) (hz : n ≠ 0) :
    PhiS V c n h = iprop((owns (c : Thread nD τ) scM fullShare (scrAt V c (n - 1) (by omega)) ∗ restS c) ∗ (∃ r, prngReg c r)) := by
  cases n with
  | zero => exact absurd rfl hz
  | succ n => rfl

/-- Whatever the position, the invariant holds the scratch at SOME contents. -/
theorem PhiS_some (c : Dev nD) (n : ℕ) (h : n ≤ cfg0.N) :
    PhiS V c n h ⊢ iprop(((∃ d, owns (c : Thread nD τ) scM fullShare d) ∗ restS c) ∗ (∃ r, prngReg c r)) := by
  cases n with
  | zero => rw [show PhiS V c 0 h = Pipeline.ΦA spec0 c from rfl, PhiA_eq]
  | succ n =>
    rw [show PhiS V c (n + 1) h = iprop((owns (c : Thread nD τ) scM fullShare (scrAt V c n h) ∗ restS c) ∗ (∃ r, prngReg c r)) from rfl]
    iintro ⟨⟨HS, HR⟩, Hg⟩
    isplitl [HS HR]
    · isplitl [HS]
      · iexists _; iexact HS
      iexact HR
    iexact Hg

/-- The relational proof data of the node region on core c. -/
def rd (c : Dev nD) : RDat τ (Elt F) Unit ℕ (UR sig nD τ) ℕ cfg0 c where
  A w := V c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = outStep V c t Y
  Φ t := PhiS V c t.val (Nat.le_of_lt_succ t.isLt)
  q _ := fullShare
  owed _ := 0

set_option maxHeartbeats 2000000 in
/-- The body obligation: at every point, from the invariant and the windows' buffers at what they may hold, the body
    runs to the invariant at the next point and every buffer in its relation to what it was handed. -/
theorem body_obligation (c : Dev nD) : (rd V c).BodyObligation (defs₀ (F := F)) Variants.none () Set.univ := by
  intro t Y hY
  have e0 : Y 0 = iblk V c 0 t := by
    obtain ⟨d, hd⟩ := Pipeline.RDat.finds_in_eq_fetched (rd V c) 0 rfl (fun _ _ _ => rfl) (fun _ _ _ h => h) t (Y 0) (hY 0)
    rw [hd]; unfold RDat.fetched RDat.blockOf iblk; rfl
  have e1 : Y 1 = iblk V c 1 t := by
    obtain ⟨d, hd⟩ := Pipeline.RDat.finds_in_eq_fetched (rd V c) 1 rfl (fun _ _ _ => rfl) (fun _ _ _ h => h) t (Y 1) (hY 1)
    rw [hd]; unfold RDat.fetched RDat.blockOf iblk; rfl
  have e2 : Y 2 = iblk V c 2 t := by
    obtain ⟨d, hd⟩ := Pipeline.RDat.finds_in_eq_fetched (rd V c) 2 rfl (fun _ _ _ => rfl) (fun _ _ _ h => h) t (Y 2) (hY 2)
    rw [hd]; unfold RDat.fetched RDat.blockOf iblk; rfl
  have e3 : Y 3 = iblk V c 3 t := by
    obtain ⟨d, hd⟩ := Pipeline.RDat.finds_in_eq_fetched (rd V c) 3 rfl (fun _ _ _ => rfl) (fun _ _ _ h => h) t (Y 3) (hY 3)
    rw [hd]; unfold RDat.fetched RDat.blockOf iblk; rfl
  have e4 : Y 4 = iblk V c 4 t := by
    obtain ⟨d, hd⟩ := Pipeline.RDat.finds_in_eq_fetched (rd V c) 4 rfl (fun _ _ _ => rfl) (fun _ _ _ h => h) t (Y 4) (hY 4)
    rw [hd]; unfold RDat.fetched RDat.blockOf iblk; rfl
  have e5 : Y 5 = iblk V c 5 t := by
    obtain ⟨d, hd⟩ := Pipeline.RDat.finds_in_eq_fetched (rd V c) 5 rfl (fun _ _ _ => rfl) (fun _ _ _ h => h) t (Y 5) (hY 5)
    rw [hd]; unfold RDat.fetched RDat.blockOf iblk; rfl
  have e6 : Y 6 = iblk V c 6 t := by
    obtain ⟨d, hd⟩ := Pipeline.RDat.finds_in_eq_fetched (rd V c) 6 rfl (fun _ _ _ => rfl) (fun _ _ _ h => h) t (Y 6) (hY 6)
    rw [hd]; unfold RDat.fetched RDat.blockOf iblk; rfl
  rw [bigSep_W0, bigSep_W0, e0, e1, e2, e3, e4, e5, e6]
  show _ ⊢ wp frame (wpE (defs₀ (F := F)) Variants.none c none) Set.univ (bodyAt0 t) _
  rw [show (rd V c).owesAt () t.succ = (rd V c).owesAt () t.castSucc from rfl]
  rw [show (rd V c).Φ t.succ = iprop((owns (c : Thread nD τ) scM fullShare (scrAt V c t.val t.isLt) ∗ restS c) ∗ (∃ r, prngReg c r)) from rfl]
  rw [show (rd V c).Φ t.castSucc = PhiS V c t.val (Nat.le_of_lt t.isLt) from rfl]
  unfold bodyAt0
  by_cases h0 : t.val % 4 = 0
  · have eo : outStep V c t (Y 7) = outA (grid0.coords t) ((hcond1 t).mpr h0) ((hcond2 t).mpr h0) (iblk V c 0 t) (iblk V c 1 t)
        (iblk V c 2 t) (iblk V c 3 t) (iblk V c 4 t) (iblk V c 5 t) (iblk V c 6 t) := by unfold outStep; exact dif_pos h0
    rw [scrAt_start V c t h0]
    iintro ⟨HΦ, Ho, H0, H1, H2, H3, H4, H5, H6, H7⟩
    ihave HΦ' := (PhiS_some V c t.val (Nat.le_of_lt t.isLt)) $$ HΦ
    icases HΦ' with ⟨⟨⟨%s, HS⟩, HR⟩, Hg⟩
    iapply (caseA c Set.univ (grid0.coords t) _ _ _ _ _ _ _ _ _ _ _ _ _ _ _ _ _ _ ((hcond1 t).mpr h0) ((hcond2 t).mpr h0)
      (fun h => (hcond3 t).mp h h0) (iblk V c 0 t) (iblk V c 1 t) (iblk V c 2 t) (iblk V c 3 t) (iblk V c 4 t) (iblk V c 5 t) (iblk V c 6 t) (Y 7) s _)
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [HS]
    · iexact HS
    iintro ⟨H0, H1, H2, H3, H4, H5, H6, H7, HS⟩
    isplitl [HS HR Hg]
    · isplitl [HS HR]
      · isplitl [HS]
        · iexact HS
        iexact HR
      iexact Hg
    isplitl [Ho]
    · iexact Ho
    isplitl [H0]
    · iexists _; isplitr
      · ipureintro; exact rfl
      iexact H0
    isplitl [H1]
    · iexists _; isplitr
      · ipureintro; exact rfl
      iexact H1
    isplitl [H2]
    · iexists _; isplitr
      · ipureintro; exact rfl
      iexact H2
    isplitl [H3]
    · iexists _; isplitr
      · ipureintro; exact rfl
      iexact H3
    isplitl [H4]
    · iexists _; isplitr
      · ipureintro; exact rfl
      iexact H4
    isplitl [H5]
    · iexists _; isplitr
      · ipureintro; exact rfl
      iexact H5
    isplitl [H6]
    · iexists _; isplitr
      · ipureintro; exact rfl
      iexact H6
    iexists _; isplitr
    swap
    · iexact H7
    ipureintro; exact eo.symm
  · have eo : outStep V c t (Y 7) = outB (grid0.coords t) (iblk V c 0 t) (iblk V c 1 t) (iblk V c 2 t) (iblk V c 3 t) (Y 7)
        (scrAt V c t.val t.isLt) := by unfold outStep; exact dif_neg h0
    have hz : t.val ≠ 0 := fun e => h0 (by rw [e])
    rw [PhiS_pos V c t.val _ hz, scrAt_keep V c t h0] at *
    iintro ⟨⟨⟨HS, HR⟩, Hg⟩, Ho, H0, H1, H2, H3, H4, H5, H6, H7⟩
    iapply (caseB c Set.univ (grid0.coords t) _ _ _ _ _ _ _ _ _ _ _ _ _ _ _ _ _ _ (fun h => h0 ((hcond1 t).mp h)) (fun h => h0 ((hcond2 t).mp h))
      ((hcond3 t).mpr h0) (iblk V c 0 t) (iblk V c 1 t) (iblk V c 2 t) (iblk V c 3 t) (iblk V c 4 t) (iblk V c 5 t) (iblk V c 6 t) (Y 7) _ _)
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [HS]
    · iexact HS
    iintro ⟨H0, H1, H2, H3, H4, H5, H6, H7, HS⟩
    isplitl [HS HR Hg]
    · isplitl [HS HR]
      · isplitl [HS]
        · iexact HS
        iexact HR
      iexact Hg
    isplitl [Ho]
    · iexact Ho
    isplitl [H0]
    · iexists _; isplitr
      · ipureintro; exact rfl
      iexact H0
    isplitl [H1]
    · iexists _; isplitr
      · ipureintro; exact rfl
      iexact H1
    isplitl [H2]
    · iexists _; isplitr
      · ipureintro; exact rfl
      iexact H2
    isplitl [H3]
    · iexists _; isplitr
      · ipureintro; exact rfl
      iexact H3
    isplitl [H4]
    · iexists _; isplitr
      · ipureintro; exact rfl
      iexact H4
    isplitl [H5]
    · iexists _; isplitr
      · ipureintro; exact rfl
      iexact H5
    isplitl [H6]
    · iexists _; isplitr
      · ipureintro; exact rfl
      iexact H6
    iexists _; isplitr
    swap
    · iexact H7
    ipureintro; exact eo.symm

end Cert.Kernel.Node

end
-- ==== Proof.LibRelDetermined.lean ====
/-
  Two facts about RELATIONAL proof data of a pipeline (`RDat`: `after w t Y X` relates what the body is handed in
  window `w`'s staging buffer at point `t` to what it leaves there).

  * `leaves_determined` — an accumulator window (never fetched) whose relation determines more and more of the
    buffer: on a family `S t` of block indices, what the body may leave at point `t` is the value `D t`, whatever
    the buffer held on the other indices and whatever it held before the run of points began.
  * `ArrAt_eq_of_cover` — when what every flushing point may leave, cut to the part its write-back moves, is that
    point's block of ONE whole-array contents `G`, and the flushed blocks cover the array, the array may hold after
    every write-back only `G` (the relational analogue of `Dat.arrAt_eq_of_cover`); `ArrAt_apply_of_mem` is the
    statement per index, and `ArrAt_eq_of_in` the case of an input array, never written.
-/
import Idealize.ShloMosaic.Lib.Pipeline.FrameSuffix
import Idealize.ShloMosaic.Lib.Pipeline.Value

noncomputable section

namespace Cert.LibRelDetermined

open Idealize.ShloMosaic Idealize.ShloMosaic.Pipeline
open Idealize.SL
open Idealize.SL.BI (sProp)
open scoped Idealize.SL.BI
open Idealize.SL.RA
open Idealize.ShloMosaic.TcCoe

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {cfg : Cfg sig Λ₀} {c : Dev nD} (rd : RDat τ Val Ix Name U Lvl cfg c)

/-- AN ACCUMULATOR IS DETERMINED ON A GROWING SET. Window `w` is never fetched (`hfetch`). `S t` is a set of block
    indices and `D t` a value on it such that: at a point that starts afresh — the first point, or one whose
    predecessor wrote the block back, so that the buffer holds anything — whatever the body is handed, what it leaves
    is `D t` on `S t` (`hfresh`); and at a later point whose predecessor did not write back, if what the body is
    handed is `D (t-1)` on `S (t-1)` then what it leaves is `D t` on `S t` (`hstep`). Then at every point whatever the
    body may leave (`RDat.Leaves`) is `D t` on `S t`. The predecessor of `t` is spelt
    `⟨t.val - 1, Nat.lt_of_le_of_lt (Nat.sub_le _ _) t.isLt⟩`, as in `RDat.finds_of_pos`. -/
theorem leaves_determined (w : Fin cfg.W) (hfetch : ∀ t, (cfg.win w).fetch t = false)
    (S : Fin cfg.N → (cfg.win w).block.Idx → Prop) (D : Fin cfg.N → (cfg.win w).block.Idx → Val (cfg.win w).elt)
    (hfresh : ∀ (t : Fin cfg.N) (Y X : (cfg.win w).block.Idx → Val (cfg.win w).elt),
      (t.val = 0 ∨ (cfg.win w).flush ⟨t.val - 1, Nat.lt_of_le_of_lt (Nat.sub_le _ _) t.isLt⟩ = true) →
      rd.after w t Y X → ∀ j, S t j → X j = D t j)
    (hstep : ∀ (t : Fin cfg.N) (_ : t.val ≠ 0) (Y X : (cfg.win w).block.Idx → Val (cfg.win w).elt),
      (cfg.win w).flush ⟨t.val - 1, Nat.lt_of_le_of_lt (Nat.sub_le _ _) t.isLt⟩ = false →
      (∀ j, S ⟨t.val - 1, Nat.lt_of_le_of_lt (Nat.sub_le _ _) t.isLt⟩ j →
        Y j = D ⟨t.val - 1, Nat.lt_of_le_of_lt (Nat.sub_le _ _) t.isLt⟩ j) →
      rd.after w t Y X → ∀ j, S t j → X j = D t j) :
    ∀ (t : Fin cfg.N) (X : (cfg.win w).block.Idx → Val (cfg.win w).elt), rd.Leaves w t X → ∀ j, S t j → X j = D t j := by
  -- by induction on the point's number
  have key : ∀ (n : Nat) (t : Fin cfg.N), t.val = n →
      ∀ X : (cfg.win w).block.Idx → Val (cfg.win w).elt, rd.Leaves w t X → ∀ j, S t j → X j = D t j := by
    intro n
    induction n with
    | zero =>
      intro t ht X hX
      obtain ⟨Y, -, haft⟩ := hX
      exact hfresh t Y X (Or.inl ht) haft
    | succ n ih =>
      intro t ht X hX
      obtain ⟨Y, hY, haft⟩ := hX
      have ht0 : t.val ≠ 0 := by omega
      by_cases hfl : (cfg.win w).flush ⟨t.val - 1, Nat.lt_of_le_of_lt (Nat.sub_le _ _) t.isLt⟩ = true
      · -- the predecessor wrote the block back: the buffer starts afresh
        exact hfresh t Y X (Or.inr hfl) haft
      · -- it did not: what the body is handed is what it left at the predecessor
        rcases (rd.finds_of_pos (hfetch t) ht0 Y).mp hY with h | hL
        · exact absurd h hfl
        · exact hstep t ht0 Y X (Bool.eq_false_iff.mpr hfl)
            (ih ⟨t.val - 1, Nat.lt_of_le_of_lt (Nat.sub_le _ _) t.isLt⟩ (by show t.val - 1 = n; omega) Y hL) haft
  exact fun t X => key t.val t rfl X

/-- POINTWISE OUTPUTS, RELATIONALLY. If whatever a flushing point may leave in the staging buffer, cut to the part its
    write-back moves, is ITS BLOCK OF ONE whole-array contents `G` (`hG`), then in any contents `A` the array may hold
    after the write-backs below `n`, an index in a flushed block below `n` reads `G` — later points that cover it again
    write the same value, earlier ones are overwritten. -/
theorem ArrAt_apply_of_mem (w : Fin cfg.W) (G : Buf Val ((cfg.win w).arr.view.loc (c.tc : Thread nD τ)))
    (hG : ∀ t, (cfg.win w).flush t = true → ∀ X, rd.Leaves w t X →
      (cfg.win w).cut (cfg.grid.coords t) X = ((cfg.win w).blk t).view.read Val G) :
    ∀ (n : Nat) (A : Buf Val ((cfg.win w).arr.view.loc (c.tc : Thread nD τ))), rd.ArrAt w n A →
      ∀ (t : Fin cfg.N) (i : ((cfg.win w).arr.view.loc (c.tc : Thread nD τ)).2.ty.Idx),
        t.val < n → (cfg.win w).flush t = true → i ∈ ((cfg.win w).blk t).view.set → A i = G i
  | 0, _, _, _, _, ht, _, _ => absurd ht (Nat.not_lt_zero _)
  | n + 1, A, hA, t, i, ht, hf, hi => by
    by_cases hn : n < cfg.N
    swap
    · -- past the grid: nothing changes, and `t` is below `n`
      rw [rd.ArrAt_stable w (n + 1) (by omega), ← rd.ArrAt_stable w n (by omega)] at hA
      exact ArrAt_apply_of_mem w G hG n A hA t i (by have := t.isLt; omega) hf hi
    have hA' : (if (cfg.win w).flush ⟨n, hn⟩ then rd.ArrStep w ⟨n, hn⟩ (rd.ArrAt w n) else rd.ArrAt w n) A := by
      rw [← rd.ArrAt_succ w ⟨n, hn⟩]; exact hA
    by_cases hfn : (cfg.win w).flush ⟨n, hn⟩ = true
    · rw [if_pos hfn] at hA'
      obtain ⟨G₀, X, hG₀, hL, rfl⟩ := hA'
      rw [hG _ hfn X hL, View.write_read_eq_piecewise]
      by_cases hin : i ∈ ((cfg.win w).blk ⟨n, hn⟩).view.setOn Finset.univ
      · rw [Finset.piecewise_eq_of_mem _ _ _ hin]
      · rw [Finset.piecewise_eq_of_notMem _ _ _ hin]
        -- not in point `n`'s block: then `t` is an earlier point
        have htn : t.val ≠ n := fun e => hin (by rw [View.setOn_univ]; have : t = ⟨n, hn⟩ := Fin.ext e; exact this ▸ hi)
        exact ArrAt_apply_of_mem w G hG n G₀ hG₀ t i (by omega) hf hi
    · rw [if_neg hfn] at hA'
      have htn : t.val ≠ n := fun e => hfn (by have : t = ⟨n, hn⟩ := Fin.ext e; exact this ▸ hf)
      exact ArrAt_apply_of_mem w G hG n A hA' t i (by omega) hf hi

/-- THE WHOLE-ARRAY POST, RELATIONALLY: when moreover every index of the array is in SOME flushing point's block
    (`hcover`), the array may hold after every write-back only `G`. -/
theorem ArrAt_eq_of_cover (w : Fin cfg.W) (G : Buf Val ((cfg.win w).arr.view.loc (c.tc : Thread nD τ)))
    (hG : ∀ t, (cfg.win w).flush t = true → ∀ X, rd.Leaves w t X →
      (cfg.win w).cut (cfg.grid.coords t) X = ((cfg.win w).blk t).view.read Val G)
    (hcover : ∀ i : ((cfg.win w).arr.view.loc (c.tc : Thread nD τ)).2.ty.Idx,
      ∃ t : Fin cfg.N, (cfg.win w).flush t = true ∧ i ∈ ((cfg.win w).blk t).view.set) :
    ∀ A, rd.ArrAt w cfg.N A → A = G := fun A hA => funext fun i => by
  obtain ⟨t, hf, hi⟩ := hcover i
  exact ArrAt_apply_of_mem rd w G hG cfg.N A hA t i t.isLt hf hi

/-- An INPUT window's array is never written back: whatever it may hold after the write-backs below `n` is its entry
    contents. -/
theorem ArrAt_eq_of_in (w : Fin cfg.W) (hin : (cfg.win w).isOut = false) (n : Nat)
    (A : Buf Val ((cfg.win w).arr.view.loc (c.tc : Thread nD τ))) (h : rd.ArrAt w n A) : A = rd.A w := by
  rw [rd.ArrAt_in w hin n] at h; exact h

end Cert.LibRelDetermined
-- ==== Proof.K.NodeOut.lean ====
import proofs.«151053_g24051816857981_cont_8to1_1327_4_alg».proof.Proof.K.NodeData
import proofs.«151053_g24051816857981_cont_8to1_1327_4_alg».proof.Proof.LibRelDetermined
import Idealize.ShloMosaic.Lib.ValueIdx
import proofs.«151053_g24051816857981_cont_8to1_1327_4_alg».proof.Proof.Gen.Kernel.Launch
import proofs.«151053_g24051816857981_cont_8to1_1327_4_alg».proof.Proof.Gen.Kernel.Skeleton
import proofs.«151053_g24051816857981_cont_8to1_1327_4_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the node region's result array ends holding

Along a row of the grid the output block is a chain: set at j = 0, the point's contribution added at j = 1, 2, 3, written
back after j = 3. The result array is made of these chains' ends, one per row block. -/

theorem hin (c : Dev nD) : (Pipeline.ΦA spec0 c : sProp 𝕄) ⊢ (rd V c).Φ 0 := by
  rw [show (rd V c).Φ 0 = PhiS V c 0 (Nat.zero_le _) from rfl]
  exact BI.Entails.refl _

theorem hout (c : Dev nD) : (rd V c).Φ (Fin.last cfg0.N) ⊢ (Pipeline.ΦA spec0 c : sProp 𝕄) := by
  rw [show (rd V c).Φ (Fin.last cfg0.N) = PhiS V c cfg0.N (Nat.le_refl _) from rfl, PhiA_eq]
  exact PhiS_some V c _ _

/-- The output block after point n. -/
def outAt (c : Dev nD) : (n : ℕ) → n < cfg0.N → Vec F S512x128 .f32
  | 0, h => outStep V c ⟨0, h⟩ (iblk V c 7 ⟨0, h⟩)
  | n + 1, h => outStep V c ⟨n + 1, h⟩ (outAt c n (Nat.lt_of_succ_lt h))

theorem outAt_congr (c : Dev nD) {n n' : ℕ} (e : n = n') (h : n < cfg0.N) (h' : n' < cfg0.N) : outAt V c n h = outAt V c n' h' := by
  subst e; rfl

/-- At a point with j = 0 the step does not read what the block held. -/
theorem outStep_start (c : Dev nD) (t : Fin cfg0.N) (h0 : t.val % 4 = 0) (Y Y' : Vec F S512x128 .f32) :
    outStep V c t Y = outStep V c t Y' := by
  unfold outStep; rw [dif_pos h0, dif_pos h0]

theorem outAt_succ (c : Dev nD) (t : Fin cfg0.N) (ht : t.val ≠ 0) :
    outAt V c t.val t.isLt = outStep V c t (outAt V c (t.val - 1) (Nat.lt_of_le_of_lt (Nat.sub_le _ _) t.isLt)) := by
  obtain ⟨n, hn⟩ := t
  cases n with
  | zero => exact absurd rfl ht
  | succ n => rfl

theorem outAt_start (c : Dev nD) (t : Fin cfg0.N) (h0 : t.val % 4 = 0) (Y : Vec F S512x128 .f32) :
    outAt V c t.val t.isLt = outStep V c t Y := by
  obtain ⟨n, hn⟩ := t
  cases n with
  | zero => exact outStep_start V c ⟨0, hn⟩ h0 _ _
  | succ n => exact outStep_start V c ⟨n + 1, hn⟩ h0 _ _

/-- Whatever the body may leave in the output window's buffer at a point is the chain's value there. -/
theorem leaves_out (c : Dev nD) (t : Fin cfg0.N) (X : (cfg0.win 7).block.Idx → Elt F (cfg0.win 7).elt)
    (hX : (rd V c).Leaves 7 t X) : X = outAt V c t.val t.isLt := by
  have key := Cert.LibRelDetermined.leaves_determined (rd V c) 7 (fun t => (cfg0.win 7).fetch_out rfl t)
    (fun _ _ => True) (fun t => outAt V c t.val t.isLt)
    (fun t Y X hfr haft j _ => by
      have h0 : t.val % 4 = 0 := by
        rcases hfr with h | h
        · rw [h]
        · have := (flush0_7 _).mp h
          have hN : t.val < 16 := lt_of_lt_of_eq t.isLt N_0
          dsimp only at this
          omega
      have e : X = outStep V c t Y := haft
      rw [e, outAt_start V c t h0 Y])
    (fun t ht Y X hfl hY haft j _ => by
      have e : X = outStep V c t Y := haft
      have eY : Y = outAt V c (t.val - 1) (Nat.lt_of_le_of_lt (Nat.sub_le _ _) t.isLt) := funext fun j => hY j trivial
      rw [e, eY, outAt_succ V c t ht])
    t X hX
  exact funext fun j => key j trivial

theorem outAt_apply_congr (c : Dev nD) {n n' : ℕ} (e : n = n') (h : n < cfg0.N) (h' : n' < cfg0.N)
    {j j' : S512x128.Idx} (ej : j = j') : outAt V c n h j = outAt V c n' h' j' := by
  subst e; subst ej; rfl

/-- The output window's block index over the grid: row block t / 4, the one column block. -/
theorem idx7 : ∀ t : Fin cfg0.N, win0_7.index t (0 : Fin 2) = t.val / 4 ∧ win0_7.index t (1 : Fin 2) = 0 :=
  (by decide +kernel : ∀ t : Fin grid0.N, win0_7.index t (0 : Fin 2) = t.val / 4 ∧ win0_7.index t (1 : Fin 2) = 0)

/-- The result array: row r of it is row r % 512 of the chain's end for row block r / 512. -/
def outArr (c : Dev nD) : Buf (Elt F) ((c : Thread nD τ).loc main_v3) := fun (idx : S2048x128.Idx) =>
  outAt V c (4 * ((idx 0).val / 512) + 3)
    (by have h : (idx 0).val < 2048 := (idx 0).isLt
        show _ < grid0.N
        rw [N_0]; omega)
    (ValueIdx.ix2 (⟨(idx 0).val % 512, Nat.mod_lt _ (by decide)⟩ : Fin 512) (⟨(idx 1).val, (idx 1).isLt⟩ : Fin 128))

/-- An index of the result array is in point t's block iff each coordinate is in the block's range on its axis. -/
theorem mem_blk7 (t : Fin cfg0.N) (i : S2048x128.Idx) :
    i ∈ ((cfg0.win 7).blk t).view.set ↔ ∀ a : Fin 2, win0_7.index t a * S512x128.size a ≤ (i a).val ∧ (i a).val < win0_7.index t a * S512x128.size a + S512x128.size a := by
  show i ∈ ((View.whole main_v3).slice (win0_7.rect t)).set ↔ _
  rw [View.set_slice_whole, Rect.mem_set_unit]
  exact Iff.rfl

/-- What a flushing point writes back is its block of the result array. -/
theorem flushed_eq (c : Dev nD) (t : Fin cfg0.N) (hf : (cfg0.win 7).flush t = true)
    (X : (cfg0.win 7).block.Idx → Elt F (cfg0.win 7).elt) (hX : (rd V c).Leaves 7 t X) :
    (cfg0.win 7).cut (grid0.coords t) X = ((cfg0.win 7).blk t).view.read (Elt F) (outArr V c) := by
  rw [leaves_out V c t X hX]
  have h3 : t.val % 4 = 3 := (flush0_7 t).mp hf
  have hN : t.val < 16 := lt_of_lt_of_eq t.isLt N_0
  obtain ⟨e0, e1⟩ := idx7 t
  funext y
  show outAt V c t.val t.isLt y = outArr V c (((cfg0.win 7).blk t).view.emb y)
  have hy0 : (y 0).val < 512 := (y 0).isLt
  have hy1 : (y 1).val < 128 := (y 1).isLt
  have E0 : ((((cfg0.win 7).blk t).view.emb y) 0).val = win0_7.index t (0 : Fin 2) * 512 + 1 * (y 0).val := rfl
  have E1 : ((((cfg0.win 7).blk t).view.emb y) 1).val = win0_7.index t (1 : Fin 2) * 128 + 1 * (y 1).val := rfl
  unfold outArr
  refine (outAt_apply_congr V c (by rw [E0, e0]; omega) _ _ ?_).symm
  funext a
  match a with
  | ⟨0, _⟩ => exact Fin.ext (by show ((((cfg0.win 7).blk t).view.emb y) 0).val % 512 = (y 0).val; rw [E0, e0]; omega)
  | ⟨1, _⟩ => exact Fin.ext (by show ((((cfg0.win 7).blk t).view.emb y) 1).val = (y 1).val; rw [E1, e1]; omega)

/-- Every index of the result array is in some flushing point's block. -/
theorem cover (c : Dev nD) (i : ((cfg0.win 7).arr.view.loc (c.tc : Thread nD τ)).2.ty.Idx) :
    ∃ t : Fin cfg0.N, (cfg0.win 7).flush t = true ∧ i ∈ ((cfg0.win 7).blk t).view.set := by
  have hi0 : (i 0).val < 2048 := (i 0).isLt
  have hi1 : (i 1).val < 128 := (i 1).isLt
  have hlt : 4 * ((i 0).val / 512) + 3 < cfg0.N := by show _ < grid0.N; rw [N_0]; omega
  refine ⟨⟨4 * ((i 0).val / 512) + 3, hlt⟩, (flush0_7 _).mpr (by show (4 * ((i 0).val / 512) + 3) % 4 = 3; omega), ?_⟩
  obtain ⟨e0, e1⟩ := idx7 ⟨4 * ((i 0).val / 512) + 3, hlt⟩
  have e0' : win0_7.index ⟨4 * ((i 0).val / 512) + 3, hlt⟩ (0 : Fin 2) = (i 0).val / 512 := by rw [e0]; show (4 * ((i 0).val / 512) + 3) / 4 = _; omega
  rw [mem_blk7]
  intro a
  match a with
  | ⟨0, _⟩ => show win0_7.index _ (0 : Fin 2) * 512 ≤ (i 0).val ∧ (i 0).val < win0_7.index _ (0 : Fin 2) * 512 + 512; rw [e0']; omega
  | ⟨1, _⟩ => show win0_7.index _ (1 : Fin 2) * 128 ≤ (i 1).val ∧ (i 1).val < win0_7.index _ (1 : Fin 2) * 128 + 128; rw [e1]; omega

/-- After every write-back the result array can only hold the chains' ends. -/
theorem arrAt_out (c : Dev nD) (G : Buf (Elt F) (((cfg0.win 7).arr.view.loc (c.tc : Thread nD τ)))) :
    (rd V c).ArrAt 7 cfg0.N G → G = outArr V c :=
  Cert.LibRelDetermined.ArrAt_eq_of_cover (rd V c) 7 (outArr V c) (fun t hf X hX => flushed_eq V c t hf X hX) (cover c) G

end Cert.Kernel.Node

end
-- ==== Proof.K.EdgeBody.lean ====
import proofs.«151053_g24051816857981_cont_8to1_1327_4_alg».proof.Proof.Gen.Kernel.Launch
import proofs.«151053_g24051816857981_cont_8to1_1327_4_alg».proof.Proof.Gen.Kernel.Skeleton
import proofs.«151053_g24051816857981_cont_8to1_1327_4_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The edge kernel's body at one grid point

At the point (i, j) the body does up to four things. When the point is the first of its row it refills the
second scratch with the column block of the incidence matrix scaled row by row (k1_pay2). It always forms
the point's contribution (k1_pay3) from a column block of the incidence matrix, the second scratch, the
Laplacian tile and a row block of the edge features. Then exactly one of three stores follows, into a block
of 512 rows of a buffer of 4096 rows: the accumulator's rows are started (k1_pay4), or added to (k1_pay5),
or the output's rows are written from the accumulator's rows plus the contribution (k1_pay1). A store into
a block of rows leaves the other rows as they were: the result is the old contents overlaid on the block. -/

theorem zero2 : (![0, 0] : Fin 2 → Nat) = fun _ => 0 := by
  funext a; fin_cases a <;> rfl

/-- Reading a buffer after one store through a rectangle: the old reading, overlaid by the payload there. -/
theorem read_writes_single {sig : RefSig} {κ : Kind} {sp : Space} {s : Shape} {e : EltTy} {Val : EltTy → Type}
    (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [View.read_writes_apply_of_forall_not_mem v f y [⟨r, w⟩] (by
      intro p hp; rw [List.mem_singleton] at hp; subst hp; exact hy), Rect.overlay_of_not_mem _ _ _ hy]

/-- The column block of the incidence matrix the second scratch is built from (first point of a row). -/
abbrev rInc1 (i : grid1.Coords) (h : k1_cond1 i = 1#1) : Rect S2048x4096 :=
  Rect.unit (s := S2048x4096) (k1_off1 i) S2048x512.size (k1_off1_inb i h)
/-- The column block of the incidence matrix the contribution reads. -/
abbrev rInc2 (i : grid1.Coords) : Rect S2048x4096 :=
  Rect.unit (s := S2048x4096) (k1_off2 i) S2048x512.size (k1_off2_inb i)
/-- The row block of the edge features the contribution reads. -/
abbrev rE3 (i : grid1.Coords) : Rect S4096x16 :=
  Rect.unit (s := S4096x16) (k1_off3 i) S512x16.size (k1_off3_inb i)
/-- The rows the accumulator is started on. -/
abbrev rRow4 (i : grid1.Coords) (h : k1_cond2 i = 1#1) : Rect S4096x16 :=
  Rect.unit (s := S4096x16) (k1_off4 i) S512x16.size (k1_off4_inb i h)
/-- The rows of the accumulator that are added to. -/
abbrev rRow5 (i : grid1.Coords) (h : k1_cond3 i = 1#1) : Rect S4096x16 :=
  Rect.unit (s := S4096x16) (k1_off5 i) S512x16.size (k1_off5_inb i h)
/-- The rows of the output that are written. -/
abbrev rRow6 (i : grid1.Coords) (h : k1_cond4 i = 1#1) : Rect S4096x16 :=
  Rect.unit (s := S4096x16) (k1_off6 i) S512x16.size (k1_off6_inb i h)

/-- What the second scratch holds after a first point of a row. -/
def dNew (i : grid1.Coords) (h1 : k1_cond1 i = 1#1) (x0 : Vec F S2048x4096 .bf16) (x2 : Vec F S2048x128 .f32) (x3 : Vec F S128x1 .f32) :
    Vec F S2048x512 .bf16 :=
  k1_pay2 x2 x3 (View.ld x0 (rInc1 i h1))

/-- The point's contribution, from the second scratch's contents d when it is read. -/
def contrib (i : grid1.Coords) (x0 : Vec F S2048x4096 .bf16) (x1 : Vec F S512x512 .f32) (x4 : Vec F S4096x16 .f32) (x5 : Vec F S16x16 .f32)
    (d : Vec F S2048x512 .bf16) : Vec F S512x16 .f32 :=
  k1_pay3 (View.ld x0 (rInc2 i)) d x1 (View.ld x4 (rE3 i)) x5

/-- The accumulator after its rows are started, from what it held before (a). -/
def accStart (i : grid1.Coords) (h2 : k1_cond2 i = 1#1) (x0 : Vec F S2048x4096 .bf16) (x1 : Vec F S512x512 .f32) (x4 : Vec F S4096x16 .f32)
    (x5 : Vec F S16x16 .f32) (x6 : Vec F S1x16 .f32) (d : Vec F S2048x512 .bf16) (a : Vec F S4096x16 .f32) : Vec F S4096x16 .f32 :=
  (rRow4 i h2).overlay a (k1_pay4 (View.ld x0 (rInc2 i)) d x1 (View.ld x4 (rE3 i)) x5 (View.ld x4 (rRow4 i h2)) x6)

/-- The accumulator after its rows are added to, from what it held before (a). -/
def accAdd (i : grid1.Coords) (h3 : k1_cond3 i = 1#1) (x0 : Vec F S2048x4096 .bf16) (x1 : Vec F S512x512 .f32) (x4 : Vec F S4096x16 .f32)
    (x5 : Vec F S16x16 .f32) (d : Vec F S2048x512 .bf16) (a : Vec F S4096x16 .f32) : Vec F S4096x16 .f32 :=
  (rRow5 i h3).overlay a (k1_pay5 (View.ld x0 (rInc2 i)) d x1 (View.ld x4 (rE3 i)) x5 (View.ld a (rRow5 i h3)))

/-- The output after its rows are written, from the accumulator (a) and what the output held before (y). -/
def outRows (i : grid1.Coords) (h4 : k1_cond4 i = 1#1) (x0 : Vec F S2048x4096 .bf16) (x1 : Vec F S512x512 .f32) (x4 : Vec F S4096x16 .f32)
    (x5 : Vec F S16x16 .f32) (d : Vec F S2048x512 .bf16) (a : Vec F S4096x16 .f32) (y : Vec F S4096x16 .f32) : Vec F S4096x16 .f32 :=
  (rRow6 i h4).overlay y (k1_pay1 (contrib i x0 x1 x4 x5 d) (View.ld a (rRow6 i h4)))

set_option maxHeartbeats 1000000 in
theorem case_first_start (c : Dev nD) (E : Set ℕ) (i : grid1.Coords)
    (arg2 : Memref sig .tc .vmem S2048x4096 .bf16) (harg2 : arg2.IsWhole) (arg3 : Memref sig .tc .vmem S512x512 .f32) (harg3 : arg3.IsWhole)
    (arg4 : Memref sig .tc .vmem S2048x128 .f32) (harg4 : arg4.IsWhole) (arg5 : Memref sig .tc .vmem S128x1 .f32) (harg5 : arg5.IsWhole)
    (arg6 : Memref sig .tc .vmem S4096x16 .f32) (harg6 : arg6.IsWhole) (arg7 : Memref sig .tc .vmem S16x16 .f32) (harg7 : arg7.IsWhole)
    (arg8 : Memref sig .tc .vmem S1x16 .f32) (harg8 : arg8.IsWhole) (arg9 : Memref sig .tc .vmem S4096x16 .f32) (harg9 : arg9.IsWhole)
    (arg10 : Memref sig .tc .vmem S4096x16 .f32) (harg10 : arg10.IsWhole) (arg11 : Memref sig .tc .vmem S2048x512 .bf16) (harg11 : arg11.IsWhole)
    (hc1 : k1_cond1 i = 1#1) (hc2 : k1_cond2 i = 1#1) (hc3 : ¬ k1_cond3 i = 1#1) (hc4 : ¬ k1_cond4 i = 1#1)
    (x0 : Vec F S2048x4096 .bf16) (x1 : Vec F S512x512 .f32) (x2 : Vec F S2048x128 .f32) (x3 : Vec F S128x1 .f32)
    (x4 : Vec F S4096x16 .f32) (x5 : Vec F S16x16 .f32) (x6 : Vec F S1x16 .f32) (y : Vec F S4096x16 .f32)
    (a : Vec F S4096x16 .f32) (s : Vec F S2048x512 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare y ∗ owns (c : Thread nD τ) arg10 fullShare a
        ∗ owns (c : Thread nD τ) arg11 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare y ∗ owns (c : Thread nD τ) arg10 fullShare (accStart i hc2 x0 x1 x4 x5 x6 (dNew i hc1 x0 x2 x3) a)
            ∗ owns (c : Thread nD τ) arg11 fullShare (dNew i hc1 x0 x2 x3)) -∗ K ⟨⟩))
      ⊢ wp frame (wpE (defs₀ (F := F)) Variants.none c none) E (cc1__edge_kernel i arg2 harg2 arg3 harg3 arg4 harg4 arg5 harg5 arg6 harg6 arg7 harg7 arg8 harg8 arg9 harg9 arg10 harg10 arg11 harg11) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9
  sl_exec (disch := first | exact hc1 | exact hc2 | exact hc3 | exact hc4)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    swap
    · iexact H8
    ipureintro
    rw [read_writes_single, harg10.read_unread]
    sl_unfold_run_names
    rw [View.readCov_unit_zero (S := S2048x512) _ zero2]
    unfold accStart dNew
    simp only [View.readAt_eq_ld, Memref.IsWhole.read_unread, View.ld_unit_zero (S := S2048x512) zero2, View.ld_unit_zero (S := S512x512) zero2, View.ld_unit_zero (S := S2048x128) zero2, View.ld_unit_zero (S := S128x1) zero2, View.ld_unit_zero (S := S16x16) zero2, View.ld_unit_zero (S := S1x16) zero2, View.ld_unit_zero (S := S4096x16) zero2]
  iexists _; isplitr
  swap
  · iexact H9
  ipureintro
  sl_unfold_run_names
  rw [View.read_writes_eq_canon _ _ _ (fun y' => ⟨_, List.mem_singleton_self _, View.mem_set_unit_zero zero2 inb_S2048x512_S2048x512_0_0 y'⟩),
    View.canon_unit_zero zero2]
  unfold dNew
  simp only [View.readAt_eq_ld, Memref.IsWhole.read_unread, View.ld_unit_zero (S := S2048x512) zero2, View.ld_unit_zero (S := S512x512) zero2, View.ld_unit_zero (S := S2048x128) zero2, View.ld_unit_zero (S := S128x1) zero2, View.ld_unit_zero (S := S16x16) zero2, View.ld_unit_zero (S := S1x16) zero2, View.ld_unit_zero (S := S4096x16) zero2]

set_option maxHeartbeats 1000000 in
theorem case_first_add (c : Dev nD) (E : Set ℕ) (i : grid1.Coords)
    (arg2 : Memref sig .tc .vmem S2048x4096 .bf16) (harg2 : arg2.IsWhole) (arg3 : Memref sig .tc .vmem S512x512 .f32) (harg3 : arg3.IsWhole)
    (arg4 : Memref sig .tc .vmem S2048x128 .f32) (harg4 : arg4.IsWhole) (arg5 : Memref sig .tc .vmem S128x1 .f32) (harg5 : arg5.IsWhole)
    (arg6 : Memref sig .tc .vmem S4096x16 .f32) (harg6 : arg6.IsWhole) (arg7 : Memref sig .tc .vmem S16x16 .f32) (harg7 : arg7.IsWhole)
    (arg8 : Memref sig .tc .vmem S1x16 .f32) (harg8 : arg8.IsWhole) (arg9 : Memref sig .tc .vmem S4096x16 .f32) (harg9 : arg9.IsWhole)
    (arg10 : Memref sig .tc .vmem S4096x16 .f32) (harg10 : arg10.IsWhole) (arg11 : Memref sig .tc .vmem S2048x512 .bf16) (harg11 : arg11.IsWhole)
    (hc1 : k1_cond1 i = 1#1) (hc2 : ¬ k1_cond2 i = 1#1) (hc3 : k1_cond3 i = 1#1) (hc4 : ¬ k1_cond4 i = 1#1)
    (x0 : Vec F S2048x4096 .bf16) (x1 : Vec F S512x512 .f32) (x2 : Vec F S2048x128 .f32) (x3 : Vec F S128x1 .f32)
    (x4 : Vec F S4096x16 .f32) (x5 : Vec F S16x16 .f32) (x6 : Vec F S1x16 .f32) (y : Vec F S4096x16 .f32)
    (a : Vec F S4096x16 .f32) (s : Vec F S2048x512 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare y ∗ owns (c : Thread nD τ) arg10 fullShare a
        ∗ owns (c : Thread nD τ) arg11 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare y ∗ owns (c : Thread nD τ) arg10 fullShare (accAdd i hc3 x0 x1 x4 x5 (dNew i hc1 x0 x2 x3) a)
            ∗ owns (c : Thread nD τ) arg11 fullShare (dNew i hc1 x0 x2 x3)) -∗ K ⟨⟩))
      ⊢ wp frame (wpE (defs₀ (F := F)) Variants.none c none) E (cc1__edge_kernel i arg2 harg2 arg3 harg3 arg4 harg4 arg5 harg5 arg6 harg6 arg7 harg7 arg8 harg8 arg9 harg9 arg10 harg10 arg11 harg11) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9
  sl_exec (disch := first | exact hc1 | exact hc2 | exact hc3 | exact hc4)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    swap
    · iexact H8
    ipureintro
    rw [read_writes_single, harg10.read_unread]
    sl_unfold_run_names
    rw [View.readCov_unit_zero (S := S2048x512) _ zero2]
    unfold accAdd dNew
    simp only [View.readAt_eq_ld, Memref.IsWhole.read_unread, View.ld_unit_zero (S := S2048x512) zero2, View.ld_unit_zero (S := S512x512) zero2, View.ld_unit_zero (S := S2048x128) zero2, View.ld_unit_zero (S := S128x1) zero2, View.ld_unit_zero (S := S16x16) zero2, View.ld_unit_zero (S := S1x16) zero2, View.ld_unit_zero (S := S4096x16) zero2]
  iexists _; isplitr
  swap
  · iexact H9
  ipureintro
  sl_unfold_run_names
  rw [View.read_writes_eq_canon _ _ _ (fun y' => ⟨_, List.mem_singleton_self _, View.mem_set_unit_zero zero2 inb_S2048x512_S2048x512_0_0 y'⟩),
    View.canon_unit_zero zero2]
  unfold dNew
  simp only [View.readAt_eq_ld, Memref.IsWhole.read_unread, View.ld_unit_zero (S := S2048x512) zero2, View.ld_unit_zero (S := S512x512) zero2, View.ld_unit_zero (S := S2048x128) zero2, View.ld_unit_zero (S := S128x1) zero2, View.ld_unit_zero (S := S16x16) zero2, View.ld_unit_zero (S := S1x16) zero2, View.ld_unit_zero (S := S4096x16) zero2]

set_option maxHeartbeats 1000000 in
theorem case_first_out (c : Dev nD) (E : Set ℕ) (i : grid1.Coords)
    (arg2 : Memref sig .tc .vmem S2048x4096 .bf16) (harg2 : arg2.IsWhole) (arg3 : Memref sig .tc .vmem S512x512 .f32) (harg3 : arg3.IsWhole)
    (arg4 : Memref sig .tc .vmem S2048x128 .f32) (harg4 : arg4.IsWhole) (arg5 : Memref sig .tc .vmem S128x1 .f32) (harg5 : arg5.IsWhole)
    (arg6 : Memref sig .tc .vmem S4096x16 .f32) (harg6 : arg6.IsWhole) (arg7 : Memref sig .tc .vmem S16x16 .f32) (harg7 : arg7.IsWhole)
    (arg8 : Memref sig .tc .vmem S1x16 .f32) (harg8 : arg8.IsWhole) (arg9 : Memref sig .tc .vmem S4096x16 .f32) (harg9 : arg9.IsWhole)
    (arg10 : Memref sig .tc .vmem S4096x16 .f32) (harg10 : arg10.IsWhole) (arg11 : Memref sig .tc .vmem S2048x512 .bf16) (harg11 : arg11.IsWhole)
    (hc1 : k1_cond1 i = 1#1) (hc2 : ¬ k1_cond2 i = 1#1) (hc3 : ¬ k1_cond3 i = 1#1) (hc4 : k1_cond4 i = 1#1)
    (x0 : Vec F S2048x4096 .bf16) (x1 : Vec F S512x512 .f32) (x2 : Vec F S2048x128 .f32) (x3 : Vec F S128x1 .f32)
    (x4 : Vec F S4096x16 .f32) (x5 : Vec F S16x16 .f32) (x6 : Vec F S1x16 .f32) (y : Vec F S4096x16 .f32)
    (a : Vec F S4096x16 .f32) (s : Vec F S2048x512 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare y ∗ owns (c : Thread nD τ) arg10 fullShare a
        ∗ owns (c : Thread nD τ) arg11 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (outRows i hc4 x0 x1 x4 x5 (dNew i hc1 x0 x2 x3) a y) ∗ owns (c : Thread nD τ) arg10 fullShare a
            ∗ owns (c : Thread nD τ) arg11 fullShare (dNew i hc1 x0 x2 x3)) -∗ K ⟨⟩))
      ⊢ wp frame (wpE (defs₀ (F := F)) Variants.none c none) E (cc1__edge_kernel i arg2 harg2 arg3 harg3 arg4 harg4 arg5 harg5 arg6 harg6 arg7 harg7 arg8 harg8 arg9 harg9 arg10 harg10 arg11 harg11) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9
  sl_exec (disch := first | exact hc1 | exact hc2 | exact hc3 | exact hc4)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    swap
    · iexact H7
    ipureintro
    rw [read_writes_single, harg9.read_unread]
    sl_unfold_run_names
    rw [View.readCov_unit_zero (S := S2048x512) _ zero2]
    unfold outRows contrib dNew
    simp only [View.readAt_eq_ld, Memref.IsWhole.read_unread, View.ld_unit_zero (S := S2048x512) zero2, View.ld_unit_zero (S := S512x512) zero2, View.ld_unit_zero (S := S2048x128) zero2, View.ld_unit_zero (S := S128x1) zero2, View.ld_unit_zero (S := S16x16) zero2, View.ld_unit_zero (S := S1x16) zero2, View.ld_unit_zero (S := S4096x16) zero2]
  isplitl [H8]
  · iexists _; isplitr
    · ipureintro; exact harg10.read_unread _
    iexact H8
  iexists _; isplitr
  swap
  · iexact H9
  ipureintro
  sl_unfold_run_names
  rw [View.read_writes_eq_canon _ _ _ (fun y' => ⟨_, List.mem_singleton_self _, View.mem_set_unit_zero zero2 inb_S2048x512_S2048x512_0_0 y'⟩),
    View.canon_unit_zero zero2]
  unfold dNew
  simp only [View.readAt_eq_ld, Memref.IsWhole.read_unread, View.ld_unit_zero (S := S2048x512) zero2, View.ld_unit_zero (S := S512x512) zero2, View.ld_unit_zero (S := S2048x128) zero2, View.ld_unit_zero (S := S128x1) zero2, View.ld_unit_zero (S := S16x16) zero2, View.ld_unit_zero (S := S1x16) zero2, View.ld_unit_zero (S := S4096x16) zero2]

set_option maxHeartbeats 1000000 in
theorem case_later_start (c : Dev nD) (E : Set ℕ) (i : grid1.Coords)
    (arg2 : Memref sig .tc .vmem S2048x4096 .bf16) (harg2 : arg2.IsWhole) (arg3 : Memref sig .tc .vmem S512x512 .f32) (harg3 : arg3.IsWhole)
    (arg4 : Memref sig .tc .vmem S2048x128 .f32) (harg4 : arg4.IsWhole) (arg5 : Memref sig .tc .vmem S128x1 .f32) (harg5 : arg5.IsWhole)
    (arg6 : Memref sig .tc .vmem S4096x16 .f32) (harg6 : arg6.IsWhole) (arg7 : Memref sig .tc .vmem S16x16 .f32) (harg7 : arg7.IsWhole)
    (arg8 : Memref sig .tc .vmem S1x16 .f32) (harg8 : arg8.IsWhole) (arg9 : Memref sig .tc .vmem S4096x16 .f32) (harg9 : arg9.IsWhole)
    (arg10 : Memref sig .tc .vmem S4096x16 .f32) (harg10 : arg10.IsWhole) (arg11 : Memref sig .tc .vmem S2048x512 .bf16) (harg11 : arg11.IsWhole)
    (hc1 : ¬ k1_cond1 i = 1#1) (hc2 : k1_cond2 i = 1#1) (hc3 : ¬ k1_cond3 i = 1#1) (hc4 : ¬ k1_cond4 i = 1#1)
    (x0 : Vec F S2048x4096 .bf16) (x1 : Vec F S512x512 .f32) (x2 : Vec F S2048x128 .f32) (x3 : Vec F S128x1 .f32)
    (x4 : Vec F S4096x16 .f32) (x5 : Vec F S16x16 .f32) (x6 : Vec F S1x16 .f32) (y : Vec F S4096x16 .f32)
    (a : Vec F S4096x16 .f32) (s : Vec F S2048x512 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare y ∗ owns (c : Thread nD τ) arg10 fullShare a
        ∗ owns (c : Thread nD τ) arg11 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare y ∗ owns (c : Thread nD τ) arg10 fullShare (accStart i hc2 x0 x1 x4 x5 x6 s a)
            ∗ owns (c : Thread nD τ) arg11 fullShare s) -∗ K ⟨⟩))
      ⊢ wp frame (wpE (defs₀ (F := F)) Variants.none c none) E (cc1__edge_kernel i arg2 harg2 arg3 harg3 arg4 harg4 arg5 harg5 arg6 harg6 arg7 harg7 arg8 harg8 arg9 harg9 arg10 harg10 arg11 harg11) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9
  sl_exec (disch := first | exact hc1 | exact hc2 | exact hc3 | exact hc4)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    swap
    · iexact H8
    ipureintro
    rw [read_writes_single, harg10.read_unread]
    sl_unfold_run_names
    unfold accStart
    simp only [View.readAt_eq_ld, Memref.IsWhole.read_unread, View.ld_unit_zero (S := S2048x512) zero2, View.ld_unit_zero (S := S512x512) zero2, View.ld_unit_zero (S := S2048x128) zero2, View.ld_unit_zero (S := S128x1) zero2, View.ld_unit_zero (S := S16x16) zero2, View.ld_unit_zero (S := S1x16) zero2, View.ld_unit_zero (S := S4096x16) zero2]
  iexists _; isplitr
  · ipureintro; exact harg11.read_unread _
  iexact H9

set_option maxHeartbeats 1000000 in
theorem case_later_add (c : Dev nD) (E : Set ℕ) (i : grid1.Coords)
    (arg2 : Memref sig .tc .vmem S2048x4096 .bf16) (harg2 : arg2.IsWhole) (arg3 : Memref sig .tc .vmem S512x512 .f32) (harg3 : arg3.IsWhole)
    (arg4 : Memref sig .tc .vmem S2048x128 .f32) (harg4 : arg4.IsWhole) (arg5 : Memref sig .tc .vmem S128x1 .f32) (harg5 : arg5.IsWhole)
    (arg6 : Memref sig .tc .vmem S4096x16 .f32) (harg6 : arg6.IsWhole) (arg7 : Memref sig .tc .vmem S16x16 .f32) (harg7 : arg7.IsWhole)
    (arg8 : Memref sig .tc .vmem S1x16 .f32) (harg8 : arg8.IsWhole) (arg9 : Memref sig .tc .vmem S4096x16 .f32) (harg9 : arg9.IsWhole)
    (arg10 : Memref sig .tc .vmem S4096x16 .f32) (harg10 : arg10.IsWhole) (arg11 : Memref sig .tc .vmem S2048x512 .bf16) (harg11 : arg11.IsWhole)
    (hc1 : ¬ k1_cond1 i = 1#1) (hc2 : ¬ k1_cond2 i = 1#1) (hc3 : k1_cond3 i = 1#1) (hc4 : ¬ k1_cond4 i = 1#1)
    (x0 : Vec F S2048x4096 .bf16) (x1 : Vec F S512x512 .f32) (x2 : Vec F S2048x128 .f32) (x3 : Vec F S128x1 .f32)
    (x4 : Vec F S4096x16 .f32) (x5 : Vec F S16x16 .f32) (x6 : Vec F S1x16 .f32) (y : Vec F S4096x16 .f32)
    (a : Vec F S4096x16 .f32) (s : Vec F S2048x512 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare y ∗ owns (c : Thread nD τ) arg10 fullShare a
        ∗ owns (c : Thread nD τ) arg11 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare y ∗ owns (c : Thread nD τ) arg10 fullShare (accAdd i hc3 x0 x1 x4 x5 s a)
            ∗ owns (c : Thread nD τ) arg11 fullShare s) -∗ K ⟨⟩))
      ⊢ wp frame (wpE (defs₀ (F := F)) Variants.none c none) E (cc1__edge_kernel i arg2 harg2 arg3 harg3 arg4 harg4 arg5 harg5 arg6 harg6 arg7 harg7 arg8 harg8 arg9 harg9 arg10 harg10 arg11 harg11) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9
  sl_exec (disch := first | exact hc1 | exact hc2 | exact hc3 | exact hc4)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    swap
    · iexact H8
    ipureintro
    rw [read_writes_single, harg10.read_unread]
    sl_unfold_run_names
    unfold accAdd
    simp only [View.readAt_eq_ld, Memref.IsWhole.read_unread, View.ld_unit_zero (S := S2048x512) zero2, View.ld_unit_zero (S := S512x512) zero2, View.ld_unit_zero (S := S2048x128) zero2, View.ld_unit_zero (S := S128x1) zero2, View.ld_unit_zero (S := S16x16) zero2, View.ld_unit_zero (S := S1x16) zero2, View.ld_unit_zero (S := S4096x16) zero2]
  iexists _; isplitr
  · ipureintro; exact harg11.read_unread _
  iexact H9

set_option maxHeartbeats 1000000 in
theorem case_later_out (c : Dev nD) (E : Set ℕ) (i : grid1.Coords)
    (arg2 : Memref sig .tc .vmem S2048x4096 .bf16) (harg2 : arg2.IsWhole) (arg3 : Memref sig .tc .vmem S512x512 .f32) (harg3 : arg3.IsWhole)
    (arg4 : Memref sig .tc .vmem S2048x128 .f32) (harg4 : arg4.IsWhole) (arg5 : Memref sig .tc .vmem S128x1 .f32) (harg5 : arg5.IsWhole)
    (arg6 : Memref sig .tc .vmem S4096x16 .f32) (harg6 : arg6.IsWhole) (arg7 : Memref sig .tc .vmem S16x16 .f32) (harg7 : arg7.IsWhole)
    (arg8 : Memref sig .tc .vmem S1x16 .f32) (harg8 : arg8.IsWhole) (arg9 : Memref sig .tc .vmem S4096x16 .f32) (harg9 : arg9.IsWhole)
    (arg10 : Memref sig .tc .vmem S4096x16 .f32) (harg10 : arg10.IsWhole) (arg11 : Memref sig .tc .vmem S2048x512 .bf16) (harg11 : arg11.IsWhole)
    (hc1 : ¬ k1_cond1 i = 1#1) (hc2 : ¬ k1_cond2 i = 1#1) (hc3 : ¬ k1_cond3 i = 1#1) (hc4 : k1_cond4 i = 1#1)
    (x0 : Vec F S2048x4096 .bf16) (x1 : Vec F S512x512 .f32) (x2 : Vec F S2048x128 .f32) (x3 : Vec F S128x1 .f32)
    (x4 : Vec F S4096x16 .f32) (x5 : Vec F S16x16 .f32) (x6 : Vec F S1x16 .f32) (y : Vec F S4096x16 .f32)
    (a : Vec F S4096x16 .f32) (s : Vec F S2048x512 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare y ∗ owns (c : Thread nD τ) arg10 fullShare a
        ∗ owns (c : Thread nD τ) arg11 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (outRows i hc4 x0 x1 x4 x5 s a y) ∗ owns (c : Thread nD τ) arg10 fullShare a
            ∗ owns (c : Thread nD τ) arg11 fullShare s) -∗ K ⟨⟩))
      ⊢ wp frame (wpE (defs₀ (F := F)) Variants.none c none) E (cc1__edge_kernel i arg2 harg2 arg3 harg3 arg4 harg4 arg5 harg5 arg6 harg6 arg7 harg7 arg8 harg8 arg9 harg9 arg10 harg10 arg11 harg11) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9
  sl_exec (disch := first | exact hc1 | exact hc2 | exact hc3 | exact hc4)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    swap
    · iexact H7
    ipureintro
    rw [read_writes_single, harg9.read_unread]
    sl_unfold_run_names
    unfold outRows contrib
    simp only [View.readAt_eq_ld, Memref.IsWhole.read_unread, View.ld_unit_zero (S := S2048x512) zero2, View.ld_unit_zero (S := S512x512) zero2, View.ld_unit_zero (S := S2048x128) zero2, View.ld_unit_zero (S := S128x1) zero2, View.ld_unit_zero (S := S16x16) zero2, View.ld_unit_zero (S := S1x16) zero2, View.ld_unit_zero (S := S4096x16) zero2]
  isplitl [H8]
  · iexists _; isplitr
    · ipureintro; exact harg10.read_unread _
    iexact H8
  iexists _; isplitr
  · ipureintro; exact harg11.read_unread _
  iexact H9

end Cert.Kernel.Edge

end
-- ==== Proof.K.EdgeData.lean ====
import proofs.«151053_g24051816857981_cont_8to1_1327_4_alg».proof.Proof.K.EdgeBody
import proofs.«151053_g24051816857981_cont_8to1_1327_4_alg».proof.Proof.LibRelDetermined
import proofs.«151053_g24051816857981_cont_8to1_1327_4_alg».proof.Proof.Gen.Kernel.Launch
import proofs.«151053_g24051816857981_cont_8to1_1327_4_alg».proof.Proof.Gen.Kernel.Skeleton
import proofs.«151053_g24051816857981_cont_8to1_1327_4_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

set_option maxRecDepth 16384

noncomputable section

namespace Cert.Kernel.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

/-! ## The edge region's proof data, relationally

The grid has 64 points; point t has column block t / 8 and row block t % 8. The inputs are left as found. The
scaled-columns scratch is carried at a named value, recomputed at the first point of each run of eight. The
accumulator scratch holds, for each row block, a running sum over the column blocks: it is started in the first
run of eight points, added to in the next six, and in the last run the output's row block is written from it plus
the last contribution. The accumulator starts at contents nobody names, so the invariant says which of its row
blocks are known, and at which stage of the sum. -/

variable (V : (c : Dev nD) → (b : Ref sig .tc) → Buf (Elt F) ((c : Thread nD τ).loc b))

theorem N1 : cfg1.N = 64 := N_1

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The four branch conditions over the grid. -/
theorem hcond1 : ∀ t : Fin cfg1.N, k1_cond1 (grid1.coords t) = 1#1 ↔ t.val % 8 = 0 :=
  (by decide +kernel : ∀ t : Fin grid1.N, k1_cond1 (grid1.coords t) = 1#1 ↔ t.val % 8 = 0)
theorem hcond2 : ∀ t : Fin cfg1.N, k1_cond2 (grid1.coords t) = 1#1 ↔ t.val < 8 :=
  (by decide +kernel : ∀ t : Fin grid1.N, k1_cond2 (grid1.coords t) = 1#1 ↔ t.val < 8)
theorem hcond3 : ∀ t : Fin cfg1.N, k1_cond3 (grid1.coords t) = 1#1 ↔ (8 ≤ t.val ∧ t.val < 56) :=
  (by decide +kernel : ∀ t : Fin grid1.N, k1_cond3 (grid1.coords t) = 1#1 ↔ (8 ≤ t.val ∧ t.val < 56))
theorem hcond4 : ∀ t : Fin cfg1.N, k1_cond4 (grid1.coords t) = 1#1 ↔ 56 ≤ t.val :=
  (by decide +kernel : ∀ t : Fin grid1.N, k1_cond4 (grid1.coords t) = 1#1 ↔ 56 ≤ t.val)

/-- The fast grid coordinate of point t is its row block. -/
theorem hcoord1 : ∀ t : Fin cfg1.N, ((grid1.coords t) 1).val = t.val % 8 :=
  (by decide +kernel : ∀ t : Fin grid1.N, ((grid1.coords t) 1).val = t.val % 8)

theorem hoff4 (t : Fin cfg1.N) : k1_off4 (grid1.coords t) = ![512 * (t.val % 8), 0] := by rw [k1_off4_eq, hcoord1]
theorem hoff5 (t : Fin cfg1.N) : k1_off5 (grid1.coords t) = ![512 * (t.val % 8), 0] := by rw [k1_off5_eq, hcoord1]
theorem hoff6 (t : Fin cfg1.N) : k1_off6 (grid1.coords t) = ![512 * (t.val % 8), 0] := by rw [k1_off6_eq, hcoord1]

theorem rows_inb : ∀ (r : Fin 8) a, (![512 * r.val, 0] : Fin 2 → Nat) a + S512x16.size a ≤ S4096x16.size a := by decide

/-- Row block r of a buffer of 4096 rows. -/
abbrev rows (r : Fin 8) : Rect S4096x16 := Rect.unit (s := S4096x16) ![512 * r.val, 0] S512x16.size (rows_inb r)

/-- The row block of point t. -/
def rowOf (t : Fin cfg1.N) : Fin 8 := ⟨t.val % 8, Nat.mod_lt _ (by decide)⟩

theorem rect_unit_congr {s : Shape} {off off' sz : Fin s.rank → Nat} (h : off = off') (inb : ∀ a, off a + sz a ≤ s.size a)
    (inb' : ∀ a, off' a + sz a ≤ s.size a) : Rect.unit (s := s) off sz inb = Rect.unit (s := s) off' sz inb' := by
  subst h; rfl

theorem rRow4_eq (t : Fin cfg1.N) (h : k1_cond2 (grid1.coords t) = 1#1) : rRow4 (grid1.coords t) h = rows (rowOf t) :=
  rect_unit_congr (hoff4 t) _ _
theorem rRow5_eq (t : Fin cfg1.N) (h : k1_cond3 (grid1.coords t) = 1#1) : rRow5 (grid1.coords t) h = rows (rowOf t) :=
  rect_unit_congr (hoff5 t) _ _
theorem rRow6_eq (t : Fin cfg1.N) (h : k1_cond4 (grid1.coords t) = 1#1) : rRow6 (grid1.coords t) h = rows (rowOf t) :=
  rect_unit_congr (hoff6 t) _ _

/-- Point number n (taken modulo the number of points, so that it is total). -/
def pt (n : ℕ) : Fin cfg1.N := ⟨n % 64, by rw [N1]; exact Nat.mod_lt _ (by decide)⟩

theorem lt64 (t : Fin cfg1.N) : t.val < 64 := Nat.lt_of_lt_of_eq t.isLt N1

theorem pt_of_lt {n : ℕ} (t : Fin cfg1.N) (h : n = t.val) : pt n = t := by
  subst h; exact Fin.ext (Nat.mod_eq_of_lt (lt64 t))

/-- The scaled-columns scratch after point n: recomputed at the first point of each run of eight, kept at the others. -/
def dAt (c : Dev nD) : (n : ℕ) → n < cfg1.N → Vec F S2048x512 .bf16
  | 0, h => dNew (grid1.coords ⟨0, h⟩) ((hcond1 ⟨0, h⟩).mpr (Nat.zero_mod _)) (iblk V c 0 ⟨0, h⟩) (iblk V c 2 ⟨0, h⟩) (iblk V c 3 ⟨0, h⟩)
  | n + 1, h =>
    if h0 : (n + 1) % 8 = 0 then
      dNew (grid1.coords ⟨n + 1, h⟩) ((hcond1 ⟨n + 1, h⟩).mpr h0) (iblk V c 0 ⟨n + 1, h⟩) (iblk V c 2 ⟨n + 1, h⟩) (iblk V c 3 ⟨n + 1, h⟩)
    else dAt c n (Nat.lt_of_succ_lt h)

theorem dAt_start (c : Dev nD) (t : Fin cfg1.N) (h0 : t.val % 8 = 0) :
    dAt V c t.val t.isLt = dNew (grid1.coords t) ((hcond1 t).mpr h0) (iblk V c 0 t) (iblk V c 2 t) (iblk V c 3 t) := by
  obtain ⟨n, hn⟩ := t
  cases n with
  | zero => rfl
  | succ n => exact dif_pos h0

theorem dAt_keep (c : Dev nD) (t : Fin cfg1.N) (h0 : ¬ t.val % 8 = 0) :
    dAt V c t.val t.isLt = dAt V c (t.val - 1) (Nat.lt_of_le_of_lt (Nat.sub_le _ _) t.isLt) := by
  obtain ⟨n, hn⟩ := t
  cases n with
  | zero => exact absurd (Nat.zero_mod _) h0
  | succ n => exact dif_neg h0

/-- The rows an accumulator block is started at: features plus bias plus the contribution. -/
def startV (i : grid1.Coords) (r : Fin 8) (x0 : Vec F S2048x4096 .bf16) (x1 : Vec F S512x512 .f32) (x4 : Vec F S4096x16 .f32)
    (x5 : Vec F S16x16 .f32) (x6 : Vec F S1x16 .f32) (d : Vec F S2048x512 .bf16) : Vec F S512x16 .f32 :=
  k1_pay4 (View.ld x0 (rInc2 i)) d x1 (View.ld x4 (rE3 i)) x5 (View.ld x4 (rows r)) x6

/-- An accumulator block p with the contribution added. -/
def addV (i : grid1.Coords) (x0 : Vec F S2048x4096 .bf16) (x1 : Vec F S512x512 .f32) (x4 : Vec F S4096x16 .f32)
    (x5 : Vec F S16x16 .f32) (d : Vec F S2048x512 .bf16) (p : Vec F S512x16 .f32) : Vec F S512x16 .f32 :=
  k1_pay5 (View.ld x0 (rInc2 i)) d x1 (View.ld x4 (rE3 i)) x5 p

/-- The contribution of point t. -/
def contribAt (c : Dev nD) (t : Fin cfg1.N) : Vec F S512x16 .f32 :=
  contrib (grid1.coords t) (iblk V c 0 t) (iblk V c 1 t) (iblk V c 4 t) (iblk V c 5 t) (dAt V c t.val t.isLt)

/-- What point t (in the first run) starts its accumulator block at. -/
def startVal (c : Dev nD) (t : Fin cfg1.N) : Vec F S512x16 .f32 :=
  startV (grid1.coords t) (rowOf t) (iblk V c 0 t) (iblk V c 1 t) (iblk V c 4 t) (iblk V c 5 t) (iblk V c 6 t) (dAt V c t.val t.isLt)

/-- What point t (in the middle runs) makes of its accumulator block p. -/
def addVal (c : Dev nD) (t : Fin cfg1.N) (p : Vec F S512x16 .f32) : Vec F S512x16 .f32 :=
  addV (grid1.coords t) (iblk V c 0 t) (iblk V c 1 t) (iblk V c 4 t) (iblk V c 5 t) (dAt V c t.val t.isLt) p

/-- What point t (in the last run) writes to its output block, from its accumulator block p. -/
def outVal (c : Dev nD) (t : Fin cfg1.N) (p : Vec F S512x16 .f32) : Vec F S512x16 .f32 :=
  k1_pay1 (contribAt V c t) p

/-- Row block r of the accumulator after the point of column block j (j = 0 … 6). -/
def rowAcc (c : Dev nD) (r : Fin 8) : ℕ → Vec F S512x16 .f32
  | 0 => startVal V c (pt r.val)
  | j + 1 => addVal V c (pt (8 * (j + 1) + r.val)) (rowAcc c r j)

/-- The stage row block r of the accumulator is at after point n. -/
def lvl (n : ℕ) (r : Fin 8) : ℕ := min (if r.val ≤ n % 8 then n / 8 else n / 8 - 1) 6

/-- After point n, the row blocks of the accumulator some point has stored into are at their stage of the sum. -/
def AccInv (c : Dev nD) (n : ℕ) (a : Vec F S4096x16 .f32) : Prop :=
  ∀ r : Fin 8, (r.val ≤ n % 8 ∨ 8 ≤ n) → View.ld a (rows r) = rowAcc V c r (lvl n r)

/-- The accumulator after point t, from what it held before. -/
def accStep (c : Dev nD) (t : Fin cfg1.N) (a : Vec F S4096x16 .f32) : Vec F S4096x16 .f32 :=
  if t.val < 8 then (rows (rowOf t)).overlay a (startVal V c t)
  else if t.val < 56 then (rows (rowOf t)).overlay a (addVal V c t (View.ld a (rows (rowOf t))))
  else a

/-- The output buffer after point t, from the accumulator and what the buffer held before. -/
def outStep (c : Dev nD) (t : Fin cfg1.N) (a y : Vec F S4096x16 .f32) : Vec F S4096x16 .f32 :=
  if 56 ≤ t.val then (rows (rowOf t)).overlay y (outVal V c t (View.ld a (rows (rowOf t)))) else y

/-! ### Row blocks and overlays -/

theorem ld_overlay_same {S : Shape} {Val : EltTy → Type} {e : EltTy} (r : Rect S) (a : S.Idx → Val e) (G : r.shape.Idx → Val e) :
    View.ld (r.overlay a G) r = G := by
  funext x; exact Rect.overlay_emb r a G x

theorem ld_overlay_rows_ne {Val : EltTy → Type} {e : EltTy} (r r' : Fin 8) (h : r ≠ r') (a : S4096x16.Idx → Val e)
    (G : (rows r).shape.Idx → Val e) : View.ld ((rows r).overlay a G) (rows r') = View.ld a (rows r') := by
  funext x
  refine Rect.overlay_of_not_mem (rows r) a G ?_
  rw [Rect.mem_set_unit]
  intro hm
  have h0 := hm 0
  have hx : ((x 0 : Fin _) : ℕ) < 512 := (x 0).isLt
  have hv : r.val ≠ r'.val := fun e => h (Fin.ext e)
  have hr := r.isLt
  have hr' := r'.isLt
  have e1 : (((rows r').toLoadRect.idx x) 0 : ℕ) = 512 * r'.val + 1 * (x 0 : ℕ) := rfl
  have e2 : (![512 * r.val, 0] : Fin 2 → ℕ) 0 = 512 * r.val := rfl
  have e3 : S512x16.size 0 = 512 := rfl
  rw [e1, e2, e3] at h0
  omega

/-! ### The accumulator invariant, point by point -/

theorem lvl_start (n : ℕ) (r : Fin 8) (hn : n < 8) (hr : r.val ≤ n) : lvl n r = 0 := by
  unfold lvl
  have : n / 8 = 0 := by omega
  rw [this]; simp

theorem AccInv_start (c : Dev nD) (t : Fin cfg1.N) (ht : t.val < 8) (a : Vec F S4096x16 .f32)
    (h : t.val = 0 ∨ AccInv V c (t.val - 1) a) : AccInv V c t.val ((rows (rowOf t)).overlay a (startVal V c t)) := by
  intro r hr
  have hr' : r.val ≤ t.val := by omega
  rw [lvl_start t.val r ht hr']
  by_cases e : r = rowOf t
  · subst e
    rw [ld_overlay_same]
    show startVal V c t = startVal V c (pt (rowOf t).val)
    rw [pt_of_lt t (by show t.val % 8 = t.val; omega)]
  · rw [ld_overlay_rows_ne _ _ (Ne.symm e)]
    have hne : r.val ≠ t.val % 8 := fun e' => e (Fin.ext e')
    have ht0 : t.val ≠ 0 := by omega
    have hA := h.resolve_left ht0
    rw [hA r (Or.inl (by omega)), lvl_start (t.val - 1) r (by omega) (by omega)]

theorem lvl_add_same (n : ℕ) (r : Fin 8) (h8 : 8 ≤ n) (h56 : n < 56) (hr : r.val = n % 8) :
    lvl (n - 1) r + 1 = lvl n r := by
  unfold lvl
  rw [if_pos (by omega : r.val ≤ n % 8)]
  split <;> omega

theorem lvl_add_other (n : ℕ) (r : Fin 8) (h8 : 8 ≤ n) (hr : r.val ≠ n % 8) : lvl (n - 1) r = lvl n r := by
  unfold lvl
  have := r.isLt
  split <;> split <;> omega

theorem AccInv_add (c : Dev nD) (t : Fin cfg1.N) (h8 : 8 ≤ t.val) (h56 : t.val < 56) (a : Vec F S4096x16 .f32)
    (h : AccInv V c (t.val - 1) a) :
    AccInv V c t.val ((rows (rowOf t)).overlay a (addVal V c t (View.ld a (rows (rowOf t))))) := by
  intro r _
  have hpre : ∀ r : Fin 8, r.val ≤ (t.val - 1) % 8 ∨ 8 ≤ t.val - 1 := fun r => by have := r.isLt; omega
  by_cases e : r = rowOf t
  · subst e
    rw [ld_overlay_same, h _ (hpre _), ← lvl_add_same t.val (rowOf t) h8 h56 rfl]
    show addVal V c t _ = addVal V c (pt (8 * (lvl (t.val - 1) (rowOf t) + 1) + (rowOf t).val)) _
    rw [pt_of_lt t (by
      have := lvl_add_same t.val (rowOf t) h8 h56 rfl
      have e2 : lvl t.val (rowOf t) = t.val / 8 := by
        unfold lvl; rw [if_pos (show (rowOf t).val ≤ t.val % 8 from Nat.le_refl _)]; omega
      show 8 * (lvl (t.val - 1) (rowOf t) + 1) + t.val % 8 = t.val
      omega)]
  · rw [ld_overlay_rows_ne _ _ (Ne.symm e), h _ (hpre _), lvl_add_other t.val r h8 (fun e' => e (Fin.ext e'))]

theorem lvl_out (n : ℕ) (r : Fin 8) (h : 55 ≤ n) (hn : n < 64) : lvl n r = 6 := by
  unfold lvl
  have := r.isLt
  split <;> omega

theorem AccInv_out (c : Dev nD) (t : Fin cfg1.N) (h56 : 56 ≤ t.val) (a : Vec F S4096x16 .f32)
    (h : AccInv V c (t.val - 1) a) : AccInv V c t.val a := by
  intro r _
  have ht : t.val < 64 := lt64 t
  rw [h r (by have := r.isLt; omega), lvl_out _ r (by omega) (by omega), lvl_out _ r (by omega) ht]

theorem AccInv_last (c : Dev nD) (t : Fin cfg1.N) (h56 : 56 ≤ t.val) (a : Vec F S4096x16 .f32)
    (h : AccInv V c (t.val - 1) a) : View.ld a (rows (rowOf t)) = rowAcc V c (rowOf t) 6 := by
  have ht : t.val < 64 := lt64 t
  rw [h (rowOf t) (by omega), lvl_out _ _ (by omega) (by omega)]

/-- The invariant after point t, from the invariant before it. -/
theorem AccInv_step (c : Dev nD) (t : Fin cfg1.N) (a : Vec F S4096x16 .f32) (h : t.val = 0 ∨ AccInv V c (t.val - 1) a) :
    AccInv V c t.val (accStep V c t a) := by
  unfold accStep
  by_cases h8 : t.val < 8
  · rw [if_pos h8]; exact AccInv_start V c t h8 a h
  · have hA := h.resolve_left (by omega)
    rw [if_neg h8]
    by_cases h56 : t.val < 56
    · rw [if_pos h56]; exact AccInv_add V c t (by omega) h56 a hA
    · rw [if_neg h56]; exact AccInv_out V c t (by omega) a hA

/-! ### The triples' results through the row blocks -/

theorem accStart_rows (t : Fin cfg1.N) (h2 : k1_cond2 (grid1.coords t) = 1#1) (x0 : Vec F S2048x4096 .bf16) (x1 : Vec F S512x512 .f32)
    (x4 : Vec F S4096x16 .f32) (x5 : Vec F S16x16 .f32) (x6 : Vec F S1x16 .f32) (d : Vec F S2048x512 .bf16) (a : Vec F S4096x16 .f32) :
    accStart (grid1.coords t) h2 x0 x1 x4 x5 x6 d a
      = (rows (rowOf t)).overlay a (startV (grid1.coords t) (rowOf t) x0 x1 x4 x5 x6 d) := by
  unfold accStart startV
  have key : ∀ (off : Fin 2 → ℕ) (inb : ∀ a, off a + S512x16.size a ≤ S4096x16.size a), off = ![512 * (t.val % 8), 0] →
      (Rect.unit (s := S4096x16) off S512x16.size inb).overlay a (k1_pay4 (View.ld x0 (rInc2 (grid1.coords t))) d x1
          (View.ld x4 (rE3 (grid1.coords t))) x5 (View.ld x4 (Rect.unit (s := S4096x16) off S512x16.size inb)) x6)
        = (rows (rowOf t)).overlay a (k1_pay4 (View.ld x0 (rInc2 (grid1.coords t))) d x1
          (View.ld x4 (rE3 (grid1.coords t))) x5 (View.ld x4 (rows (rowOf t))) x6) := by
    intro off inb h; subst h; rfl
  exact key _ _ (hoff4 t)

theorem accAdd_rows (t : Fin cfg1.N) (h3 : k1_cond3 (grid1.coords t) = 1#1) (x0 : Vec F S2048x4096 .bf16) (x1 : Vec F S512x512 .f32)
    (x4 : Vec F S4096x16 .f32) (x5 : Vec F S16x16 .f32) (d : Vec F S2048x512 .bf16) (a : Vec F S4096x16 .f32) :
    accAdd (grid1.coords t) h3 x0 x1 x4 x5 d a
      = (rows (rowOf t)).overlay a (addV (grid1.coords t) x0 x1 x4 x5 d (View.ld a (rows (rowOf t)))) := by
  unfold accAdd addV
  have key : ∀ (off : Fin 2 → ℕ) (inb : ∀ a, off a + S512x16.size a ≤ S4096x16.size a), off = ![512 * (t.val % 8), 0] →
      (Rect.unit (s := S4096x16) off S512x16.size inb).overlay a (k1_pay5 (View.ld x0 (rInc2 (grid1.coords t))) d x1
          (View.ld x4 (rE3 (grid1.coords t))) x5 (View.ld a (Rect.unit (s := S4096x16) off S512x16.size inb)))
        = (rows (rowOf t)).overlay a (k1_pay5 (View.ld x0 (rInc2 (grid1.coords t))) d x1
          (View.ld x4 (rE3 (grid1.coords t))) x5 (View.ld a (rows (rowOf t)))) := by
    intro off inb h; subst h; rfl
  exact key _ _ (hoff5 t)

theorem outRows_rows (t : Fin cfg1.N) (h4 : k1_cond4 (grid1.coords t) = 1#1) (x0 : Vec F S2048x4096 .bf16) (x1 : Vec F S512x512 .f32)
    (x4 : Vec F S4096x16 .f32) (x5 : Vec F S16x16 .f32) (d : Vec F S2048x512 .bf16) (a y : Vec F S4096x16 .f32) :
    outRows (grid1.coords t) h4 x0 x1 x4 x5 d a y
      = (rows (rowOf t)).overlay y (k1_pay1 (contrib (grid1.coords t) x0 x1 x4 x5 d) (View.ld a (rows (rowOf t)))) := by
  unfold outRows
  have key : ∀ (off : Fin 2 → ℕ) (inb : ∀ a, off a + S512x16.size a ≤ S4096x16.size a), off = ![512 * (t.val % 8), 0] →
      (Rect.unit (s := S4096x16) off S512x16.size inb).overlay y (k1_pay1 (contrib (grid1.coords t) x0 x1 x4 x5 d)
          (View.ld a (Rect.unit (s := S4096x16) off S512x16.size inb)))
        = (rows (rowOf t)).overlay y (k1_pay1 (contrib (grid1.coords t) x0 x1 x4 x5 d) (View.ld a (rows (rowOf t)))) := by
    intro off inb h; subst h; rfl
  exact key _ _ (hoff6 t)

/-! ### The body at a point, all cases at once -/

set_option maxHeartbeats 1000000 in
/-- The body at point t, whichever branches it takes: the inputs are handed back as found, the output buffer, the
    accumulator and the scaled-columns scratch at their next contents. -/
theorem step_triple (c : Dev nD) (E : Set ℕ) (t : Fin cfg1.N)
    (arg2 : Memref sig .tc .vmem S2048x4096 .bf16) (harg2 : arg2.IsWhole) (arg3 : Memref sig .tc .vmem S512x512 .f32) (harg3 : arg3.IsWhole)
    (arg4 : Memref sig .tc .vmem S2048x128 .f32) (harg4 : arg4.IsWhole) (arg5 : Memref sig .tc .vmem S128x1 .f32) (harg5 : arg5.IsWhole)
    (arg6 : Memref sig .tc .vmem S4096x16 .f32) (harg6 : arg6.IsWhole) (arg7 : Memref sig .tc .vmem S16x16 .f32) (harg7 : arg7.IsWhole)
    (arg8 : Memref sig .tc .vmem S1x16 .f32) (harg8 : arg8.IsWhole) (arg9 : Memref sig .tc .vmem S4096x16 .f32) (harg9 : arg9.IsWhole)
    (arg10 : Memref sig .tc .vmem S4096x16 .f32) (harg10 : arg10.IsWhole) (arg11 : Memref sig .tc .vmem S2048x512 .bf16) (harg11 : arg11.IsWhole)
    (y a : Vec F S4096x16 .f32) (s : Vec F S2048x512 .bf16) (K : PUnit → sProp 𝕄)
    (hs : ¬ t.val % 8 = 0 → s = dAt V c t.val t.isLt) :
    iprop(owns (c : Thread nD τ) arg2 fullShare (iblk V c 0 t) ∗ owns (c : Thread nD τ) arg3 fullShare (iblk V c 1 t) ∗ owns (c : Thread nD τ) arg4 fullShare (iblk V c 2 t)
        ∗ owns (c : Thread nD τ) arg5 fullShare (iblk V c 3 t) ∗ owns (c : Thread nD τ) arg6 fullShare (iblk V c 4 t) ∗ owns (c : Thread nD τ) arg7 fullShare (iblk V c 5 t)
        ∗ owns (c : Thread nD τ) arg8 fullShare (iblk V c 6 t) ∗ owns (c : Thread nD τ) arg9 fullShare y ∗ owns (c : Thread nD τ) arg10 fullShare a
        ∗ owns (c : Thread nD τ) arg11 fullShare s
        ∗ (iprop(owns (c : Thread nD τ) arg2 fullShare (iblk V c 0 t) ∗ owns (c : Thread nD τ) arg3 fullShare (iblk V c 1 t) ∗ owns (c : Thread nD τ) arg4 fullShare (iblk V c 2 t)
            ∗ owns (c : Thread nD τ) arg5 fullShare (iblk V c 3 t) ∗ owns (c : Thread nD τ) arg6 fullShare (iblk V c 4 t) ∗ owns (c : Thread nD τ) arg7 fullShare (iblk V c 5 t)
            ∗ owns (c : Thread nD τ) arg8 fullShare (iblk V c 6 t) ∗ owns (c : Thread nD τ) arg9 fullShare (outStep V c t a y) ∗ owns (c : Thread nD τ) arg10 fullShare (accStep V c t a)
            ∗ owns (c : Thread nD τ) arg11 fullShare (dAt V c t.val t.isLt)) -∗ K ⟨⟩))
      ⊢ wp frame (wpE (defs₀ (F := F)) Variants.none c none) E (cc1__edge_kernel (grid1.coords t) arg2 harg2 arg3 harg3 arg4 harg4 arg5 harg5 arg6 harg6 arg7 harg7 arg8 harg8 arg9 harg9 arg10 harg10 arg11 harg11) K := by
  by_cases h0 : t.val % 8 = 0
  · by_cases h8 : t.val < 8
    · have ea : accStep V c t a = accStart (grid1.coords t) ((hcond2 t).mpr h8) (iblk V c 0 t) (iblk V c 1 t) (iblk V c 4 t) (iblk V c 5 t) (iblk V c 6 t) (dAt V c t.val t.isLt) a := by
        unfold accStep startVal; rw [if_pos h8, accStart_rows]
      have ey : outStep V c t a y = y := by unfold outStep; rw [if_neg (by omega)]
      rw [ea, ey]
      rw [dAt_start V c t h0]
      exact case_first_start c E (grid1.coords t) arg2 harg2 arg3 harg3 arg4 harg4 arg5 harg5 arg6 harg6 arg7 harg7 arg8 harg8 arg9 harg9 arg10 harg10 arg11 harg11 ((hcond1 t).mpr h0) ((hcond2 t).mpr h8) (fun h => absurd ((hcond3 t).mp h).1 (by omega)) (fun h => absurd ((hcond4 t).mp h) (by omega)) (iblk V c 0 t) (iblk V c 1 t) (iblk V c 2 t) (iblk V c 3 t) (iblk V c 4 t) (iblk V c 5 t) (iblk V c 6 t) y a _ K
    · by_cases h56 : t.val < 56
      · have ea : accStep V c t a = accAdd (grid1.coords t) ((hcond3 t).mpr ⟨by omega, h56⟩) (iblk V c 0 t) (iblk V c 1 t) (iblk V c 4 t) (iblk V c 5 t) (dAt V c t.val t.isLt) a := by
          unfold accStep addVal; rw [if_neg h8, if_pos h56, accAdd_rows]
        have ey : outStep V c t a y = y := by unfold outStep; rw [if_neg (by omega)]
        rw [ea, ey]
        rw [dAt_start V c t h0]
        exact case_first_add c E (grid1.coords t) arg2 harg2 arg3 harg3 arg4 harg4 arg5 harg5 arg6 harg6 arg7 harg7 arg8 harg8 arg9 harg9 arg10 harg10 arg11 harg11 ((hcond1 t).mpr h0) (fun h => h8 ((hcond2 t).mp h)) ((hcond3 t).mpr ⟨by omega, h56⟩) (fun h => absurd ((hcond4 t).mp h) (by omega)) (iblk V c 0 t) (iblk V c 1 t) (iblk V c 2 t) (iblk V c 3 t) (iblk V c 4 t) (iblk V c 5 t) (iblk V c 6 t) y a _ K
      · have ea : accStep V c t a = a := by unfold accStep; rw [if_neg h8, if_neg h56]
        have ey : outStep V c t a y = outRows (grid1.coords t) ((hcond4 t).mpr (by omega)) (iblk V c 0 t) (iblk V c 1 t) (iblk V c 4 t) (iblk V c 5 t) (dAt V c t.val t.isLt) a y := by
          unfold outStep outVal contribAt; rw [if_pos (by omega), outRows_rows]
        rw [ea, ey]
        rw [dAt_start V c t h0]
        exact case_first_out c E (grid1.coords t) arg2 harg2 arg3 harg3 arg4 harg4 arg5 harg5 arg6 harg6 arg7 harg7 arg8 harg8 arg9 harg9 arg10 harg10 arg11 harg11 ((hcond1 t).mpr h0) (fun h => h8 ((hcond2 t).mp h)) (fun h => h56 ((hcond3 t).mp h).2) ((hcond4 t).mpr (by omega)) (iblk V c 0 t) (iblk V c 1 t) (iblk V c 2 t) (iblk V c 3 t) (iblk V c 4 t) (iblk V c 5 t) (iblk V c 6 t) y a _ K
  · by_cases h8 : t.val < 8
    · have ea : accStep V c t a = accStart (grid1.coords t) ((hcond2 t).mpr h8) (iblk V c 0 t) (iblk V c 1 t) (iblk V c 4 t) (iblk V c 5 t) (iblk V c 6 t) (dAt V c t.val t.isLt) a := by
        unfold accStep startVal; rw [if_pos h8, accStart_rows]
      have ey : outStep V c t a y = y := by unfold outStep; rw [if_neg (by omega)]
      rw [ea, ey]
      obtain rfl := hs h0
      exact case_later_start c E (grid1.coords t) arg2 harg2 arg3 harg3 arg4 harg4 arg5 harg5 arg6 harg6 arg7 harg7 arg8 harg8 arg9 harg9 arg10 harg10 arg11 harg11 (fun h => h0 ((hcond1 t).mp h)) ((hcond2 t).mpr h8) (fun h => absurd ((hcond3 t).mp h).1 (by omega)) (fun h => absurd ((hcond4 t).mp h) (by omega)) (iblk V c 0 t) (iblk V c 1 t) (iblk V c 2 t) (iblk V c 3 t) (iblk V c 4 t) (iblk V c 5 t) (iblk V c 6 t) y a _ K
    · by_cases h56 : t.val < 56
      · have ea : accStep V c t a = accAdd (grid1.coords t) ((hcond3 t).mpr ⟨by omega, h56⟩) (iblk V c 0 t) (iblk V c 1 t) (iblk V c 4 t) (iblk V c 5 t) (dAt V c t.val t.isLt) a := by
          unfold accStep addVal; rw [if_neg h8, if_pos h56, accAdd_rows]
        have ey : outStep V c t a y = y := by unfold outStep; rw [if_neg (by omega)]
        rw [ea, ey]
        obtain rfl := hs h0
        exact case_later_add c E (grid1.coords t) arg2 harg2 arg3 harg3 arg4 harg4 arg5 harg5 arg6 harg6 arg7 harg7 arg8 harg8 arg9 harg9 arg10 harg10 arg11 harg11 (fun h => h0 ((hcond1 t).mp h)) (fun h => h8 ((hcond2 t).mp h)) ((hcond3 t).mpr ⟨by omega, h56⟩) (fun h => absurd ((hcond4 t).mp h) (by omega)) (iblk V c 0 t) (iblk V c 1 t) (iblk V c 2 t) (iblk V c 3 t) (iblk V c 4 t) (iblk V c 5 t) (iblk V c 6 t) y a _ K
      · have ea : accStep V c t a = a := by unfold accStep; rw [if_neg h8, if_neg h56]
        have ey : outStep V c t a y = outRows (grid1.coords t) ((hcond4 t).mpr (by omega)) (iblk V c 0 t) (iblk V c 1 t) (iblk V c 4 t) (iblk V c 5 t) (dAt V c t.val t.isLt) a y := by
          unfold outStep outVal contribAt; rw [if_pos (by omega), outRows_rows]
        rw [ea, ey]
        obtain rfl := hs h0
        exact case_later_out c E (grid1.coords t) arg2 harg2 arg3 harg3 arg4 harg4 arg5 harg5 arg6 harg6 arg7 harg7 arg8 harg8 arg9 harg9 arg10 harg10 arg11 harg11 (fun h => h0 ((hcond1 t).mp h)) (fun h => h8 ((hcond2 t).mp h)) (fun h => h56 ((hcond3 t).mp h).2) ((hcond4 t).mpr (by omega)) (iblk V c 0 t) (iblk V c 1 t) (iblk V c 2 t) (iblk V c 3 t) (iblk V c 4 t) (iblk V c 5 t) (iblk V c 6 t) y a _ K

/-! ### The invariant -/

/-- The accumulator scratch and the scaled-columns scratch as operands. -/
abbrev scAcc : Memref sig .tc .vmem S4096x16 .f32 := Memref.whole cc1_scratch0
abbrev scD : Memref sig .tc .vmem S2048x512 .bf16 := Memref.whole cc1_scratch1

/-- The core's other scoped buffers that this region does not stage (the first region's), each at some contents. -/
def restS (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f))

/-- The same in front of one more conjunct. -/
def restW (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ P)

theorem restW_split (c : Dev nD) (P : sProp 𝕄) : restW c P ⊢ iprop(restS (F := F) c ∗ P) := by
  unfold restW restS
  iintro ⟨R0, R1, R2, R3, R4, R5, R6, R7, R8, R9, R10, HP⟩
  isplitl [R0 R1 R2 R3 R4 R5 R6 R7 R8 R9 R10]
  · isplitl [R0]
    · iexact R0
    isplitl [R1]
    · iexact R1
    isplitl [R2]
    · iexact R2
    isplitl [R3]
    · iexact R3
    isplitl [R4]
    · iexact R4
    isplitl [R5]
    · iexact R5
    isplitl [R6]
    · iexact R6
    isplitl [R7]
    · iexact R7
    isplitl [R8]
    · iexact R8
    isplitl [R9]
    · iexact R9
    iexact R10
  iexact HP

theorem restW_join (c : Dev nD) (P : sProp 𝕄) : iprop(restS (F := F) c ∗ P) ⊢ restW c P := by
  unfold restW restS
  iintro ⟨⟨R0, R1, R2, R3, R4, R5, R6, R7, R8, R9, R10⟩, HP⟩
  isplitl [R0]
  · iexact R0
  isplitl [R1]
  · iexact R1
  isplitl [R2]
  · iexact R2
  isplitl [R3]
  · iexact R3
  isplitl [R4]
  · iexact R4
  isplitl [R5]
  · iexact R5
  isplitl [R6]
  · iexact R6
  isplitl [R7]
  · iexact R7
  isplitl [R8]
  · iexact R8
  isplitl [R9]
  · iexact R9
  isplitl [R10]
  · iexact R10
  iexact HP

/-- The class invariant with the two scratches as memrefs owned at some contents. -/
theorem PhiA_eq (c : Dev nD) :
    (Pipeline.ΦA spec1 c : sProp 𝕄)
      = iprop(restW c (iprop((∃ a, owns (c : Thread nD τ) scAcc fullShare a) ∗ (∃ d, owns (c : Thread nD τ) scD fullShare d))) ∗ (∃ r, prngReg c r)) := by
  unfold Pipeline.ΦA restW; rw [scopedRest1_eq]; simp only [scAcc, scD, owns_whole]; rfl

theorem PhiA_open (c : Dev nD) :
    (Pipeline.ΦA spec1 c : sProp 𝕄)
      ⊢ iprop((restS c ∗ (∃ a, owns (c : Thread nD τ) scAcc fullShare a) ∗ (∃ d, owns (c : Thread nD τ) scD fullShare d)) ∗ (∃ r, prngReg c r)) := by
  rw [PhiA_eq]
  exact sep_mono (restW_split c _) .rfl

theorem PhiA_close (c : Dev nD) :
    iprop((restS c ∗ (∃ a, owns (c : Thread nD τ) scAcc fullShare a) ∗ (∃ d, owns (c : Thread nD τ) scD fullShare d)) ∗ (∃ r, prngReg c r))
      ⊢ (Pipeline.ΦA spec1 c : sProp 𝕄) := by
  rw [PhiA_eq]
  exact sep_mono (restW_join c _) .rfl

/-- The region invariant before position n: at first every scoped buffer at anything; afterwards the accumulator at
    contents whose stored row blocks are at their stage of the sum, and the scaled-columns scratch at what the point
    before left in it. -/
def PhiS (c : Dev nD) : (n : ℕ) → n ≤ cfg1.N → sProp 𝕄
  | 0, _ => Pipeline.ΦA spec1 c
  | n + 1, hn => iprop((restS c ∗ (∃ a, ⌜AccInv V c n a⌝ ∗ owns (c : Thread nD τ) scAcc fullShare a)
      ∗ owns (c : Thread nD τ) scD fullShare (dAt V c n hn)) ∗ (∃ r, prngReg c r))

/-- Whatever the position, the invariant holds the two scratches; after the first point, at what the point before
    left. -/
theorem PhiS_open (c : Dev nD) (n : ℕ) (h : n ≤ cfg1.N) :
    PhiS V c n h ⊢ iprop((restS c ∗ (∃ a, ⌜n = 0 ∨ AccInv V c (n - 1) a⌝ ∗ owns (c : Thread nD τ) scAcc fullShare a)
      ∗ (∃ d, ⌜∀ h0 : n ≠ 0, d = dAt V c (n - 1) (by omega)⌝ ∗ owns (c : Thread nD τ) scD fullShare d)) ∗ (∃ r, prngReg c r)) := by
  cases n with
  | zero =>
    rw [show PhiS V c 0 h = Pipeline.ΦA spec1 c from rfl]
    refine (PhiA_open c).trans ?_
    iintro ⟨⟨HR, ⟨%a, HA⟩, ⟨%d, HD⟩⟩, Hg⟩
    isplitl [HR HA HD]
    · isplitl [HR]
      · iexact HR
      isplitl [HA]
      · iexists a; isplitr
        · ipureintro; exact Or.inl rfl
        iexact HA
      iexists d; isplitr
      · ipureintro; intro h0; exact absurd rfl h0
      iexact HD
    iexact Hg
  | succ n =>
    rw [show PhiS V c (n + 1) h = iprop((restS c ∗ (∃ a, ⌜AccInv V c n a⌝ ∗ owns (c : Thread nD τ) scAcc fullShare a)
      ∗ owns (c : Thread nD τ) scD fullShare (dAt V c n h)) ∗ (∃ r, prngReg c r)) from rfl]
    iintro ⟨⟨HR, ⟨%a, %ha, HA⟩, HD⟩, Hg⟩
    isplitl [HR HA HD]
    · isplitl [HR]
      · iexact HR
      isplitl [HA]
      · iexists a; isplitr
        · ipureintro; exact Or.inr ha
        iexact HA
      iexists _; isplitr
      swap
      · iexact HD
      ipureintro; intro _; rfl
    iexact Hg

/-- Whatever the position, the invariant gives back the class invariant. -/
theorem PhiS_close (c : Dev nD) (n : ℕ) (h : n ≤ cfg1.N) : PhiS V c n h ⊢ (Pipeline.ΦA spec1 c : sProp 𝕄) := by
  refine (PhiS_open V c n h).trans ?_
  refine .trans ?_ (PhiA_close c)
  iintro ⟨⟨HR, ⟨%a, %ha, HA⟩, ⟨%d, %hd, HD⟩⟩, Hg⟩
  isplitl [HR HA HD]
  · isplitl [HR]
    · iexact HR
    isplitl [HA]
    · iexists a; iexact HA
    iexists d; iexact HD
  iexact Hg

/-! ### The proof data and the body obligation -/

/-- The output buffer after point t, from what it held before: in the last run of eight its row block is written from
    the finished accumulator block plus the point's contribution. -/
def outFin (c : Dev nD) (t : Fin cfg1.N) (y : Vec F S4096x16 .f32) : Vec F S4096x16 .f32 :=
  if 56 ≤ t.val then (rows (rowOf t)).overlay y (outVal V c t (rowAcc V c (rowOf t) 6)) else y

theorem outStep_eq (c : Dev nD) (t : Fin cfg1.N) (a y : Vec F S4096x16 .f32) (h : t.val = 0 ∨ AccInv V c (t.val - 1) a) :
    outStep V c t a y = outFin V c t y := by
  unfold outStep outFin
  by_cases h56 : 56 ≤ t.val
  · rw [if_pos h56, if_pos h56, AccInv_last V c t h56 a (h.resolve_left (by omega))]
  · rw [if_neg h56, if_neg h56]

/-- The relational proof data of the edge region on core c. -/
def rd (c : Dev nD) : RDat τ (Elt F) Unit ℕ (UR sig nD τ) ℕ cfg1 c where
  A w := V c (Pipeline.arrRef spec1 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = outFin V c t Y
  Φ t := PhiS V c t.val (Nat.le_of_lt_succ t.isLt)
  q _ := fullShare
  owed _ := 0

set_option maxHeartbeats 2000000 in
/-- The body obligation: at every point, from the invariant and the windows' buffers at what they may hold, the body
    runs to the invariant at the next point and every buffer in its relation to what it was handed. -/
theorem body_obligation (c : Dev nD) : (rd V c).BodyObligation (defs₀ (F := F)) Variants.none () Set.univ := by
  intro t Y hY
  have e0 : Y 0 = iblk V c 0 t := by
    obtain ⟨d, hd⟩ := Pipeline.RDat.finds_in_eq_fetched (rd V c) 0 rfl (fun _ _ _ => rfl) (fun _ _ _ h => h) t (Y 0) (hY 0)
    rw [hd]; unfold RDat.fetched RDat.blockOf iblk; rfl
  have e1 : Y 1 = iblk V c 1 t := by
    obtain ⟨d, hd⟩ := Pipeline.RDat.finds_in_eq_fetched (rd V c) 1 rfl (fun _ _ _ => rfl) (fun _ _ _ h => h) t (Y 1) (hY 1)
    rw [hd]; unfold RDat.fetched RDat.blockOf iblk; rfl
  have e2 : Y 2 = iblk V c 2 t := by
    obtain ⟨d, hd⟩ := Pipeline.RDat.finds_in_eq_fetched (rd V c) 2 rfl (fun _ _ _ => rfl) (fun _ _ _ h => h) t (Y 2) (hY 2)
    rw [hd]; unfold RDat.fetched RDat.blockOf iblk; rfl
  have e3 : Y 3 = iblk V c 3 t := by
    obtain ⟨d, hd⟩ := Pipeline.RDat.finds_in_eq_fetched (rd V c) 3 rfl (fun _ _ _ => rfl) (fun _ _ _ h => h) t (Y 3) (hY 3)
    rw [hd]; unfold RDat.fetched RDat.blockOf iblk; rfl
  have e4 : Y 4 = iblk V c 4 t := by
    obtain ⟨d, hd⟩ := Pipeline.RDat.finds_in_eq_fetched (rd V c) 4 rfl (fun _ _ _ => rfl) (fun _ _ _ h => h) t (Y 4) (hY 4)
    rw [hd]; unfold RDat.fetched RDat.blockOf iblk; rfl
  have e5 : Y 5 = iblk V c 5 t := by
    obtain ⟨d, hd⟩ := Pipeline.RDat.finds_in_eq_fetched (rd V c) 5 rfl (fun _ _ _ => rfl) (fun _ _ _ h => h) t (Y 5) (hY 5)
    rw [hd]; unfold RDat.fetched RDat.blockOf iblk; rfl
  have e6 : Y 6 = iblk V c 6 t := by
    obtain ⟨d, hd⟩ := Pipeline.RDat.finds_in_eq_fetched (rd V c) 6 rfl (fun _ _ _ => rfl) (fun _ _ _ h => h) t (Y 6) (hY 6)
    rw [hd]; unfold RDat.fetched RDat.blockOf iblk; rfl
  rw [bigSep_W1, bigSep_W1, e0, e1, e2, e3, e4, e5, e6]
  show _ ⊢ wp frame (wpE (defs₀ (F := F)) Variants.none c none) Set.univ (bodyAt1 t) _
  rw [show (rd V c).owesAt () t.succ = (rd V c).owesAt () t.castSucc from rfl]
  rw [show (rd V c).Φ t.succ = iprop((restS c ∗ (∃ a, ⌜AccInv V c t.val a⌝ ∗ owns (c : Thread nD τ) scAcc fullShare a)
      ∗ owns (c : Thread nD τ) scD fullShare (dAt V c t.val t.isLt)) ∗ (∃ r, prngReg c r)) from rfl]
  rw [show (rd V c).Φ t.castSucc = PhiS V c t.val (Nat.le_of_lt t.isLt) from rfl]
  unfold bodyAt1
  iintro ⟨HΦ, Ho, H0, H1, H2, H3, H4, H5, H6, H7⟩
  ihave HΦ' := (PhiS_open V c t.val (Nat.le_of_lt t.isLt)) $$ HΦ
  icases HΦ' with ⟨⟨HR, ⟨%a, %ha, HA⟩, ⟨%d, %hd, HD⟩⟩, Hg⟩
  iapply (step_triple V c Set.univ t _ _ _ _ _ _ _ _ _ _ _ _ _ _ _ _ _ _ _ _ (Y 7) a d _
    (fun h0 => (hd (fun e => h0 (by rw [e]))).trans (dAt_keep V c t h0).symm))
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [HA]
  · iexact HA
  isplitl [HD]
  · iexact HD
  iintro ⟨H0, H1, H2, H3, H4, H5, H6, H7, HA, HD⟩
  isplitl [HR HA HD Hg]
  · isplitl [HR HA HD]
    · isplitl [HR]
      · iexact HR
      isplitl [HA]
      · iexists _; isplitr
        · ipureintro; exact AccInv_step V c t a ha
        iexact HA
      iexact HD
    iexact Hg
  isplitl [Ho]
  · iexact Ho
  isplitl [H0]
  · iexists _; isplitr
    · ipureintro; exact rfl
    iexact H0
  isplitl [H1]
  · iexists _; isplitr
    · ipureintro; exact rfl
    iexact H1
  isplitl [H2]
  · iexists _; isplitr
    · ipureintro; exact rfl
    iexact H2
  isplitl [H3]
  · iexists _; isplitr
    · ipureintro; exact rfl
    iexact H3
  isplitl [H4]
  · iexists _; isplitr
    · ipureintro; exact rfl
    iexact H4
  isplitl [H5]
  · iexists _; isplitr
    · ipureintro; exact rfl
    iexact H5
  isplitl [H6]
  · iexists _; isplitr
    · ipureintro; exact rfl
    iexact H6
  iexists _; isplitr
  swap
  · iexact H7
  ipureintro; exact outStep_eq V c t a (Y 7) ha

theorem hin (c : Dev nD) : (Pipeline.ΦA spec1 c : sProp 𝕄) ⊢ (rd V c).Φ 0 := by
  rw [show (rd V c).Φ 0 = PhiS V c 0 (Nat.zero_le _) from rfl]
  exact BI.Entails.refl _

theorem hout (c : Dev nD) : (rd V c).Φ (Fin.last cfg1.N) ⊢ (Pipeline.ΦA spec1 c : sProp 𝕄) := by
  rw [show (rd V c).Φ (Fin.last cfg1.N) = PhiS V c cfg1.N (Nat.le_refl _) from rfl]
  exact PhiS_close V c _ _

/-! ### What the result array ends holding -/

/-- Row block r of the result: the finished accumulator block plus the last contribution. -/
def finalRow (c : Dev nD) (r : Fin 8) : Vec F S512x16 .f32 :=
  outVal V c (pt (56 + r.val)) (rowAcc V c r 6)

/-- The row block of an index of the result, and the index inside it. -/
def rowIx (idx : S4096x16.Idx) : Fin 8 := ⟨(idx 0).val / 512, by
  have h : (idx 0).val < 4096 := (idx 0).isLt
  omega⟩
def locIx (idx : S4096x16.Idx) : S512x16.Idx :=
  ValueIdx.ix2 (⟨(idx 0).val % 512, Nat.mod_lt _ (by decide)⟩ : Fin 512) ((idx 1 : Fin 16))

/-- The result, index by index. -/
def outFn (c : Dev nD) : S4096x16.Idx → Elt F .f32 := fun idx => finalRow V c (rowIx idx) (locIx idx)

theorem rowIx_emb (r : Fin 8) (x : S512x16.Idx) : rowIx ((rows r).emb x) = r := by
  have h0 : (((rows r).emb x) 0).val = 512 * r.val + 1 * (x 0).val := rfl
  have hx : (x 0).val < 512 := (x 0).isLt
  apply Fin.ext
  show (((rows r).emb x) 0).val / 512 = r.val
  rw [h0]; omega

theorem locIx_emb (r : Fin 8) (x : S512x16.Idx) : locIx ((rows r).emb x) = x := by
  have h0 : (((rows r).emb x) 0).val = 512 * r.val + 1 * (x 0).val := rfl
  have h1 : (((rows r).emb x) 1).val = 0 + 1 * (x 1).val := rfl
  have hx : (x 0).val < 512 := (x 0).isLt
  funext a
  apply Fin.ext
  match a with
  | ⟨0, _⟩ => show (((rows r).emb x) 0).val % 512 = (x 0).val; rw [h0]; omega
  | ⟨1, _⟩ => show (((rows r).emb x) 1).val = (x 1).val; rw [h1]; omega

theorem mem_rows_iff (r : Fin 8) (j : S4096x16.Idx) : j ∈ (rows r).set ↔ (j 0).val / 512 = r.val := by
  rw [Rect.mem_set_unit]
  have hj1 : (j 1).val < 16 := (j 1).isLt
  constructor
  · intro h
    have h0 := h 0
    have e2 : (![512 * r.val, 0] : Fin 2 → ℕ) 0 = 512 * r.val := rfl
    have e3 : S512x16.size 0 = 512 := rfl
    rw [e2, e3] at h0
    omega
  · intro h a
    match a with
    | ⟨0, _⟩ =>
      show 512 * r.val ≤ (j 0).val ∧ (j 0).val < 512 * r.val + 512
      omega
    | ⟨1, _⟩ =>
      show 0 ≤ (j 1).val ∧ (j 1).val < 0 + 16
      omega

/-- The result window is never fetched, its block index is constant, and only the last point writes it back. -/
theorem hfetch7 : ∀ t : Fin cfg1.N, (cfg1.win 7).fetch t = false :=
  (by decide +kernel : ∀ t : Fin grid1.N, win1_7.fetch t = false)
theorem hindex7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)

/-- What the body may leave in the result's buffer at a point of the last run: the row blocks written so far. -/
theorem leaves7 (c : Dev nD) (t : Fin cfg1.N) (X : S4096x16.Idx → Elt F .f32) (hX : (rd V c).Leaves 7 t X)
    (j : S4096x16.Idx) (h56 : 56 ≤ t.val) (hj : (j 0).val / 512 ≤ t.val - 56) : X j = outFn V c j := by
  refine Cert.LibRelDetermined.leaves_determined (rd V c) 7 hfetch7
    (fun t (j : S4096x16.Idx) => 56 ≤ t.val ∧ (j 0).val / 512 ≤ t.val - 56) (fun _ (j : S4096x16.Idx) => outFn V c j)
    ?_ ?_ t X hX j ⟨h56, hj⟩
  · intro t Y X h0 _ j hS
    have ht := lt64 t
    rcases h0 with h0 | h0
    · omega
    · have := (flush1_7 _).mp h0
      have e : (⟨t.val - 1, Nat.lt_of_le_of_lt (Nat.sub_le _ _) t.isLt⟩ : Fin cfg1.N).val = t.val - 1 := rfl
      rw [e] at this
      omega
  · intro t ht0 Y X _ hY haft j hS
    have ht := lt64 t
    have e : (⟨t.val - 1, Nat.lt_of_le_of_lt (Nat.sub_le _ _) t.isLt⟩ : Fin cfg1.N).val = t.val - 1 := rfl
    have hX : X = outFin V c t Y := haft
    rw [hX]; unfold outFin; rw [if_pos hS.1]
    by_cases hjr : (j 0).val / 512 = t.val - 56
    · have hr : (rowOf t).val = t.val - 56 := by show t.val % 8 = t.val - 56; omega
      have hm : j ∈ (rows (rowOf t)).set := (mem_rows_iff _ j).mpr (by rw [hr]; exact hjr)
      obtain ⟨x, rfl⟩ : ∃ x, (rows (rowOf t)).emb x = j := (rows (rowOf t)).exists_idx_of_mem hm
      rw [Rect.overlay_emb]
      show _ = finalRow V c (rowIx ((rows (rowOf t)).emb x)) (locIx ((rows (rowOf t)).emb x))
      rw [rowIx_emb, locIx_emb]
      unfold finalRow
      rw [pt_of_lt t (by show 56 + t.val % 8 = t.val; omega)]
    · have hm : j ∉ (rows (rowOf t)).set := fun hm => by
        have := (mem_rows_iff _ j).mp hm
        have hr : (rowOf t).val = t.val - 56 := by show t.val % 8 = t.val - 56; omega
        omega
      rw [Rect.overlay_of_not_mem _ _ _ hm]
      exact hY j ⟨by rw [e]; omega, by rw [e]; omega⟩

/-- What the result array ends holding. -/
def outArr (c : Dev nD) : Buf (Elt F) ((c : Thread nD τ).loc main_v4) := outFn V c

theorem arrAt_out (c : Dev nD) (G : Buf (Elt F) (((cfg1.win 7).arr.view.loc (c.tc : Thread nD τ)))) :
    (rd V c).ArrAt 7 cfg1.N G → G = outArr V c := by
  refine Cert.LibRelDetermined.ArrAt_eq_of_cover (rd V c) 7 (outArr V c) ?_ ?_ G
  · intro t hf X hX
    have ht := lt64 t
    have h63 : t.val = 63 := by have := (flush1_7 t).mp hf; omega
    obtain ⟨i0, i1⟩ := hindex7 t
    funext j
    show X ((cfg1.win 7).xinj (grid1.coords t) j) = outFn V c (((cfg1.win 7).blk t).view.emb j)
    rw [leaves7 V c t X hX _ (by omega) (by
      have hj : (j 0).val < 4096 := (j 0).isLt
      show (j 0).val / 512 ≤ t.val - 56
      omega)]
    congr 1
    funext a
    apply Fin.ext
    match a with
    | ⟨0, _⟩ => show (j 0).val = win1_7.index t (0 : Fin 2) * 4096 + 1 * (j 0).val; rw [i0]; omega
    | ⟨1, _⟩ => show (j 1).val = win1_7.index t (1 : Fin 2) * 16 + 1 * (j 1).val; rw [i1]; omega
  · intro i
    have h63 : (63 : ℕ) < cfg1.N := by rw [N1]; decide
    refine ⟨⟨63, h63⟩, (flush1_7 _).mpr rfl, ?_⟩
    obtain ⟨i0, i1⟩ := hindex7 ⟨63, h63⟩
    show i ∈ ((View.whole main_v4).slice (win1_7.rect ⟨63, h63⟩)).set
    rw [View.set_slice_whole, Rect.mem_set_unit]
    have hi0 : (i 0).val < 4096 := (i 0).isLt
    have hi1 : (i 1).val < 16 := (i 1).isLt
    intro a
    match a with
    | ⟨0, _⟩ => show win1_7.index ⟨63, h63⟩ (0 : Fin 2) * 4096 ≤ (i 0).val ∧ (i 0).val < win1_7.index ⟨63, h63⟩ (0 : Fin 2) * 4096 + 4096; rw [i0]; omega
    | ⟨1, _⟩ => show win1_7.index ⟨63, h63⟩ (1 : Fin 2) * 16 ≤ (i 1).val ∧ (i 1).val < win1_7.index ⟨63, h63⟩ (1 : Fin 2) * 16 + 16; rw [i1]; omega

end Cert.Kernel.Edge

end
-- ==== Proof.K.Run.lean ====
import proofs.«151053_g24051816857981_cont_8to1_1327_4_alg».proof.Proof.K.NodeOut
import proofs.«151053_g24051816857981_cont_8to1_1327_4_alg».proof.Proof.K.EdgeData
import proofs.«151053_g24051816857981_cont_8to1_1327_4_alg».proof.Proof.LibRelDetermined
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151053_g24051816857981_cont_8to1_1327_4_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of the program -/

/-- Core c's buffers at launch. -/
abbrev W0 : Dev nD → Valuation τ sig (Elt F) := fun c b => m (c, b)
/-- After the host operations (the node region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- The node region's arrays at its exit: the inputs as entered, the result array at what the write-backs leave. -/
def G0 (c : Dev nD) : (w : Fin cfg0.W) → Buf (Elt F) ((cfg0.win w).arr.view.loc (c.tc : Thread nD τ))
  | ⟨0, _⟩ => (Node.rd (V1 m) c).A 0
  | ⟨1, _⟩ => (Node.rd (V1 m) c).A 1
  | ⟨2, _⟩ => (Node.rd (V1 m) c).A 2
  | ⟨3, _⟩ => (Node.rd (V1 m) c).A 3
  | ⟨4, _⟩ => (Node.rd (V1 m) c).A 4
  | ⟨5, _⟩ => (Node.rd (V1 m) c).A 5
  | ⟨6, _⟩ => (Node.rd (V1 m) c).A 6
  | ⟨7, _⟩ => Node.outArr (V1 m) c

/-- At the node region's exit (the edge region's entry). -/
def W2 (c : Dev nD) : Valuation τ sig (Elt F) := Pipeline.withArrays spec0 c (W1 m c) (G0 m c)
theorem W2_arr (c : Dev nD) (w : Fin cfg0.W) : W2 m c (Proc.devRef .tc (Pipeline.arrRef spec0 w)) = G0 m c w := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : G0 m c w = V2 m c (Pipeline.arrRef spec0 w) := (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- The edge region's arrays at its exit. -/
def G1 (c : Dev nD) : (w : Fin cfg1.W) → Buf (Elt F) ((cfg1.win w).arr.view.loc (c.tc : Thread nD τ))
  | ⟨0, _⟩ => (Edge.rd (V2 m) c).A 0
  | ⟨1, _⟩ => (Edge.rd (V2 m) c).A 1
  | ⟨2, _⟩ => (Edge.rd (V2 m) c).A 2
  | ⟨3, _⟩ => (Edge.rd (V2 m) c).A 3
  | ⟨4, _⟩ => (Edge.rd (V2 m) c).A 4
  | ⟨5, _⟩ => (Edge.rd (V2 m) c).A 5
  | ⟨6, _⟩ => (Edge.rd (V2 m) c).A 6
  | ⟨7, _⟩ => Edge.outArr (V2 m) c

/-- At the edge region's exit (the program's end). -/
def W3 (c : Dev nD) : Valuation τ sig (Elt F) := Pipeline.withArrays spec1 c (W2 m c) (G1 m c)
theorem W3_arr (c : Dev nD) (w : Fin cfg1.W) : W3 m c (Proc.devRef .tc (Pipeline.arrRef spec1 w)) = G1 m c w := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : G1 m c w = V3 m c (Pipeline.arrRef spec1 w) := (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and the thread state -/

abbrev adm : (p : Fin 2) → (pcfgs (F := F) p).Adm := fun p => (cfgs p).toPCfg_adm

/-- Every region's relational proof data, each at its region's entry contents. -/
def rdats : (p : Fin 2) → (c : Dev nD) → RDat τ (Elt F) Unit ℕ (UR sig nD τ) ℕ (Pipeline.pin (pcfgs (F := F)) adm p) c
  | ⟨0, _⟩ => fun c => Node.rd (V1 m) c
  | ⟨1, _⟩ => fun c => Edge.rd (V2 m) c

abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

/-- Arrays that may hold only named contents after the write-backs are held at those contents. -/
theorem arraysAt_named {cfg : Cfg sig Λ₀} {c : Dev nD} (rd : RDat τ (Elt F) Unit ℕ (UR sig nD τ) ℕ cfg c) (n : ℕ)
    (G : (w : Fin cfg.W) → Buf (Elt F) ((cfg.win w).arr.view.loc (c.tc : Thread nD τ)))
    (h : ∀ w A, rd.ArrAt w n A → A = G w) : rd.arraysAt n ⊢ rd.arrays G := by
  have key : ∀ w, (iprop(∃ A, ⌜rd.ArrAt w n A⌝ ∗ (cfg.win w).arr.view.loc (c.tc : Thread nD τ) ↦[(cfg.win w).arr.view.set]{rd.share w} A) : sProp 𝕄)
      ⊢ ((cfg.win w).arr.view.loc (c.tc : Thread nD τ) ↦[(cfg.win w).arr.view.set]{rd.share w} G w) := fun w => by
    iintro ⟨%A, %hA, H⟩
    obtain rfl := h w A hA
    iexact H
  unfold RDat.arraysAt RDat.arrays
  exact bigSep_mono fun w _ => key w

/-- The arrays at named contents and the unscoped rest are the core's unscoped buffers at any valuation that has the
    arrays at those contents and agrees with the entry valuation off them. -/
theorem unscopedBufs_of_arraysR {p : Fin 2} (hw : Pipeline.WinFacts (Pipeline.pin (pcfgs (F := F)) adm p).spec)
    (harr : ∀ w, ((Pipeline.pin (pcfgs (F := F)) adm p).spec w).arr.IsWhole) (c : Dev nD)
    (rds : (p : Fin 2) → (c : Dev nD) → RDat τ (Elt F) Unit ℕ (UR sig nD τ) ℕ (Pipeline.pin (pcfgs (F := F)) adm p) c)
    (hshare : ∀ w, (rds p c).share w = fullShare)
    (V V' : (b : Ref sig .tc) → Buf (Elt F) ((c.tc : Thread nD τ).loc b))
    (G : (w : Fin (Pipeline.pin (pcfgs (F := F)) adm p).W) → Buf (Elt F) (((Pipeline.pin (pcfgs (F := F)) adm p).spec w).arr.view.loc (c.tc : Thread nD τ)))
    (hG : ∀ w, G w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rds p c).arrays G ∗ Pipeline.unscopedRest (Pipeline.pin (pcfgs (F := F)) adm p).spec c V) ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm rds p c harr hshare]
  refine sep_mono (Entails.of_eq (bigSep_congr fun w _ => by rw [hG])) (Entails.of_eq ?_)
  unfold Pipeline.unscopedRest
  exact bigSep_congr fun b hb => by rw [hrest b (Finset.mem_sdiff.mp hb).2]

theorem G0_spec (c : Dev nD) : ∀ w A, (Node.rd (V1 m) c).ArrAt w cfg0.N A → A = G0 m c w := by
  intro w
  match w with
  | ⟨0, _⟩ => exact fun A hA => Cert.LibRelDetermined.ArrAt_eq_of_in (Node.rd (V1 m) c) 0 rfl _ A hA
  | ⟨1, _⟩ => exact fun A hA => Cert.LibRelDetermined.ArrAt_eq_of_in (Node.rd (V1 m) c) 1 rfl _ A hA
  | ⟨2, _⟩ => exact fun A hA => Cert.LibRelDetermined.ArrAt_eq_of_in (Node.rd (V1 m) c) 2 rfl _ A hA
  | ⟨3, _⟩ => exact fun A hA => Cert.LibRelDetermined.ArrAt_eq_of_in (Node.rd (V1 m) c) 3 rfl _ A hA
  | ⟨4, _⟩ => exact fun A hA => Cert.LibRelDetermined.ArrAt_eq_of_in (Node.rd (V1 m) c) 4 rfl _ A hA
  | ⟨5, _⟩ => exact fun A hA => Cert.LibRelDetermined.ArrAt_eq_of_in (Node.rd (V1 m) c) 5 rfl _ A hA
  | ⟨6, _⟩ => exact fun A hA => Cert.LibRelDetermined.ArrAt_eq_of_in (Node.rd (V1 m) c) 6 rfl _ A hA
  | ⟨7, _⟩ => exact fun A hA => Node.arrAt_out (V1 m) c A hA

set_option backward.isDefEq.respectTransparency.types false in
/-- Region 0 over the thread state: its arrays split out of the unscoped buffers at entry and put back at the exit
    contents; the generator register into the region invariant and out; nothing owed; no semaphore of the kernel's own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := Node.body_obligation (V1 m) c
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]
    · iexact Ha
    isplitr
    · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr
      · ipureintro; exact fun _ _ => Or.inl trivial
      iexact HO
    isplitl [Hp]
    · iexact Hp
    iexact Hrest
  hin c := by
    have h1 : (iprop((∃ r, prngReg c r) ∗ Pipeline.prefHeld (pcfgs (F := F) 0).pre c (fun _ => fullShare) (adm (F := F) 0).1
        ∗ Pipeline.scopedRest (Pipeline.pin (pcfgs (F := F)) adm 0).spec c) : sProp 𝕄) ⊢ (Pipeline.ΦA spec0 c : sProp 𝕄) := by
      unfold Pipeline.ΦA
      iintro ⟨Hp, -, Hr⟩
      isplitl [Hr]
      · iexact Hr
      iexact Hp
    exact h1.trans (Node.hin (V1 m) c)
  hout c := by
    rw [Pipeline.ownSems0_none]
    have h1 : (Pipeline.ΦA spec0 c : sProp 𝕄) ⊢ (iprop((∃ r, prngReg c r) ∗ BI.emp
        ∗ Pipeline.scopedRest (Pipeline.pin (pcfgs (F := F)) adm 0).spec c) : sProp 𝕄) := by
      unfold Pipeline.ΦA
      iintro ⟨Hr, Hp⟩
      isplitl [Hp]
      · iexact Hp
      isplitr
      · iempintro
      iexact Hr
    exact (Node.hout (V1 m) c).trans h1
  hexit c := by
    have hnamed := arraysAt_named (rdats m 0 c) cfg0.N (G0 m c) (G0_spec m c)
    have hjoin := unscopedBufs_of_arraysR (p := 0) launch0.win launch0.arr_whole c (rdats m) ((rdats m 0 c).share_full fun _ => rfl)
      (V1 m c) (V2 m c) (G0 m c) (hF0 m c) (hrest0 m c)
    rw [Pipeline.unscopedBufs_held] at hjoin
    iintro ⟨Ha, HO, HY, Hrest⟩
    ihave Ha' := hnamed $$ Ha
    imodintro
    isplitl [Ha' Hrest]
    · iapply hjoin; isplitl [Ha'] <;> iassumption
    isplitl [HY]
    · iexact HY
    unfold Pipeline.RDat.owesAt Pipeline.owesWithin
    icases HO with ⟨%W, -, HO⟩; iexists W; iexact HO

theorem G1_spec (c : Dev nD) : ∀ w A, (Edge.rd (V2 m) c).ArrAt w cfg1.N A → A = G1 m c w := by
  intro w
  match w with
  | ⟨0, _⟩ => exact fun A hA => Cert.LibRelDetermined.ArrAt_eq_of_in (Edge.rd (V2 m) c) 0 rfl _ A hA
  | ⟨1, _⟩ => exact fun A hA => Cert.LibRelDetermined.ArrAt_eq_of_in (Edge.rd (V2 m) c) 1 rfl _ A hA
  | ⟨2, _⟩ => exact fun A hA => Cert.LibRelDetermined.ArrAt_eq_of_in (Edge.rd (V2 m) c) 2 rfl _ A hA
  | ⟨3, _⟩ => exact fun A hA => Cert.LibRelDetermined.ArrAt_eq_of_in (Edge.rd (V2 m) c) 3 rfl _ A hA
  | ⟨4, _⟩ => exact fun A hA => Cert.LibRelDetermined.ArrAt_eq_of_in (Edge.rd (V2 m) c) 4 rfl _ A hA
  | ⟨5, _⟩ => exact fun A hA => Cert.LibRelDetermined.ArrAt_eq_of_in (Edge.rd (V2 m) c) 5 rfl _ A hA
  | ⟨6, _⟩ => exact fun A hA => Cert.LibRelDetermined.ArrAt_eq_of_in (Edge.rd (V2 m) c) 6 rfl _ A hA
  | ⟨7, _⟩ => exact fun A hA => Edge.arrAt_out (V2 m) c A hA

set_option backward.isDefEq.respectTransparency.types false in
/-- Region 1 over the thread state: its arrays split out of the unscoped buffers at entry and put back at the exit
    contents; the generator register into the region invariant and out; nothing owed; no semaphore of the kernel's own. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := Edge.body_obligation (V2 m) c
  hwaits := Pipeline.RDat.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]
    · iexact Ha
    isplitr
    · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr
      · ipureintro; exact fun _ _ => Or.inl trivial
      iexact HO
    isplitl [Hp]
    · iexact Hp
    iexact Hrest
  hin c := by
    have h1 : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ (Pipeline.ΦA spec1 c : sProp 𝕄) := by
      unfold Pipeline.ΦA
      iintro ⟨Hp, -, Hr⟩
      isplitl [Hr]
      · iexact Hr
      iexact Hp
    exact h1.trans (Edge.hin (V2 m) c)
  hout c := by
    rw [Pipeline.ownSems0_none]
    have h1 : (Pipeline.ΦA spec1 c : sProp 𝕄) ⊢ (iprop((∃ r, prngReg c r) ∗ BI.emp
        ∗ Pipeline.scopedRest (Pipeline.pin (pcfgs (F := F)) adm 1).spec c) : sProp 𝕄) := by
      unfold Pipeline.ΦA
      iintro ⟨Hr, Hp⟩
      isplitl [Hp]
      · iexact Hp
      isplitr
      · iempintro
      iexact Hr
    exact (Edge.hout (V2 m) c).trans h1
  hexit c := by
    have hnamed := arraysAt_named (rdats m 1 c) cfg1.N (G1 m c) (G1_spec m c)
    have hjoin := unscopedBufs_of_arraysR (p := 1) launch1.win launch1.arr_whole c (rdats m) ((rdats m 1 c).share_full fun _ => rfl)
      (V2 m c) (V3 m c) (G1 m c) (hF1 m c) (hrest1 m c)
    rw [Pipeline.unscopedBufs_held] at hjoin
    iintro ⟨Ha, HO, HY, Hrest⟩
    ihave Ha' := hnamed $$ Ha
    imodintro
    isplitl [Ha' Hrest HY]
    · isplitl [Ha' Hrest]
      · iapply hjoin; isplitl [Ha'] <;> iassumption
      iexact HY
    unfold Pipeline.RDat.owesAt Pipeline.owesWithin
    icases HO with ⟨%W, -, HO⟩; iexists W; iexact HO

/-! ## The program as segments, and the launch -/

abbrev segs : List (Pipeline.RDat.Seg (pcfgs (F := F)) adm (rdats m) () defs₀ 𝒱₀ L lv) :=
  [ .host (hseg hostOps0 hostOps0_sub hostOps0_fresh (W0 m)),
    .region (reg0 m),
    .region (reg1 m) ]

set_option backward.isDefEq.respectTransparency.types false in
/-- THE RUN: from any memory with zero counters every weakly fair execution of the program terminates, nothing faulting,
    and every unscoped buffer of every core ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.RDat.θ_run_regions_kit (pcfgs (F := F)) adm (rdats m) () cellOf_inj emb₁ defs₀ 𝒱₀ L lv m ρ main (segs m)
    (fun c Q => by
      rewrite [main_chain c, Pipeline.RDat.Seg.run_eq_chain,
        show (segs m).map Pipeline.RDat.Seg.prog = [
          StableHlo.seq hostOps0,
          Prog.lift (.customCall (Pipeline.entry 0) ()),
          Prog.lift (.customCall (Pipeline.entry 1) ()) ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]
      · iexact Hh
      isplitl [Hp]
      · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The final state read at the results and the arguments -/

theorem W3_main_v3 (c : Dev nD) : W3 m c (Proc.devRef .tc main_v3) = Node.outArr (V1 m) c :=
  (W3_of_ne m c main_v3 (by decide)).trans ((W2_arr m c 7).trans rfl)
theorem W3_main_v4 (c : Dev nD) : W3 m c (Proc.devRef .tc main_v4) = Edge.outArr (V2 m) c :=
  (W3_arr m c 7).trans rfl

theorem W3_main_arg0 (c : Dev nD) : W3 m c (Proc.devRef .tc main_arg0) = m ((c : Thread nD τ).loc main_arg0) :=
  (show W3 m c (Proc.devRef .tc main_arg0) = W2 m c (Proc.devRef .tc main_arg0) from (W3_arr m c 2).trans rfl).trans <|
  (show W2 m c (Proc.devRef .tc main_arg0) = W1 m c (Proc.devRef .tc main_arg0) from (W2_arr m c 2).trans rfl).trans <|
  Cert.Kernel.Gen.V1_of m c main_arg0 (by decide)
theorem W3_main_arg1 (c : Dev nD) : W3 m c (Proc.devRef .tc main_arg1) = m ((c : Thread nD τ).loc main_arg1) :=
  (show W3 m c (Proc.devRef .tc main_arg1) = W2 m c (Proc.devRef .tc main_arg1) from W3_of_ne m c main_arg1 (by decide)).trans <|
  (show W2 m c (Proc.devRef .tc main_arg1) = W1 m c (Proc.devRef .tc main_arg1) from (W2_arr m c 1).trans rfl).trans <|
  Cert.Kernel.Gen.V1_of m c main_arg1 (by decide)
theorem W3_main_arg2 (c : Dev nD) : W3 m c (Proc.devRef .tc main_arg2) = m ((c : Thread nD τ).loc main_arg2) :=
  (show W3 m c (Proc.devRef .tc main_arg2) = W2 m c (Proc.devRef .tc main_arg2) from (W3_arr m c 1).trans rfl).trans <|
  (show W2 m c (Proc.devRef .tc main_arg2) = W1 m c (Proc.devRef .tc main_arg2) from W2_of_ne m c main_arg2 (by decide)).trans <|
  Cert.Kernel.Gen.V1_of m c main_arg2 (by decide)
theorem W3_main_arg3 (c : Dev nD) : W3 m c (Proc.devRef .tc main_arg3) = m ((c : Thread nD τ).loc main_arg3) :=
  (show W3 m c (Proc.devRef .tc main_arg3) = W2 m c (Proc.devRef .tc main_arg3) from W3_of_ne m c main_arg3 (by decide)).trans <|
  (show W2 m c (Proc.devRef .tc main_arg3) = W1 m c (Proc.devRef .tc main_arg3) from W2_of_ne m c main_arg3 (by decide)).trans <|
  Cert.Kernel.Gen.V1_of m c main_arg3 (by decide)
theorem W3_main_arg4 (c : Dev nD) : W3 m c (Proc.devRef .tc main_arg4) = m ((c : Thread nD τ).loc main_arg4) :=
  (show W3 m c (Proc.devRef .tc main_arg4) = W2 m c (Proc.devRef .tc main_arg4) from (W3_arr m c 4).trans rfl).trans <|
  (show W2 m c (Proc.devRef .tc main_arg4) = W1 m c (Proc.devRef .tc main_arg4) from (W2_arr m c 4).trans rfl).trans <|
  Cert.Kernel.Gen.V1_of m c main_arg4 (by decide)
theorem W3_main_arg5 (c : Dev nD) : W3 m c (Proc.devRef .tc main_arg5) = m ((c : Thread nD τ).loc main_arg5) :=
  (show W3 m c (Proc.devRef .tc main_arg5) = W2 m c (Proc.devRef .tc main_arg5) from W3_of_ne m c main_arg5 (by decide)).trans <|
  (show W2 m c (Proc.devRef .tc main_arg5) = W1 m c (Proc.devRef .tc main_arg5) from (W2_arr m c 3).trans rfl).trans <|
  Cert.Kernel.Gen.V1_of m c main_arg5 (by decide)
theorem W3_main_arg6 (c : Dev nD) : W3 m c (Proc.devRef .tc main_arg6) = m ((c : Thread nD τ).loc main_arg6) :=
  (show W3 m c (Proc.devRef .tc main_arg6) = W2 m c (Proc.devRef .tc main_arg6) from (W3_arr m c 5).trans rfl).trans <|
  (show W2 m c (Proc.devRef .tc main_arg6) = W1 m c (Proc.devRef .tc main_arg6) from W2_of_ne m c main_arg6 (by decide)).trans <|
  Cert.Kernel.Gen.V1_of m c main_arg6 (by decide)
theorem W3_main_arg7 (c : Dev nD) : W3 m c (Proc.devRef .tc main_arg7) = m ((c : Thread nD τ).loc main_arg7) :=
  (show W3 m c (Proc.devRef .tc main_arg7) = W2 m c (Proc.devRef .tc main_arg7) from W3_of_ne m c main_arg7 (by decide)).trans <|
  (show W2 m c (Proc.devRef .tc main_arg7) = W1 m c (Proc.devRef .tc main_arg7) from (W2_arr m c 5).trans rfl).trans <|
  Cert.Kernel.Gen.V1_of m c main_arg7 (by decide)
theorem W3_main_arg8 (c : Dev nD) : W3 m c (Proc.devRef .tc main_arg8) = m ((c : Thread nD τ).loc main_arg8) :=
  (show W3 m c (Proc.devRef .tc main_arg8) = W2 m c (Proc.devRef .tc main_arg8) from (W3_arr m c 3).trans rfl).trans <|
  (show W2 m c (Proc.devRef .tc main_arg8) = W1 m c (Proc.devRef .tc main_arg8) from W2_of_ne m c main_arg8 (by decide)).trans <|
  Cert.Kernel.Gen.V1_of m c main_arg8 (by decide)
theorem W3_main_arg9 (c : Dev nD) : W3 m c (Proc.devRef .tc main_arg9) = m ((c : Thread nD τ).loc main_arg9) :=
  (show W3 m c (Proc.devRef .tc main_arg9) = W2 m c (Proc.devRef .tc main_arg9) from W3_of_ne m c main_arg9 (by decide)).trans <|
  (show W2 m c (Proc.devRef .tc main_arg9) = W1 m c (Proc.devRef .tc main_arg9) from W2_of_ne m c main_arg9 (by decide)).trans <|
  Cert.Kernel.Gen.V1_of m c main_arg9 (by decide)
theorem W3_main_arg10 (c : Dev nD) : W3 m c (Proc.devRef .tc main_arg10) = m ((c : Thread nD τ).loc main_arg10) :=
  (show W3 m c (Proc.devRef .tc main_arg10) = W2 m c (Proc.devRef .tc main_arg10) from W3_of_ne m c main_arg10 (by decide)).trans <|
  (show W2 m c (Proc.devRef .tc main_arg10) = W1 m c (Proc.devRef .tc main_arg10) from W2_of_ne m c main_arg10 (by decide)).trans <|
  Cert.Kernel.Gen.V1_of m c main_arg10 (by decide)

/-- What the edge region finds in a buffer the node region does not write is what the node region found there. -/
theorem V2_keep (c : Dev nD) (b : Ref sig .tc) (hb : b ≠ main_v3) : V2 m c b = V1 m c b := by
  by_cases h : ∃ w, Pipeline.arrRef spec0 w = b
  · obtain ⟨w, rfl⟩ := h
    refine (W2_arr m c w).trans ?_
    match w with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => exact absurd rfl hb
  · exact W2_of_ne m c b fun w e => h ⟨w, e⟩

/-- THE RUN, READ: every execution terminates with the two results at the regions' result arrays and every argument as launched. -/
theorem run_read : θ_run defs (onTc (τ := τ) (main (F := F))) ⟨m, fun _ => 0, ρ⟩ (fun r => ∀ c : Dev nD,
      r.2.mem ((c.tc : Thread nD τ).loc main_v3) = Node.outArr (V1 m) c
      ∧ r.2.mem ((c.tc : Thread nD τ).loc main_v4) = Edge.outArr (V2 m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v3 (by decide))).trans (W3_main_v3 m c),
      (h c _ (mem_uc main_v4 (by decide))).trans (W3_main_v4 m c),
      (h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c),
      (h c _ (mem_uc main_arg9 (by decide))).trans (W3_main_arg9 m c),
      (h c _ (mem_uc main_arg10 (by decide))).trans (W3_main_arg10 m c)⟩)
    (run m ρ)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2.2) (run_read m ρ)

end Cert.Kernel.Run

end
-- ==== Proof.KI.NodeBody.lean ====
import proofs.«151053_g24051816857981_cont_8to1_1327_4_alg».proof.Proof.Gen.KernelIdeal.Launch
import proofs.«151053_g24051816857981_cont_8to1_1327_4_alg».proof.Proof.Gen.KernelIdeal.Skeleton
import proofs.«151053_g24051816857981_cont_8to1_1327_4_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The node kernel's body at one grid point

The body has two shapes, by the column block j of the point (i, j). At j = 0 it first fills the scratch with
the row block i of the incidence matrix scaled column by column (k0_pay1), then stores into the output block
x[i] + b + contribution (k0_pay3). At j ≠ 0 it leaves the scratch alone and adds the point's contribution to
what the output block already holds (k0_pay4). -/

theorem zero2 : (![0, 0] : Fin 2 → Nat) = fun _ => 0 := by
  funext a; fin_cases a <;> rfl

/-- Row block i of the incidence matrix (the rows the scratch is built from). -/
abbrev rInc1 (i : grid0.Coords) (h : k0_cond1 i = 1#1) : Rect S2048x4096 :=
  Rect.unit (s := S2048x4096) (k0_off1 i) S512x4096.size (k0_off1_inb i h)
/-- Row block j of the incidence matrix. -/
abbrev rInc2 (i : grid0.Coords) : Rect S2048x4096 :=
  Rect.unit (s := S2048x4096) (k0_off2 i) S512x4096.size (k0_off2_inb i)
/-- Row block j of the node features. -/
abbrev rX3 (i : grid0.Coords) : Rect S2048x128 :=
  Rect.unit (s := S2048x128) (k0_off3 i) S512x128.size (k0_off3_inb i)
/-- Row block i of the node features (the residual term). -/
abbrev rX4 (i : grid0.Coords) (h : k0_cond2 i = 1#1) : Rect S2048x128 :=
  Rect.unit (s := S2048x128) (k0_off4 i) S512x128.size (k0_off4_inb i h)

/-- What the scratch holds after a point with j = 0. -/
def scrA (i : grid0.Coords) (h1 : k0_cond1 i = 1#1) (x0 : Vec F S2048x4096 .bf16) (x4 : Vec F S4096x16 .f32) (x5 : Vec F S16x1 .f32) :
    Vec F S512x4096 .bf16 :=
  k0_pay1 x5 x4 (View.ld x0 (rInc1 i h1))

/-- What the output block holds after a point with j = 0. -/
def outA (i : grid0.Coords) (h1 : k0_cond1 i = 1#1) (h2 : k0_cond2 i = 1#1) (x0 : Vec F S2048x4096 .bf16) (x1 : Vec F S512x512 .f32)
    (x2 : Vec F S2048x128 .f32) (x3 : Vec F S128x128 .f32) (x4 : Vec F S4096x16 .f32) (x5 : Vec F S16x1 .f32) (x6 : Vec F S1x128 .f32) :
    Vec F S512x128 .f32 :=
  k0_pay3 (View.ld x0 (rInc2 i)) (scrA i h1 x0 x4 x5) x1 (View.ld x2 (rX3 i)) x3 (View.ld x2 (rX4 i h2)) x6

/-- What the output block holds after a point with j ≠ 0, from what it held before (y) and the scratch (s). -/
def outB (i : grid0.Coords) (x0 : Vec F S2048x4096 .bf16) (x1 : Vec F S512x512 .f32) (x2 : Vec F S2048x128 .f32) (x3 : Vec F S128x128 .f32)
    (y : Vec F S512x128 .f32) (s : Vec F S512x4096 .bf16) : Vec F S512x128 .f32 :=
  k0_pay4 (View.ld x0 (rInc2 i)) s x1 (View.ld x2 (rX3 i)) x3 y

set_option maxHeartbeats 1000000 in
theorem caseB (c : Dev nD) (E : Set ℕ) (i : grid0.Coords)
    (arg2 : Memref sig .tc .vmem S2048x4096 .bf16) (harg2 : arg2.IsWhole) (arg3 : Memref sig .tc .vmem S512x512 .f32) (harg3 : arg3.IsWhole)
    (arg4 : Memref sig .tc .vmem S2048x128 .f32) (harg4 : arg4.IsWhole) (arg5 : Memref sig .tc .vmem S128x128 .f32) (harg5 : arg5.IsWhole)
    (arg6 : Memref sig .tc .vmem S4096x16 .f32) (harg6 : arg6.IsWhole) (arg7 : Memref sig .tc .vmem S16x1 .f32) (harg7 : arg7.IsWhole)
    (arg8 : Memref sig .tc .vmem S1x128 .f32) (harg8 : arg8.IsWhole) (arg9 : Memref sig .tc .vmem S512x128 .f32) (harg9 : arg9.IsWhole)
    (arg10 : Memref sig .tc .vmem S512x4096 .bf16) (harg10 : arg10.IsWhole)
    (hc1 : ¬ k0_cond1 i = 1#1) (hc2 : ¬ k0_cond2 i = 1#1) (hc3 : k0_cond3 i = 1#1)
    (x0 : Vec F S2048x4096 .bf16) (x1 : Vec F S512x512 .f32) (x2 : Vec F S2048x128 .f32) (x3 : Vec F S128x128 .f32)
    (x4 : Vec F S4096x16 .f32) (x5 : Vec F S16x1 .f32) (x6 : Vec F S1x128 .f32) (y : Vec F S512x128 .f32) (s : Vec F S512x4096 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare y ∗ owns (c : Thread nD τ) arg10 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (outB i x0 x1 x2 x3 y s)
            ∗ owns (c : Thread nD τ) arg10 fullShare (s)) -∗ K ⟨⟩))
      ⊢ wp frame (wpE (defs₀ (F := F)) Variants.none c none) E (cc0__node_kernel i arg2 harg2 arg3 harg3 arg4 harg4 arg5 harg5 arg6 harg6 arg7 harg7 arg8 harg8 arg9 harg9 arg10 harg10) K := by
  simp only [cc0__node_kernel_eq_skeleton]; unfold cc0__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf9; obtain rfl := harg10.eq_unread hf10
  sl_exec (disch := first | exact hc1 | exact hc2 | exact hc3)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H9]
  · iexists _; isplitr
    swap
    · iexact H9
    ipureintro
    rw [View.read_writes_eq_canon _ _ _ (fun y' => ⟨_, List.mem_singleton_self _, View.mem_set_unit_zero zero2 inb_S512x128_S512x128_0_0 y'⟩),
      View.canon_unit_zero zero2]
    unfold outB
    simp only [View.readAt_eq_ld, Memref.IsWhole.read_unread, View.ld_unit_zero (S := S512x4096) zero2,
      View.ld_unit_zero (S := S512x512) zero2, View.ld_unit_zero (S := S128x128) zero2, View.ld_unit_zero (S := S512x128) zero2]
  iexists _; isplitr
  · ipureintro; exact harg10.read_unread _
  iexact H10

set_option maxHeartbeats 1000000 in
theorem caseA (c : Dev nD) (E : Set ℕ) (i : grid0.Coords)
    (arg2 : Memref sig .tc .vmem S2048x4096 .bf16) (harg2 : arg2.IsWhole) (arg3 : Memref sig .tc .vmem S512x512 .f32) (harg3 : arg3.IsWhole)
    (arg4 : Memref sig .tc .vmem S2048x128 .f32) (harg4 : arg4.IsWhole) (arg5 : Memref sig .tc .vmem S128x128 .f32) (harg5 : arg5.IsWhole)
    (arg6 : Memref sig .tc .vmem S4096x16 .f32) (harg6 : arg6.IsWhole) (arg7 : Memref sig .tc .vmem S16x1 .f32) (harg7 : arg7.IsWhole)
    (arg8 : Memref sig .tc .vmem S1x128 .f32) (harg8 : arg8.IsWhole) (arg9 : Memref sig .tc .vmem S512x128 .f32) (harg9 : arg9.IsWhole)
    (arg10 : Memref sig .tc .vmem S512x4096 .bf16) (harg10 : arg10.IsWhole)
    (hc1 : k0_cond1 i = 1#1) (hc2 : k0_cond2 i = 1#1) (hc3 : ¬ k0_cond3 i = 1#1)
    (x0 : Vec F S2048x4096 .bf16) (x1 : Vec F S512x512 .f32) (x2 : Vec F S2048x128 .f32) (x3 : Vec F S128x128 .f32)
    (x4 : Vec F S4096x16 .f32) (x5 : Vec F S16x1 .f32) (x6 : Vec F S1x128 .f32) (y : Vec F S512x128 .f32) (s : Vec F S512x4096 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare y ∗ owns (c : Thread nD τ) arg10 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (outA i hc1 hc2 x0 x1 x2 x3 x4 x5 x6)
            ∗ owns (c : Thread nD τ) arg10 fullShare (scrA i hc1 x0 x4 x5)) -∗ K ⟨⟩))
      ⊢ wp frame (wpE (defs₀ (F := F)) Variants.none c none) E (cc0__node_kernel i arg2 harg2 arg3 harg3 arg4 harg4 arg5 harg5 arg6 harg6 arg7 harg7 arg8 harg8 arg9 harg9 arg10 harg10) K := by
  simp only [cc0__node_kernel_eq_skeleton]; unfold cc0__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf9; obtain rfl := harg10.eq_unread hf10
  sl_exec (disch := first | exact hc1 | exact hc2 | exact hc3)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H9]
  · iexists _; isplitr
    swap
    · iexact H9
    ipureintro
    rw [View.read_writes_eq_canon _ _ _ (fun y' => ⟨_, List.mem_singleton_self _, View.mem_set_unit_zero zero2 inb_S512x128_S512x128_0_0 y'⟩),
      View.canon_unit_zero zero2]
    sl_unfold_run_names
    rw [View.readCov_unit_zero (S := S512x4096) _ zero2]
    unfold outA scrA
    simp only [View.readAt_eq_ld, Memref.IsWhole.read_unread, View.ld_unit_zero (S := S512x4096) zero2,
      View.ld_unit_zero (S := S512x512) zero2, View.ld_unit_zero (S := S128x128) zero2, View.ld_unit_zero (S := S512x128) zero2,
      View.ld_unit_zero (S := S16x1) zero2, View.ld_unit_zero (S := S4096x16) zero2, View.ld_unit_zero (S := S1x128) zero2]
  iexists _; isplitr
  swap
  · iexact H10
  ipureintro
  sl_unfold_run_names
  rw [View.read_writes_eq_canon _ _ _ (fun y' => ⟨_, List.mem_singleton_self _, View.mem_set_unit_zero zero2 inb_S512x4096_S512x4096_0_0 y'⟩),
    View.canon_unit_zero zero2]
  unfold scrA
  simp only [View.readAt_eq_ld, Memref.IsWhole.read_unread, View.ld_unit_zero (S := S16x1) zero2, View.ld_unit_zero (S := S4096x16) zero2]

end Cert.KernelIdeal.Node

end
-- ==== Proof.KI.NodeData.lean ====
import proofs.«151053_g24051816857981_cont_8to1_1327_4_alg».proof.Proof.KI.NodeBody
import proofs.«151053_g24051816857981_cont_8to1_1327_4_alg».proof.Proof.Gen.KernelIdeal.Launch
import proofs.«151053_g24051816857981_cont_8to1_1327_4_alg».proof.Proof.Gen.KernelIdeal.Skeleton
import proofs.«151053_g24051816857981_cont_8to1_1327_4_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

/-! ## The node region's proof data, relationally

What the body leaves in each window's staging buffer at a point is stated as a relation to what it was handed:
an input window is left as found; the output block is set to x[i] + b + contribution where j = 0 and has the point's
contribution added to what it held where j ≠ 0. The scratch (row block i of the incidence matrix with its columns
scaled) is carried by the invariant at a named value from the first point of each row of the grid on. -/

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three branch conditions over the grid: the first two hold exactly at the points with j = 0, the third at the others. -/
theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
theorem hcond2 : ∀ t : Fin cfg0.N, k0_cond2 (grid0.coords t) = 1#1 ↔ t.val % 4 = 0 :=
  (by decide +kernel : ∀ t : Fin grid0.N, k0_cond2 (grid0.coords t) = 1#1 ↔ t.val % 4 = 0)
theorem hcond3 : ∀ t : Fin cfg0.N, k0_cond3 (grid0.coords t) = 1#1 ↔ ¬ t.val % 4 = 0 :=
  (by decide +kernel : ∀ t : Fin grid0.N, k0_cond3 (grid0.coords t) = 1#1 ↔ ¬ t.val % 4 = 0)

/-- The scratch after point n: recomputed at the points with j = 0, kept at the others. -/
def scrAt (c : Dev nD) : (n : ℕ) → n < cfg0.N → Vec F S512x4096 .bf16
  | 0, h => scrA (grid0.coords ⟨0, h⟩) ((hcond1 ⟨0, h⟩).mpr (Nat.zero_mod _)) (iblk V c 0 ⟨0, h⟩) (iblk V c 4 ⟨0, h⟩) (iblk V c 5 ⟨0, h⟩)
  | n + 1, h =>
    if h0 : (n + 1) % 4 = 0 then
      scrA (grid0.coords ⟨n + 1, h⟩) ((hcond1 ⟨n + 1, h⟩).mpr h0) (iblk V c 0 ⟨n + 1, h⟩) (iblk V c 4 ⟨n + 1, h⟩) (iblk V c 5 ⟨n + 1, h⟩)
    else scrAt c n (Nat.lt_of_succ_lt h)

theorem scrAt_start (c : Dev nD) (t : Fin cfg0.N) (h0 : t.val % 4 = 0) :
    scrAt V c t.val t.isLt = scrA (grid0.coords t) ((hcond1 t).mpr h0) (iblk V c 0 t) (iblk V c 4 t) (iblk V c 5 t) := by
  obtain ⟨n, hn⟩ := t
  cases n with
  | zero => rfl
  | succ n => exact dif_pos h0

theorem scrAt_keep (c : Dev nD) (t : Fin cfg0.N) (h0 : ¬ t.val % 4 = 0) :
    scrAt V c t.val t.isLt = scrAt V c (t.val - 1) (Nat.lt_of_le_of_lt (Nat.sub_le _ _) t.isLt) := by
  obtain ⟨n, hn⟩ := t
  cases n with
  | zero => exact absurd (Nat.zero_mod _) h0
  | succ n => exact dif_neg h0

/-- What the output block holds after point t, given what it held before (Y). -/
def outStep (c : Dev nD) (t : Fin cfg0.N) (Y : Vec F S512x128 .f32) : Vec F S512x128 .f32 :=
  if h0 : t.val % 4 = 0 then
    outA (grid0.coords t) ((hcond1 t).mpr h0) ((hcond2 t).mpr h0) (iblk V c 0 t) (iblk V c 1 t) (iblk V c 2 t) (iblk V c 3 t)
      (iblk V c 4 t) (iblk V c 5 t) (iblk V c 6 t)
  else outB (grid0.coords t) (iblk V c 0 t) (iblk V c 1 t) (iblk V c 2 t) (iblk V c 3 t) Y (scrAt V c t.val t.isLt)

/-- The scratch operand. -/
abbrev scM : Memref sig .tc .vmem S512x4096 .bf16 := Memref.whole cc0_scratch0

/-- The core's other scoped buffers that this region does not stage (the second region's), each at some contents. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The class invariant with the scratch as a memref owned at some contents. -/
theorem PhiA_eq (c : Dev nD) :
    (Pipeline.ΦA spec0 c : sProp 𝕄)
      = iprop(((∃ d, owns (c : Thread nD τ) scM fullShare d) ∗ restS c) ∗ (∃ r, prngReg c r)) := by
  unfold Pipeline.ΦA restS; rw [scopedRest0_eq]; simp only [scM, owns_whole]; rfl

/-- The region invariant before position n: at first every scoped buffer at anything; afterwards the scratch at what the
    point before left in it. -/
def PhiS (c : Dev nD) : (n : ℕ) → n ≤ cfg0.N → sProp 𝕄
  | 0, _ => Pipeline.ΦA spec0 c
  | n + 1, hn => iprop((owns (c : Thread nD τ) scM fullShare (scrAt V c n hn) ∗ restS c) ∗ (∃ r, prngReg c r))

theorem PhiS_pos (c : Dev nD) (n : ℕ) (h : n ≤ cfg0.N) (hz : n ≠ 0) :
    PhiS V c n h = iprop((owns (c : Thread nD τ) scM fullShare (scrAt V c (n - 1) (by omega)) ∗ restS c) ∗ (∃ r, prngReg c r)) := by
  cases n with
  | zero => exact absurd rfl hz
  | succ n => rfl

/-- Whatever the position, the invariant holds the scratch at SOME contents. -/
theorem PhiS_some (c : Dev nD) (n : ℕ) (h : n ≤ cfg0.N) :
    PhiS V c n h ⊢ iprop(((∃ d, owns (c : Thread nD τ) scM fullShare d) ∗ restS c) ∗ (∃ r, prngReg c r)) := by
  cases n with
  | zero => rw [show PhiS V c 0 h = Pipeline.ΦA spec0 c from rfl, PhiA_eq]
  | succ n =>
    rw [show PhiS V c (n + 1) h = iprop((owns (c : Thread nD τ) scM fullShare (scrAt V c n h) ∗ restS c) ∗ (∃ r, prngReg c r)) from rfl]
    iintro ⟨⟨HS, HR⟩, Hg⟩
    isplitl [HS HR]
    · isplitl [HS]
      · iexists _; iexact HS
      iexact HR
    iexact Hg

/-- The relational proof data of the node region on core c. -/
def rd (c : Dev nD) : RDat τ (Elt F) Unit ℕ (UR sig nD τ) ℕ cfg0 c where
  A w := V c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = outStep V c t Y
  Φ t := PhiS V c t.val (Nat.le_of_lt_succ t.isLt)
  q _ := fullShare
  owed _ := 0

set_option maxHeartbeats 2000000 in
/-- The body obligation: at every point, from the invariant and the windows' buffers at what they may hold, the body
    runs to the invariant at the next point and every buffer in its relation to what it was handed. -/
theorem body_obligation (c : Dev nD) : (rd V c).BodyObligation (defs₀ (F := F)) Variants.none () Set.univ := by
  intro t Y hY
  have e0 : Y 0 = iblk V c 0 t := by
    obtain ⟨d, hd⟩ := Pipeline.RDat.finds_in_eq_fetched (rd V c) 0 rfl (fun _ _ _ => rfl) (fun _ _ _ h => h) t (Y 0) (hY 0)
    rw [hd]; unfold RDat.fetched RDat.blockOf iblk; rfl
  have e1 : Y 1 = iblk V c 1 t := by
    obtain ⟨d, hd⟩ := Pipeline.RDat.finds_in_eq_fetched (rd V c) 1 rfl (fun _ _ _ => rfl) (fun _ _ _ h => h) t (Y 1) (hY 1)
    rw [hd]; unfold RDat.fetched RDat.blockOf iblk; rfl
  have e2 : Y 2 = iblk V c 2 t := by
    obtain ⟨d, hd⟩ := Pipeline.RDat.finds_in_eq_fetched (rd V c) 2 rfl (fun _ _ _ => rfl) (fun _ _ _ h => h) t (Y 2) (hY 2)
    rw [hd]; unfold RDat.fetched RDat.blockOf iblk; rfl
  have e3 : Y 3 = iblk V c 3 t := by
    obtain ⟨d, hd⟩ := Pipeline.RDat.finds_in_eq_fetched (rd V c) 3 rfl (fun _ _ _ => rfl) (fun _ _ _ h => h) t (Y 3) (hY 3)
    rw [hd]; unfold RDat.fetched RDat.blockOf iblk; rfl
  have e4 : Y 4 = iblk V c 4 t := by
    obtain ⟨d, hd⟩ := Pipeline.RDat.finds_in_eq_fetched (rd V c) 4 rfl (fun _ _ _ => rfl) (fun _ _ _ h => h) t (Y 4) (hY 4)
    rw [hd]; unfold RDat.fetched RDat.blockOf iblk; rfl
  have e5 : Y 5 = iblk V c 5 t := by
    obtain ⟨d, hd⟩ := Pipeline.RDat.finds_in_eq_fetched (rd V c) 5 rfl (fun _ _ _ => rfl) (fun _ _ _ h => h) t (Y 5) (hY 5)
    rw [hd]; unfold RDat.fetched RDat.blockOf iblk; rfl
  have e6 : Y 6 = iblk V c 6 t := by
    obtain ⟨d, hd⟩ := Pipeline.RDat.finds_in_eq_fetched (rd V c) 6 rfl (fun _ _ _ => rfl) (fun _ _ _ h => h) t (Y 6) (hY 6)
    rw [hd]; unfold RDat.fetched RDat.blockOf iblk; rfl
  rw [bigSep_W0, bigSep_W0, e0, e1, e2, e3, e4, e5, e6]
  show _ ⊢ wp frame (wpE (defs₀ (F := F)) Variants.none c none) Set.univ (bodyAt0 t) _
  rw [show (rd V c).owesAt () t.succ = (rd V c).owesAt () t.castSucc from rfl]
  rw [show (rd V c).Φ t.succ = iprop((owns (c : Thread nD τ) scM fullShare (scrAt V c t.val t.isLt) ∗ restS c) ∗ (∃ r, prngReg c r)) from rfl]
  rw [show (rd V c).Φ t.castSucc = PhiS V c t.val (Nat.le_of_lt t.isLt) from rfl]
  unfold bodyAt0
  by_cases h0 : t.val % 4 = 0
  · have eo : outStep V c t (Y 7) = outA (grid0.coords t) ((hcond1 t).mpr h0) ((hcond2 t).mpr h0) (iblk V c 0 t) (iblk V c 1 t)
        (iblk V c 2 t) (iblk V c 3 t) (iblk V c 4 t) (iblk V c 5 t) (iblk V c 6 t) := by unfold outStep; exact dif_pos h0
    rw [scrAt_start V c t h0]
    iintro ⟨HΦ, Ho, H0, H1, H2, H3, H4, H5, H6, H7⟩
    ihave HΦ' := (PhiS_some V c t.val (Nat.le_of_lt t.isLt)) $$ HΦ
    icases HΦ' with ⟨⟨⟨%s, HS⟩, HR⟩, Hg⟩
    iapply (caseA c Set.univ (grid0.coords t) _ _ _ _ _ _ _ _ _ _ _ _ _ _ _ _ _ _ ((hcond1 t).mpr h0) ((hcond2 t).mpr h0)
      (fun h => (hcond3 t).mp h h0) (iblk V c 0 t) (iblk V c 1 t) (iblk V c 2 t) (iblk V c 3 t) (iblk V c 4 t) (iblk V c 5 t) (iblk V c 6 t) (Y 7) s _)
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [HS]
    · iexact HS
    iintro ⟨H0, H1, H2, H3, H4, H5, H6, H7, HS⟩
    isplitl [HS HR Hg]
    · isplitl [HS HR]
      · isplitl [HS]
        · iexact HS
        iexact HR
      iexact Hg
    isplitl [Ho]
    · iexact Ho
    isplitl [H0]
    · iexists _; isplitr
      · ipureintro; exact rfl
      iexact H0
    isplitl [H1]
    · iexists _; isplitr
      · ipureintro; exact rfl
      iexact H1
    isplitl [H2]
    · iexists _; isplitr
      · ipureintro; exact rfl
      iexact H2
    isplitl [H3]
    · iexists _; isplitr
      · ipureintro; exact rfl
      iexact H3
    isplitl [H4]
    · iexists _; isplitr
      · ipureintro; exact rfl
      iexact H4
    isplitl [H5]
    · iexists _; isplitr
      · ipureintro; exact rfl
      iexact H5
    isplitl [H6]
    · iexists _; isplitr
      · ipureintro; exact rfl
      iexact H6
    iexists _; isplitr
    swap
    · iexact H7
    ipureintro; exact eo.symm
  · have eo : outStep V c t (Y 7) = outB (grid0.coords t) (iblk V c 0 t) (iblk V c 1 t) (iblk V c 2 t) (iblk V c 3 t) (Y 7)
        (scrAt V c t.val t.isLt) := by unfold outStep; exact dif_neg h0
    have hz : t.val ≠ 0 := fun e => h0 (by rw [e])
    rw [PhiS_pos V c t.val _ hz, scrAt_keep V c t h0] at *
    iintro ⟨⟨⟨HS, HR⟩, Hg⟩, Ho, H0, H1, H2, H3, H4, H5, H6, H7⟩
    iapply (caseB c Set.univ (grid0.coords t) _ _ _ _ _ _ _ _ _ _ _ _ _ _ _ _ _ _ (fun h => h0 ((hcond1 t).mp h)) (fun h => h0 ((hcond2 t).mp h))
      ((hcond3 t).mpr h0) (iblk V c 0 t) (iblk V c 1 t) (iblk V c 2 t) (iblk V c 3 t) (iblk V c 4 t) (iblk V c 5 t) (iblk V c 6 t) (Y 7) _ _)
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [HS]
    · iexact HS
    iintro ⟨H0, H1, H2, H3, H4, H5, H6, H7, HS⟩
    isplitl [HS HR Hg]
    · isplitl [HS HR]
      · isplitl [HS]
        · iexact HS
        iexact HR
      iexact Hg
    isplitl [Ho]
    · iexact Ho
    isplitl [H0]
    · iexists _; isplitr
      · ipureintro; exact rfl
      iexact H0
    isplitl [H1]
    · iexists _; isplitr
      · ipureintro; exact rfl
      iexact H1
    isplitl [H2]
    · iexists _; isplitr
      · ipureintro; exact rfl
      iexact H2
    isplitl [H3]
    · iexists _; isplitr
      · ipureintro; exact rfl
      iexact H3
    isplitl [H4]
    · iexists _; isplitr
      · ipureintro; exact rfl
      iexact H4
    isplitl [H5]
    · iexists _; isplitr
      · ipureintro; exact rfl
      iexact H5
    isplitl [H6]
    · iexists _; isplitr
      · ipureintro; exact rfl
      iexact H6
    iexists _; isplitr
    swap
    · iexact H7
    ipureintro; exact eo.symm

end Cert.KernelIdeal.Node

end
-- ==== Proof.KI.NodeOut.lean ====
import proofs.«151053_g24051816857981_cont_8to1_1327_4_alg».proof.Proof.KI.NodeData
import proofs.«151053_g24051816857981_cont_8to1_1327_4_alg».proof.Proof.LibRelDetermined
import Idealize.ShloMosaic.Lib.ValueIdx
import proofs.«151053_g24051816857981_cont_8to1_1327_4_alg».proof.Proof.Gen.KernelIdeal.Launch
import proofs.«151053_g24051816857981_cont_8to1_1327_4_alg».proof.Proof.Gen.KernelIdeal.Skeleton
import proofs.«151053_g24051816857981_cont_8to1_1327_4_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the node region's result array ends holding

Along a row of the grid the output block is a chain: set at j = 0, the point's contribution added at j = 1, 2, 3, written
back after j = 3. The result array is made of these chains' ends, one per row block. -/

theorem hin (c : Dev nD) : (Pipeline.ΦA spec0 c : sProp 𝕄) ⊢ (rd V c).Φ 0 := by
  rw [show (rd V c).Φ 0 = PhiS V c 0 (Nat.zero_le _) from rfl]
  exact BI.Entails.refl _

theorem hout (c : Dev nD) : (rd V c).Φ (Fin.last cfg0.N) ⊢ (Pipeline.ΦA spec0 c : sProp 𝕄) := by
  rw [show (rd V c).Φ (Fin.last cfg0.N) = PhiS V c cfg0.N (Nat.le_refl _) from rfl, PhiA_eq]
  exact PhiS_some V c _ _

/-- The output block after point n. -/
def outAt (c : Dev nD) : (n : ℕ) → n < cfg0.N → Vec F S512x128 .f32
  | 0, h => outStep V c ⟨0, h⟩ (iblk V c 7 ⟨0, h⟩)
  | n + 1, h => outStep V c ⟨n + 1, h⟩ (outAt c n (Nat.lt_of_succ_lt h))

theorem outAt_congr (c : Dev nD) {n n' : ℕ} (e : n = n') (h : n < cfg0.N) (h' : n' < cfg0.N) : outAt V c n h = outAt V c n' h' := by
  subst e; rfl

/-- At a point with j = 0 the step does not read what the block held. -/
theorem outStep_start (c : Dev nD) (t : Fin cfg0.N) (h0 : t.val % 4 = 0) (Y Y' : Vec F S512x128 .f32) :
    outStep V c t Y = outStep V c t Y' := by
  unfold outStep; rw [dif_pos h0, dif_pos h0]

theorem outAt_succ (c : Dev nD) (t : Fin cfg0.N) (ht : t.val ≠ 0) :
    outAt V c t.val t.isLt = outStep V c t (outAt V c (t.val - 1) (Nat.lt_of_le_of_lt (Nat.sub_le _ _) t.isLt)) := by
  obtain ⟨n, hn⟩ := t
  cases n with
  | zero => exact absurd rfl ht
  | succ n => rfl

theorem outAt_start (c : Dev nD) (t : Fin cfg0.N) (h0 : t.val % 4 = 0) (Y : Vec F S512x128 .f32) :
    outAt V c t.val t.isLt = outStep V c t Y := by
  obtain ⟨n, hn⟩ := t
  cases n with
  | zero => exact outStep_start V c ⟨0, hn⟩ h0 _ _
  | succ n => exact outStep_start V c ⟨n + 1, hn⟩ h0 _ _

/-- Whatever the body may leave in the output window's buffer at a point is the chain's value there. -/
theorem leaves_out (c : Dev nD) (t : Fin cfg0.N) (X : (cfg0.win 7).block.Idx → Elt F (cfg0.win 7).elt)
    (hX : (rd V c).Leaves 7 t X) : X = outAt V c t.val t.isLt := by
  have key := Cert.LibRelDetermined.leaves_determined (rd V c) 7 (fun t => (cfg0.win 7).fetch_out rfl t)
    (fun _ _ => True) (fun t => outAt V c t.val t.isLt)
    (fun t Y X hfr haft j _ => by
      have h0 : t.val % 4 = 0 := by
        rcases hfr with h | h
        · rw [h]
        · have := (flush0_7 _).mp h
          have hN : t.val < 16 := lt_of_lt_of_eq t.isLt N_0
          dsimp only at this
          omega
      have e : X = outStep V c t Y := haft
      rw [e, outAt_start V c t h0 Y])
    (fun t ht Y X hfl hY haft j _ => by
      have e : X = outStep V c t Y := haft
      have eY : Y = outAt V c (t.val - 1) (Nat.lt_of_le_of_lt (Nat.sub_le _ _) t.isLt) := funext fun j => hY j trivial
      rw [e, eY, outAt_succ V c t ht])
    t X hX
  exact funext fun j => key j trivial

theorem outAt_apply_congr (c : Dev nD) {n n' : ℕ} (e : n = n') (h : n < cfg0.N) (h' : n' < cfg0.N)
    {j j' : S512x128.Idx} (ej : j = j') : outAt V c n h j = outAt V c n' h' j' := by
  subst e; subst ej; rfl

/-- The output window's block index over the grid: row block t / 4, the one column block. -/
theorem idx7 : ∀ t : Fin cfg0.N, win0_7.index t (0 : Fin 2) = t.val / 4 ∧ win0_7.index t (1 : Fin 2) = 0 :=
  (by decide +kernel : ∀ t : Fin grid0.N, win0_7.index t (0 : Fin 2) = t.val / 4 ∧ win0_7.index t (1 : Fin 2) = 0)

/-- The result array: row r of it is row r % 512 of the chain's end for row block r / 512. -/
def outArr (c : Dev nD) : Buf (Elt F) ((c : Thread nD τ).loc main_v3) := fun (idx : S2048x128.Idx) =>
  outAt V c (4 * ((idx 0).val / 512) + 3)
    (by have h : (idx 0).val < 2048 := (idx 0).isLt
        show _ < grid0.N
        rw [N_0]; omega)
    (ValueIdx.ix2 (⟨(idx 0).val % 512, Nat.mod_lt _ (by decide)⟩ : Fin 512) (⟨(idx 1).val, (idx 1).isLt⟩ : Fin 128))

/-- An index of the result array is in point t's block iff each coordinate is in the block's range on its axis. -/
theorem mem_blk7 (t : Fin cfg0.N) (i : S2048x128.Idx) :
    i ∈ ((cfg0.win 7).blk t).view.set ↔ ∀ a : Fin 2, win0_7.index t a * S512x128.size a ≤ (i a).val ∧ (i a).val < win0_7.index t a * S512x128.size a + S512x128.size a := by
  show i ∈ ((View.whole main_v3).slice (win0_7.rect t)).set ↔ _
  rw [View.set_slice_whole, Rect.mem_set_unit]
  exact Iff.rfl

/-- What a flushing point writes back is its block of the result array. -/
theorem flushed_eq (c : Dev nD) (t : Fin cfg0.N) (hf : (cfg0.win 7).flush t = true)
    (X : (cfg0.win 7).block.Idx → Elt F (cfg0.win 7).elt) (hX : (rd V c).Leaves 7 t X) :
    (cfg0.win 7).cut (grid0.coords t) X = ((cfg0.win 7).blk t).view.read (Elt F) (outArr V c) := by
  rw [leaves_out V c t X hX]
  have h3 : t.val % 4 = 3 := (flush0_7 t).mp hf
  have hN : t.val < 16 := lt_of_lt_of_eq t.isLt N_0
  obtain ⟨e0, e1⟩ := idx7 t
  funext y
  show outAt V c t.val t.isLt y = outArr V c (((cfg0.win 7).blk t).view.emb y)
  have hy0 : (y 0).val < 512 := (y 0).isLt
  have hy1 : (y 1).val < 128 := (y 1).isLt
  have E0 : ((((cfg0.win 7).blk t).view.emb y) 0).val = win0_7.index t (0 : Fin 2) * 512 + 1 * (y 0).val := rfl
  have E1 : ((((cfg0.win 7).blk t).view.emb y) 1).val = win0_7.index t (1 : Fin 2) * 128 + 1 * (y 1).val := rfl
  unfold outArr
  refine (outAt_apply_congr V c (by rw [E0, e0]; omega) _ _ ?_).symm
  funext a
  match a with
  | ⟨0, _⟩ => exact Fin.ext (by show ((((cfg0.win 7).blk t).view.emb y) 0).val % 512 = (y 0).val; rw [E0, e0]; omega)
  | ⟨1, _⟩ => exact Fin.ext (by show ((((cfg0.win 7).blk t).view.emb y) 1).val = (y 1).val; rw [E1, e1]; omega)

/-- Every index of the result array is in some flushing point's block. -/
theorem cover (c : Dev nD) (i : ((cfg0.win 7).arr.view.loc (c.tc : Thread nD τ)).2.ty.Idx) :
    ∃ t : Fin cfg0.N, (cfg0.win 7).flush t = true ∧ i ∈ ((cfg0.win 7).blk t).view.set := by
  have hi0 : (i 0).val < 2048 := (i 0).isLt
  have hi1 : (i 1).val < 128 := (i 1).isLt
  have hlt : 4 * ((i 0).val / 512) + 3 < cfg0.N := by show _ < grid0.N; rw [N_0]; omega
  refine ⟨⟨4 * ((i 0).val / 512) + 3, hlt⟩, (flush0_7 _).mpr (by show (4 * ((i 0).val / 512) + 3) % 4 = 3; omega), ?_⟩
  obtain ⟨e0, e1⟩ := idx7 ⟨4 * ((i 0).val / 512) + 3, hlt⟩
  have e0' : win0_7.index ⟨4 * ((i 0).val / 512) + 3, hlt⟩ (0 : Fin 2) = (i 0).val / 512 := by rw [e0]; show (4 * ((i 0).val / 512) + 3) / 4 = _; omega
  rw [mem_blk7]
  intro a
  match a with
  | ⟨0, _⟩ => show win0_7.index _ (0 : Fin 2) * 512 ≤ (i 0).val ∧ (i 0).val < win0_7.index _ (0 : Fin 2) * 512 + 512; rw [e0']; omega
  | ⟨1, _⟩ => show win0_7.index _ (1 : Fin 2) * 128 ≤ (i 1).val ∧ (i 1).val < win0_7.index _ (1 : Fin 2) * 128 + 128; rw [e1]; omega

/-- After every write-back the result array can only hold the chains' ends. -/
theorem arrAt_out (c : Dev nD) (G : Buf (Elt F) (((cfg0.win 7).arr.view.loc (c.tc : Thread nD τ)))) :
    (rd V c).ArrAt 7 cfg0.N G → G = outArr V c :=
  Cert.LibRelDetermined.ArrAt_eq_of_cover (rd V c) 7 (outArr V c) (fun t hf X hX => flushed_eq V c t hf X hX) (cover c) G

end Cert.KernelIdeal.Node

end
-- ==== Proof.KI.EdgeBody.lean ====
import proofs.«151053_g24051816857981_cont_8to1_1327_4_alg».proof.Proof.Gen.KernelIdeal.Launch
import proofs.«151053_g24051816857981_cont_8to1_1327_4_alg».proof.Proof.Gen.KernelIdeal.Skeleton
import proofs.«151053_g24051816857981_cont_8to1_1327_4_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The edge kernel's body at one grid point

At the point (i, j) the body does up to four things. When the point is the first of its row it refills the
second scratch with the column block of the incidence matrix scaled row by row (k1_pay2). It always forms
the point's contribution (k1_pay3) from a column block of the incidence matrix, the second scratch, the
Laplacian tile and a row block of the edge features. Then exactly one of three stores follows, into a block
of 512 rows of a buffer of 4096 rows: the accumulator's rows are started (k1_pay4), or added to (k1_pay5),
or the output's rows are written from the accumulator's rows plus the contribution (k1_pay1). A store into
a block of rows leaves the other rows as they were: the result is the old contents overlaid on the block. -/

theorem zero2 : (![0, 0] : Fin 2 → Nat) = fun _ => 0 := by
  funext a; fin_cases a <;> rfl

/-- Reading a buffer after one store through a rectangle: the old reading, overlaid by the payload there. -/
theorem read_writes_single {sig : RefSig} {κ : Kind} {sp : Space} {s : Shape} {e : EltTy} {Val : EltTy → Type}
    (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [View.read_writes_apply_of_forall_not_mem v f y [⟨r, w⟩] (by
      intro p hp; rw [List.mem_singleton] at hp; subst hp; exact hy), Rect.overlay_of_not_mem _ _ _ hy]

/-- The column block of the incidence matrix the second scratch is built from (first point of a row). -/
abbrev rInc1 (i : grid1.Coords) (h : k1_cond1 i = 1#1) : Rect S2048x4096 :=
  Rect.unit (s := S2048x4096) (k1_off1 i) S2048x512.size (k1_off1_inb i h)
/-- The column block of the incidence matrix the contribution reads. -/
abbrev rInc2 (i : grid1.Coords) : Rect S2048x4096 :=
  Rect.unit (s := S2048x4096) (k1_off2 i) S2048x512.size (k1_off2_inb i)
/-- The row block of the edge features the contribution reads. -/
abbrev rE3 (i : grid1.Coords) : Rect S4096x16 :=
  Rect.unit (s := S4096x16) (k1_off3 i) S512x16.size (k1_off3_inb i)
/-- The rows the accumulator is started on. -/
abbrev rRow4 (i : grid1.Coords) (h : k1_cond2 i = 1#1) : Rect S4096x16 :=
  Rect.unit (s := S4096x16) (k1_off4 i) S512x16.size (k1_off4_inb i h)
/-- The rows of the accumulator that are added to. -/
abbrev rRow5 (i : grid1.Coords) (h : k1_cond3 i = 1#1) : Rect S4096x16 :=
  Rect.unit (s := S4096x16) (k1_off5 i) S512x16.size (k1_off5_inb i h)
/-- The rows of the output that are written. -/
abbrev rRow6 (i : grid1.Coords) (h : k1_cond4 i = 1#1) : Rect S4096x16 :=
  Rect.unit (s := S4096x16) (k1_off6 i) S512x16.size (k1_off6_inb i h)

/-- What the second scratch holds after a first point of a row. -/
def dNew (i : grid1.Coords) (h1 : k1_cond1 i = 1#1) (x0 : Vec F S2048x4096 .bf16) (x2 : Vec F S2048x128 .f32) (x3 : Vec F S128x1 .f32) :
    Vec F S2048x512 .bf16 :=
  k1_pay2 x2 x3 (View.ld x0 (rInc1 i h1))

/-- The point's contribution, from the second scratch's contents d when it is read. -/
def contrib (i : grid1.Coords) (x0 : Vec F S2048x4096 .bf16) (x1 : Vec F S512x512 .f32) (x4 : Vec F S4096x16 .f32) (x5 : Vec F S16x16 .f32)
    (d : Vec F S2048x512 .bf16) : Vec F S512x16 .f32 :=
  k1_pay3 (View.ld x0 (rInc2 i)) d x1 (View.ld x4 (rE3 i)) x5

/-- The accumulator after its rows are started, from what it held before (a). -/
def accStart (i : grid1.Coords) (h2 : k1_cond2 i = 1#1) (x0 : Vec F S2048x4096 .bf16) (x1 : Vec F S512x512 .f32) (x4 : Vec F S4096x16 .f32)
    (x5 : Vec F S16x16 .f32) (x6 : Vec F S1x16 .f32) (d : Vec F S2048x512 .bf16) (a : Vec F S4096x16 .f32) : Vec F S4096x16 .f32 :=
  (rRow4 i h2).overlay a (k1_pay4 (View.ld x0 (rInc2 i)) d x1 (View.ld x4 (rE3 i)) x5 (View.ld x4 (rRow4 i h2)) x6)

/-- The accumulator after its rows are added to, from what it held before (a). -/
def accAdd (i : grid1.Coords) (h3 : k1_cond3 i = 1#1) (x0 : Vec F S2048x4096 .bf16) (x1 : Vec F S512x512 .f32) (x4 : Vec F S4096x16 .f32)
    (x5 : Vec F S16x16 .f32) (d : Vec F S2048x512 .bf16) (a : Vec F S4096x16 .f32) : Vec F S4096x16 .f32 :=
  (rRow5 i h3).overlay a (k1_pay5 (View.ld x0 (rInc2 i)) d x1 (View.ld x4 (rE3 i)) x5 (View.ld a (rRow5 i h3)))

/-- The output after its rows are written, from the accumulator (a) and what the output held before (y). -/
def outRows (i : grid1.Coords) (h4 : k1_cond4 i = 1#1) (x0 : Vec F S2048x4096 .bf16) (x1 : Vec F S512x512 .f32) (x4 : Vec F S4096x16 .f32)
    (x5 : Vec F S16x16 .f32) (d : Vec F S2048x512 .bf16) (a : Vec F S4096x16 .f32) (y : Vec F S4096x16 .f32) : Vec F S4096x16 .f32 :=
  (rRow6 i h4).overlay y (k1_pay1 (contrib i x0 x1 x4 x5 d) (View.ld a (rRow6 i h4)))

set_option maxHeartbeats 1000000 in
theorem case_first_start (c : Dev nD) (E : Set ℕ) (i : grid1.Coords)
    (arg2 : Memref sig .tc .vmem S2048x4096 .bf16) (harg2 : arg2.IsWhole) (arg3 : Memref sig .tc .vmem S512x512 .f32) (harg3 : arg3.IsWhole)
    (arg4 : Memref sig .tc .vmem S2048x128 .f32) (harg4 : arg4.IsWhole) (arg5 : Memref sig .tc .vmem S128x1 .f32) (harg5 : arg5.IsWhole)
    (arg6 : Memref sig .tc .vmem S4096x16 .f32) (harg6 : arg6.IsWhole) (arg7 : Memref sig .tc .vmem S16x16 .f32) (harg7 : arg7.IsWhole)
    (arg8 : Memref sig .tc .vmem S1x16 .f32) (harg8 : arg8.IsWhole) (arg9 : Memref sig .tc .vmem S4096x16 .f32) (harg9 : arg9.IsWhole)
    (arg10 : Memref sig .tc .vmem S4096x16 .f32) (harg10 : arg10.IsWhole) (arg11 : Memref sig .tc .vmem S2048x512 .bf16) (harg11 : arg11.IsWhole)
    (hc1 : k1_cond1 i = 1#1) (hc2 : k1_cond2 i = 1#1) (hc3 : ¬ k1_cond3 i = 1#1) (hc4 : ¬ k1_cond4 i = 1#1)
    (x0 : Vec F S2048x4096 .bf16) (x1 : Vec F S512x512 .f32) (x2 : Vec F S2048x128 .f32) (x3 : Vec F S128x1 .f32)
    (x4 : Vec F S4096x16 .f32) (x5 : Vec F S16x16 .f32) (x6 : Vec F S1x16 .f32) (y : Vec F S4096x16 .f32)
    (a : Vec F S4096x16 .f32) (s : Vec F S2048x512 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare y ∗ owns (c : Thread nD τ) arg10 fullShare a
        ∗ owns (c : Thread nD τ) arg11 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare y ∗ owns (c : Thread nD τ) arg10 fullShare (accStart i hc2 x0 x1 x4 x5 x6 (dNew i hc1 x0 x2 x3) a)
            ∗ owns (c : Thread nD τ) arg11 fullShare (dNew i hc1 x0 x2 x3)) -∗ K ⟨⟩))
      ⊢ wp frame (wpE (defs₀ (F := F)) Variants.none c none) E (cc1__edge_kernel i arg2 harg2 arg3 harg3 arg4 harg4 arg5 harg5 arg6 harg6 arg7 harg7 arg8 harg8 arg9 harg9 arg10 harg10 arg11 harg11) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9
  sl_exec (disch := first | exact hc1 | exact hc2 | exact hc3 | exact hc4)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    swap
    · iexact H8
    ipureintro
    rw [read_writes_single, harg10.read_unread]
    sl_unfold_run_names
    rw [View.readCov_unit_zero (S := S2048x512) _ zero2]
    unfold accStart dNew
    simp only [View.readAt_eq_ld, Memref.IsWhole.read_unread, View.ld_unit_zero (S := S2048x512) zero2, View.ld_unit_zero (S := S512x512) zero2, View.ld_unit_zero (S := S2048x128) zero2, View.ld_unit_zero (S := S128x1) zero2, View.ld_unit_zero (S := S16x16) zero2, View.ld_unit_zero (S := S1x16) zero2, View.ld_unit_zero (S := S4096x16) zero2]
  iexists _; isplitr
  swap
  · iexact H9
  ipureintro
  sl_unfold_run_names
  rw [View.read_writes_eq_canon _ _ _ (fun y' => ⟨_, List.mem_singleton_self _, View.mem_set_unit_zero zero2 inb_S2048x512_S2048x512_0_0 y'⟩),
    View.canon_unit_zero zero2]
  unfold dNew
  simp only [View.readAt_eq_ld, Memref.IsWhole.read_unread, View.ld_unit_zero (S := S2048x512) zero2, View.ld_unit_zero (S := S512x512) zero2, View.ld_unit_zero (S := S2048x128) zero2, View.ld_unit_zero (S := S128x1) zero2, View.ld_unit_zero (S := S16x16) zero2, View.ld_unit_zero (S := S1x16) zero2, View.ld_unit_zero (S := S4096x16) zero2]

set_option maxHeartbeats 1000000 in
theorem case_first_add (c : Dev nD) (E : Set ℕ) (i : grid1.Coords)
    (arg2 : Memref sig .tc .vmem S2048x4096 .bf16) (harg2 : arg2.IsWhole) (arg3 : Memref sig .tc .vmem S512x512 .f32) (harg3 : arg3.IsWhole)
    (arg4 : Memref sig .tc .vmem S2048x128 .f32) (harg4 : arg4.IsWhole) (arg5 : Memref sig .tc .vmem S128x1 .f32) (harg5 : arg5.IsWhole)
    (arg6 : Memref sig .tc .vmem S4096x16 .f32) (harg6 : arg6.IsWhole) (arg7 : Memref sig .tc .vmem S16x16 .f32) (harg7 : arg7.IsWhole)
    (arg8 : Memref sig .tc .vmem S1x16 .f32) (harg8 : arg8.IsWhole) (arg9 : Memref sig .tc .vmem S4096x16 .f32) (harg9 : arg9.IsWhole)
    (arg10 : Memref sig .tc .vmem S4096x16 .f32) (harg10 : arg10.IsWhole) (arg11 : Memref sig .tc .vmem S2048x512 .bf16) (harg11 : arg11.IsWhole)
    (hc1 : k1_cond1 i = 1#1) (hc2 : ¬ k1_cond2 i = 1#1) (hc3 : k1_cond3 i = 1#1) (hc4 : ¬ k1_cond4 i = 1#1)
    (x0 : Vec F S2048x4096 .bf16) (x1 : Vec F S512x512 .f32) (x2 : Vec F S2048x128 .f32) (x3 : Vec F S128x1 .f32)
    (x4 : Vec F S4096x16 .f32) (x5 : Vec F S16x16 .f32) (x6 : Vec F S1x16 .f32) (y : Vec F S4096x16 .f32)
    (a : Vec F S4096x16 .f32) (s : Vec F S2048x512 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare y ∗ owns (c : Thread nD τ) arg10 fullShare a
        ∗ owns (c : Thread nD τ) arg11 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare y ∗ owns (c : Thread nD τ) arg10 fullShare (accAdd i hc3 x0 x1 x4 x5 (dNew i hc1 x0 x2 x3) a)
            ∗ owns (c : Thread nD τ) arg11 fullShare (dNew i hc1 x0 x2 x3)) -∗ K ⟨⟩))
      ⊢ wp frame (wpE (defs₀ (F := F)) Variants.none c none) E (cc1__edge_kernel i arg2 harg2 arg3 harg3 arg4 harg4 arg5 harg5 arg6 harg6 arg7 harg7 arg8 harg8 arg9 harg9 arg10 harg10 arg11 harg11) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9
  sl_exec (disch := first | exact hc1 | exact hc2 | exact hc3 | exact hc4)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    swap
    · iexact H8
    ipureintro
    rw [read_writes_single, harg10.read_unread]
    sl_unfold_run_names
    rw [View.readCov_unit_zero (S := S2048x512) _ zero2]
    unfold accAdd dNew
    simp only [View.readAt_eq_ld, Memref.IsWhole.read_unread, View.ld_unit_zero (S := S2048x512) zero2, View.ld_unit_zero (S := S512x512) zero2, View.ld_unit_zero (S := S2048x128) zero2, View.ld_unit_zero (S := S128x1) zero2, View.ld_unit_zero (S := S16x16) zero2, View.ld_unit_zero (S := S1x16) zero2, View.ld_unit_zero (S := S4096x16) zero2]
  iexists _; isplitr
  swap
  · iexact H9
  ipureintro
  sl_unfold_run_names
  rw [View.read_writes_eq_canon _ _ _ (fun y' => ⟨_, List.mem_singleton_self _, View.mem_set_unit_zero zero2 inb_S2048x512_S2048x512_0_0 y'⟩),
    View.canon_unit_zero zero2]
  unfold dNew
  simp only [View.readAt_eq_ld, Memref.IsWhole.read_unread, View.ld_unit_zero (S := S2048x512) zero2, View.ld_unit_zero (S := S512x512) zero2, View.ld_unit_zero (S := S2048x128) zero2, View.ld_unit_zero (S := S128x1) zero2, View.ld_unit_zero (S := S16x16) zero2, View.ld_unit_zero (S := S1x16) zero2, View.ld_unit_zero (S := S4096x16) zero2]

set_option maxHeartbeats 1000000 in
theorem case_first_out (c : Dev nD) (E : Set ℕ) (i : grid1.Coords)
    (arg2 : Memref sig .tc .vmem S2048x4096 .bf16) (harg2 : arg2.IsWhole) (arg3 : Memref sig .tc .vmem S512x512 .f32) (harg3 : arg3.IsWhole)
    (arg4 : Memref sig .tc .vmem S2048x128 .f32) (harg4 : arg4.IsWhole) (arg5 : Memref sig .tc .vmem S128x1 .f32) (harg5 : arg5.IsWhole)
    (arg6 : Memref sig .tc .vmem S4096x16 .f32) (harg6 : arg6.IsWhole) (arg7 : Memref sig .tc .vmem S16x16 .f32) (harg7 : arg7.IsWhole)
    (arg8 : Memref sig .tc .vmem S1x16 .f32) (harg8 : arg8.IsWhole) (arg9 : Memref sig .tc .vmem S4096x16 .f32) (harg9 : arg9.IsWhole)
    (arg10 : Memref sig .tc .vmem S4096x16 .f32) (harg10 : arg10.IsWhole) (arg11 : Memref sig .tc .vmem S2048x512 .bf16) (harg11 : arg11.IsWhole)
    (hc1 : k1_cond1 i = 1#1) (hc2 : ¬ k1_cond2 i = 1#1) (hc3 : ¬ k1_cond3 i = 1#1) (hc4 : k1_cond4 i = 1#1)
    (x0 : Vec F S2048x4096 .bf16) (x1 : Vec F S512x512 .f32) (x2 : Vec F S2048x128 .f32) (x3 : Vec F S128x1 .f32)
    (x4 : Vec F S4096x16 .f32) (x5 : Vec F S16x16 .f32) (x6 : Vec F S1x16 .f32) (y : Vec F S4096x16 .f32)
    (a : Vec F S4096x16 .f32) (s : Vec F S2048x512 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare y ∗ owns (c : Thread nD τ) arg10 fullShare a
        ∗ owns (c : Thread nD τ) arg11 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (outRows i hc4 x0 x1 x4 x5 (dNew i hc1 x0 x2 x3) a y) ∗ owns (c : Thread nD τ) arg10 fullShare a
            ∗ owns (c : Thread nD τ) arg11 fullShare (dNew i hc1 x0 x2 x3)) -∗ K ⟨⟩))
      ⊢ wp frame (wpE (defs₀ (F := F)) Variants.none c none) E (cc1__edge_kernel i arg2 harg2 arg3 harg3 arg4 harg4 arg5 harg5 arg6 harg6 arg7 harg7 arg8 harg8 arg9 harg9 arg10 harg10 arg11 harg11) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9
  sl_exec (disch := first | exact hc1 | exact hc2 | exact hc3 | exact hc4)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    swap
    · iexact H7
    ipureintro
    rw [read_writes_single, harg9.read_unread]
    sl_unfold_run_names
    rw [View.readCov_unit_zero (S := S2048x512) _ zero2]
    unfold outRows contrib dNew
    simp only [View.readAt_eq_ld, Memref.IsWhole.read_unread, View.ld_unit_zero (S := S2048x512) zero2, View.ld_unit_zero (S := S512x512) zero2, View.ld_unit_zero (S := S2048x128) zero2, View.ld_unit_zero (S := S128x1) zero2, View.ld_unit_zero (S := S16x16) zero2, View.ld_unit_zero (S := S1x16) zero2, View.ld_unit_zero (S := S4096x16) zero2]
  isplitl [H8]
  · iexists _; isplitr
    · ipureintro; exact harg10.read_unread _
    iexact H8
  iexists _; isplitr
  swap
  · iexact H9
  ipureintro
  sl_unfold_run_names
  rw [View.read_writes_eq_canon _ _ _ (fun y' => ⟨_, List.mem_singleton_self _, View.mem_set_unit_zero zero2 inb_S2048x512_S2048x512_0_0 y'⟩),
    View.canon_unit_zero zero2]
  unfold dNew
  simp only [View.readAt_eq_ld, Memref.IsWhole.read_unread, View.ld_unit_zero (S := S2048x512) zero2, View.ld_unit_zero (S := S512x512) zero2, View.ld_unit_zero (S := S2048x128) zero2, View.ld_unit_zero (S := S128x1) zero2, View.ld_unit_zero (S := S16x16) zero2, View.ld_unit_zero (S := S1x16) zero2, View.ld_unit_zero (S := S4096x16) zero2]

set_option maxHeartbeats 1000000 in
theorem case_later_start (c : Dev nD) (E : Set ℕ) (i : grid1.Coords)
    (arg2 : Memref sig .tc .vmem S2048x4096 .bf16) (harg2 : arg2.IsWhole) (arg3 : Memref sig .tc .vmem S512x512 .f32) (harg3 : arg3.IsWhole)
    (arg4 : Memref sig .tc .vmem S2048x128 .f32) (harg4 : arg4.IsWhole) (arg5 : Memref sig .tc .vmem S128x1 .f32) (harg5 : arg5.IsWhole)
    (arg6 : Memref sig .tc .vmem S4096x16 .f32) (harg6 : arg6.IsWhole) (arg7 : Memref sig .tc .vmem S16x16 .f32) (harg7 : arg7.IsWhole)
    (arg8 : Memref sig .tc .vmem S1x16 .f32) (harg8 : arg8.IsWhole) (arg9 : Memref sig .tc .vmem S4096x16 .f32) (harg9 : arg9.IsWhole)
    (arg10 : Memref sig .tc .vmem S4096x16 .f32) (harg10 : arg10.IsWhole) (arg11 : Memref sig .tc .vmem S2048x512 .bf16) (harg11 : arg11.IsWhole)
    (hc1 : ¬ k1_cond1 i = 1#1) (hc2 : k1_cond2 i = 1#1) (hc3 : ¬ k1_cond3 i = 1#1) (hc4 : ¬ k1_cond4 i = 1#1)
    (x0 : Vec F S2048x4096 .bf16) (x1 : Vec F S512x512 .f32) (x2 : Vec F S2048x128 .f32) (x3 : Vec F S128x1 .f32)
    (x4 : Vec F S4096x16 .f32) (x5 : Vec F S16x16 .f32) (x6 : Vec F S1x16 .f32) (y : Vec F S4096x16 .f32)
    (a : Vec F S4096x16 .f32) (s : Vec F S2048x512 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare y ∗ owns (c : Thread nD τ) arg10 fullShare a
        ∗ owns (c : Thread nD τ) arg11 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare y ∗ owns (c : Thread nD τ) arg10 fullShare (accStart i hc2 x0 x1 x4 x5 x6 s a)
            ∗ owns (c : Thread nD τ) arg11 fullShare s) -∗ K ⟨⟩))
      ⊢ wp frame (wpE (defs₀ (F := F)) Variants.none c none) E (cc1__edge_kernel i arg2 harg2 arg3 harg3 arg4 harg4 arg5 harg5 arg6 harg6 arg7 harg7 arg8 harg8 arg9 harg9 arg10 harg10 arg11 harg11) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9
  sl_exec (disch := first | exact hc1 | exact hc2 | exact hc3 | exact hc4)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    swap
    · iexact H8
    ipureintro
    rw [read_writes_single, harg10.read_unread]
    sl_unfold_run_names
    unfold accStart
    simp only [View.readAt_eq_ld, Memref.IsWhole.read_unread, View.ld_unit_zero (S := S2048x512) zero2, View.ld_unit_zero (S := S512x512) zero2, View.ld_unit_zero (S := S2048x128) zero2, View.ld_unit_zero (S := S128x1) zero2, View.ld_unit_zero (S := S16x16) zero2, View.ld_unit_zero (S := S1x16) zero2, View.ld_unit_zero (S := S4096x16) zero2]
  iexists _; isplitr
  · ipureintro; exact harg11.read_unread _
  iexact H9

set_option maxHeartbeats 1000000 in
theorem case_later_add (c : Dev nD) (E : Set ℕ) (i : grid1.Coords)
    (arg2 : Memref sig .tc .vmem S2048x4096 .bf16) (harg2 : arg2.IsWhole) (arg3 : Memref sig .tc .vmem S512x512 .f32) (harg3 : arg3.IsWhole)
    (arg4 : Memref sig .tc .vmem S2048x128 .f32) (harg4 : arg4.IsWhole) (arg5 : Memref sig .tc .vmem S128x1 .f32) (harg5 : arg5.IsWhole)
    (arg6 : Memref sig .tc .vmem S4096x16 .f32) (harg6 : arg6.IsWhole) (arg7 : Memref sig .tc .vmem S16x16 .f32) (harg7 : arg7.IsWhole)
    (arg8 : Memref sig .tc .vmem S1x16 .f32) (harg8 : arg8.IsWhole) (arg9 : Memref sig .tc .vmem S4096x16 .f32) (harg9 : arg9.IsWhole)
    (arg10 : Memref sig .tc .vmem S4096x16 .f32) (harg10 : arg10.IsWhole) (arg11 : Memref sig .tc .vmem S2048x512 .bf16) (harg11 : arg11.IsWhole)
    (hc1 : ¬ k1_cond1 i = 1#1) (hc2 : ¬ k1_cond2 i = 1#1) (hc3 : k1_cond3 i = 1#1) (hc4 : ¬ k1_cond4 i = 1#1)
    (x0 : Vec F S2048x4096 .bf16) (x1 : Vec F S512x512 .f32) (x2 : Vec F S2048x128 .f32) (x3 : Vec F S128x1 .f32)
    (x4 : Vec F S4096x16 .f32) (x5 : Vec F S16x16 .f32) (x6 : Vec F S1x16 .f32) (y : Vec F S4096x16 .f32)
    (a : Vec F S4096x16 .f32) (s : Vec F S2048x512 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare y ∗ owns (c : Thread nD τ) arg10 fullShare a
        ∗ owns (c : Thread nD τ) arg11 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare y ∗ owns (c : Thread nD τ) arg10 fullShare (accAdd i hc3 x0 x1 x4 x5 s a)
            ∗ owns (c : Thread nD τ) arg11 fullShare s) -∗ K ⟨⟩))
      ⊢ wp frame (wpE (defs₀ (F := F)) Variants.none c none) E (cc1__edge_kernel i arg2 harg2 arg3 harg3 arg4 harg4 arg5 harg5 arg6 harg6 arg7 harg7 arg8 harg8 arg9 harg9 arg10 harg10 arg11 harg11) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9
  sl_exec (disch := first | exact hc1 | exact hc2 | exact hc3 | exact hc4)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    swap
    · iexact H8
    ipureintro
    rw [read_writes_single, harg10.read_unread]
    sl_unfold_run_names
    unfold accAdd
    simp only [View.readAt_eq_ld, Memref.IsWhole.read_unread, View.ld_unit_zero (S := S2048x512) zero2, View.ld_unit_zero (S := S512x512) zero2, View.ld_unit_zero (S := S2048x128) zero2, View.ld_unit_zero (S := S128x1) zero2, View.ld_unit_zero (S := S16x16) zero2, View.ld_unit_zero (S := S1x16) zero2, View.ld_unit_zero (S := S4096x16) zero2]
  iexists _; isplitr
  · ipureintro; exact harg11.read_unread _
  iexact H9

set_option maxHeartbeats 1000000 in
theorem case_later_out (c : Dev nD) (E : Set ℕ) (i : grid1.Coords)
    (arg2 : Memref sig .tc .vmem S2048x4096 .bf16) (harg2 : arg2.IsWhole) (arg3 : Memref sig .tc .vmem S512x512 .f32) (harg3 : arg3.IsWhole)
    (arg4 : Memref sig .tc .vmem S2048x128 .f32) (harg4 : arg4.IsWhole) (arg5 : Memref sig .tc .vmem S128x1 .f32) (harg5 : arg5.IsWhole)
    (arg6 : Memref sig .tc .vmem S4096x16 .f32) (harg6 : arg6.IsWhole) (arg7 : Memref sig .tc .vmem S16x16 .f32) (harg7 : arg7.IsWhole)
    (arg8 : Memref sig .tc .vmem S1x16 .f32) (harg8 : arg8.IsWhole) (arg9 : Memref sig .tc .vmem S4096x16 .f32) (harg9 : arg9.IsWhole)
    (arg10 : Memref sig .tc .vmem S4096x16 .f32) (harg10 : arg10.IsWhole) (arg11 : Memref sig .tc .vmem S2048x512 .bf16) (harg11 : arg11.IsWhole)
    (hc1 : ¬ k1_cond1 i = 1#1) (hc2 : ¬ k1_cond2 i = 1#1) (hc3 : ¬ k1_cond3 i = 1#1) (hc4 : k1_cond4 i = 1#1)
    (x0 : Vec F S2048x4096 .bf16) (x1 : Vec F S512x512 .f32) (x2 : Vec F S2048x128 .f32) (x3 : Vec F S128x1 .f32)
    (x4 : Vec F S4096x16 .f32) (x5 : Vec F S16x16 .f32) (x6 : Vec F S1x16 .f32) (y : Vec F S4096x16 .f32)
    (a : Vec F S4096x16 .f32) (s : Vec F S2048x512 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare y ∗ owns (c : Thread nD τ) arg10 fullShare a
        ∗ owns (c : Thread nD τ) arg11 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (outRows i hc4 x0 x1 x4 x5 s a y) ∗ owns (c : Thread nD τ) arg10 fullShare a
            ∗ owns (c : Thread nD τ) arg11 fullShare s) -∗ K ⟨⟩))
      ⊢ wp frame (wpE (defs₀ (F := F)) Variants.none c none) E (cc1__edge_kernel i arg2 harg2 arg3 harg3 arg4 harg4 arg5 harg5 arg6 harg6 arg7 harg7 arg8 harg8 arg9 harg9 arg10 harg10 arg11 harg11) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg11.eq_unread hf9
  sl_exec (disch := first | exact hc1 | exact hc2 | exact hc3 | exact hc4)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    swap
    · iexact H7
    ipureintro
    rw [read_writes_single, harg9.read_unread]
    sl_unfold_run_names
    unfold outRows contrib
    simp only [View.readAt_eq_ld, Memref.IsWhole.read_unread, View.ld_unit_zero (S := S2048x512) zero2, View.ld_unit_zero (S := S512x512) zero2, View.ld_unit_zero (S := S2048x128) zero2, View.ld_unit_zero (S := S128x1) zero2, View.ld_unit_zero (S := S16x16) zero2, View.ld_unit_zero (S := S1x16) zero2, View.ld_unit_zero (S := S4096x16) zero2]
  isplitl [H8]
  · iexists _; isplitr
    · ipureintro; exact harg10.read_unread _
    iexact H8
  iexists _; isplitr
  · ipureintro; exact harg11.read_unread _
  iexact H9

end Cert.KernelIdeal.Edge

end
-- ==== Proof.KI.EdgeData.lean ====
import proofs.«151053_g24051816857981_cont_8to1_1327_4_alg».proof.Proof.KI.EdgeBody
import proofs.«151053_g24051816857981_cont_8to1_1327_4_alg».proof.Proof.LibRelDetermined
import proofs.«151053_g24051816857981_cont_8to1_1327_4_alg».proof.Proof.Gen.KernelIdeal.Launch
import proofs.«151053_g24051816857981_cont_8to1_1327_4_alg».proof.Proof.Gen.KernelIdeal.Skeleton
import proofs.«151053_g24051816857981_cont_8to1_1327_4_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

set_option maxRecDepth 16384

noncomputable section

namespace Cert.KernelIdeal.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

/-! ## The edge region's proof data, relationally

The grid has 64 points; point t has column block t / 8 and row block t % 8. The inputs are left as found. The
scaled-columns scratch is carried at a named value, recomputed at the first point of each run of eight. The
accumulator scratch holds, for each row block, a running sum over the column blocks: it is started in the first
run of eight points, added to in the next six, and in the last run the output's row block is written from it plus
the last contribution. The accumulator starts at contents nobody names, so the invariant says which of its row
blocks are known, and at which stage of the sum. -/

variable (V : (c : Dev nD) → (b : Ref sig .tc) → Buf (Elt F) ((c : Thread nD τ).loc b))

theorem N1 : cfg1.N = 64 := N_1

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The four branch conditions over the grid. -/
theorem hcond1 : ∀ t : Fin cfg1.N, k1_cond1 (grid1.coords t) = 1#1 ↔ t.val % 8 = 0 :=
  (by decide +kernel : ∀ t : Fin grid1.N, k1_cond1 (grid1.coords t) = 1#1 ↔ t.val % 8 = 0)
theorem hcond2 : ∀ t : Fin cfg1.N, k1_cond2 (grid1.coords t) = 1#1 ↔ t.val < 8 :=
  (by decide +kernel : ∀ t : Fin grid1.N, k1_cond2 (grid1.coords t) = 1#1 ↔ t.val < 8)
theorem hcond3 : ∀ t : Fin cfg1.N, k1_cond3 (grid1.coords t) = 1#1 ↔ (8 ≤ t.val ∧ t.val < 56) :=
  (by decide +kernel : ∀ t : Fin grid1.N, k1_cond3 (grid1.coords t) = 1#1 ↔ (8 ≤ t.val ∧ t.val < 56))
theorem hcond4 : ∀ t : Fin cfg1.N, k1_cond4 (grid1.coords t) = 1#1 ↔ 56 ≤ t.val :=
  (by decide +kernel : ∀ t : Fin grid1.N, k1_cond4 (grid1.coords t) = 1#1 ↔ 56 ≤ t.val)

/-- The fast grid coordinate of point t is its row block. -/
theorem hcoord1 : ∀ t : Fin cfg1.N, ((grid1.coords t) 1).val = t.val % 8 :=
  (by decide +kernel : ∀ t : Fin grid1.N, ((grid1.coords t) 1).val = t.val % 8)

theorem hoff4 (t : Fin cfg1.N) : k1_off4 (grid1.coords t) = ![512 * (t.val % 8), 0] := by rw [k1_off4_eq, hcoord1]
theorem hoff5 (t : Fin cfg1.N) : k1_off5 (grid1.coords t) = ![512 * (t.val % 8), 0] := by rw [k1_off5_eq, hcoord1]
theorem hoff6 (t : Fin cfg1.N) : k1_off6 (grid1.coords t) = ![512 * (t.val % 8), 0] := by rw [k1_off6_eq, hcoord1]

theorem rows_inb : ∀ (r : Fin 8) a, (![512 * r.val, 0] : Fin 2 → Nat) a + S512x16.size a ≤ S4096x16.size a := by decide

/-- Row block r of a buffer of 4096 rows. -/
abbrev rows (r : Fin 8) : Rect S4096x16 := Rect.unit (s := S4096x16) ![512 * r.val, 0] S512x16.size (rows_inb r)

/-- The row block of point t. -/
def rowOf (t : Fin cfg1.N) : Fin 8 := ⟨t.val % 8, Nat.mod_lt _ (by decide)⟩

theorem rect_unit_congr {s : Shape} {off off' sz : Fin s.rank → Nat} (h : off = off') (inb : ∀ a, off a + sz a ≤ s.size a)
    (inb' : ∀ a, off' a + sz a ≤ s.size a) : Rect.unit (s := s) off sz inb = Rect.unit (s := s) off' sz inb' := by
  subst h; rfl

theorem rRow4_eq (t : Fin cfg1.N) (h : k1_cond2 (grid1.coords t) = 1#1) : rRow4 (grid1.coords t) h = rows (rowOf t) :=
  rect_unit_congr (hoff4 t) _ _
theorem rRow5_eq (t : Fin cfg1.N) (h : k1_cond3 (grid1.coords t) = 1#1) : rRow5 (grid1.coords t) h = rows (rowOf t) :=
  rect_unit_congr (hoff5 t) _ _
theorem rRow6_eq (t : Fin cfg1.N) (h : k1_cond4 (grid1.coords t) = 1#1) : rRow6 (grid1.coords t) h = rows (rowOf t) :=
  rect_unit_congr (hoff6 t) _ _

/-- Point number n (taken modulo the number of points, so that it is total). -/
def pt (n : ℕ) : Fin cfg1.N := ⟨n % 64, by rw [N1]; exact Nat.mod_lt _ (by decide)⟩

theorem lt64 (t : Fin cfg1.N) : t.val < 64 := Nat.lt_of_lt_of_eq t.isLt N1

theorem pt_of_lt {n : ℕ} (t : Fin cfg1.N) (h : n = t.val) : pt n = t := by
  subst h; exact Fin.ext (Nat.mod_eq_of_lt (lt64 t))

/-- The scaled-columns scratch after point n: recomputed at the first point of each run of eight, kept at the others. -/
def dAt (c : Dev nD) : (n : ℕ) → n < cfg1.N → Vec F S2048x512 .bf16
  | 0, h => dNew (grid1.coords ⟨0, h⟩) ((hcond1 ⟨0, h⟩).mpr (Nat.zero_mod _)) (iblk V c 0 ⟨0, h⟩) (iblk V c 2 ⟨0, h⟩) (iblk V c 3 ⟨0, h⟩)
  | n + 1, h =>
    if h0 : (n + 1) % 8 = 0 then
      dNew (grid1.coords ⟨n + 1, h⟩) ((hcond1 ⟨n + 1, h⟩).mpr h0) (iblk V c 0 ⟨n + 1, h⟩) (iblk V c 2 ⟨n + 1, h⟩) (iblk V c 3 ⟨n + 1, h⟩)
    else dAt c n (Nat.lt_of_succ_lt h)

theorem dAt_start (c : Dev nD) (t : Fin cfg1.N) (h0 : t.val % 8 = 0) :
    dAt V c t.val t.isLt = dNew (grid1.coords t) ((hcond1 t).mpr h0) (iblk V c 0 t) (iblk V c 2 t) (iblk V c 3 t) := by
  obtain ⟨n, hn⟩ := t
  cases n with
  | zero => rfl
  | succ n => exact dif_pos h0

theorem dAt_keep (c : Dev nD) (t : Fin cfg1.N) (h0 : ¬ t.val % 8 = 0) :
    dAt V c t.val t.isLt = dAt V c (t.val - 1) (Nat.lt_of_le_of_lt (Nat.sub_le _ _) t.isLt) := by
  obtain ⟨n, hn⟩ := t
  cases n with
  | zero => exact absurd (Nat.zero_mod _) h0
  | succ n => exact dif_neg h0

/-- The rows an accumulator block is started at: features plus bias plus the contribution. -/
def startV (i : grid1.Coords) (r : Fin 8) (x0 : Vec F S2048x4096 .bf16) (x1 : Vec F S512x512 .f32) (x4 : Vec F S4096x16 .f32)
    (x5 : Vec F S16x16 .f32) (x6 : Vec F S1x16 .f32) (d : Vec F S2048x512 .bf16) : Vec F S512x16 .f32 :=
  k1_pay4 (View.ld x0 (rInc2 i)) d x1 (View.ld x4 (rE3 i)) x5 (View.ld x4 (rows r)) x6

/-- An accumulator block p with the contribution added. -/
def addV (i : grid1.Coords) (x0 : Vec F S2048x4096 .bf16) (x1 : Vec F S512x512 .f32) (x4 : Vec F S4096x16 .f32)
    (x5 : Vec F S16x16 .f32) (d : Vec F S2048x512 .bf16) (p : Vec F S512x16 .f32) : Vec F S512x16 .f32 :=
  k1_pay5 (View.ld x0 (rInc2 i)) d x1 (View.ld x4 (rE3 i)) x5 p

/-- The contribution of point t. -/
def contribAt (c : Dev nD) (t : Fin cfg1.N) : Vec F S512x16 .f32 :=
  contrib (grid1.coords t) (iblk V c 0 t) (iblk V c 1 t) (iblk V c 4 t) (iblk V c 5 t) (dAt V c t.val t.isLt)

/-- What point t (in the first run) starts its accumulator block at. -/
def startVal (c : Dev nD) (t : Fin cfg1.N) : Vec F S512x16 .f32 :=
  startV (grid1.coords t) (rowOf t) (iblk V c 0 t) (iblk V c 1 t) (iblk V c 4 t) (iblk V c 5 t) (iblk V c 6 t) (dAt V c t.val t.isLt)

/-- What point t (in the middle runs) makes of its accumulator block p. -/
def addVal (c : Dev nD) (t : Fin cfg1.N) (p : Vec F S512x16 .f32) : Vec F S512x16 .f32 :=
  addV (grid1.coords t) (iblk V c 0 t) (iblk V c 1 t) (iblk V c 4 t) (iblk V c 5 t) (dAt V c t.val t.isLt) p

/-- What point t (in the last run) writes to its output block, from its accumulator block p. -/
def outVal (c : Dev nD) (t : Fin cfg1.N) (p : Vec F S512x16 .f32) : Vec F S512x16 .f32 :=
  k1_pay1 (contribAt V c t) p

/-- Row block r of the accumulator after the point of column block j (j = 0 … 6). -/
def rowAcc (c : Dev nD) (r : Fin 8) : ℕ → Vec F S512x16 .f32
  | 0 => startVal V c (pt r.val)
  | j + 1 => addVal V c (pt (8 * (j + 1) + r.val)) (rowAcc c r j)

/-- The stage row block r of the accumulator is at after point n. -/
def lvl (n : ℕ) (r : Fin 8) : ℕ := min (if r.val ≤ n % 8 then n / 8 else n / 8 - 1) 6

/-- After point n, the row blocks of the accumulator some point has stored into are at their stage of the sum. -/
def AccInv (c : Dev nD) (n : ℕ) (a : Vec F S4096x16 .f32) : Prop :=
  ∀ r : Fin 8, (r.val ≤ n % 8 ∨ 8 ≤ n) → View.ld a (rows r) = rowAcc V c r (lvl n r)

/-- The accumulator after point t, from what it held before. -/
def accStep (c : Dev nD) (t : Fin cfg1.N) (a : Vec F S4096x16 .f32) : Vec F S4096x16 .f32 :=
  if t.val < 8 then (rows (rowOf t)).overlay a (startVal V c t)
  else if t.val < 56 then (rows (rowOf t)).overlay a (addVal V c t (View.ld a (rows (rowOf t))))
  else a

/-- The output buffer after point t, from the accumulator and what the buffer held before. -/
def outStep (c : Dev nD) (t : Fin cfg1.N) (a y : Vec F S4096x16 .f32) : Vec F S4096x16 .f32 :=
  if 56 ≤ t.val then (rows (rowOf t)).overlay y (outVal V c t (View.ld a (rows (rowOf t)))) else y

/-! ### Row blocks and overlays -/

theorem ld_overlay_same {S : Shape} {Val : EltTy → Type} {e : EltTy} (r : Rect S) (a : S.Idx → Val e) (G : r.shape.Idx → Val e) :
    View.ld (r.overlay a G) r = G := by
  funext x; exact Rect.overlay_emb r a G x

theorem ld_overlay_rows_ne {Val : EltTy → Type} {e : EltTy} (r r' : Fin 8) (h : r ≠ r') (a : S4096x16.Idx → Val e)
    (G : (rows r).shape.Idx → Val e) : View.ld ((rows r).overlay a G) (rows r') = View.ld a (rows r') := by
  funext x
  refine Rect.overlay_of_not_mem (rows r) a G ?_
  rw [Rect.mem_set_unit]
  intro hm
  have h0 := hm 0
  have hx : ((x 0 : Fin _) : ℕ) < 512 := (x 0).isLt
  have hv : r.val ≠ r'.val := fun e => h (Fin.ext e)
  have hr := r.isLt
  have hr' := r'.isLt
  have e1 : (((rows r').toLoadRect.idx x) 0 : ℕ) = 512 * r'.val + 1 * (x 0 : ℕ) := rfl
  have e2 : (![512 * r.val, 0] : Fin 2 → ℕ) 0 = 512 * r.val := rfl
  have e3 : S512x16.size 0 = 512 := rfl
  rw [e1, e2, e3] at h0
  omega

/-! ### The accumulator invariant, point by point -/

theorem lvl_start (n : ℕ) (r : Fin 8) (hn : n < 8) (hr : r.val ≤ n) : lvl n r = 0 := by
  unfold lvl
  have : n / 8 = 0 := by omega
  rw [this]; simp

theorem AccInv_start (c : Dev nD) (t : Fin cfg1.N) (ht : t.val < 8) (a : Vec F S4096x16 .f32)
    (h : t.val = 0 ∨ AccInv V c (t.val - 1) a) : AccInv V c t.val ((rows (rowOf t)).overlay a (startVal V c t)) := by
  intro r hr
  have hr' : r.val ≤ t.val := by omega
  rw [lvl_start t.val r ht hr']
  by_cases e : r = rowOf t
  · subst e
    rw [ld_overlay_same]
    show startVal V c t = startVal V c (pt (rowOf t).val)
    rw [pt_of_lt t (by show t.val % 8 = t.val; omega)]
  · rw [ld_overlay_rows_ne _ _ (Ne.symm e)]
    have hne : r.val ≠ t.val % 8 := fun e' => e (Fin.ext e')
    have ht0 : t.val ≠ 0 := by omega
    have hA := h.resolve_left ht0
    rw [hA r (Or.inl (by omega)), lvl_start (t.val - 1) r (by omega) (by omega)]

theorem lvl_add_same (n : ℕ) (r : Fin 8) (h8 : 8 ≤ n) (h56 : n < 56) (hr : r.val = n % 8) :
    lvl (n - 1) r + 1 = lvl n r := by
  unfold lvl
  rw [if_pos (by omega : r.val ≤ n % 8)]
  split <;> omega

theorem lvl_add_other (n : ℕ) (r : Fin 8) (h8 : 8 ≤ n) (hr : r.val ≠ n % 8) : lvl (n - 1) r = lvl n r := by
  unfold lvl
  have := r.isLt
  split <;> split <;> omega

theorem AccInv_add (c : Dev nD) (t : Fin cfg1.N) (h8 : 8 ≤ t.val) (h56 : t.val < 56) (a : Vec F S4096x16 .f32)
    (h : AccInv V c (t.val - 1) a) :
    AccInv V c t.val ((rows (rowOf t)).overlay a (addVal V c t (View.ld a (rows (rowOf t))))) := by
  intro r _
  have hpre : ∀ r : Fin 8, r.val ≤ (t.val - 1) % 8 ∨ 8 ≤ t.val - 1 := fun r => by have := r.isLt; omega
  by_cases e : r = rowOf t
  · subst e
    rw [ld_overlay_same, h _ (hpre _), ← lvl_add_same t.val (rowOf t) h8 h56 rfl]
    show addVal V c t _ = addVal V c (pt (8 * (lvl (t.val - 1) (rowOf t) + 1) + (rowOf t).val)) _
    rw [pt_of_lt t (by
      have := lvl_add_same t.val (rowOf t) h8 h56 rfl
      have e2 : lvl t.val (rowOf t) = t.val / 8 := by
        unfold lvl; rw [if_pos (show (rowOf t).val ≤ t.val % 8 from Nat.le_refl _)]; omega
      show 8 * (lvl (t.val - 1) (rowOf t) + 1) + t.val % 8 = t.val
      omega)]
  · rw [ld_overlay_rows_ne _ _ (Ne.symm e), h _ (hpre _), lvl_add_other t.val r h8 (fun e' => e (Fin.ext e'))]

theorem lvl_out (n : ℕ) (r : Fin 8) (h : 55 ≤ n) (hn : n < 64) : lvl n r = 6 := by
  unfold lvl
  have := r.isLt
  split <;> omega

theorem AccInv_out (c : Dev nD) (t : Fin cfg1.N) (h56 : 56 ≤ t.val) (a : Vec F S4096x16 .f32)
    (h : AccInv V c (t.val - 1) a) : AccInv V c t.val a := by
  intro r _
  have ht : t.val < 64 := lt64 t
  rw [h r (by have := r.isLt; omega), lvl_out _ r (by omega) (by omega), lvl_out _ r (by omega) ht]

theorem AccInv_last (c : Dev nD) (t : Fin cfg1.N) (h56 : 56 ≤ t.val) (a : Vec F S4096x16 .f32)
    (h : AccInv V c (t.val - 1) a) : View.ld a (rows (rowOf t)) = rowAcc V c (rowOf t) 6 := by
  have ht : t.val < 64 := lt64 t
  rw [h (rowOf t) (by omega), lvl_out _ _ (by omega) (by omega)]

/-- The invariant after point t, from the invariant before it. -/
theorem AccInv_step (c : Dev nD) (t : Fin cfg1.N) (a : Vec F S4096x16 .f32) (h : t.val = 0 ∨ AccInv V c (t.val - 1) a) :
    AccInv V c t.val (accStep V c t a) := by
  unfold accStep
  by_cases h8 : t.val < 8
  · rw [if_pos h8]; exact AccInv_start V c t h8 a h
  · have hA := h.resolve_left (by omega)
    rw [if_neg h8]
    by_cases h56 : t.val < 56
    · rw [if_pos h56]; exact AccInv_add V c t (by omega) h56 a hA
    · rw [if_neg h56]; exact AccInv_out V c t (by omega) a hA

/-! ### The triples' results through the row blocks -/

theorem accStart_rows (t : Fin cfg1.N) (h2 : k1_cond2 (grid1.coords t) = 1#1) (x0 : Vec F S2048x4096 .bf16) (x1 : Vec F S512x512 .f32)
    (x4 : Vec F S4096x16 .f32) (x5 : Vec F S16x16 .f32) (x6 : Vec F S1x16 .f32) (d : Vec F S2048x512 .bf16) (a : Vec F S4096x16 .f32) :
    accStart (grid1.coords t) h2 x0 x1 x4 x5 x6 d a
      = (rows (rowOf t)).overlay a (startV (grid1.coords t) (rowOf t) x0 x1 x4 x5 x6 d) := by
  unfold accStart startV
  have key : ∀ (off : Fin 2 → ℕ) (inb : ∀ a, off a + S512x16.size a ≤ S4096x16.size a), off = ![512 * (t.val % 8), 0] →
      (Rect.unit (s := S4096x16) off S512x16.size inb).overlay a (k1_pay4 (View.ld x0 (rInc2 (grid1.coords t))) d x1
          (View.ld x4 (rE3 (grid1.coords t))) x5 (View.ld x4 (Rect.unit (s := S4096x16) off S512x16.size inb)) x6)
        = (rows (rowOf t)).overlay a (k1_pay4 (View.ld x0 (rInc2 (grid1.coords t))) d x1
          (View.ld x4 (rE3 (grid1.coords t))) x5 (View.ld x4 (rows (rowOf t))) x6) := by
    intro off inb h; subst h; rfl
  exact key _ _ (hoff4 t)

theorem accAdd_rows (t : Fin cfg1.N) (h3 : k1_cond3 (grid1.coords t) = 1#1) (x0 : Vec F S2048x4096 .bf16) (x1 : Vec F S512x512 .f32)
    (x4 : Vec F S4096x16 .f32) (x5 : Vec F S16x16 .f32) (d : Vec F S2048x512 .bf16) (a : Vec F S4096x16 .f32) :
    accAdd (grid1.coords t) h3 x0 x1 x4 x5 d a
      = (rows (rowOf t)).overlay a (addV (grid1.coords t) x0 x1 x4 x5 d (View.ld a (rows (rowOf t)))) := by
  unfold accAdd addV
  have key : ∀ (off : Fin 2 → ℕ) (inb : ∀ a, off a + S512x16.size a ≤ S4096x16.size a), off = ![512 * (t.val % 8), 0] →
      (Rect.unit (s := S4096x16) off S512x16.size inb).overlay a (k1_pay5 (View.ld x0 (rInc2 (grid1.coords t))) d x1
          (View.ld x4 (rE3 (grid1.coords t))) x5 (View.ld a (Rect.unit (s := S4096x16) off S512x16.size inb)))
        = (rows (rowOf t)).overlay a (k1_pay5 (View.ld x0 (rInc2 (grid1.coords t))) d x1
          (View.ld x4 (rE3 (grid1.coords t))) x5 (View.ld a (rows (rowOf t)))) := by
    intro off inb h; subst h; rfl
  exact key _ _ (hoff5 t)

theorem outRows_rows (t : Fin cfg1.N) (h4 : k1_cond4 (grid1.coords t) = 1#1) (x0 : Vec F S2048x4096 .bf16) (x1 : Vec F S512x512 .f32)
    (x4 : Vec F S4096x16 .f32) (x5 : Vec F S16x16 .f32) (d : Vec F S2048x512 .bf16) (a y : Vec F S4096x16 .f32) :
    outRows (grid1.coords t) h4 x0 x1 x4 x5 d a y
      = (rows (rowOf t)).overlay y (k1_pay1 (contrib (grid1.coords t) x0 x1 x4 x5 d) (View.ld a (rows (rowOf t)))) := by
  unfold outRows
  have key : ∀ (off : Fin 2 → ℕ) (inb : ∀ a, off a + S512x16.size a ≤ S4096x16.size a), off = ![512 * (t.val % 8), 0] →
      (Rect.unit (s := S4096x16) off S512x16.size inb).overlay y (k1_pay1 (contrib (grid1.coords t) x0 x1 x4 x5 d)
          (View.ld a (Rect.unit (s := S4096x16) off S512x16.size inb)))
        = (rows (rowOf t)).overlay y (k1_pay1 (contrib (grid1.coords t) x0 x1 x4 x5 d) (View.ld a (rows (rowOf t)))) := by
    intro off inb h; subst h; rfl
  exact key _ _ (hoff6 t)

/-! ### The body at a point, all cases at once -/

set_option maxHeartbeats 1000000 in
/-- The body at point t, whichever branches it takes: the inputs are handed back as found, the output buffer, the
    accumulator and the scaled-columns scratch at their next contents. -/
theorem step_triple (c : Dev nD) (E : Set ℕ) (t : Fin cfg1.N)
    (arg2 : Memref sig .tc .vmem S2048x4096 .bf16) (harg2 : arg2.IsWhole) (arg3 : Memref sig .tc .vmem S512x512 .f32) (harg3 : arg3.IsWhole)
    (arg4 : Memref sig .tc .vmem S2048x128 .f32) (harg4 : arg4.IsWhole) (arg5 : Memref sig .tc .vmem S128x1 .f32) (harg5 : arg5.IsWhole)
    (arg6 : Memref sig .tc .vmem S4096x16 .f32) (harg6 : arg6.IsWhole) (arg7 : Memref sig .tc .vmem S16x16 .f32) (harg7 : arg7.IsWhole)
    (arg8 : Memref sig .tc .vmem S1x16 .f32) (harg8 : arg8.IsWhole) (arg9 : Memref sig .tc .vmem S4096x16 .f32) (harg9 : arg9.IsWhole)
    (arg10 : Memref sig .tc .vmem S4096x16 .f32) (harg10 : arg10.IsWhole) (arg11 : Memref sig .tc .vmem S2048x512 .bf16) (harg11 : arg11.IsWhole)
    (y a : Vec F S4096x16 .f32) (s : Vec F S2048x512 .bf16) (K : PUnit → sProp 𝕄)
    (hs : ¬ t.val % 8 = 0 → s = dAt V c t.val t.isLt) :
    iprop(owns (c : Thread nD τ) arg2 fullShare (iblk V c 0 t) ∗ owns (c : Thread nD τ) arg3 fullShare (iblk V c 1 t) ∗ owns (c : Thread nD τ) arg4 fullShare (iblk V c 2 t)
        ∗ owns (c : Thread nD τ) arg5 fullShare (iblk V c 3 t) ∗ owns (c : Thread nD τ) arg6 fullShare (iblk V c 4 t) ∗ owns (c : Thread nD τ) arg7 fullShare (iblk V c 5 t)
        ∗ owns (c : Thread nD τ) arg8 fullShare (iblk V c 6 t) ∗ owns (c : Thread nD τ) arg9 fullShare y ∗ owns (c : Thread nD τ) arg10 fullShare a
        ∗ owns (c : Thread nD τ) arg11 fullShare s
        ∗ (iprop(owns (c : Thread nD τ) arg2 fullShare (iblk V c 0 t) ∗ owns (c : Thread nD τ) arg3 fullShare (iblk V c 1 t) ∗ owns (c : Thread nD τ) arg4 fullShare (iblk V c 2 t)
            ∗ owns (c : Thread nD τ) arg5 fullShare (iblk V c 3 t) ∗ owns (c : Thread nD τ) arg6 fullShare (iblk V c 4 t) ∗ owns (c : Thread nD τ) arg7 fullShare (iblk V c 5 t)
            ∗ owns (c : Thread nD τ) arg8 fullShare (iblk V c 6 t) ∗ owns (c : Thread nD τ) arg9 fullShare (outStep V c t a y) ∗ owns (c : Thread nD τ) arg10 fullShare (accStep V c t a)
            ∗ owns (c : Thread nD τ) arg11 fullShare (dAt V c t.val t.isLt)) -∗ K ⟨⟩))
      ⊢ wp frame (wpE (defs₀ (F := F)) Variants.none c none) E (cc1__edge_kernel (grid1.coords t) arg2 harg2 arg3 harg3 arg4 harg4 arg5 harg5 arg6 harg6 arg7 harg7 arg8 harg8 arg9 harg9 arg10 harg10 arg11 harg11) K := by
  by_cases h0 : t.val % 8 = 0
  · by_cases h8 : t.val < 8
    · have ea : accStep V c t a = accStart (grid1.coords t) ((hcond2 t).mpr h8) (iblk V c 0 t) (iblk V c 1 t) (iblk V c 4 t) (iblk V c 5 t) (iblk V c 6 t) (dAt V c t.val t.isLt) a := by
        unfold accStep startVal; rw [if_pos h8, accStart_rows]
      have ey : outStep V c t a y = y := by unfold outStep; rw [if_neg (by omega)]
      rw [ea, ey]
      rw [dAt_start V c t h0]
      exact case_first_start c E (grid1.coords t) arg2 harg2 arg3 harg3 arg4 harg4 arg5 harg5 arg6 harg6 arg7 harg7 arg8 harg8 arg9 harg9 arg10 harg10 arg11 harg11 ((hcond1 t).mpr h0) ((hcond2 t).mpr h8) (fun h => absurd ((hcond3 t).mp h).1 (by omega)) (fun h => absurd ((hcond4 t).mp h) (by omega)) (iblk V c 0 t) (iblk V c 1 t) (iblk V c 2 t) (iblk V c 3 t) (iblk V c 4 t) (iblk V c 5 t) (iblk V c 6 t) y a _ K
    · by_cases h56 : t.val < 56
      · have ea : accStep V c t a = accAdd (grid1.coords t) ((hcond3 t).mpr ⟨by omega, h56⟩) (iblk V c 0 t) (iblk V c 1 t) (iblk V c 4 t) (iblk V c 5 t) (dAt V c t.val t.isLt) a := by
          unfold accStep addVal; rw [if_neg h8, if_pos h56, accAdd_rows]
        have ey : outStep V c t a y = y := by unfold outStep; rw [if_neg (by omega)]
        rw [ea, ey]
        rw [dAt_start V c t h0]
        exact case_first_add c E (grid1.coords t) arg2 harg2 arg3 harg3 arg4 harg4 arg5 harg5 arg6 harg6 arg7 harg7 arg8 harg8 arg9 harg9 arg10 harg10 arg11 harg11 ((hcond1 t).mpr h0) (fun h => h8 ((hcond2 t).mp h)) ((hcond3 t).mpr ⟨by omega, h56⟩) (fun h => absurd ((hcond4 t).mp h) (by omega)) (iblk V c 0 t) (iblk V c 1 t) (iblk V c 2 t) (iblk V c 3 t) (iblk V c 4 t) (iblk V c 5 t) (iblk V c 6 t) y a _ K
      · have ea : accStep V c t a = a := by unfold accStep; rw [if_neg h8, if_neg h56]
        have ey : outStep V c t a y = outRows (grid1.coords t) ((hcond4 t).mpr (by omega)) (iblk V c 0 t) (iblk V c 1 t) (iblk V c 4 t) (iblk V c 5 t) (dAt V c t.val t.isLt) a y := by
          unfold outStep outVal contribAt; rw [if_pos (by omega), outRows_rows]
        rw [ea, ey]
        rw [dAt_start V c t h0]
        exact case_first_out c E (grid1.coords t) arg2 harg2 arg3 harg3 arg4 harg4 arg5 harg5 arg6 harg6 arg7 harg7 arg8 harg8 arg9 harg9 arg10 harg10 arg11 harg11 ((hcond1 t).mpr h0) (fun h => h8 ((hcond2 t).mp h)) (fun h => h56 ((hcond3 t).mp h).2) ((hcond4 t).mpr (by omega)) (iblk V c 0 t) (iblk V c 1 t) (iblk V c 2 t) (iblk V c 3 t) (iblk V c 4 t) (iblk V c 5 t) (iblk V c 6 t) y a _ K
  · by_cases h8 : t.val < 8
    · have ea : accStep V c t a = accStart (grid1.coords t) ((hcond2 t).mpr h8) (iblk V c 0 t) (iblk V c 1 t) (iblk V c 4 t) (iblk V c 5 t) (iblk V c 6 t) (dAt V c t.val t.isLt) a := by
        unfold accStep startVal; rw [if_pos h8, accStart_rows]
      have ey : outStep V c t a y = y := by unfold outStep; rw [if_neg (by omega)]
      rw [ea, ey]
      obtain rfl := hs h0
      exact case_later_start c E (grid1.coords t) arg2 harg2 arg3 harg3 arg4 harg4 arg5 harg5 arg6 harg6 arg7 harg7 arg8 harg8 arg9 harg9 arg10 harg10 arg11 harg11 (fun h => h0 ((hcond1 t).mp h)) ((hcond2 t).mpr h8) (fun h => absurd ((hcond3 t).mp h).1 (by omega)) (fun h => absurd ((hcond4 t).mp h) (by omega)) (iblk V c 0 t) (iblk V c 1 t) (iblk V c 2 t) (iblk V c 3 t) (iblk V c 4 t) (iblk V c 5 t) (iblk V c 6 t) y a _ K
    · by_cases h56 : t.val < 56
      · have ea : accStep V c t a = accAdd (grid1.coords t) ((hcond3 t).mpr ⟨by omega, h56⟩) (iblk V c 0 t) (iblk V c 1 t) (iblk V c 4 t) (iblk V c 5 t) (dAt V c t.val t.isLt) a := by
          unfold accStep addVal; rw [if_neg h8, if_pos h56, accAdd_rows]
        have ey : outStep V c t a y = y := by unfold outStep; rw [if_neg (by omega)]
        rw [ea, ey]
        obtain rfl := hs h0
        exact case_later_add c E (grid1.coords t) arg2 harg2 arg3 harg3 arg4 harg4 arg5 harg5 arg6 harg6 arg7 harg7 arg8 harg8 arg9 harg9 arg10 harg10 arg11 harg11 (fun h => h0 ((hcond1 t).mp h)) (fun h => h8 ((hcond2 t).mp h)) ((hcond3 t).mpr ⟨by omega, h56⟩) (fun h => absurd ((hcond4 t).mp h) (by omega)) (iblk V c 0 t) (iblk V c 1 t) (iblk V c 2 t) (iblk V c 3 t) (iblk V c 4 t) (iblk V c 5 t) (iblk V c 6 t) y a _ K
      · have ea : accStep V c t a = a := by unfold accStep; rw [if_neg h8, if_neg h56]
        have ey : outStep V c t a y = outRows (grid1.coords t) ((hcond4 t).mpr (by omega)) (iblk V c 0 t) (iblk V c 1 t) (iblk V c 4 t) (iblk V c 5 t) (dAt V c t.val t.isLt) a y := by
          unfold outStep outVal contribAt; rw [if_pos (by omega), outRows_rows]
        rw [ea, ey]
        obtain rfl := hs h0
        exact case_later_out c E (grid1.coords t) arg2 harg2 arg3 harg3 arg4 harg4 arg5 harg5 arg6 harg6 arg7 harg7 arg8 harg8 arg9 harg9 arg10 harg10 arg11 harg11 (fun h => h0 ((hcond1 t).mp h)) (fun h => h8 ((hcond2 t).mp h)) (fun h => h56 ((hcond3 t).mp h).2) ((hcond4 t).mpr (by omega)) (iblk V c 0 t) (iblk V c 1 t) (iblk V c 2 t) (iblk V c 3 t) (iblk V c 4 t) (iblk V c 5 t) (iblk V c 6 t) y a _ K

/-! ### The invariant -/

/-- The accumulator scratch and the scaled-columns scratch as operands. -/
abbrev scAcc : Memref sig .tc .vmem S4096x16 .f32 := Memref.whole cc1_scratch0
abbrev scD : Memref sig .tc .vmem S2048x512 .bf16 := Memref.whole cc1_scratch1

/-- The core's other scoped buffers that this region does not stage (the first region's), each at some contents. -/
def restS (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f))

/-- The same in front of one more conjunct. -/
def restW (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ P)

theorem restW_split (c : Dev nD) (P : sProp 𝕄) : restW c P ⊢ iprop(restS (F := F) c ∗ P) := by
  unfold restW restS
  iintro ⟨R0, R1, R2, R3, R4, R5, R6, R7, R8, R9, R10, HP⟩
  isplitl [R0 R1 R2 R3 R4 R5 R6 R7 R8 R9 R10]
  · isplitl [R0]
    · iexact R0
    isplitl [R1]
    · iexact R1
    isplitl [R2]
    · iexact R2
    isplitl [R3]
    · iexact R3
    isplitl [R4]
    · iexact R4
    isplitl [R5]
    · iexact R5
    isplitl [R6]
    · iexact R6
    isplitl [R7]
    · iexact R7
    isplitl [R8]
    · iexact R8
    isplitl [R9]
    · iexact R9
    iexact R10
  iexact HP

theorem restW_join (c : Dev nD) (P : sProp 𝕄) : iprop(restS (F := F) c ∗ P) ⊢ restW c P := by
  unfold restW restS
  iintro ⟨⟨R0, R1, R2, R3, R4, R5, R6, R7, R8, R9, R10⟩, HP⟩
  isplitl [R0]
  · iexact R0
  isplitl [R1]
  · iexact R1
  isplitl [R2]
  · iexact R2
  isplitl [R3]
  · iexact R3
  isplitl [R4]
  · iexact R4
  isplitl [R5]
  · iexact R5
  isplitl [R6]
  · iexact R6
  isplitl [R7]
  · iexact R7
  isplitl [R8]
  · iexact R8
  isplitl [R9]
  · iexact R9
  isplitl [R10]
  · iexact R10
  iexact HP

/-- The class invariant with the two scratches as memrefs owned at some contents. -/
theorem PhiA_eq (c : Dev nD) :
    (Pipeline.ΦA spec1 c : sProp 𝕄)
      = iprop(restW c (iprop((∃ a, owns (c : Thread nD τ) scAcc fullShare a) ∗ (∃ d, owns (c : Thread nD τ) scD fullShare d))) ∗ (∃ r, prngReg c r)) := by
  unfold Pipeline.ΦA restW; rw [scopedRest1_eq]; simp only [scAcc, scD, owns_whole]; rfl

theorem PhiA_open (c : Dev nD) :
    (Pipeline.ΦA spec1 c : sProp 𝕄)
      ⊢ iprop((restS c ∗ (∃ a, owns (c : Thread nD τ) scAcc fullShare a) ∗ (∃ d, owns (c : Thread nD τ) scD fullShare d)) ∗ (∃ r, prngReg c r)) := by
  rw [PhiA_eq]
  exact sep_mono (restW_split c _) .rfl

theorem PhiA_close (c : Dev nD) :
    iprop((restS c ∗ (∃ a, owns (c : Thread nD τ) scAcc fullShare a) ∗ (∃ d, owns (c : Thread nD τ) scD fullShare d)) ∗ (∃ r, prngReg c r))
      ⊢ (Pipeline.ΦA spec1 c : sProp 𝕄) := by
  rw [PhiA_eq]
  exact sep_mono (restW_join c _) .rfl

/-- The region invariant before position n: at first every scoped buffer at anything; afterwards the accumulator at
    contents whose stored row blocks are at their stage of the sum, and the scaled-columns scratch at what the point
    before left in it. -/
def PhiS (c : Dev nD) : (n : ℕ) → n ≤ cfg1.N → sProp 𝕄
  | 0, _ => Pipeline.ΦA spec1 c
  | n + 1, hn => iprop((restS c ∗ (∃ a, ⌜AccInv V c n a⌝ ∗ owns (c : Thread nD τ) scAcc fullShare a)
      ∗ owns (c : Thread nD τ) scD fullShare (dAt V c n hn)) ∗ (∃ r, prngReg c r))

/-- Whatever the position, the invariant holds the two scratches; after the first point, at what the point before
    left. -/
theorem PhiS_open (c : Dev nD) (n : ℕ) (h : n ≤ cfg1.N) :
    PhiS V c n h ⊢ iprop((restS c ∗ (∃ a, ⌜n = 0 ∨ AccInv V c (n - 1) a⌝ ∗ owns (c : Thread nD τ) scAcc fullShare a)
      ∗ (∃ d, ⌜∀ h0 : n ≠ 0, d = dAt V c (n - 1) (by omega)⌝ ∗ owns (c : Thread nD τ) scD fullShare d)) ∗ (∃ r, prngReg c r)) := by
  cases n with
  | zero =>
    rw [show PhiS V c 0 h = Pipeline.ΦA spec1 c from rfl]
    refine (PhiA_open c).trans ?_
    iintro ⟨⟨HR, ⟨%a, HA⟩, ⟨%d, HD⟩⟩, Hg⟩
    isplitl [HR HA HD]
    · isplitl [HR]
      · iexact HR
      isplitl [HA]
      · iexists a; isplitr
        · ipureintro; exact Or.inl rfl
        iexact HA
      iexists d; isplitr
      · ipureintro; intro h0; exact absurd rfl h0
      iexact HD
    iexact Hg
  | succ n =>
    rw [show PhiS V c (n + 1) h = iprop((restS c ∗ (∃ a, ⌜AccInv V c n a⌝ ∗ owns (c : Thread nD τ) scAcc fullShare a)
      ∗ owns (c : Thread nD τ) scD fullShare (dAt V c n h)) ∗ (∃ r, prngReg c r)) from rfl]
    iintro ⟨⟨HR, ⟨%a, %ha, HA⟩, HD⟩, Hg⟩
    isplitl [HR HA HD]
    · isplitl [HR]
      · iexact HR
      isplitl [HA]
      · iexists a; isplitr
        · ipureintro; exact Or.inr ha
        iexact HA
      iexists _; isplitr
      swap
      · iexact HD
      ipureintro; intro _; rfl
    iexact Hg

/-- Whatever the position, the invariant gives back the class invariant. -/
theorem PhiS_close (c : Dev nD) (n : ℕ) (h : n ≤ cfg1.N) : PhiS V c n h ⊢ (Pipeline.ΦA spec1 c : sProp 𝕄) := by
  refine (PhiS_open V c n h).trans ?_
  refine .trans ?_ (PhiA_close c)
  iintro ⟨⟨HR, ⟨%a, %ha, HA⟩, ⟨%d, %hd, HD⟩⟩, Hg⟩
  isplitl [HR HA HD]
  · isplitl [HR]
    · iexact HR
    isplitl [HA]
    · iexists a; iexact HA
    iexists d; iexact HD
  iexact Hg

/-! ### The proof data and the body obligation -/

/-- The output buffer after point t, from what it held before: in the last run of eight its row block is written from
    the finished accumulator block plus the point's contribution. -/
def outFin (c : Dev nD) (t : Fin cfg1.N) (y : Vec F S4096x16 .f32) : Vec F S4096x16 .f32 :=
  if 56 ≤ t.val then (rows (rowOf t)).overlay y (outVal V c t (rowAcc V c (rowOf t) 6)) else y

theorem outStep_eq (c : Dev nD) (t : Fin cfg1.N) (a y : Vec F S4096x16 .f32) (h : t.val = 0 ∨ AccInv V c (t.val - 1) a) :
    outStep V c t a y = outFin V c t y := by
  unfold outStep outFin
  by_cases h56 : 56 ≤ t.val
  · rw [if_pos h56, if_pos h56, AccInv_last V c t h56 a (h.resolve_left (by omega))]
  · rw [if_neg h56, if_neg h56]

/-- The relational proof data of the edge region on core c. -/
def rd (c : Dev nD) : RDat τ (Elt F) Unit ℕ (UR sig nD τ) ℕ cfg1 c where
  A w := V c (Pipeline.arrRef spec1 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = outFin V c t Y
  Φ t := PhiS V c t.val (Nat.le_of_lt_succ t.isLt)
  q _ := fullShare
  owed _ := 0

set_option maxHeartbeats 2000000 in
/-- The body obligation: at every point, from the invariant and the windows' buffers at what they may hold, the body
    runs to the invariant at the next point and every buffer in its relation to what it was handed. -/
theorem body_obligation (c : Dev nD) : (rd V c).BodyObligation (defs₀ (F := F)) Variants.none () Set.univ := by
  intro t Y hY
  have e0 : Y 0 = iblk V c 0 t := by
    obtain ⟨d, hd⟩ := Pipeline.RDat.finds_in_eq_fetched (rd V c) 0 rfl (fun _ _ _ => rfl) (fun _ _ _ h => h) t (Y 0) (hY 0)
    rw [hd]; unfold RDat.fetched RDat.blockOf iblk; rfl
  have e1 : Y 1 = iblk V c 1 t := by
    obtain ⟨d, hd⟩ := Pipeline.RDat.finds_in_eq_fetched (rd V c) 1 rfl (fun _ _ _ => rfl) (fun _ _ _ h => h) t (Y 1) (hY 1)
    rw [hd]; unfold RDat.fetched RDat.blockOf iblk; rfl
  have e2 : Y 2 = iblk V c 2 t := by
    obtain ⟨d, hd⟩ := Pipeline.RDat.finds_in_eq_fetched (rd V c) 2 rfl (fun _ _ _ => rfl) (fun _ _ _ h => h) t (Y 2) (hY 2)
    rw [hd]; unfold RDat.fetched RDat.blockOf iblk; rfl
  have e3 : Y 3 = iblk V c 3 t := by
    obtain ⟨d, hd⟩ := Pipeline.RDat.finds_in_eq_fetched (rd V c) 3 rfl (fun _ _ _ => rfl) (fun _ _ _ h => h) t (Y 3) (hY 3)
    rw [hd]; unfold RDat.fetched RDat.blockOf iblk; rfl
  have e4 : Y 4 = iblk V c 4 t := by
    obtain ⟨d, hd⟩ := Pipeline.RDat.finds_in_eq_fetched (rd V c) 4 rfl (fun _ _ _ => rfl) (fun _ _ _ h => h) t (Y 4) (hY 4)
    rw [hd]; unfold RDat.fetched RDat.blockOf iblk; rfl
  have e5 : Y 5 = iblk V c 5 t := by
    obtain ⟨d, hd⟩ := Pipeline.RDat.finds_in_eq_fetched (rd V c) 5 rfl (fun _ _ _ => rfl) (fun _ _ _ h => h) t (Y 5) (hY 5)
    rw [hd]; unfold RDat.fetched RDat.blockOf iblk; rfl
  have e6 : Y 6 = iblk V c 6 t := by
    obtain ⟨d, hd⟩ := Pipeline.RDat.finds_in_eq_fetched (rd V c) 6 rfl (fun _ _ _ => rfl) (fun _ _ _ h => h) t (Y 6) (hY 6)
    rw [hd]; unfold RDat.fetched RDat.blockOf iblk; rfl
  rw [bigSep_W1, bigSep_W1, e0, e1, e2, e3, e4, e5, e6]
  show _ ⊢ wp frame (wpE (defs₀ (F := F)) Variants.none c none) Set.univ (bodyAt1 t) _
  rw [show (rd V c).owesAt () t.succ = (rd V c).owesAt () t.castSucc from rfl]
  rw [show (rd V c).Φ t.succ = iprop((restS c ∗ (∃ a, ⌜AccInv V c t.val a⌝ ∗ owns (c : Thread nD τ) scAcc fullShare a)
      ∗ owns (c : Thread nD τ) scD fullShare (dAt V c t.val t.isLt)) ∗ (∃ r, prngReg c r)) from rfl]
  rw [show (rd V c).Φ t.castSucc = PhiS V c t.val (Nat.le_of_lt t.isLt) from rfl]
  unfold bodyAt1
  iintro ⟨HΦ, Ho, H0, H1, H2, H3, H4, H5, H6, H7⟩
  ihave HΦ' := (PhiS_open V c t.val (Nat.le_of_lt t.isLt)) $$ HΦ
  icases HΦ' with ⟨⟨HR, ⟨%a, %ha, HA⟩, ⟨%d, %hd, HD⟩⟩, Hg⟩
  iapply (step_triple V c Set.univ t _ _ _ _ _ _ _ _ _ _ _ _ _ _ _ _ _ _ _ _ (Y 7) a d _
    (fun h0 => (hd (fun e => h0 (by rw [e]))).trans (dAt_keep V c t h0).symm))
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [HA]
  · iexact HA
  isplitl [HD]
  · iexact HD
  iintro ⟨H0, H1, H2, H3, H4, H5, H6, H7, HA, HD⟩
  isplitl [HR HA HD Hg]
  · isplitl [HR HA HD]
    · isplitl [HR]
      · iexact HR
      isplitl [HA]
      · iexists _; isplitr
        · ipureintro; exact AccInv_step V c t a ha
        iexact HA
      iexact HD
    iexact Hg
  isplitl [Ho]
  · iexact Ho
  isplitl [H0]
  · iexists _; isplitr
    · ipureintro; exact rfl
    iexact H0
  isplitl [H1]
  · iexists _; isplitr
    · ipureintro; exact rfl
    iexact H1
  isplitl [H2]
  · iexists _; isplitr
    · ipureintro; exact rfl
    iexact H2
  isplitl [H3]
  · iexists _; isplitr
    · ipureintro; exact rfl
    iexact H3
  isplitl [H4]
  · iexists _; isplitr
    · ipureintro; exact rfl
    iexact H4
  isplitl [H5]
  · iexists _; isplitr
    · ipureintro; exact rfl
    iexact H5
  isplitl [H6]
  · iexists _; isplitr
    · ipureintro; exact rfl
    iexact H6
  iexists _; isplitr
  swap
  · iexact H7
  ipureintro; exact outStep_eq V c t a (Y 7) ha

theorem hin (c : Dev nD) : (Pipeline.ΦA spec1 c : sProp 𝕄) ⊢ (rd V c).Φ 0 := by
  rw [show (rd V c).Φ 0 = PhiS V c 0 (Nat.zero_le _) from rfl]
  exact BI.Entails.refl _

theorem hout (c : Dev nD) : (rd V c).Φ (Fin.last cfg1.N) ⊢ (Pipeline.ΦA spec1 c : sProp 𝕄) := by
  rw [show (rd V c).Φ (Fin.last cfg1.N) = PhiS V c cfg1.N (Nat.le_refl _) from rfl]
  exact PhiS_close V c _ _

/-! ### What the result array ends holding -/

/-- Row block r of the result: the finished accumulator block plus the last contribution. -/
def finalRow (c : Dev nD) (r : Fin 8) : Vec F S512x16 .f32 :=
  outVal V c (pt (56 + r.val)) (rowAcc V c r 6)

/-- The row block of an index of the result, and the index inside it. -/
def rowIx (idx : S4096x16.Idx) : Fin 8 := ⟨(idx 0).val / 512, by
  have h : (idx 0).val < 4096 := (idx 0).isLt
  omega⟩
def locIx (idx : S4096x16.Idx) : S512x16.Idx :=
  ValueIdx.ix2 (⟨(idx 0).val % 512, Nat.mod_lt _ (by decide)⟩ : Fin 512) ((idx 1 : Fin 16))

/-- The result, index by index. -/
def outFn (c : Dev nD) : S4096x16.Idx → Elt F .f32 := fun idx => finalRow V c (rowIx idx) (locIx idx)

theorem rowIx_emb (r : Fin 8) (x : S512x16.Idx) : rowIx ((rows r).emb x) = r := by
  have h0 : (((rows r).emb x) 0).val = 512 * r.val + 1 * (x 0).val := rfl
  have hx : (x 0).val < 512 := (x 0).isLt
  apply Fin.ext
  show (((rows r).emb x) 0).val / 512 = r.val
  rw [h0]; omega

theorem locIx_emb (r : Fin 8) (x : S512x16.Idx) : locIx ((rows r).emb x) = x := by
  have h0 : (((rows r).emb x) 0).val = 512 * r.val + 1 * (x 0).val := rfl
  have h1 : (((rows r).emb x) 1).val = 0 + 1 * (x 1).val := rfl
  have hx : (x 0).val < 512 := (x 0).isLt
  funext a
  apply Fin.ext
  match a with
  | ⟨0, _⟩ => show (((rows r).emb x) 0).val % 512 = (x 0).val; rw [h0]; omega
  | ⟨1, _⟩ => show (((rows r).emb x) 1).val = (x 1).val; rw [h1]; omega

theorem mem_rows_iff (r : Fin 8) (j : S4096x16.Idx) : j ∈ (rows r).set ↔ (j 0).val / 512 = r.val := by
  rw [Rect.mem_set_unit]
  have hj1 : (j 1).val < 16 := (j 1).isLt
  constructor
  · intro h
    have h0 := h 0
    have e2 : (![512 * r.val, 0] : Fin 2 → ℕ) 0 = 512 * r.val := rfl
    have e3 : S512x16.size 0 = 512 := rfl
    rw [e2, e3] at h0
    omega
  · intro h a
    match a with
    | ⟨0, _⟩ =>
      show 512 * r.val ≤ (j 0).val ∧ (j 0).val < 512 * r.val + 512
      omega
    | ⟨1, _⟩ =>
      show 0 ≤ (j 1).val ∧ (j 1).val < 0 + 16
      omega

/-- The result window is never fetched, its block index is constant, and only the last point writes it back. -/
theorem hfetch7 : ∀ t : Fin cfg1.N, (cfg1.win 7).fetch t = false :=
  (by decide +kernel : ∀ t : Fin grid1.N, win1_7.fetch t = false)
theorem hindex7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)

/-- What the body may leave in the result's buffer at a point of the last run: the row blocks written so far. -/
theorem leaves7 (c : Dev nD) (t : Fin cfg1.N) (X : S4096x16.Idx → Elt F .f32) (hX : (rd V c).Leaves 7 t X)
    (j : S4096x16.Idx) (h56 : 56 ≤ t.val) (hj : (j 0).val / 512 ≤ t.val - 56) : X j = outFn V c j := by
  refine Cert.LibRelDetermined.leaves_determined (rd V c) 7 hfetch7
    (fun t (j : S4096x16.Idx) => 56 ≤ t.val ∧ (j 0).val / 512 ≤ t.val - 56) (fun _ (j : S4096x16.Idx) => outFn V c j)
    ?_ ?_ t X hX j ⟨h56, hj⟩
  · intro t Y X h0 _ j hS
    have ht := lt64 t
    rcases h0 with h0 | h0
    · omega
    · have := (flush1_7 _).mp h0
      have e : (⟨t.val - 1, Nat.lt_of_le_of_lt (Nat.sub_le _ _) t.isLt⟩ : Fin cfg1.N).val = t.val - 1 := rfl
      rw [e] at this
      omega
  · intro t ht0 Y X _ hY haft j hS
    have ht := lt64 t
    have e : (⟨t.val - 1, Nat.lt_of_le_of_lt (Nat.sub_le _ _) t.isLt⟩ : Fin cfg1.N).val = t.val - 1 := rfl
    have hX : X = outFin V c t Y := haft
    rw [hX]; unfold outFin; rw [if_pos hS.1]
    by_cases hjr : (j 0).val / 512 = t.val - 56
    · have hr : (rowOf t).val = t.val - 56 := by show t.val % 8 = t.val - 56; omega
      have hm : j ∈ (rows (rowOf t)).set := (mem_rows_iff _ j).mpr (by rw [hr]; exact hjr)
      obtain ⟨x, rfl⟩ : ∃ x, (rows (rowOf t)).emb x = j := (rows (rowOf t)).exists_idx_of_mem hm
      rw [Rect.overlay_emb]
      show _ = finalRow V c (rowIx ((rows (rowOf t)).emb x)) (locIx ((rows (rowOf t)).emb x))
      rw [rowIx_emb, locIx_emb]
      unfold finalRow
      rw [pt_of_lt t (by show 56 + t.val % 8 = t.val; omega)]
    · have hm : j ∉ (rows (rowOf t)).set := fun hm => by
        have := (mem_rows_iff _ j).mp hm
        have hr : (rowOf t).val = t.val - 56 := by show t.val % 8 = t.val - 56; omega
        omega
      rw [Rect.overlay_of_not_mem _ _ _ hm]
      exact hY j ⟨by rw [e]; omega, by rw [e]; omega⟩

/-- What the result array ends holding. -/
def outArr (c : Dev nD) : Buf (Elt F) ((c : Thread nD τ).loc main_v4) := outFn V c

theorem arrAt_out (c : Dev nD) (G : Buf (Elt F) (((cfg1.win 7).arr.view.loc (c.tc : Thread nD τ)))) :
    (rd V c).ArrAt 7 cfg1.N G → G = outArr V c := by
  refine Cert.LibRelDetermined.ArrAt_eq_of_cover (rd V c) 7 (outArr V c) ?_ ?_ G
  · intro t hf X hX
    have ht := lt64 t
    have h63 : t.val = 63 := by have := (flush1_7 t).mp hf; omega
    obtain ⟨i0, i1⟩ := hindex7 t
    funext j
    show X ((cfg1.win 7).xinj (grid1.coords t) j) = outFn V c (((cfg1.win 7).blk t).view.emb j)
    rw [leaves7 V c t X hX _ (by omega) (by
      have hj : (j 0).val < 4096 := (j 0).isLt
      show (j 0).val / 512 ≤ t.val - 56
      omega)]
    congr 1
    funext a
    apply Fin.ext
    match a with
    | ⟨0, _⟩ => show (j 0).val = win1_7.index t (0 : Fin 2) * 4096 + 1 * (j 0).val; rw [i0]; omega
    | ⟨1, _⟩ => show (j 1).val = win1_7.index t (1 : Fin 2) * 16 + 1 * (j 1).val; rw [i1]; omega
  · intro i
    have h63 : (63 : ℕ) < cfg1.N := by rw [N1]; decide
    refine ⟨⟨63, h63⟩, (flush1_7 _).mpr rfl, ?_⟩
    obtain ⟨i0, i1⟩ := hindex7 ⟨63, h63⟩
    show i ∈ ((View.whole main_v4).slice (win1_7.rect ⟨63, h63⟩)).set
    rw [View.set_slice_whole, Rect.mem_set_unit]
    have hi0 : (i 0).val < 4096 := (i 0).isLt
    have hi1 : (i 1).val < 16 := (i 1).isLt
    intro a
    match a with
    | ⟨0, _⟩ => show win1_7.index ⟨63, h63⟩ (0 : Fin 2) * 4096 ≤ (i 0).val ∧ (i 0).val < win1_7.index ⟨63, h63⟩ (0 : Fin 2) * 4096 + 4096; rw [i0]; omega
    | ⟨1, _⟩ => show win1_7.index ⟨63, h63⟩ (1 : Fin 2) * 16 ≤ (i 1).val ∧ (i 1).val < win1_7.index ⟨63, h63⟩ (1 : Fin 2) * 16 + 16; rw [i1]; omega

end Cert.KernelIdeal.Edge

end
-- ==== Proof.KI.Run.lean ====
import proofs.«151053_g24051816857981_cont_8to1_1327_4_alg».proof.Proof.KI.NodeOut
import proofs.«151053_g24051816857981_cont_8to1_1327_4_alg».proof.Proof.KI.EdgeData
import proofs.«151053_g24051816857981_cont_8to1_1327_4_alg».proof.Proof.LibRelDetermined
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151053_g24051816857981_cont_8to1_1327_4_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of the program -/

/-- Core c's buffers at launch. -/
abbrev W0 : Dev nD → Valuation τ sig (Elt F) := fun c b => m (c, b)
/-- After the host operations (the node region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- The node region's arrays at its exit: the inputs as entered, the result array at what the write-backs leave. -/
def G0 (c : Dev nD) : (w : Fin cfg0.W) → Buf (Elt F) ((cfg0.win w).arr.view.loc (c.tc : Thread nD τ))
  | ⟨0, _⟩ => (Node.rd (V1 m) c).A 0
  | ⟨1, _⟩ => (Node.rd (V1 m) c).A 1
  | ⟨2, _⟩ => (Node.rd (V1 m) c).A 2
  | ⟨3, _⟩ => (Node.rd (V1 m) c).A 3
  | ⟨4, _⟩ => (Node.rd (V1 m) c).A 4
  | ⟨5, _⟩ => (Node.rd (V1 m) c).A 5
  | ⟨6, _⟩ => (Node.rd (V1 m) c).A 6
  | ⟨7, _⟩ => Node.outArr (V1 m) c

/-- At the node region's exit (the edge region's entry). -/
def W2 (c : Dev nD) : Valuation τ sig (Elt F) := Pipeline.withArrays spec0 c (W1 m c) (G0 m c)
theorem W2_arr (c : Dev nD) (w : Fin cfg0.W) : W2 m c (Proc.devRef .tc (Pipeline.arrRef spec0 w)) = G0 m c w := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : G0 m c w = V2 m c (Pipeline.arrRef spec0 w) := (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- The edge region's arrays at its exit. -/
def G1 (c : Dev nD) : (w : Fin cfg1.W) → Buf (Elt F) ((cfg1.win w).arr.view.loc (c.tc : Thread nD τ))
  | ⟨0, _⟩ => (Edge.rd (V2 m) c).A 0
  | ⟨1, _⟩ => (Edge.rd (V2 m) c).A 1
  | ⟨2, _⟩ => (Edge.rd (V2 m) c).A 2
  | ⟨3, _⟩ => (Edge.rd (V2 m) c).A 3
  | ⟨4, _⟩ => (Edge.rd (V2 m) c).A 4
  | ⟨5, _⟩ => (Edge.rd (V2 m) c).A 5
  | ⟨6, _⟩ => (Edge.rd (V2 m) c).A 6
  | ⟨7, _⟩ => Edge.outArr (V2 m) c

/-- At the edge region's exit (the program's end). -/
def W3 (c : Dev nD) : Valuation τ sig (Elt F) := Pipeline.withArrays spec1 c (W2 m c) (G1 m c)
theorem W3_arr (c : Dev nD) (w : Fin cfg1.W) : W3 m c (Proc.devRef .tc (Pipeline.arrRef spec1 w)) = G1 m c w := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : G1 m c w = V3 m c (Pipeline.arrRef spec1 w) := (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and the thread state -/

abbrev adm : (p : Fin 2) → (pcfgs (F := F) p).Adm := fun p => (cfgs p).toPCfg_adm

/-- Every region's relational proof data, each at its region's entry contents. -/
def rdats : (p : Fin 2) → (c : Dev nD) → RDat τ (Elt F) Unit ℕ (UR sig nD τ) ℕ (Pipeline.pin (pcfgs (F := F)) adm p) c
  | ⟨0, _⟩ => fun c => Node.rd (V1 m) c
  | ⟨1, _⟩ => fun c => Edge.rd (V2 m) c

abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

/-- Arrays that may hold only named contents after the write-backs are held at those contents. -/
theorem arraysAt_named {cfg : Cfg sig Λ₀} {c : Dev nD} (rd : RDat τ (Elt F) Unit ℕ (UR sig nD τ) ℕ cfg c) (n : ℕ)
    (G : (w : Fin cfg.W) → Buf (Elt F) ((cfg.win w).arr.view.loc (c.tc : Thread nD τ)))
    (h : ∀ w A, rd.ArrAt w n A → A = G w) : rd.arraysAt n ⊢ rd.arrays G := by
  have key : ∀ w, (iprop(∃ A, ⌜rd.ArrAt w n A⌝ ∗ (cfg.win w).arr.view.loc (c.tc : Thread nD τ) ↦[(cfg.win w).arr.view.set]{rd.share w} A) : sProp 𝕄)
      ⊢ ((cfg.win w).arr.view.loc (c.tc : Thread nD τ) ↦[(cfg.win w).arr.view.set]{rd.share w} G w) := fun w => by
    iintro ⟨%A, %hA, H⟩
    obtain rfl := h w A hA
    iexact H
  unfold RDat.arraysAt RDat.arrays
  exact bigSep_mono fun w _ => key w

/-- The arrays at named contents and the unscoped rest are the core's unscoped buffers at any valuation that has the
    arrays at those contents and agrees with the entry valuation off them. -/
theorem unscopedBufs_of_arraysR {p : Fin 2} (hw : Pipeline.WinFacts (Pipeline.pin (pcfgs (F := F)) adm p).spec)
    (harr : ∀ w, ((Pipeline.pin (pcfgs (F := F)) adm p).spec w).arr.IsWhole) (c : Dev nD)
    (rds : (p : Fin 2) → (c : Dev nD) → RDat τ (Elt F) Unit ℕ (UR sig nD τ) ℕ (Pipeline.pin (pcfgs (F := F)) adm p) c)
    (hshare : ∀ w, (rds p c).share w = fullShare)
    (V V' : (b : Ref sig .tc) → Buf (Elt F) ((c.tc : Thread nD τ).loc b))
    (G : (w : Fin (Pipeline.pin (pcfgs (F := F)) adm p).W) → Buf (Elt F) (((Pipeline.pin (pcfgs (F := F)) adm p).spec w).arr.view.loc (c.tc : Thread nD τ)))
    (hG : ∀ w, G w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rds p c).arrays G ∗ Pipeline.unscopedRest (Pipeline.pin (pcfgs (F := F)) adm p).spec c V) ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm rds p c harr hshare]
  refine sep_mono (Entails.of_eq (bigSep_congr fun w _ => by rw [hG])) (Entails.of_eq ?_)
  unfold Pipeline.unscopedRest
  exact bigSep_congr fun b hb => by rw [hrest b (Finset.mem_sdiff.mp hb).2]

theorem G0_spec (c : Dev nD) : ∀ w A, (Node.rd (V1 m) c).ArrAt w cfg0.N A → A = G0 m c w := by
  intro w
  match w with
  | ⟨0, _⟩ => exact fun A hA => Cert.LibRelDetermined.ArrAt_eq_of_in (Node.rd (V1 m) c) 0 rfl _ A hA
  | ⟨1, _⟩ => exact fun A hA => Cert.LibRelDetermined.ArrAt_eq_of_in (Node.rd (V1 m) c) 1 rfl _ A hA
  | ⟨2, _⟩ => exact fun A hA => Cert.LibRelDetermined.ArrAt_eq_of_in (Node.rd (V1 m) c) 2 rfl _ A hA
  | ⟨3, _⟩ => exact fun A hA => Cert.LibRelDetermined.ArrAt_eq_of_in (Node.rd (V1 m) c) 3 rfl _ A hA
  | ⟨4, _⟩ => exact fun A hA => Cert.LibRelDetermined.ArrAt_eq_of_in (Node.rd (V1 m) c) 4 rfl _ A hA
  | ⟨5, _⟩ => exact fun A hA => Cert.LibRelDetermined.ArrAt_eq_of_in (Node.rd (V1 m) c) 5 rfl _ A hA
  | ⟨6, _⟩ => exact fun A hA => Cert.LibRelDetermined.ArrAt_eq_of_in (Node.rd (V1 m) c) 6 rfl _ A hA
  | ⟨7, _⟩ => exact fun A hA => Node.arrAt_out (V1 m) c A hA

set_option backward.isDefEq.respectTransparency.types false in
/-- Region 0 over the thread state: its arrays split out of the unscoped buffers at entry and put back at the exit
    contents; the generator register into the region invariant and out; nothing owed; no semaphore of the kernel's own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := Node.body_obligation (V1 m) c
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]
    · iexact Ha
    isplitr
    · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr
      · ipureintro; exact fun _ _ => Or.inl trivial
      iexact HO
    isplitl [Hp]
    · iexact Hp
    iexact Hrest
  hin c := by
    have h1 : (iprop((∃ r, prngReg c r) ∗ Pipeline.prefHeld (pcfgs (F := F) 0).pre c (fun _ => fullShare) (adm (F := F) 0).1
        ∗ Pipeline.scopedRest (Pipeline.pin (pcfgs (F := F)) adm 0).spec c) : sProp 𝕄) ⊢ (Pipeline.ΦA spec0 c : sProp 𝕄) := by
      unfold Pipeline.ΦA
      iintro ⟨Hp, -, Hr⟩
      isplitl [Hr]
      · iexact Hr
      iexact Hp
    exact h1.trans (Node.hin (V1 m) c)
  hout c := by
    rw [Pipeline.ownSems0_none]
    have h1 : (Pipeline.ΦA spec0 c : sProp 𝕄) ⊢ (iprop((∃ r, prngReg c r) ∗ BI.emp
        ∗ Pipeline.scopedRest (Pipeline.pin (pcfgs (F := F)) adm 0).spec c) : sProp 𝕄) := by
      unfold Pipeline.ΦA
      iintro ⟨Hr, Hp⟩
      isplitl [Hp]
      · iexact Hp
      isplitr
      · iempintro
      iexact Hr
    exact (Node.hout (V1 m) c).trans h1
  hexit c := by
    have hnamed := arraysAt_named (rdats m 0 c) cfg0.N (G0 m c) (G0_spec m c)
    have hjoin := unscopedBufs_of_arraysR (p := 0) launch0.win launch0.arr_whole c (rdats m) ((rdats m 0 c).share_full fun _ => rfl)
      (V1 m c) (V2 m c) (G0 m c) (hF0 m c) (hrest0 m c)
    rw [Pipeline.unscopedBufs_held] at hjoin
    iintro ⟨Ha, HO, HY, Hrest⟩
    ihave Ha' := hnamed $$ Ha
    imodintro
    isplitl [Ha' Hrest]
    · iapply hjoin; isplitl [Ha'] <;> iassumption
    isplitl [HY]
    · iexact HY
    unfold Pipeline.RDat.owesAt Pipeline.owesWithin
    icases HO with ⟨%W, -, HO⟩; iexists W; iexact HO

theorem G1_spec (c : Dev nD) : ∀ w A, (Edge.rd (V2 m) c).ArrAt w cfg1.N A → A = G1 m c w := by
  intro w
  match w with
  | ⟨0, _⟩ => exact fun A hA => Cert.LibRelDetermined.ArrAt_eq_of_in (Edge.rd (V2 m) c) 0 rfl _ A hA
  | ⟨1, _⟩ => exact fun A hA => Cert.LibRelDetermined.ArrAt_eq_of_in (Edge.rd (V2 m) c) 1 rfl _ A hA
  | ⟨2, _⟩ => exact fun A hA => Cert.LibRelDetermined.ArrAt_eq_of_in (Edge.rd (V2 m) c) 2 rfl _ A hA
  | ⟨3, _⟩ => exact fun A hA => Cert.LibRelDetermined.ArrAt_eq_of_in (Edge.rd (V2 m) c) 3 rfl _ A hA
  | ⟨4, _⟩ => exact fun A hA => Cert.LibRelDetermined.ArrAt_eq_of_in (Edge.rd (V2 m) c) 4 rfl _ A hA
  | ⟨5, _⟩ => exact fun A hA => Cert.LibRelDetermined.ArrAt_eq_of_in (Edge.rd (V2 m) c) 5 rfl _ A hA
  | ⟨6, _⟩ => exact fun A hA => Cert.LibRelDetermined.ArrAt_eq_of_in (Edge.rd (V2 m) c) 6 rfl _ A hA
  | ⟨7, _⟩ => exact fun A hA => Edge.arrAt_out (V2 m) c A hA

set_option backward.isDefEq.respectTransparency.types false in
/-- Region 1 over the thread state: its arrays split out of the unscoped buffers at entry and put back at the exit
    contents; the generator register into the region invariant and out; nothing owed; no semaphore of the kernel's own. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := Edge.body_obligation (V2 m) c
  hwaits := Pipeline.RDat.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]
    · iexact Ha
    isplitr
    · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr
      · ipureintro; exact fun _ _ => Or.inl trivial
      iexact HO
    isplitl [Hp]
    · iexact Hp
    iexact Hrest
  hin c := by
    have h1 : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ (Pipeline.ΦA spec1 c : sProp 𝕄) := by
      unfold Pipeline.ΦA
      iintro ⟨Hp, -, Hr⟩
      isplitl [Hr]
      · iexact Hr
      iexact Hp
    exact h1.trans (Edge.hin (V2 m) c)
  hout c := by
    rw [Pipeline.ownSems0_none]
    have h1 : (Pipeline.ΦA spec1 c : sProp 𝕄) ⊢ (iprop((∃ r, prngReg c r) ∗ BI.emp
        ∗ Pipeline.scopedRest (Pipeline.pin (pcfgs (F := F)) adm 1).spec c) : sProp 𝕄) := by
      unfold Pipeline.ΦA
      iintro ⟨Hr, Hp⟩
      isplitl [Hp]
      · iexact Hp
      isplitr
      · iempintro
      iexact Hr
    exact (Edge.hout (V2 m) c).trans h1
  hexit c := by
    have hnamed := arraysAt_named (rdats m 1 c) cfg1.N (G1 m c) (G1_spec m c)
    have hjoin := unscopedBufs_of_arraysR (p := 1) launch1.win launch1.arr_whole c (rdats m) ((rdats m 1 c).share_full fun _ => rfl)
      (V2 m c) (V3 m c) (G1 m c) (hF1 m c) (hrest1 m c)
    rw [Pipeline.unscopedBufs_held] at hjoin
    iintro ⟨Ha, HO, HY, Hrest⟩
    ihave Ha' := hnamed $$ Ha
    imodintro
    isplitl [Ha' Hrest HY]
    · isplitl [Ha' Hrest]
      · iapply hjoin; isplitl [Ha'] <;> iassumption
      iexact HY
    unfold Pipeline.RDat.owesAt Pipeline.owesWithin
    icases HO with ⟨%W, -, HO⟩; iexists W; iexact HO

/-! ## The program as segments, and the launch -/

abbrev segs : List (Pipeline.RDat.Seg (pcfgs (F := F)) adm (rdats m) () defs₀ 𝒱₀ L lv) :=
  [ .host (hseg hostOps0 hostOps0_sub hostOps0_fresh (W0 m)),
    .region (reg0 m),
    .region (reg1 m) ]

set_option backward.isDefEq.respectTransparency.types false in
/-- THE RUN: from any memory with zero counters every weakly fair execution of the program terminates, nothing faulting,
    and every unscoped buffer of every core ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.RDat.θ_run_regions_kit (pcfgs (F := F)) adm (rdats m) () cellOf_inj emb₁ defs₀ 𝒱₀ L lv m ρ main (segs m)
    (fun c Q => by
      rewrite [main_chain c, Pipeline.RDat.Seg.run_eq_chain,
        show (segs m).map Pipeline.RDat.Seg.prog = [
          StableHlo.seq hostOps0,
          Prog.lift (.customCall (Pipeline.entry 0) ()),
          Prog.lift (.customCall (Pipeline.entry 1) ()) ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]
      · iexact Hh
      isplitl [Hp]
      · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The final state read at the results and the arguments -/

theorem W3_main_v3 (c : Dev nD) : W3 m c (Proc.devRef .tc main_v3) = Node.outArr (V1 m) c :=
  (W3_of_ne m c main_v3 (by decide)).trans ((W2_arr m c 7).trans rfl)
theorem W3_main_v4 (c : Dev nD) : W3 m c (Proc.devRef .tc main_v4) = Edge.outArr (V2 m) c :=
  (W3_arr m c 7).trans rfl

theorem W3_main_arg0 (c : Dev nD) : W3 m c (Proc.devRef .tc main_arg0) = m ((c : Thread nD τ).loc main_arg0) :=
  (show W3 m c (Proc.devRef .tc main_arg0) = W2 m c (Proc.devRef .tc main_arg0) from (W3_arr m c 2).trans rfl).trans <|
  (show W2 m c (Proc.devRef .tc main_arg0) = W1 m c (Proc.devRef .tc main_arg0) from (W2_arr m c 2).trans rfl).trans <|
  Cert.KernelIdeal.Gen.V1_of m c main_arg0 (by decide)
theorem W3_main_arg1 (c : Dev nD) : W3 m c (Proc.devRef .tc main_arg1) = m ((c : Thread nD τ).loc main_arg1) :=
  (show W3 m c (Proc.devRef .tc main_arg1) = W2 m c (Proc.devRef .tc main_arg1) from W3_of_ne m c main_arg1 (by decide)).trans <|
  (show W2 m c (Proc.devRef .tc main_arg1) = W1 m c (Proc.devRef .tc main_arg1) from (W2_arr m c 1).trans rfl).trans <|
  Cert.KernelIdeal.Gen.V1_of m c main_arg1 (by decide)
theorem W3_main_arg2 (c : Dev nD) : W3 m c (Proc.devRef .tc main_arg2) = m ((c : Thread nD τ).loc main_arg2) :=
  (show W3 m c (Proc.devRef .tc main_arg2) = W2 m c (Proc.devRef .tc main_arg2) from (W3_arr m c 1).trans rfl).trans <|
  (show W2 m c (Proc.devRef .tc main_arg2) = W1 m c (Proc.devRef .tc main_arg2) from W2_of_ne m c main_arg2 (by decide)).trans <|
  Cert.KernelIdeal.Gen.V1_of m c main_arg2 (by decide)
theorem W3_main_arg3 (c : Dev nD) : W3 m c (Proc.devRef .tc main_arg3) = m ((c : Thread nD τ).loc main_arg3) :=
  (show W3 m c (Proc.devRef .tc main_arg3) = W2 m c (Proc.devRef .tc main_arg3) from W3_of_ne m c main_arg3 (by decide)).trans <|
  (show W2 m c (Proc.devRef .tc main_arg3) = W1 m c (Proc.devRef .tc main_arg3) from W2_of_ne m c main_arg3 (by decide)).trans <|
  Cert.KernelIdeal.Gen.V1_of m c main_arg3 (by decide)
theorem W3_main_arg4 (c : Dev nD) : W3 m c (Proc.devRef .tc main_arg4) = m ((c : Thread nD τ).loc main_arg4) :=
  (show W3 m c (Proc.devRef .tc main_arg4) = W2 m c (Proc.devRef .tc main_arg4) from (W3_arr m c 4).trans rfl).trans <|
  (show W2 m c (Proc.devRef .tc main_arg4) = W1 m c (Proc.devRef .tc main_arg4) from (W2_arr m c 4).trans rfl).trans <|
  Cert.KernelIdeal.Gen.V1_of m c main_arg4 (by decide)
theorem W3_main_arg5 (c : Dev nD) : W3 m c (Proc.devRef .tc main_arg5) = m ((c : Thread nD τ).loc main_arg5) :=
  (show W3 m c (Proc.devRef .tc main_arg5) = W2 m c (Proc.devRef .tc main_arg5) from W3_of_ne m c main_arg5 (by decide)).trans <|
  (show W2 m c (Proc.devRef .tc main_arg5) = W1 m c (Proc.devRef .tc main_arg5) from (W2_arr m c 3).trans rfl).trans <|
  Cert.KernelIdeal.Gen.V1_of m c main_arg5 (by decide)
theorem W3_main_arg6 (c : Dev nD) : W3 m c (Proc.devRef .tc main_arg6) = m ((c : Thread nD τ).loc main_arg6) :=
  (show W3 m c (Proc.devRef .tc main_arg6) = W2 m c (Proc.devRef .tc main_arg6) from (W3_arr m c 5).trans rfl).trans <|
  (show W2 m c (Proc.devRef .tc main_arg6) = W1 m c (Proc.devRef .tc main_arg6) from W2_of_ne m c main_arg6 (by decide)).trans <|
  Cert.KernelIdeal.Gen.V1_of m c main_arg6 (by decide)
theorem W3_main_arg7 (c : Dev nD) : W3 m c (Proc.devRef .tc main_arg7) = m ((c : Thread nD τ).loc main_arg7) :=
  (show W3 m c (Proc.devRef .tc main_arg7) = W2 m c (Proc.devRef .tc main_arg7) from W3_of_ne m c main_arg7 (by decide)).trans <|
  (show W2 m c (Proc.devRef .tc main_arg7) = W1 m c (Proc.devRef .tc main_arg7) from (W2_arr m c 5).trans rfl).trans <|
  Cert.KernelIdeal.Gen.V1_of m c main_arg7 (by decide)
theorem W3_main_arg8 (c : Dev nD) : W3 m c (Proc.devRef .tc main_arg8) = m ((c : Thread nD τ).loc main_arg8) :=
  (show W3 m c (Proc.devRef .tc main_arg8) = W2 m c (Proc.devRef .tc main_arg8) from (W3_arr m c 3).trans rfl).trans <|
  (show W2 m c (Proc.devRef .tc main_arg8) = W1 m c (Proc.devRef .tc main_arg8) from W2_of_ne m c main_arg8 (by decide)).trans <|
  Cert.KernelIdeal.Gen.V1_of m c main_arg8 (by decide)
theorem W3_main_arg9 (c : Dev nD) : W3 m c (Proc.devRef .tc main_arg9) = m ((c : Thread nD τ).loc main_arg9) :=
  (show W3 m c (Proc.devRef .tc main_arg9) = W2 m c (Proc.devRef .tc main_arg9) from W3_of_ne m c main_arg9 (by decide)).trans <|
  (show W2 m c (Proc.devRef .tc main_arg9) = W1 m c (Proc.devRef .tc main_arg9) from W2_of_ne m c main_arg9 (by decide)).trans <|
  Cert.KernelIdeal.Gen.V1_of m c main_arg9 (by decide)
theorem W3_main_arg10 (c : Dev nD) : W3 m c (Proc.devRef .tc main_arg10) = m ((c : Thread nD τ).loc main_arg10) :=
  (show W3 m c (Proc.devRef .tc main_arg10) = W2 m c (Proc.devRef .tc main_arg10) from W3_of_ne m c main_arg10 (by decide)).trans <|
  (show W2 m c (Proc.devRef .tc main_arg10) = W1 m c (Proc.devRef .tc main_arg10) from W2_of_ne m c main_arg10 (by decide)).trans <|
  Cert.KernelIdeal.Gen.V1_of m c main_arg10 (by decide)

/-- What the edge region finds in a buffer the node region does not write is what the node region found there. -/
theorem V2_keep (c : Dev nD) (b : Ref sig .tc) (hb : b ≠ main_v3) : V2 m c b = V1 m c b := by
  by_cases h : ∃ w, Pipeline.arrRef spec0 w = b
  · obtain ⟨w, rfl⟩ := h
    refine (W2_arr m c w).trans ?_
    match w with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => exact absurd rfl hb
  · exact W2_of_ne m c b fun w e => h ⟨w, e⟩

/-- THE RUN, READ: every execution terminates with the two results at the regions' result arrays and every argument as launched. -/
theorem run_read : θ_run defs (onTc (τ := τ) (main (F := F))) ⟨m, fun _ => 0, ρ⟩ (fun r => ∀ c : Dev nD,
      r.2.mem ((c.tc : Thread nD τ).loc main_v3) = Node.outArr (V1 m) c
      ∧ r.2.mem ((c.tc : Thread nD τ).loc main_v4) = Edge.outArr (V2 m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v3 (by decide))).trans (W3_main_v3 m c),
      (h c _ (mem_uc main_v4 (by decide))).trans (W3_main_v4 m c),
      (h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c),
      (h c _ (mem_uc main_arg9 (by decide))).trans (W3_main_arg9 m c),
      (h c _ (mem_uc main_arg10 (by decide))).trans (W3_main_arg10 m c)⟩)
    (run m ρ)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2.2) (run_read m ρ)

end Cert.KernelIdeal.Run

end
-- ==== Proof.KI.PayDots.lean ====
/-
  The matrix products of the two kernel bodies, read at an index of the result at the ideal instance: each has
  one contracted axis and accumulates into the zero array, so each entry is the plain finite sum over the
  contracted coordinate of left entry times right entry. Which coordinate of which operand is the contracted one
  is read off the product's dimension numbers, product by product.
-/
import proofs.«151053_g24051816857981_cont_8to1_1327_4_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.PayDots

open Cert.KernelIdeal Cert.KernelIdeal.Gen Idealize.ShloMosaic Idealize.ShloMosaic.ValueIdx

/-! ## A product into the zero accumulator, one contracted axis, read at an index -/

/-- With one contracted axis of extent `K`, a matrix product accumulated into the zero array is, at the result index
    `j`, the plain sum over `k : Fin K` of left entry times right entry, at whatever operand indices `li k`, `ri k`
    the dimension numbers send `(j, k)` to. No leading `0 +` is left. -/
theorem matmul_zero_single {sl sr so : Shape} {φ₁ φ₂ : FTy} (D : DotDims sl sr so) (K : Nat)
    (hr : D.contr.rank = 1) (hs : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hr hs).symm k) = li k)
    (hri : ∀ k, D.rhsIdx j ((contrEquiv1 D K hr hs).symm k) = ri k) :
    matmul (F := Ideal) D none lhs rhs (constant so .f32 0x00000000#32) j = ∑ k : Fin K, lhs (li k) * rhs (ri k) := by
  show FloatOps.matmul D none lhs rhs (constant so .f32 0x00000000#32) j = _
  rw [Ideal.matmul_constant_zero_apply, ← Equiv.sum_comp (contrEquiv1 D K hr hs).symm]
  exact Finset.sum_congr rfl fun k _ => by rw [hl k, hri k]

/-! ### A column [16,1] against the rows of a [4096,16] array: the row [1,4096] of scores -/

theorem scoreRow_lhs1 (i : S1x4096.Idx) (q : dot_S16x1_S4096x16_S1x4096_0_1_1_0_n_n.contr.Idx) :
    (dot_S16x1_S4096x16_S1x4096_0_1_1_0_n_n.lhsIdx i q 1).val = (i 0).val := by
  unfold DotDims.lhsIdx
  rw [dif_neg (show ¬(1 : Fin S16x1.rank) ∈ dot_S16x1_S4096x16_S1x4096_0_1_1_0_n_n.lhsBatch by decide), dif_pos (show (1 : Fin S16x1.rank) ∈ dot_S16x1_S4096x16_S1x4096_0_1_1_0_n_n.lhsNonContracting by decide)]
  rfl
theorem scoreRow_lhs0 (i : S1x4096.Idx) (q : dot_S16x1_S4096x16_S1x4096_0_1_1_0_n_n.contr.Idx) :
    (dot_S16x1_S4096x16_S1x4096_0_1_1_0_n_n.lhsIdx i q 0).val = (q ⟨0, by decide⟩).val :=
  dot_S16x1_S4096x16_S1x4096_0_1_1_0_n_n.lhsIdx_val_of_single rfl i q
theorem scoreRow_rhs0 (i : S1x4096.Idx) (q : dot_S16x1_S4096x16_S1x4096_0_1_1_0_n_n.contr.Idx) :
    (dot_S16x1_S4096x16_S1x4096_0_1_1_0_n_n.rhsIdx i q 0).val = (i 1).val := by
  unfold DotDims.rhsIdx
  rw [dif_neg (show ¬(0 : Fin S4096x16.rank) ∈ dot_S16x1_S4096x16_S1x4096_0_1_1_0_n_n.rhsBatch by decide), dif_pos (show (0 : Fin S4096x16.rank) ∈ dot_S16x1_S4096x16_S1x4096_0_1_1_0_n_n.rhsNonContracting by decide)]
  rfl
theorem scoreRow_rhs1 (i : S1x4096.Idx) (q : dot_S16x1_S4096x16_S1x4096_0_1_1_0_n_n.contr.Idx) :
    (dot_S16x1_S4096x16_S1x4096_0_1_1_0_n_n.rhsIdx i q 1).val = (q ⟨0, by decide⟩).val :=
  dot_S16x1_S4096x16_S1x4096_0_1_1_0_n_n.rhsIdx_val_of_single rfl i q

/-- Entry `(r, c)` of the score row: the column's entries against row `c` of the right array. -/
theorem scoreRow_apply {φ₁ φ₂ : FTy} (lhs : FVec Ideal S16x1 φ₁) (rhs : FVec Ideal S4096x16 φ₂) (r : Fin 1) (c : Fin 4096) :
    matmul (F := Ideal) dot_S16x1_S4096x16_S1x4096_0_1_1_0_n_n none lhs rhs (constant S1x4096 .f32 0x00000000#32) (ix2 r c)
      = ∑ k : Fin 16, lhs (ix2 k r) * rhs (ix2 c k) :=
  matmul_zero_single dot_S16x1_S4096x16_S1x4096_0_1_1_0_n_n 16 rfl rfl lhs rhs (ix2 r c) (fun k => ix2 k r) (fun k => ix2 c k)
    (fun k => funext fun a => Fin.ext (by
      have hk := contrEquiv1_symm_val dot_S16x1_S4096x16_S1x4096_0_1_1_0_n_n 16 rfl rfl k
      match a with
      | ⟨0, _⟩ => exact (scoreRow_lhs0 _ _).trans hk
      | ⟨1, _⟩ => exact scoreRow_lhs1 _ _))
    (fun k => funext fun a => Fin.ext (by
      have hk := contrEquiv1_symm_val dot_S16x1_S4096x16_S1x4096_0_1_1_0_n_n 16 rfl rfl k
      match a with
      | ⟨0, _⟩ => exact scoreRow_rhs0 _ _
      | ⟨1, _⟩ => exact (scoreRow_rhs1 _ _).trans hk))

/-! ### Rows against rows over the long axis: [512,4096] · [512,4096]ᵀ -/

theorem rowsGram_lhs0 (i : S512x512.Idx) (q : dot_S512x4096_S512x4096_S512x512_1_1_0_0_n_n.contr.Idx) :
    (dot_S512x4096_S512x4096_S512x512_1_1_0_0_n_n.lhsIdx i q 0).val = (i 0).val := by
  unfold DotDims.lhsIdx
  rw [dif_neg (show ¬(0 : Fin S512x4096.rank) ∈ dot_S512x4096_S512x4096_S512x512_1_1_0_0_n_n.lhsBatch by decide), dif_pos (show (0 : Fin S512x4096.rank) ∈ dot_S512x4096_S512x4096_S512x512_1_1_0_0_n_n.lhsNonContracting by decide)]
  rfl
theorem rowsGram_lhs1 (i : S512x512.Idx) (q : dot_S512x4096_S512x4096_S512x512_1_1_0_0_n_n.contr.Idx) :
    (dot_S512x4096_S512x4096_S512x512_1_1_0_0_n_n.lhsIdx i q 1).val = (q ⟨0, by decide⟩).val :=
  dot_S512x4096_S512x4096_S512x512_1_1_0_0_n_n.lhsIdx_val_of_single rfl i q
theorem rowsGram_rhs0 (i : S512x512.Idx) (q : dot_S512x4096_S512x4096_S512x512_1_1_0_0_n_n.contr.Idx) :
    (dot_S512x4096_S512x4096_S512x512_1_1_0_0_n_n.rhsIdx i q 0).val = (i 1).val := by
  unfold DotDims.rhsIdx
  rw [dif_neg (show ¬(0 : Fin S512x4096.rank) ∈ dot_S512x4096_S512x4096_S512x512_1_1_0_0_n_n.rhsBatch by decide), dif_pos (show (0 : Fin S512x4096.rank) ∈ dot_S512x4096_S512x4096_S512x512_1_1_0_0_n_n.rhsNonContracting by decide)]
  rfl
theorem rowsGram_rhs1 (i : S512x512.Idx) (q : dot_S512x4096_S512x4096_S512x512_1_1_0_0_n_n.contr.Idx) :
    (dot_S512x4096_S512x4096_S512x512_1_1_0_0_n_n.rhsIdx i q 1).val = (q ⟨0, by decide⟩).val :=
  dot_S512x4096_S512x4096_S512x512_1_1_0_0_n_n.rhsIdx_val_of_single rfl i q

/-- Entry `(r, c)`: row `r` of the left array against row `c` of the right array. -/
theorem rowsGram_apply {φ₁ φ₂ : FTy} (lhs : FVec Ideal S512x4096 φ₁) (rhs : FVec Ideal S512x4096 φ₂) (r : Fin 512) (c : Fin 512) :
    matmul (F := Ideal) dot_S512x4096_S512x4096_S512x512_1_1_0_0_n_n none lhs rhs (constant S512x512 .f32 0x00000000#32) (ix2 r c)
      = ∑ k : Fin 4096, lhs (ix2 r k) * rhs (ix2 c k) :=
  matmul_zero_single dot_S512x4096_S512x4096_S512x512_1_1_0_0_n_n 4096 rfl rfl lhs rhs (ix2 r c) (fun k => ix2 r k) (fun k => ix2 c k)
    (fun k => funext fun a => Fin.ext (by
      have hk := contrEquiv1_symm_val dot_S512x4096_S512x4096_S512x512_1_1_0_0_n_n 4096 rfl rfl k
      match a with
      | ⟨0, _⟩ => exact rowsGram_lhs0 _ _
      | ⟨1, _⟩ => exact (rowsGram_lhs1 _ _).trans hk))
    (fun k => funext fun a => Fin.ext (by
      have hk := contrEquiv1_symm_val dot_S512x4096_S512x4096_S512x512_1_1_0_0_n_n 4096 rfl rfl k
      match a with
      | ⟨0, _⟩ => exact rowsGram_rhs0 _ _
      | ⟨1, _⟩ => exact (rowsGram_rhs1 _ _).trans hk))

/-! ### The plain product [512,128] · [128,128] -/

theorem featN_lhs0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem featN_lhs1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem featN_rhs1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl
theorem featN_rhs0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q

/-- Entry `(r, c)`: row `r` of the left array against column `c` of the right array. -/
theorem featN_apply {φ₁ φ₂ : FTy} (lhs : FVec Ideal S512x128 φ₁) (rhs : FVec Ideal S128x128 φ₂) (r : Fin 512) (c : Fin 128) :
    matmul (F := Ideal) dot_S512x128_S128x128_S512x128_1_0_0_1_n_n none lhs rhs (constant S512x128 .f32 0x00000000#32) (ix2 r c)
      = ∑ k : Fin 128, lhs (ix2 r k) * rhs (ix2 k c) :=
  matmul_zero_single dot_S512x128_S128x128_S512x128_1_0_0_1_n_n 128 rfl rfl lhs rhs (ix2 r c) (fun k => ix2 r k) (fun k => ix2 k c)
    (fun k => funext fun a => Fin.ext (by
      have hk := contrEquiv1_symm_val dot_S512x128_S128x128_S512x128_1_0_0_1_n_n 128 rfl rfl k
      match a with
      | ⟨0, _⟩ => exact featN_lhs0 _ _
      | ⟨1, _⟩ => exact (featN_lhs1 _ _).trans hk))
    (fun k => funext fun a => Fin.ext (by
      have hk := contrEquiv1_symm_val dot_S512x128_S128x128_S512x128_1_0_0_1_n_n 128 rfl rfl k
      match a with
      | ⟨0, _⟩ => exact (featN_rhs0 _ _).trans hk
      | ⟨1, _⟩ => exact featN_rhs1 _ _))

/-! ### The plain product [512,512] · [512,128] -/

theorem propN_lhs0 (i : S512x128.Idx) (q : dot_S512x512_S512x128_S512x128_1_0_0_1_n_n.contr.Idx) :
    (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
theorem propN_lhs1 (i : S512x128.Idx) (q : dot_S512x512_S512x128_S512x128_1_0_0_1_n_n.contr.Idx) :
    (dot_S512x512_S512x128_S512x128_1_0_0_1_n_n.lhsIdx i q 1).val = (q ⟨0, by decide⟩).val :=
  dot_S512x512_S512x128_S512x128_1_0_0_1_n_n.lhsIdx_val_of_single rfl i q
theorem propN_rhs1 (i : S512x128.Idx) (q : dot_S512x512_S512x128_S512x128_1_0_0_1_n_n.contr.Idx) :
    (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl
theorem propN_rhs0 (i : S512x128.Idx) (q : dot_S512x512_S512x128_S512x128_1_0_0_1_n_n.contr.Idx) :
    (dot_S512x512_S512x128_S512x128_1_0_0_1_n_n.rhsIdx i q 0).val = (q ⟨0, by decide⟩).val :=
  dot_S512x512_S512x128_S512x128_1_0_0_1_n_n.rhsIdx_val_of_single rfl i q

/-- Entry `(r, c)`: row `r` of the left array against column `c` of the right array. -/
theorem propN_apply {φ₁ φ₂ : FTy} (lhs : FVec Ideal S512x512 φ₁) (rhs : FVec Ideal S512x128 φ₂) (r : Fin 512) (c : Fin 128) :
    matmul (F := Ideal) dot_S512x512_S512x128_S512x128_1_0_0_1_n_n none lhs rhs (constant S512x128 .f32 0x00000000#32) (ix2 r c)
      = ∑ k : Fin 512, lhs (ix2 r k) * rhs (ix2 k c) :=
  matmul_zero_single dot_S512x512_S512x128_S512x128_1_0_0_1_n_n 512 rfl rfl lhs rhs (ix2 r c) (fun k => ix2 r k) (fun k => ix2 k c)
    (fun k => funext fun a => Fin.ext (by
      have hk := contrEquiv1_symm_val dot_S512x512_S512x128_S512x128_1_0_0_1_n_n 512 rfl rfl k
      match a with
      | ⟨0, _⟩ => exact propN_lhs0 _ _
      | ⟨1, _⟩ => exact (propN_lhs1 _ _).trans hk))
    (fun k => funext fun a => Fin.ext (by
      have hk := contrEquiv1_symm_val dot_S512x512_S512x128_S512x128_1_0_0_1_n_n 512 rfl rfl k
      match a with
      | ⟨0, _⟩ => exact (propN_rhs0 _ _).trans hk
      | ⟨1, _⟩ => exact propN_rhs1 _ _))

/-! ### The plain product [2048,128] · [128,1]: the column of scores -/

theorem scoreCol_lhs0 (i : S2048x1.Idx) (q : dot_S2048x128_S128x1_S2048x1_1_0_0_1_n_n.contr.Idx) :
    (dot_S2048x128_S128x1_S2048x1_1_0_0_1_n_n.lhsIdx i q 0).val = (i 0).val := by
  unfold DotDims.lhsIdx
  rw [dif_neg (show ¬(0 : Fin S2048x128.rank) ∈ dot_S2048x128_S128x1_S2048x1_1_0_0_1_n_n.lhsBatch by decide), dif_pos (show (0 : Fin S2048x128.rank) ∈ dot_S2048x128_S128x1_S2048x1_1_0_0_1_n_n.lhsNonContracting by decide)]
  rfl
theorem scoreCol_lhs1 (i : S2048x1.Idx) (q : dot_S2048x128_S128x1_S2048x1_1_0_0_1_n_n.contr.Idx) :
    (dot_S2048x128_S128x1_S2048x1_1_0_0_1_n_n.lhsIdx i q 1).val = (q ⟨0, by decide⟩).val :=
  dot_S2048x128_S128x1_S2048x1_1_0_0_1_n_n.lhsIdx_val_of_single rfl i q
theorem scoreCol_rhs1 (i : S2048x1.Idx) (q : dot_S2048x128_S128x1_S2048x1_1_0_0_1_n_n.contr.Idx) :
    (dot_S2048x128_S128x1_S2048x1_1_0_0_1_n_n.rhsIdx i q 1).val = (i 1).val := by
  unfold DotDims.rhsIdx
  rw [dif_neg (show ¬(1 : Fin S128x1.rank) ∈ dot_S2048x128_S128x1_S2048x1_1_0_0_1_n_n.rhsBatch by decide), dif_pos (show (1 : Fin S128x1.rank) ∈ dot_S2048x128_S128x1_S2048x1_1_0_0_1_n_n.rhsNonContracting by decide)]
  rfl
theorem scoreCol_rhs0 (i : S2048x1.Idx) (q : dot_S2048x128_S128x1_S2048x1_1_0_0_1_n_n.contr.Idx) :
    (dot_S2048x128_S128x1_S2048x1_1_0_0_1_n_n.rhsIdx i q 0).val = (q ⟨0, by decide⟩).val :=
  dot_S2048x128_S128x1_S2048x1_1_0_0_1_n_n.rhsIdx_val_of_single rfl i q

/-- Entry `(r, c)`: row `r` of the left array against the column. -/
theorem scoreCol_apply {φ₁ φ₂ : FTy} (lhs : FVec Ideal S2048x128 φ₁) (rhs : FVec Ideal S128x1 φ₂) (r : Fin 2048) (c : Fin 1) :
    matmul (F := Ideal) dot_S2048x128_S128x1_S2048x1_1_0_0_1_n_n none lhs rhs (constant S2048x1 .f32 0x00000000#32) (ix2 r c)
      = ∑ k : Fin 128, lhs (ix2 r k) * rhs (ix2 k c) :=
  matmul_zero_single dot_S2048x128_S128x1_S2048x1_1_0_0_1_n_n 128 rfl rfl lhs rhs (ix2 r c) (fun k => ix2 r k) (fun k => ix2 k c)
    (fun k => funext fun a => Fin.ext (by
      have hk := contrEquiv1_symm_val dot_S2048x128_S128x1_S2048x1_1_0_0_1_n_n 128 rfl rfl k
      match a with
      | ⟨0, _⟩ => exact scoreCol_lhs0 _ _
      | ⟨1, _⟩ => exact (scoreCol_lhs1 _ _).trans hk))
    (fun k => funext fun a => Fin.ext (by
      have hk := contrEquiv1_symm_val dot_S2048x128_S128x1_S2048x1_1_0_0_1_n_n 128 rfl rfl k
      match a with
      | ⟨0, _⟩ => exact (scoreCol_rhs0 _ _).trans hk
      | ⟨1, _⟩ => exact scoreCol_rhs1 _ _))

/-! ### Columns against columns over the long axis: [2048,512]ᵀ · [2048,512] -/

theorem colsGram_lhs1 (i : S512x512.Idx) (q : dot_S2048x512_S2048x512_S512x512_0_0_1_1_n_n.contr.Idx) :
    (dot_S2048x512_S2048x512_S512x512_0_0_1_1_n_n.lhsIdx i q 1).val = (i 0).val := by
  unfold DotDims.lhsIdx
  rw [dif_neg (show ¬(1 : Fin S2048x512.rank) ∈ dot_S2048x512_S2048x512_S512x512_0_0_1_1_n_n.lhsBatch by decide), dif_pos (show (1 : Fin S2048x512.rank) ∈ dot_S2048x512_S2048x512_S512x512_0_0_1_1_n_n.lhsNonContracting by decide)]
  rfl
theorem colsGram_lhs0 (i : S512x512.Idx) (q : dot_S2048x512_S2048x512_S512x512_0_0_1_1_n_n.contr.Idx) :
    (dot_S2048x512_S2048x512_S512x512_0_0_1_1_n_n.lhsIdx i q 0).val = (q ⟨0, by decide⟩).val :=
  dot_S2048x512_S2048x512_S512x512_0_0_1_1_n_n.lhsIdx_val_of_single rfl i q
theorem colsGram_rhs1 (i : S512x512.Idx) (q : dot_S2048x512_S2048x512_S512x512_0_0_1_1_n_n.contr.Idx) :
    (dot_S2048x512_S2048x512_S512x512_0_0_1_1_n_n.rhsIdx i q 1).val = (i 1).val := by
  unfold DotDims.rhsIdx
  rw [dif_neg (show ¬(1 : Fin S2048x512.rank) ∈ dot_S2048x512_S2048x512_S512x512_0_0_1_1_n_n.rhsBatch by decide), dif_pos (show (1 : Fin S2048x512.rank) ∈ dot_S2048x512_S2048x512_S512x512_0_0_1_1_n_n.rhsNonContracting by decide)]
  rfl
theorem colsGram_rhs0 (i : S512x512.Idx) (q : dot_S2048x512_S2048x512_S512x512_0_0_1_1_n_n.contr.Idx) :
    (dot_S2048x512_S2048x512_S512x512_0_0_1_1_n_n.rhsIdx i q 0).val = (q ⟨0, by decide⟩).val :=
  dot_S2048x512_S2048x512_S512x512_0_0_1_1_n_n.rhsIdx_val_of_single rfl i q

/-- Entry `(r, c)`: column `r` of the left array against column `c` of the right array. -/
theorem colsGram_apply {φ₁ φ₂ : FTy} (lhs : FVec Ideal S2048x512 φ₁) (rhs : FVec Ideal S2048x512 φ₂) (r : Fin 512) (c : Fin 512) :
    matmul (F := Ideal) dot_S2048x512_S2048x512_S512x512_0_0_1_1_n_n none lhs rhs (constant S512x512 .f32 0x00000000#32) (ix2 r c)
      = ∑ k : Fin 2048, lhs (ix2 k r) * rhs (ix2 k c) :=
  matmul_zero_single dot_S2048x512_S2048x512_S512x512_0_0_1_1_n_n 2048 rfl rfl lhs rhs (ix2 r c) (fun k => ix2 k r) (fun k => ix2 k c)
    (fun k => funext fun a => Fin.ext (by
      have hk := contrEquiv1_symm_val dot_S2048x512_S2048x512_S512x512_0_0_1_1_n_n 2048 rfl rfl k
      match a with
      | ⟨0, _⟩ => exact (colsGram_lhs0 _ _).trans hk
      | ⟨1, _⟩ => exact colsGram_lhs1 _ _))
    (fun k => funext fun a => Fin.ext (by
      have hk := contrEquiv1_symm_val dot_S2048x512_S2048x512_S512x512_0_0_1_1_n_n 2048 rfl rfl k
      match a with
      | ⟨0, _⟩ => exact (colsGram_rhs0 _ _).trans hk
      | ⟨1, _⟩ => exact colsGram_rhs1 _ _))

/-! ### The plain product [512,16] · [16,16] -/

theorem featE_lhs0 (i : S512x16.Idx) (q : dot_S512x16_S16x16_S512x16_1_0_0_1_n_n.contr.Idx) :
    (dot_S512x16_S16x16_S512x16_1_0_0_1_n_n.lhsIdx i q 0).val = (i 0).val := by
  unfold DotDims.lhsIdx
  rw [dif_neg (show ¬(0 : Fin S512x16.rank) ∈ dot_S512x16_S16x16_S512x16_1_0_0_1_n_n.lhsBatch by decide), dif_pos (show (0 : Fin S512x16.rank) ∈ dot_S512x16_S16x16_S512x16_1_0_0_1_n_n.lhsNonContracting by decide)]
  rfl
theorem featE_lhs1 (i : S512x16.Idx) (q : dot_S512x16_S16x16_S512x16_1_0_0_1_n_n.contr.Idx) :
    (dot_S512x16_S16x16_S512x16_1_0_0_1_n_n.lhsIdx i q 1).val = (q ⟨0, by decide⟩).val :=
  dot_S512x16_S16x16_S512x16_1_0_0_1_n_n.lhsIdx_val_of_single rfl i q
theorem featE_rhs1 (i : S512x16.Idx) (q : dot_S512x16_S16x16_S512x16_1_0_0_1_n_n.contr.Idx) :
    (dot_S512x16_S16x16_S512x16_1_0_0_1_n_n.rhsIdx i q 1).val = (i 1).val := by
  unfold DotDims.rhsIdx
  rw [dif_neg (show ¬(1 : Fin S16x16.rank) ∈ dot_S512x16_S16x16_S512x16_1_0_0_1_n_n.rhsBatch by decide), dif_pos (show (1 : Fin S16x16.rank) ∈ dot_S512x16_S16x16_S512x16_1_0_0_1_n_n.rhsNonContracting by decide)]
  rfl
theorem featE_rhs0 (i : S512x16.Idx) (q : dot_S512x16_S16x16_S512x16_1_0_0_1_n_n.contr.Idx) :
    (dot_S512x16_S16x16_S512x16_1_0_0_1_n_n.rhsIdx i q 0).val = (q ⟨0, by decide⟩).val :=
  dot_S512x16_S16x16_S512x16_1_0_0_1_n_n.rhsIdx_val_of_single rfl i q

/-- Entry `(r, c)`: row `r` of the left array against column `c` of the right array. -/
theorem featE_apply {φ₁ φ₂ : FTy} (lhs : FVec Ideal S512x16 φ₁) (rhs : FVec Ideal S16x16 φ₂) (r : Fin 512) (c : Fin 16) :
    matmul (F := Ideal) dot_S512x16_S16x16_S512x16_1_0_0_1_n_n none lhs rhs (constant S512x16 .f32 0x00000000#32) (ix2 r c)
      = ∑ k : Fin 16, lhs (ix2 r k) * rhs (ix2 k c) :=
  matmul_zero_single dot_S512x16_S16x16_S512x16_1_0_0_1_n_n 16 rfl rfl lhs rhs (ix2 r c) (fun k => ix2 r k) (fun k => ix2 k c)
    (fun k => funext fun a => Fin.ext (by
      have hk := contrEquiv1_symm_val dot_S512x16_S16x16_S512x16_1_0_0_1_n_n 16 rfl rfl k
      match a with
      | ⟨0, _⟩ => exact featE_lhs0 _ _
      | ⟨1, _⟩ => exact (featE_lhs1 _ _).trans hk))
    (fun k => funext fun a => Fin.ext (by
      have hk := contrEquiv1_symm_val dot_S512x16_S16x16_S512x16_1_0_0_1_n_n 16 rfl rfl k
      match a with
      | ⟨0, _⟩ => exact (featE_rhs0 _ _).trans hk
      | ⟨1, _⟩ => exact featE_rhs1 _ _))

/-! ### The plain product [512,512] · [512,16] -/

theorem propE_lhs0 (i : S512x16.Idx) (q : dot_S512x512_S512x16_S512x16_1_0_0_1_n_n.contr.Idx) :
    (dot_S512x512_S512x16_S512x16_1_0_0_1_n_n.lhsIdx i q 0).val = (i 0).val := by
  unfold DotDims.lhsIdx
  rw [dif_neg (show ¬(0 : Fin S512x512.rank) ∈ dot_S512x512_S512x16_S512x16_1_0_0_1_n_n.lhsBatch by decide), dif_pos (show (0 : Fin S512x512.rank) ∈ dot_S512x512_S512x16_S512x16_1_0_0_1_n_n.lhsNonContracting by decide)]
  rfl
theorem propE_lhs1 (i : S512x16.Idx) (q : dot_S512x512_S512x16_S512x16_1_0_0_1_n_n.contr.Idx) :
    (dot_S512x512_S512x16_S512x16_1_0_0_1_n_n.lhsIdx i q 1).val = (q ⟨0, by decide⟩).val :=
  dot_S512x512_S512x16_S512x16_1_0_0_1_n_n.lhsIdx_val_of_single rfl i q
theorem propE_rhs1 (i : S512x16.Idx) (q : dot_S512x512_S512x16_S512x16_1_0_0_1_n_n.contr.Idx) :
    (dot_S512x512_S512x16_S512x16_1_0_0_1_n_n.rhsIdx i q 1).val = (i 1).val := by
  unfold DotDims.rhsIdx
  rw [dif_neg (show ¬(1 : Fin S512x16.rank) ∈ dot_S512x512_S512x16_S512x16_1_0_0_1_n_n.rhsBatch by decide), dif_pos (show (1 : Fin S512x16.rank) ∈ dot_S512x512_S512x16_S512x16_1_0_0_1_n_n.rhsNonContracting by decide)]
  rfl
theorem propE_rhs0 (i : S512x16.Idx) (q : dot_S512x512_S512x16_S512x16_1_0_0_1_n_n.contr.Idx) :
    (dot_S512x512_S512x16_S512x16_1_0_0_1_n_n.rhsIdx i q 0).val = (q ⟨0, by decide⟩).val :=
  dot_S512x512_S512x16_S512x16_1_0_0_1_n_n.rhsIdx_val_of_single rfl i q

/-- Entry `(r, c)`: row `r` of the left array against column `c` of the right array. -/
theorem propE_apply {φ₁ φ₂ : FTy} (lhs : FVec Ideal S512x512 φ₁) (rhs : FVec Ideal S512x16 φ₂) (r : Fin 512) (c : Fin 16) :
    matmul (F := Ideal) dot_S512x512_S512x16_S512x16_1_0_0_1_n_n none lhs rhs (constant S512x16 .f32 0x00000000#32) (ix2 r c)
      = ∑ k : Fin 512, lhs (ix2 r k) * rhs (ix2 k c) :=
  matmul_zero_single dot_S512x512_S512x16_S512x16_1_0_0_1_n_n 512 rfl rfl lhs rhs (ix2 r c) (fun k => ix2 r k) (fun k => ix2 k c)
    (fun k => funext fun a => Fin.ext (by
      have hk := contrEquiv1_symm_val dot_S512x512_S512x16_S512x16_1_0_0_1_n_n 512 rfl rfl k
      match a with
      | ⟨0, _⟩ => exact propE_lhs0 _ _
      | ⟨1, _⟩ => exact (propE_lhs1 _ _).trans hk))
    (fun k => funext fun a => Fin.ext (by
      have hk := contrEquiv1_symm_val dot_S512x512_S512x16_S512x16_1_0_0_1_n_n 512 rfl rfl k
      match a with
      | ⟨0, _⟩ => exact (propE_rhs0 _ _).trans hk
      | ⟨1, _⟩ => exact propE_rhs1 _ _))

end Cert.KernelIdeal.PayDots

end
-- ==== Proof.KI.PayNode.lean ====
/-
  The node kernel body's values at an index, at the ideal instance, over arbitrary input blocks.

  The body scales the incidence block by the edge scores (a column [16,1] contracted against the edge features,
  broadcast down the rows), forms the masked propagation block as rows-against-rows of two incidence blocks times
  the Laplacian block, pushes the node features through the feature map, and multiplies the two; the result is
  added to the features plus bias on the first step and to the running result afterwards. At the ideal instance a
  change of float format and a cast to the same shape are the identity, and every product accumulates into zero,
  so each entry is a plain finite sum with no leading zero.
-/
import proofs.«151053_g24051816857981_cont_8to1_1327_4_alg».proof.Proof.KI.PayDots

noncomputable section

open scoped BigOperators

namespace Cert.KernelIdeal.PayNode

open Cert.KernelIdeal Cert.KernelIdeal.Gen Idealize.ShloMosaic Idealize.ShloMosaic.ValueIdx

/-- The incidence block scaled by the edge scores: entry `(r, k)` is the block's entry times the score of edge
    `k`, the score being the column `v25` against row `k` of `v26` (column entry first, as the product has it). -/
theorem pay1_at (v25 : FVec Ideal S16x1 .f32) (v26 : FVec Ideal S4096x16 .f32) (v31 : FVec Ideal S512x4096 .bf16)
    (r : Fin 512) (k : Fin 4096) :
    k0_pay1 (F := Ideal) v25 v26 v31 (ix2 r k)
      = v31 (ix2 r k) * (∑ d : Fin 16, v25 (ix2 d (0 : Fin 1)) * v26 (ix2 k d)) := by
  unfold k0_pay1
  rw [shapeCast_self, shapeCast_self, mulf_apply,
    broadcastTo_apply _ broadcasts_S1x4096_S512x4096 (ix2 r k) (ix2 (0 : Fin 1) k) (fun a => match a with
      | ⟨0, _⟩ => by show (0 : Nat) = if (1 : Nat) = 1 then 0 else r.val; rw [if_pos rfl]
      | ⟨1, _⟩ => by show k.val = if (4096 : Nat) = 1 then 0 else k.val; rw [if_neg (by decide)]),
    truncf_apply, PayDots.scoreRow_apply]

/-- One block's contribution to the node update at `(r, d)`: over the block's 512 columns `c`, the masked
    propagation entry `((∑ k, v7(r,k) · v5(c,k)) · v9(r,c))` times the mapped feature `∑ q, v13(c,q) · v14(q,d)`. -/
theorem pay2_at (v5 v7 : FVec Ideal S512x4096 .bf16) (v9 : FVec Ideal S512x512 .f32) (v13 : FVec Ideal S512x128 .f32)
    (v14 : FVec Ideal S128x128 .f32) (r : Fin 512) (d : Fin 128) :
    k0_pay2 (F := Ideal) v5 v7 v9 v13 v14 (ix2 r d)
      = ∑ c : Fin 512, ((∑ k : Fin 4096, v7 (ix2 r k) * v5 (ix2 c k)) * v9 (ix2 r c))
          * (∑ q : Fin 128, v13 (ix2 c q) * v14 (ix2 q d)) := by
  unfold k0_pay2
  rw [shapeCast_self, PayDots.propN_apply]
  refine Finset.sum_congr rfl fun c _ => ?_
  rw [truncf_apply, truncf_apply, mulf_apply, PayDots.rowsGram_apply, PayDots.featN_apply]

/-- The first step's result: features plus bias row, plus the block's contribution. -/
theorem pay3_at (v5 v7 : FVec Ideal S512x4096 .bf16) (v9 : FVec Ideal S512x512 .f32) (v13 : FVec Ideal S512x128 .f32)
    (v14 : FVec Ideal S128x128 .f32) (v27 : FVec Ideal S512x128 .f32) (v28 : FVec Ideal S1x128 .f32)
    (r : Fin 512) (d : Fin 128) :
    k0_pay3 (F := Ideal) v5 v7 v9 v13 v14 v27 v28 (ix2 r d)
      = (v27 (ix2 r d) + v28 (ix2 (0 : Fin 1) d)) + k0_pay2 (F := Ideal) v5 v7 v9 v13 v14 (ix2 r d) := by
  unfold k0_pay3
  rw [addf_apply, addf_apply, shapeCast_self,
    broadcastTo_apply _ broadcasts_S1x128_S512x128 (ix2 r d) (ix2 (0 : Fin 1) d) (fun a => match a with
      | ⟨0, _⟩ => by show (0 : Nat) = if (1 : Nat) = 1 then 0 else r.val; rw [if_pos rfl]
      | ⟨1, _⟩ => by show d.val = if (128 : Nat) = 1 then 0 else d.val; rw [if_neg (by decide)])]

/-- A later step's result: the running result plus the block's contribution. -/
theorem pay4_at (v5 v7 : FVec Ideal S512x4096 .bf16) (v9 : FVec Ideal S512x512 .f32) (v13 : FVec Ideal S512x128 .f32)
    (v14 : FVec Ideal S128x128 .f32) (v25 : FVec Ideal S512x128 .f32) (r : Fin 512) (d : Fin 128) :
    k0_pay4 (F := Ideal) v5 v7 v9 v13 v14 v25 (ix2 r d)
      = v25 (ix2 r d) + k0_pay2 (F := Ideal) v5 v7 v9 v13 v14 (ix2 r d) := by
  unfold k0_pay4
  rw [shapeCast_self, addf_apply]

end Cert.KernelIdeal.PayNode

end
-- ==== Proof.KI.PayEdge.lean ====
/-
  The edge kernel body's values at an index, at the ideal instance, over arbitrary input blocks.

  The body scales the incidence column block by the node scores (the node features contracted against a column
  [128,1], broadcast along the rows), forms the masked propagation block as columns-against-columns of two
  incidence blocks times the Laplacian block, pushes the edge features through the feature map, and multiplies the
  two; the result is added to the features plus bias on the first step and to the running result afterwards. At
  the ideal instance a change of float format and a cast to the same shape are the identity, and every product
  accumulates into zero, so each entry is a plain finite sum with no leading zero.
-/
import proofs.«151053_g24051816857981_cont_8to1_1327_4_alg».proof.Proof.KI.PayDots

noncomputable section

open scoped BigOperators

namespace Cert.KernelIdeal.PayEdge

open Cert.KernelIdeal Cert.KernelIdeal.Gen Idealize.ShloMosaic Idealize.ShloMosaic.ValueIdx

/-- The last step's write-back: the running result plus the carried contribution. -/
theorem pay1_at (v18 : FVec Ideal S512x16 .f32) (v33 : FVec Ideal S512x16 .f32) (r : Fin 512) (d : Fin 16) :
    k1_pay1 (F := Ideal) v18 v33 (ix2 r d) = v33 (ix2 r d) + v18 (ix2 r d) := by
  unfold k1_pay1
  rw [addf_apply]

/-- The incidence column block scaled by the node scores: entry `(n, c)` is the block's entry times the score of
    node `n`, the score being row `n` of `v32` against the column `v33`. -/
theorem pay2_at (v32 : FVec Ideal S2048x128 .f32) (v33 : FVec Ideal S128x1 .f32) (v38 : FVec Ideal S2048x512 .bf16)
    (n : Fin 2048) (c : Fin 512) :
    k1_pay2 (F := Ideal) v32 v33 v38 (ix2 n c)
      = v38 (ix2 n c) * (∑ q : Fin 128, v32 (ix2 n q) * v33 (ix2 q (0 : Fin 1))) := by
  unfold k1_pay2
  rw [shapeCast_self, shapeCast_self, mulf_apply,
    broadcastTo_apply _ broadcasts_S2048x1_S2048x512 (ix2 n c) (ix2 n (0 : Fin 1)) (fun a => match a with
      | ⟨0, _⟩ => by show n.val = if (2048 : Nat) = 1 then 0 else n.val; rw [if_neg (by decide)]
      | ⟨1, _⟩ => by show (0 : Nat) = if (1 : Nat) = 1 then 0 else c.val; rw [if_pos rfl]),
    truncf_apply, PayDots.scoreCol_apply]

/-- One block's contribution to the edge update at `(r, d)`: over the block's 512 columns `c`, the masked
    propagation entry `((∑ n, v5(n,r) · v7(n,c)) · v9(r,c))` times the mapped feature `∑ q, v13(c,q) · v14(q,d)`. -/
theorem pay3_at (v5 v7 : FVec Ideal S2048x512 .bf16) (v9 : FVec Ideal S512x512 .f32) (v13 : FVec Ideal S512x16 .f32)
    (v14 : FVec Ideal S16x16 .f32) (r : Fin 512) (d : Fin 16) :
    k1_pay3 (F := Ideal) v5 v7 v9 v13 v14 (ix2 r d)
      = ∑ c : Fin 512, ((∑ n : Fin 2048, v5 (ix2 n r) * v7 (ix2 n c)) * v9 (ix2 r c))
          * (∑ q : Fin 16, v13 (ix2 c q) * v14 (ix2 q d)) := by
  unfold k1_pay3
  rw [shapeCast_self, PayDots.propE_apply]
  refine Finset.sum_congr rfl fun c _ => ?_
  rw [truncf_apply, truncf_apply, mulf_apply, PayDots.colsGram_apply, PayDots.featE_apply]

/-- The first step's result: features plus bias row, plus the block's contribution. -/
theorem pay4_at (v5 v7 : FVec Ideal S2048x512 .bf16) (v9 : FVec Ideal S512x512 .f32) (v13 : FVec Ideal S512x16 .f32)
    (v14 : FVec Ideal S16x16 .f32) (v33 : FVec Ideal S512x16 .f32) (v34 : FVec Ideal S1x16 .f32)
    (r : Fin 512) (d : Fin 16) :
    k1_pay4 (F := Ideal) v5 v7 v9 v13 v14 v33 v34 (ix2 r d)
      = (v33 (ix2 r d) + v34 (ix2 (0 : Fin 1) d)) + k1_pay3 (F := Ideal) v5 v7 v9 v13 v14 (ix2 r d) := by
  unfold k1_pay4
  rw [shapeCast_self, shapeCast_self, addf_apply, addf_apply,
    broadcastTo_apply _ broadcasts_S1x16_S512x16 (ix2 r d) (ix2 (0 : Fin 1) d) (fun a => match a with
      | ⟨0, _⟩ => by show (0 : Nat) = if (1 : Nat) = 1 then 0 else r.val; rw [if_pos rfl]
      | ⟨1, _⟩ => by show d.val = if (16 : Nat) = 1 then 0 else d.val; rw [if_neg (by decide)])]

/-- A later step's result: the running result plus the block's contribution. -/
theorem pay5_at (v5 v7 : FVec Ideal S2048x512 .bf16) (v9 : FVec Ideal S512x512 .f32) (v13 : FVec Ideal S512x16 .f32)
    (v14 : FVec Ideal S16x16 .f32) (v33 : FVec Ideal S512x16 .f32) (r : Fin 512) (d : Fin 16) :
    k1_pay5 (F := Ideal) v5 v7 v9 v13 v14 v33 (ix2 r d)
      = v33 (ix2 r d) + k1_pay3 (F := Ideal) v5 v7 v9 v13 v14 (ix2 r d) := by
  unfold k1_pay5
  rw [shapeCast_self, addf_apply]

end Cert.KernelIdeal.PayEdge

end
-- ==== Proof.RefSpec.lean ====
/-
  The mathematics both programs compute, stated once over extended reals and literal index sets: one
  message-passing step on a simplicial complex with 2048 nodes and 4096 edges.

  With x the node features [2048,128], e the edge features [4096,16], B the incidence matrix [2048,4096],
  L_v / L_e the node / edge Laplacians, W_n / W_e the feature maps, p_node / p_edge the attention columns and
  b_n / b_e the biases:

    phiE k      = Σ_d e(k,d) · p_node(d,0)
    propN n n'  = (Σ_k (B(n,k) · phiE k) · B(n',k)) · L_v(n,n')
    xw n' d     = Σ_q x(n',q) · W_n(q,d)
    nodes n d   = x(n,d) + ((Σ_n' propN n n' · xw n' d) + b_n(d))

    phiV n      = Σ_q x(n,q) · p_edge(q,0)
    propE a b   = (Σ_n (B(n,a) · phiV n) · B(n,b)) · L_e(a,b)
    ew b d      = Σ_q e(b,q) · W_e(q,d)
    edges a d   = e(a,d) + ((Σ_b propE a b · ew b d) + b_e(d))

  Every sum is a plain finite sum over the literal index set (no initial value in front). The bracketing is kept
  exactly as written above: on the extended reals addition and multiplication are each commutative and
  associative, but multiplication does not distribute over addition everywhere (where +∞ and -∞ meet), so which
  factor sits inside which sum is part of the statement.
-/
import Idealize.ShloMosaic.PureOps.Ideal
import Idealize.ShloMosaic.Lib.ValueIdx

noncomputable section

open scoped BigOperators

namespace Cert.Spec

open Idealize.ShloMosaic Idealize.ShloMosaic.ValueIdx

/-! ## The node update -/

/-- The edge attention score: edge `k`'s features against the column `p_node`. -/
def phiE (e : FVec Ideal (⟨2, ![4096, 16]⟩ : Shape) .f32) (pN : FVec Ideal (⟨2, ![16, 1]⟩ : Shape) .f32)
    (k : Fin 4096) : EReal :=
  ∑ d : Fin 16, e (ix2 k d) * pN (ix2 d (0 : Fin 1))

/-- The node propagation matrix: `B · diag(phiE) · Bᵀ`, masked entrywise by the node Laplacian. -/
def propN (Lv : FVec Ideal (⟨2, ![2048, 2048]⟩ : Shape) .f32) (inc : FVec Ideal (⟨2, ![2048, 4096]⟩ : Shape) .f32)
    (e : FVec Ideal (⟨2, ![4096, 16]⟩ : Shape) .f32) (pN : FVec Ideal (⟨2, ![16, 1]⟩ : Shape) .f32)
    (n n' : Fin 2048) : EReal :=
  (∑ k : Fin 4096, (inc (ix2 n k) * phiE e pN k) * inc (ix2 n' k)) * Lv (ix2 n n')

/-- The node features through the node feature map. -/
def xw (x : FVec Ideal (⟨2, ![2048, 128]⟩ : Shape) .f32) (Wn : FVec Ideal (⟨2, ![128, 128]⟩ : Shape) .f32)
    (n' : Fin 2048) (d : Fin 128) : EReal :=
  ∑ q : Fin 128, x (ix2 n' q) * Wn (ix2 q d)

/-- One entry of the new node features. -/
def nodesAt (x : FVec Ideal (⟨2, ![2048, 128]⟩ : Shape) .f32) (Lv : FVec Ideal (⟨2, ![2048, 2048]⟩ : Shape) .f32)
    (inc : FVec Ideal (⟨2, ![2048, 4096]⟩ : Shape) .f32) (e : FVec Ideal (⟨2, ![4096, 16]⟩ : Shape) .f32)
    (Wn : FVec Ideal (⟨2, ![128, 128]⟩ : Shape) .f32) (pN : FVec Ideal (⟨2, ![16, 1]⟩ : Shape) .f32)
    (bN : FVec Ideal (⟨1, ![128]⟩ : Shape) .f32) (n : Fin 2048) (d : Fin 128) : EReal :=
  x (ix2 n d) + ((∑ n' : Fin 2048, propN Lv inc e pN n n' * xw x Wn n' d) + bN (ix1 d))

/-- The new node features as one array. -/
def nodes (x : FVec Ideal (⟨2, ![2048, 128]⟩ : Shape) .f32) (Lv : FVec Ideal (⟨2, ![2048, 2048]⟩ : Shape) .f32)
    (inc : FVec Ideal (⟨2, ![2048, 4096]⟩ : Shape) .f32) (e : FVec Ideal (⟨2, ![4096, 16]⟩ : Shape) .f32)
    (Wn : FVec Ideal (⟨2, ![128, 128]⟩ : Shape) .f32) (pN : FVec Ideal (⟨2, ![16, 1]⟩ : Shape) .f32)
    (bN : FVec Ideal (⟨1, ![128]⟩ : Shape) .f32) : FVec Ideal (⟨2, ![2048, 128]⟩ : Shape) .f32 :=
  fun i => nodesAt x Lv inc e Wn pN bN (i 0) (i 1)

/-- The array at an index given by its coordinates is the entry. -/
theorem nodes_ix2 (x : FVec Ideal (⟨2, ![2048, 128]⟩ : Shape) .f32) (Lv : FVec Ideal (⟨2, ![2048, 2048]⟩ : Shape) .f32)
    (inc : FVec Ideal (⟨2, ![2048, 4096]⟩ : Shape) .f32) (e : FVec Ideal (⟨2, ![4096, 16]⟩ : Shape) .f32)
    (Wn : FVec Ideal (⟨2, ![128, 128]⟩ : Shape) .f32) (pN : FVec Ideal (⟨2, ![16, 1]⟩ : Shape) .f32)
    (bN : FVec Ideal (⟨1, ![128]⟩ : Shape) .f32) (n : Fin 2048) (d : Fin 128) :
    nodes x Lv inc e Wn pN bN (ix2 n d) = nodesAt x Lv inc e Wn pN bN n d := rfl

/-! ## The edge update -/

/-- The node attention score: node `n`'s features against the column `p_edge`. -/
def phiV (x : FVec Ideal (⟨2, ![2048, 128]⟩ : Shape) .f32) (pE : FVec Ideal (⟨2, ![128, 1]⟩ : Shape) .f32)
    (n : Fin 2048) : EReal :=
  ∑ q : Fin 128, x (ix2 n q) * pE (ix2 q (0 : Fin 1))

/-- The edge propagation matrix: `Bᵀ · diag(phiV) · B`, masked entrywise by the edge Laplacian. -/
def propE (x : FVec Ideal (⟨2, ![2048, 128]⟩ : Shape) .f32) (Le : FVec Ideal (⟨2, ![4096, 4096]⟩ : Shape) .f32)
    (inc : FVec Ideal (⟨2, ![2048, 4096]⟩ : Shape) .f32) (pE : FVec Ideal (⟨2, ![128, 1]⟩ : Shape) .f32)
    (a b : Fin 4096) : EReal :=
  (∑ n : Fin 2048, (inc (ix2 n a) * phiV x pE n) * inc (ix2 n b)) * Le (ix2 a b)

/-- The edge features through the edge feature map. -/
def ew (e : FVec Ideal (⟨2, ![4096, 16]⟩ : Shape) .f32) (We : FVec Ideal (⟨2, ![16, 16]⟩ : Shape) .f32)
    (b : Fin 4096) (d : Fin 16) : EReal :=
  ∑ q : Fin 16, e (ix2 b q) * We (ix2 q d)

/-- One entry of the new edge features. -/
def edgesAt (x : FVec Ideal (⟨2, ![2048, 128]⟩ : Shape) .f32) (Le : FVec Ideal (⟨2, ![4096, 4096]⟩ : Shape) .f32)
    (inc : FVec Ideal (⟨2, ![2048, 4096]⟩ : Shape) .f32) (e : FVec Ideal (⟨2, ![4096, 16]⟩ : Shape) .f32)
    (We : FVec Ideal (⟨2, ![16, 16]⟩ : Shape) .f32) (pE : FVec Ideal (⟨2, ![128, 1]⟩ : Shape) .f32)
    (bE : FVec Ideal (⟨1, ![16]⟩ : Shape) .f32) (a : Fin 4096) (d : Fin 16) : EReal :=
  e (ix2 a d) + ((∑ b : Fin 4096, propE x Le inc pE a b * ew e We b d) + bE (ix1 d))

/-- The new edge features as one array. -/
def edges (x : FVec Ideal (⟨2, ![2048, 128]⟩ : Shape) .f32) (Le : FVec Ideal (⟨2, ![4096, 4096]⟩ : Shape) .f32)
    (inc : FVec Ideal (⟨2, ![2048, 4096]⟩ : Shape) .f32) (e : FVec Ideal (⟨2, ![4096, 16]⟩ : Shape) .f32)
    (We : FVec Ideal (⟨2, ![16, 16]⟩ : Shape) .f32) (pE : FVec Ideal (⟨2, ![128, 1]⟩ : Shape) .f32)
    (bE : FVec Ideal (⟨1, ![16]⟩ : Shape) .f32) : FVec Ideal (⟨2, ![4096, 16]⟩ : Shape) .f32 :=
  fun i => edgesAt x Le inc e We pE bE (i 0) (i 1)

/-- The array at an index given by its coordinates is the entry. -/
theorem edges_ix2 (x : FVec Ideal (⟨2, ![2048, 128]⟩ : Shape) .f32) (Le : FVec Ideal (⟨2, ![4096, 4096]⟩ : Shape) .f32)
    (inc : FVec Ideal (⟨2, ![2048, 4096]⟩ : Shape) .f32) (e : FVec Ideal (⟨2, ![4096, 16]⟩ : Shape) .f32)
    (We : FVec Ideal (⟨2, ![16, 16]⟩ : Shape) .f32) (pE : FVec Ideal (⟨2, ![128, 1]⟩ : Shape) .f32)
    (bE : FVec Ideal (⟨1, ![16]⟩ : Shape) .f32) (a : Fin 4096) (d : Fin 16) :
    edges x Le inc e We pE bE (ix2 a d) = edgesAt x Le inc e We pE bE a d := rfl

end Cert.Spec

end
-- ==== Proof.BridgeAlg.lean ====
/-
  The two assembly identities on the extended reals that join a block-by-block accumulation to the
  specification's whole sums, using only that addition and multiplication are commutative and associative
  (no distributivity, no finiteness).

  The 2048 nodes are four runs of 512, the 4096 edges eight runs of 512. A run's contribution to an entry of the
  node update is the sum over the run's 512 nodes `n'` of the masked propagation entry times the mapped feature,
  with the edge score written column entry first (`p_node · e`); a run's contribution to an entry of the edge
  update is the same over the run's 512 edges `b`, with the node score attached to the second incidence factor
  (`B(n,a) · (B(n,b) · phiV n)`). Starting from features plus bias and adding the runs' contributions one after
  the other, in order, gives the specification's entry.
-/
import proofs.«151053_g24051816857981_cont_8to1_1327_4_alg».proof.Proof.RefSpec

noncomputable section

open scoped BigOperators

namespace Cert.BridgeAlg

open Idealize.ShloMosaic Idealize.ShloMosaic.ValueIdx

/-! ## Runs of 512 -/

/-- Node `512·J + c`: the `c`-th of the `J`-th of four runs of 512. -/
def row4 (J : Fin 4) (c : Fin 512) : Fin 2048 := ⟨512 * J.val + c.val, by have := J.isLt; have := c.isLt; omega⟩

/-- Edge `512·J + c`: the `c`-th of the `J`-th of eight runs of 512. -/
def row8 (J : Fin 8) (c : Fin 512) : Fin 4096 := ⟨512 * J.val + c.val, by have := J.isLt; have := c.isLt; omega⟩

theorem row4_val (J : Fin 4) (c : Fin 512) : (row4 J c).val = 512 * J.val + c.val := rfl
theorem row8_val (J : Fin 8) (c : Fin 512) : (row8 J c).val = 512 * J.val + c.val := rfl

/-- A sum over 2048 = 4 · 512 terms, run by run. -/
theorem sum_runs4 {M : Type*} [AddCommMonoid M] (g : Fin 2048 → M) :
    ∑ n : Fin 2048, g n = ∑ J : Fin 4, ∑ c : Fin 512, g (row4 J c) := by
  rw [← Fintype.sum_prod_type' (fun J c => g (row4 J c))]
  exact (Fintype.sum_equiv (finProdFinEquiv : Fin 4 × Fin 512 ≃ Fin (4 * 512)) (fun p => g (row4 p.1 p.2)) g
    (fun p => congrArg g (Fin.ext (Nat.add_comm _ _)))).symm

/-- A sum over 4096 = 8 · 512 terms, run by run. -/
theorem sum_runs8 {M : Type*} [AddCommMonoid M] (g : Fin 4096 → M) :
    ∑ n : Fin 4096, g n = ∑ J : Fin 8, ∑ c : Fin 512, g (row8 J c) := by
  rw [← Fintype.sum_prod_type' (fun J c => g (row8 J c))]
  exact (Fintype.sum_equiv (finProdFinEquiv : Fin 8 × Fin 512 ≃ Fin (8 * 512)) (fun p => g (row8 p.1 p.2)) g
    (fun p => congrArg g (Fin.ext (Nat.add_comm _ _)))).symm

/-! ## The node update -/

/-- Run `J`'s contribution to entry `(n, d)` of the node update. -/
def nodeBlock (x : FVec Ideal (⟨2, ![2048, 128]⟩ : Shape) .f32) (Lv : FVec Ideal (⟨2, ![2048, 2048]⟩ : Shape) .f32)
    (inc : FVec Ideal (⟨2, ![2048, 4096]⟩ : Shape) .f32) (e : FVec Ideal (⟨2, ![4096, 16]⟩ : Shape) .f32)
    (Wn : FVec Ideal (⟨2, ![128, 128]⟩ : Shape) .f32) (pN : FVec Ideal (⟨2, ![16, 1]⟩ : Shape) .f32)
    (n : Fin 2048) (d : Fin 128) (J : Fin 4) : EReal :=
  ∑ c : Fin 512,
    ((∑ k : Fin 4096, (inc (ix2 n k) * (∑ dd : Fin 16, pN (ix2 dd (0 : Fin 1)) * e (ix2 k dd))) * inc (ix2 (row4 J c) k))
        * Lv (ix2 n (row4 J c)))
      * (∑ q : Fin 128, x (ix2 (row4 J c) q) * Wn (ix2 q d))

/-- The contribution is the specification's summand over the run. -/
theorem nodeBlock_eq_sum (x : FVec Ideal (⟨2, ![2048, 128]⟩ : Shape) .f32) (Lv : FVec Ideal (⟨2, ![2048, 2048]⟩ : Shape) .f32)
    (inc : FVec Ideal (⟨2, ![2048, 4096]⟩ : Shape) .f32) (e : FVec Ideal (⟨2, ![4096, 16]⟩ : Shape) .f32)
    (Wn : FVec Ideal (⟨2, ![128, 128]⟩ : Shape) .f32) (pN : FVec Ideal (⟨2, ![16, 1]⟩ : Shape) .f32)
    (n : Fin 2048) (d : Fin 128) (J : Fin 4) :
    nodeBlock x Lv inc e Wn pN n d J
      = ∑ c : Fin 512, Cert.Spec.propN Lv inc e pN n (row4 J c) * Cert.Spec.xw x Wn (row4 J c) d := by
  unfold nodeBlock Cert.Spec.propN Cert.Spec.xw Cert.Spec.phiE
  refine Finset.sum_congr rfl fun c _ => ?_
  refine congrArg₂ (· * ·) (congrArg₂ (· * ·) (Finset.sum_congr rfl fun k _ => ?_) rfl) rfl
  exact congrArg₂ (· * ·) (congrArg₂ (· * ·) rfl (Finset.sum_congr rfl fun dd _ => mul_comm _ _)) rfl

/-- Features plus bias row, then the four runs' contributions added in order, is the specification's entry. -/
theorem nodes_assemble (x : FVec Ideal (⟨2, ![2048, 128]⟩ : Shape) .f32) (Lv : FVec Ideal (⟨2, ![2048, 2048]⟩ : Shape) .f32)
    (inc : FVec Ideal (⟨2, ![2048, 4096]⟩ : Shape) .f32) (e : FVec Ideal (⟨2, ![4096, 16]⟩ : Shape) .f32)
    (Wn : FVec Ideal (⟨2, ![128, 128]⟩ : Shape) .f32) (pN : FVec Ideal (⟨2, ![16, 1]⟩ : Shape) .f32)
    (bN : FVec Ideal (⟨1, ![128]⟩ : Shape) .f32) (bn1 : FVec Ideal (⟨2, ![1, 128]⟩ : Shape) .f32)
    (hb : ∀ d : Fin 128, bn1 (ix2 (0 : Fin 1) d) = bN (ix1 d)) (n : Fin 2048) (d : Fin 128) :
    ((((x (ix2 n d) + bn1 (ix2 (0 : Fin 1) d)) + nodeBlock x Lv inc e Wn pN n d 0) + nodeBlock x Lv inc e Wn pN n d 1)
        + nodeBlock x Lv inc e Wn pN n d 2) + nodeBlock x Lv inc e Wn pN n d 3
      = Cert.Spec.nodesAt x Lv inc e Wn pN bN n d := by
  unfold Cert.Spec.nodesAt
  rw [sum_runs4, Fin.sum_univ_four, hb d, nodeBlock_eq_sum, nodeBlock_eq_sum, nodeBlock_eq_sum, nodeBlock_eq_sum]
  abel

/-! ## The edge update -/

/-- Run `J`'s contribution to entry `(a, d)` of the edge update. -/
def edgeBlock (x : FVec Ideal (⟨2, ![2048, 128]⟩ : Shape) .f32) (Le : FVec Ideal (⟨2, ![4096, 4096]⟩ : Shape) .f32)
    (inc : FVec Ideal (⟨2, ![2048, 4096]⟩ : Shape) .f32) (e : FVec Ideal (⟨2, ![4096, 16]⟩ : Shape) .f32)
    (We : FVec Ideal (⟨2, ![16, 16]⟩ : Shape) .f32) (pE : FVec Ideal (⟨2, ![128, 1]⟩ : Shape) .f32)
    (a : Fin 4096) (d : Fin 16) (J : Fin 8) : EReal :=
  ∑ c : Fin 512,
    ((∑ n : Fin 2048, inc (ix2 n a) * (inc (ix2 n (row8 J c)) * (∑ q : Fin 128, x (ix2 n q) * pE (ix2 q (0 : Fin 1)))))
        * Le (ix2 a (row8 J c)))
      * (∑ q : Fin 16, e (ix2 (row8 J c) q) * We (ix2 q d))

/-- The contribution is the specification's summand over the run. -/
theorem edgeBlock_eq_sum (x : FVec Ideal (⟨2, ![2048, 128]⟩ : Shape) .f32) (Le : FVec Ideal (⟨2, ![4096, 4096]⟩ : Shape) .f32)
    (inc : FVec Ideal (⟨2, ![2048, 4096]⟩ : Shape) .f32) (e : FVec Ideal (⟨2, ![4096, 16]⟩ : Shape) .f32)
    (We : FVec Ideal (⟨2, ![16, 16]⟩ : Shape) .f32) (pE : FVec Ideal (⟨2, ![128, 1]⟩ : Shape) .f32)
    (a : Fin 4096) (d : Fin 16) (J : Fin 8) :
    edgeBlock x Le inc e We pE a d J
      = ∑ c : Fin 512, Cert.Spec.propE x Le inc pE a (row8 J c) * Cert.Spec.ew e We (row8 J c) d := by
  unfold edgeBlock Cert.Spec.propE Cert.Spec.ew Cert.Spec.phiV
  refine Finset.sum_congr rfl fun c _ => ?_
  refine congrArg₂ (· * ·) (congrArg₂ (· * ·) (Finset.sum_congr rfl fun n _ => ?_) rfl) rfl
  rw [mul_comm (inc (ix2 n (row8 J c))) _, mul_assoc]

/-- Features plus bias row, then the eight runs' contributions added in order, is the specification's entry. -/
theorem edges_assemble (x : FVec Ideal (⟨2, ![2048, 128]⟩ : Shape) .f32) (Le : FVec Ideal (⟨2, ![4096, 4096]⟩ : Shape) .f32)
    (inc : FVec Ideal (⟨2, ![2048, 4096]⟩ : Shape) .f32) (e : FVec Ideal (⟨2, ![4096, 16]⟩ : Shape) .f32)
    (We : FVec Ideal (⟨2, ![16, 16]⟩ : Shape) .f32) (pE : FVec Ideal (⟨2, ![128, 1]⟩ : Shape) .f32)
    (bE : FVec Ideal (⟨1, ![16]⟩ : Shape) .f32) (be1 : FVec Ideal (⟨2, ![1, 16]⟩ : Shape) .f32)
    (hb : ∀ d : Fin 16, be1 (ix2 (0 : Fin 1) d) = bE (ix1 d)) (a : Fin 4096) (d : Fin 16) :
    ((((((((e (ix2 a d) + be1 (ix2 (0 : Fin 1) d)) + edgeBlock x Le inc e We pE a d 0) + edgeBlock x Le inc e We pE a d 1)
        + edgeBlock x Le inc e We pE a d 2) + edgeBlock x Le inc e We pE a d 3) + edgeBlock x Le inc e We pE a d 4)
        + edgeBlock x Le inc e We pE a d 5) + edgeBlock x Le inc e We pE a d 6) + edgeBlock x Le inc e We pE a d 7
      = Cert.Spec.edgesAt x Le inc e We pE bE a d := by
  unfold Cert.Spec.edgesAt
  rw [sum_runs8, Fin.sum_univ_eight, hb d, edgeBlock_eq_sum, edgeBlock_eq_sum, edgeBlock_eq_sum, edgeBlock_eq_sum,
    edgeBlock_eq_sum, edgeBlock_eq_sum, edgeBlock_eq_sum, edgeBlock_eq_sum]
  abel

end Cert.BridgeAlg

end
-- ==== Proof.BridgeBlocks.lean ====
/-
  A kernel block's contribution, computed from blocks whose entries are known entries of the whole arrays, is the
  run's contribution of the assembly identities: the node body's product of masked propagation block and mapped
  features is `Cert.BridgeAlg.nodeBlock`, the edge body's is `Cert.BridgeAlg.edgeBlock`. Only the blocks' entries
  are substituted; no algebraic law is used.
-/
import proofs.«151053_g24051816857981_cont_8to1_1327_4_alg».proof.Proof.KI.PayNode
import proofs.«151053_g24051816857981_cont_8to1_1327_4_alg».proof.Proof.KI.PayEdge
import proofs.«151053_g24051816857981_cont_8to1_1327_4_alg».proof.Proof.BridgeAlg

noncomputable section

open scoped BigOperators

namespace Cert.BridgeBlocks

open Cert.KernelIdeal Cert.KernelIdeal.Gen Cert.BridgeAlg Idealize.ShloMosaic Idealize.ShloMosaic.ValueIdx

/-- The node body's contribution at row `r` of a row block whose global row is `n`, against the `J`-th run of
    nodes: `v7` is the score-scaled incidence row block, `v5` the run's incidence rows, `v9` the Laplacian block,
    `v13` the run's node features, `v14` the feature map. -/
theorem pay2_eq_nodeBlock (v5 v7 : FVec Ideal S512x4096 .bf16) (v9 : FVec Ideal S512x512 .f32)
    (v13 : FVec Ideal S512x128 .f32) (v14 : FVec Ideal S128x128 .f32)
    (x : FVec Ideal (⟨2, ![2048, 128]⟩ : Shape) .f32) (Lv : FVec Ideal (⟨2, ![2048, 2048]⟩ : Shape) .f32)
    (inc : FVec Ideal (⟨2, ![2048, 4096]⟩ : Shape) .f32) (e : FVec Ideal (⟨2, ![4096, 16]⟩ : Shape) .f32)
    (Wn : FVec Ideal (⟨2, ![128, 128]⟩ : Shape) .f32) (pN : FVec Ideal (⟨2, ![16, 1]⟩ : Shape) .f32)
    (n : Fin 2048) (r : Fin 512) (d : Fin 128) (J : Fin 4)
    (h7 : ∀ k : Fin 4096, v7 (ix2 r k) = inc (ix2 n k) * (∑ dd : Fin 16, pN (ix2 dd (0 : Fin 1)) * e (ix2 k dd)))
    (h5 : ∀ (c : Fin 512) (k : Fin 4096), v5 (ix2 c k) = inc (ix2 (row4 J c) k))
    (h9 : ∀ c : Fin 512, v9 (ix2 r c) = Lv (ix2 n (row4 J c)))
    (h13 : ∀ (c : Fin 512) (q : Fin 128), v13 (ix2 c q) = x (ix2 (row4 J c) q))
    (h14 : ∀ q : Fin 128, v14 (ix2 q d) = Wn (ix2 q d)) :
    k0_pay2 (F := Ideal) v5 v7 v9 v13 v14 (ix2 r d) = nodeBlock x Lv inc e Wn pN n d J := by
  rw [Cert.KernelIdeal.PayNode.pay2_at]
  unfold nodeBlock
  refine Finset.sum_congr rfl fun c _ => ?_
  rw [h9 c]
  exact congrArg₂ (· * ·)
    (congrArg₂ (· * ·) (Finset.sum_congr rfl fun k _ => by rw [h7 k, h5 c k]) rfl)
    (Finset.sum_congr rfl fun q _ => by rw [h13 c q, h14 q])

/-- The edge body's contribution at row `r` of a row block whose global edge is `a`, against the `J`-th run of
    edges: `v5` is the row block's incidence columns, `v7` the run's score-scaled incidence columns, `v9` the
    Laplacian block, `v13` the run's edge features, `v14` the feature map. -/
theorem pay3_eq_edgeBlock (v5 v7 : FVec Ideal S2048x512 .bf16) (v9 : FVec Ideal S512x512 .f32)
    (v13 : FVec Ideal S512x16 .f32) (v14 : FVec Ideal S16x16 .f32)
    (x : FVec Ideal (⟨2, ![2048, 128]⟩ : Shape) .f32) (Le : FVec Ideal (⟨2, ![4096, 4096]⟩ : Shape) .f32)
    (inc : FVec Ideal (⟨2, ![2048, 4096]⟩ : Shape) .f32) (e : FVec Ideal (⟨2, ![4096, 16]⟩ : Shape) .f32)
    (We : FVec Ideal (⟨2, ![16, 16]⟩ : Shape) .f32) (pE : FVec Ideal (⟨2, ![128, 1]⟩ : Shape) .f32)
    (a : Fin 4096) (r : Fin 512) (d : Fin 16) (J : Fin 8)
    (h5 : ∀ n : Fin 2048, v5 (ix2 n r) = inc (ix2 n a))
    (h7 : ∀ (n : Fin 2048) (c : Fin 512),
      v7 (ix2 n c) = inc (ix2 n (row8 J c)) * (∑ q : Fin 128, x (ix2 n q) * pE (ix2 q (0 : Fin 1))))
    (h9 : ∀ c : Fin 512, v9 (ix2 r c) = Le (ix2 a (row8 J c)))
    (h13 : ∀ (c : Fin 512) (q : Fin 16), v13 (ix2 c q) = e (ix2 (row8 J c) q))
    (h14 : ∀ q : Fin 16, v14 (ix2 q d) = We (ix2 q d)) :
    k1_pay3 (F := Ideal) v5 v7 v9 v13 v14 (ix2 r d) = edgeBlock x Le inc e We pE a d J := by
  rw [Cert.KernelIdeal.PayEdge.pay3_at]
  unfold edgeBlock
  refine Finset.sum_congr rfl fun c _ => ?_
  rw [h9 c]
  exact congrArg₂ (· * ·)
    (congrArg₂ (· * ·) (Finset.sum_congr rfl fun n _ => by rw [h5 n, h7 n c]) rfl)
    (Finset.sum_congr rfl fun q _ => by rw [h13 c q, h14 q])

end Cert.BridgeBlocks

end
-- ==== Proof.KI.NodeBridgeGrid.lean ====
/-
  The node kernel's grid, point by point: point `t` of the sixteen is row block `t / 4` against run `t % 4`.
  The windows' block indices and the body's load offsets are decided once over the grid; from them, what each
  window's block and each load of the body reads of the whole arrays, entry by entry.
-/
import proofs.«151053_g24051816857981_cont_8to1_1327_4_alg».proof.Proof.KI.NodeOut
import proofs.«151053_g24051816857981_cont_8to1_1327_4_alg».proof.Proof.BridgeBlocks

set_option maxRecDepth 16384

noncomputable section

open scoped BigOperators

namespace Cert.KernelIdeal.NodeBridge

open Cert.KernelIdeal Cert.KernelIdeal.Gen Cert.KernelIdeal.Node Cert.BridgeAlg Idealize.ShloMosaic Idealize.ShloMosaic.TcCoe
  Idealize.ShloMosaic.ValueIdx

/-! ## Decided over the grid -/

/-- The whole-array windows sit at block (0, 0) at every point; the Laplacian window at tile (t / 4, t % 4). -/
theorem idx_in : ∀ t : Fin cfg0.N,
    (win0_0.index t (0 : Fin 2) = 0 ∧ win0_0.index t (1 : Fin 2) = 0)
    ∧ (win0_1.index t (0 : Fin 2) = t.val / 4 ∧ win0_1.index t (1 : Fin 2) = t.val % 4)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- The body's four load offsets: rows of row block `t / 4` (the scaled rows and the residual), rows of run `t % 4`
    (the other incidence rows and the mapped features); columns from 0. -/
theorem offs : ∀ t : Fin cfg0.N,
    (k0_off1 (grid0.coords t) (0 : Fin 2) = 512 * (t.val / 4) ∧ k0_off1 (grid0.coords t) (1 : Fin 2) = 0)
    ∧ (k0_off2 (grid0.coords t) (0 : Fin 2) = 512 * (t.val % 4) ∧ k0_off2 (grid0.coords t) (1 : Fin 2) = 0)
    ∧ (k0_off3 (grid0.coords t) (0 : Fin 2) = 512 * (t.val % 4) ∧ k0_off3 (grid0.coords t) (1 : Fin 2) = 0)
    ∧ (k0_off4 (grid0.coords t) (0 : Fin 2) = 512 * (t.val / 4) ∧ k0_off4 (grid0.coords t) (1 : Fin 2) = 0) :=
  (by decide +kernel : ∀ t : Fin grid0.N, _)

/-! ## The body's loads, entry by entry -/

/-- The rows the scratch is built from: row `r` of the loaded block is row `n` of the incidence array. -/
theorem ld_rInc1 (x : Vec Ideal S2048x4096 .bf16) (i : grid0.Coords) (h : k0_cond1 i = 1#1) (r : Fin 512) (k : Fin 4096) (n : Fin 2048)
    (h0 : k0_off1 i (0 : Fin 2) + r.val = n.val) (h1 : k0_off1 i (1 : Fin 2) = 0) :
    View.ld (Val := Elt Ideal) x (rInc1 i h) (ix2 r k) = x (ix2 n k) :=
  congrArg x (funext fun a => Fin.ext (by
    match a with
    | ⟨0, _⟩ => show k0_off1 i (0 : Fin 2) + 1 * r.val = n.val; omega
    | ⟨1, _⟩ => show k0_off1 i (1 : Fin 2) + 1 * k.val = k.val; omega))

/-- The run's incidence rows: row `r` of the loaded block is row `n` of the incidence array. -/
theorem ld_rInc2 (x : Vec Ideal S2048x4096 .bf16) (i : grid0.Coords) (r : Fin 512) (k : Fin 4096) (n : Fin 2048)
    (h0 : k0_off2 i (0 : Fin 2) + r.val = n.val) (h1 : k0_off2 i (1 : Fin 2) = 0) :
    View.ld (Val := Elt Ideal) x (rInc2 i) (ix2 r k) = x (ix2 n k) :=
  congrArg x (funext fun a => Fin.ext (by
    match a with
    | ⟨0, _⟩ => show k0_off2 i (0 : Fin 2) + 1 * r.val = n.val; omega
    | ⟨1, _⟩ => show k0_off2 i (1 : Fin 2) + 1 * k.val = k.val; omega))

/-- The run's node features: row `r` of the loaded block is row `n` of the feature array. -/
theorem ld_rX3 (x : Vec Ideal S2048x128 .f32) (i : grid0.Coords) (r : Fin 512) (k : Fin 128) (n : Fin 2048)
    (h0 : k0_off3 i (0 : Fin 2) + r.val = n.val) (h1 : k0_off3 i (1 : Fin 2) = 0) :
    View.ld (Val := Elt Ideal) x (rX3 i) (ix2 r k) = x (ix2 n k) :=
  congrArg x (funext fun a => Fin.ext (by
    match a with
    | ⟨0, _⟩ => show k0_off3 i (0 : Fin 2) + 1 * r.val = n.val; omega
    | ⟨1, _⟩ => show k0_off3 i (1 : Fin 2) + 1 * k.val = k.val; omega))

/-- The residual rows: row `r` of the loaded block is row `n` of the feature array. -/
theorem ld_rX4 (x : Vec Ideal S2048x128 .f32) (i : grid0.Coords) (h : k0_cond2 i = 1#1) (r : Fin 512) (k : Fin 128) (n : Fin 2048)
    (h0 : k0_off4 i (0 : Fin 2) + r.val = n.val) (h1 : k0_off4 i (1 : Fin 2) = 0) :
    View.ld (Val := Elt Ideal) x (rX4 i h) (ix2 r k) = x (ix2 n k) :=
  congrArg x (funext fun a => Fin.ext (by
    match a with
    | ⟨0, _⟩ => show k0_off4 i (0 : Fin 2) + 1 * r.val = n.val; omega
    | ⟨1, _⟩ => show k0_off4 i (1 : Fin 2) + 1 * k.val = k.val; omega))

/-! ## The windows' blocks, entry by entry -/

section Blocks

variable (V : (c : Dev nD) → (b : Ref sig .tc) → Buf (Elt Ideal) ((c : Thread nD τ).loc b)) (c : Dev nD)

theorem blk0_at (t : Fin cfg0.N) (a : Fin 2048) (b : Fin 4096) : iblk V c 0 t (ix2 a b) = V c main_v2 (ix2 a b) := by
  obtain ⟨⟨q0, q1⟩, -, -, -, -, -, -⟩ := idx_in t
  show V c main_v2 (((cfg0.win 0).blk t).view.emb (ix2 a b)) = V c main_v2 (ix2 a b)
  refine congrArg (V c main_v2) (funext fun z => Fin.ext ?_)
  match z with
  | ⟨0, _⟩ => show win0_0.index t (0 : Fin 2) * 2048 + 1 * a.val = a.val; rw [q0]; omega
  | ⟨1, _⟩ => show win0_0.index t (1 : Fin 2) * 4096 + 1 * b.val = b.val; rw [q1]; omega

theorem blk2_at (t : Fin cfg0.N) (a : Fin 2048) (b : Fin 128) : iblk V c 2 t (ix2 a b) = V c main_arg0 (ix2 a b) := by
  obtain ⟨-, -, ⟨q0, q1⟩, -, -, -, -⟩ := idx_in t
  show V c main_arg0 (((cfg0.win 2).blk t).view.emb (ix2 a b)) = V c main_arg0 (ix2 a b)
  refine congrArg (V c main_arg0) (funext fun z => Fin.ext ?_)
  match z with
  | ⟨0, _⟩ => show win0_2.index t (0 : Fin 2) * 2048 + 1 * a.val = a.val; rw [q0]; omega
  | ⟨1, _⟩ => show win0_2.index t (1 : Fin 2) * 128 + 1 * b.val = b.val; rw [q1]; omega

theorem blk3_at (t : Fin cfg0.N) (a : Fin 128) (b : Fin 128) : iblk V c 3 t (ix2 a b) = V c main_arg5 (ix2 a b) := by
  obtain ⟨-, -, -, ⟨q0, q1⟩, -, -, -⟩ := idx_in t
  show V c main_arg5 (((cfg0.win 3).blk t).view.emb (ix2 a b)) = V c main_arg5 (ix2 a b)
  refine congrArg (V c main_arg5) (funext fun z => Fin.ext ?_)
  match z with
  | ⟨0, _⟩ => show win0_3.index t (0 : Fin 2) * 128 + 1 * a.val = a.val; rw [q0]; omega
  | ⟨1, _⟩ => show win0_3.index t (1 : Fin 2) * 128 + 1 * b.val = b.val; rw [q1]; omega

theorem blk4_at (t : Fin cfg0.N) (a : Fin 4096) (b : Fin 16) : iblk V c 4 t (ix2 a b) = V c main_arg4 (ix2 a b) := by
  obtain ⟨-, -, -, -, ⟨q0, q1⟩, -, -⟩ := idx_in t
  show V c main_arg4 (((cfg0.win 4).blk t).view.emb (ix2 a b)) = V c main_arg4 (ix2 a b)
  refine congrArg (V c main_arg4) (funext fun z => Fin.ext ?_)
  match z with
  | ⟨0, _⟩ => show win0_4.index t (0 : Fin 2) * 4096 + 1 * a.val = a.val; rw [q0]; omega
  | ⟨1, _⟩ => show win0_4.index t (1 : Fin 2) * 16 + 1 * b.val = b.val; rw [q1]; omega

theorem blk5_at (t : Fin cfg0.N) (a : Fin 16) (b : Fin 1) : iblk V c 5 t (ix2 a b) = V c main_arg7 (ix2 a b) := by
  obtain ⟨-, -, -, -, -, ⟨q0, q1⟩, -⟩ := idx_in t
  show V c main_arg7 (((cfg0.win 5).blk t).view.emb (ix2 a b)) = V c main_arg7 (ix2 a b)
  refine congrArg (V c main_arg7) (funext fun z => Fin.ext ?_)
  match z with
  | ⟨0, _⟩ => show win0_5.index t (0 : Fin 2) * 16 + 1 * a.val = a.val; rw [q0]; omega
  | ⟨1, _⟩ => show win0_5.index t (1 : Fin 2) * 1 + 1 * b.val = b.val; rw [q1]; omega

theorem blk6_at (t : Fin cfg0.N) (a : Fin 1) (b : Fin 128) : iblk V c 6 t (ix2 a b) = V c main_v0 (ix2 a b) := by
  obtain ⟨-, -, -, -, -, -, ⟨q0, q1⟩⟩ := idx_in t
  show V c main_v0 (((cfg0.win 6).blk t).view.emb (ix2 a b)) = V c main_v0 (ix2 a b)
  refine congrArg (V c main_v0) (funext fun z => Fin.ext ?_)
  match z with
  | ⟨0, _⟩ => show win0_6.index t (0 : Fin 2) * 1 + 1 * a.val = a.val; rw [q0]; omega
  | ⟨1, _⟩ => show win0_6.index t (1 : Fin 2) * 128 + 1 * b.val = b.val; rw [q1]; omega

/-- The Laplacian window's block at point `t` is tile `(t / 4, t % 4)`: its entry `(r, c')` is the array's entry at
    row `n` of row block `t / 4` and column `row4 J c'` of run `J = t % 4`. -/
theorem blk1_at (t : Fin cfg0.N) (r c' : Fin 512) (n : Fin 2048) (J : Fin 4)
    (hn : n.val = 512 * (t.val / 4) + r.val) (hJ : J.val = t.val % 4) :
    iblk V c 1 t (ix2 r c') = V c main_arg1 (ix2 n (row4 J c')) := by
  obtain ⟨-, ⟨q0, q1⟩, -⟩ := idx_in t
  show V c main_arg1 (((cfg0.win 1).blk t).view.emb (ix2 r c')) = V c main_arg1 (ix2 n (row4 J c'))
  refine congrArg (V c main_arg1) (funext fun z => Fin.ext ?_)
  match z with
  | ⟨0, _⟩ => show win0_1.index t (0 : Fin 2) * 512 + 1 * r.val = n.val; rw [q0]; omega
  | ⟨1, _⟩ => show win0_1.index t (1 : Fin 2) * 512 + 1 * c'.val = 512 * J.val + c'.val; rw [q1]; omega

end Blocks

end Cert.KernelIdeal.NodeBridge

end
-- ==== Proof.KI.NodeBridgeChain.lean ====
/-
  The node region's result array, for any contents `V` of the buffers at the region's entry, is the specification's
  node update of those contents.

  Along row block `I` of the grid the scratch holds, from the row's first point on, the block's incidence rows scaled
  by the edge scores; the output block is set at the first point to features plus bias plus run 0's contribution and
  has run `J`'s contribution added at point `J` of the row. After the row's last point the block is the
  specification's entries for the block's rows, by the assembly identity over the four runs.
-/
import proofs.«151053_g24051816857981_cont_8to1_1327_4_alg».proof.Proof.KI.NodeBridgeGrid

set_option maxRecDepth 16384

noncomputable section

open scoped BigOperators

namespace Cert.KernelIdeal.NodeBridge

open Cert.KernelIdeal Cert.KernelIdeal.Gen Cert.KernelIdeal.Node Cert.BridgeAlg Idealize.ShloMosaic Idealize.ShloMosaic.TcCoe
  Idealize.ShloMosaic.ValueIdx

/-! ## One grid point, over arbitrary blocks -/

/-- The scratch a row's first point builds: row `r` is row `n` of the incidence array scaled by the edge scores. -/
theorem scrA_at (i : grid0.Coords) (h1 : k0_cond1 i = 1#1) (x0 : Vec Ideal S2048x4096 .bf16) (x4 : Vec Ideal S4096x16 .f32)
    (x5 : Vec Ideal S16x1 .f32) (r : Fin 512) (k : Fin 4096) (n : Fin 2048)
    (o1 : k0_off1 i (0 : Fin 2) + r.val = n.val) (o11 : k0_off1 i (1 : Fin 2) = 0) :
    scrA (F := Ideal) i h1 x0 x4 x5 (ix2 r k)
      = x0 (ix2 n k) * (∑ dd : Fin 16, x5 (ix2 dd (0 : Fin 1)) * x4 (ix2 k dd)) := by
  unfold scrA
  rw [Cert.KernelIdeal.PayNode.pay1_at, ld_rInc1 x0 i h1 r k n o1 o11]

/-- A point's contribution from the scratch `s`, the run's rows of the incidence and feature arrays, and the Laplacian
    tile `x1`, is the run's contribution of the assembly identity. -/
theorem contrib_at (i : grid0.Coords) (x0 : Vec Ideal S2048x4096 .bf16) (x1 : Vec Ideal S512x512 .f32)
    (x2 : Vec Ideal S2048x128 .f32) (x3 : Vec Ideal S128x128 .f32) (x4 : Vec Ideal S4096x16 .f32) (x5 : Vec Ideal S16x1 .f32)
    (s : Vec Ideal S512x4096 .bf16) (Lv : FVec Ideal (⟨2, ![2048, 2048]⟩ : Shape) .f32)
    (n : Fin 2048) (r : Fin 512) (d : Fin 128) (J : Fin 4)
    (o2 : k0_off2 i (0 : Fin 2) = 512 * J.val) (o21 : k0_off2 i (1 : Fin 2) = 0)
    (o3 : k0_off3 i (0 : Fin 2) = 512 * J.val) (o31 : k0_off3 i (1 : Fin 2) = 0)
    (hs : ∀ k : Fin 4096, s (ix2 r k) = x0 (ix2 n k) * (∑ dd : Fin 16, x5 (ix2 dd (0 : Fin 1)) * x4 (ix2 k dd)))
    (h1 : ∀ c' : Fin 512, x1 (ix2 r c') = Lv (ix2 n (row4 J c'))) :
    k0_pay2 (F := Ideal) (View.ld (Val := Elt Ideal) x0 (rInc2 i)) s x1 (View.ld (Val := Elt Ideal) x2 (rX3 i)) x3 (ix2 r d)
      = nodeBlock x2 Lv x0 x4 x3 x5 n d J :=
  Cert.BridgeBlocks.pay2_eq_nodeBlock _ _ _ _ _ x2 Lv x0 x4 x3 x5 n r d J hs
    (fun c' k => ld_rInc2 x0 i c' k (row4 J c') (by rw [o2]; rfl) o21)
    h1
    (fun c' q => ld_rX3 x2 i c' q (row4 J c') (by rw [o3]; rfl) o31)
    (fun q => rfl)

/-- The output block after a row's first point. -/
theorem outA_at (i : grid0.Coords) (h1 : k0_cond1 i = 1#1) (h2 : k0_cond2 i = 1#1) (x0 : Vec Ideal S2048x4096 .bf16)
    (x1 : Vec Ideal S512x512 .f32) (x2 : Vec Ideal S2048x128 .f32) (x3 : Vec Ideal S128x128 .f32) (x4 : Vec Ideal S4096x16 .f32)
    (x5 : Vec Ideal S16x1 .f32) (x6 : Vec Ideal S1x128 .f32) (Lv : FVec Ideal (⟨2, ![2048, 2048]⟩ : Shape) .f32)
    (n : Fin 2048) (r : Fin 512) (d : Fin 128) (J : Fin 4)
    (o1 : k0_off1 i (0 : Fin 2) + r.val = n.val) (o11 : k0_off1 i (1 : Fin 2) = 0)
    (o2 : k0_off2 i (0 : Fin 2) = 512 * J.val) (o21 : k0_off2 i (1 : Fin 2) = 0)
    (o3 : k0_off3 i (0 : Fin 2) = 512 * J.val) (o31 : k0_off3 i (1 : Fin 2) = 0)
    (o4 : k0_off4 i (0 : Fin 2) + r.val = n.val) (o41 : k0_off4 i (1 : Fin 2) = 0)
    (hL : ∀ c' : Fin 512, x1 (ix2 r c') = Lv (ix2 n (row4 J c'))) :
    outA (F := Ideal) i h1 h2 x0 x1 x2 x3 x4 x5 x6 (ix2 r d)
      = (x2 (ix2 n d) + x6 (ix2 (0 : Fin 1) d)) + nodeBlock x2 Lv x0 x4 x3 x5 n d J := by
  unfold outA
  rw [Cert.KernelIdeal.PayNode.pay3_at, ld_rX4 x2 i h2 r d n o4 o41,
    contrib_at i x0 x1 x2 x3 x4 x5 _ Lv n r d J o2 o21 o3 o31 (fun k => scrA_at i h1 x0 x4 x5 r k n o1 o11) hL]

/-- The output block after a later point of a row, from what it held (`y`) and the scratch (`s`). -/
theorem outB_at (i : grid0.Coords) (x0 : Vec Ideal S2048x4096 .bf16) (x1 : Vec Ideal S512x512 .f32)
    (x2 : Vec Ideal S2048x128 .f32) (x3 : Vec Ideal S128x128 .f32) (x4 : Vec Ideal S4096x16 .f32) (x5 : Vec Ideal S16x1 .f32)
    (y : Vec Ideal S512x128 .f32) (s : Vec Ideal S512x4096 .bf16) (Lv : FVec Ideal (⟨2, ![2048, 2048]⟩ : Shape) .f32)
    (n : Fin 2048) (r : Fin 512) (d : Fin 128) (J : Fin 4)
    (o2 : k0_off2 i (0 : Fin 2) = 512 * J.val) (o21 : k0_off2 i (1 : Fin 2) = 0)
    (o3 : k0_off3 i (0 : Fin 2) = 512 * J.val) (o31 : k0_off3 i (1 : Fin 2) = 0)
    (hs : ∀ k : Fin 4096, s (ix2 r k) = x0 (ix2 n k) * (∑ dd : Fin 16, x5 (ix2 dd (0 : Fin 1)) * x4 (ix2 k dd)))
    (hL : ∀ c' : Fin 512, x1 (ix2 r c') = Lv (ix2 n (row4 J c'))) :
    outB (F := Ideal) i x0 x1 x2 x3 y s (ix2 r d) = y (ix2 r d) + nodeBlock x2 Lv x0 x4 x3 x5 n d J := by
  unfold outB
  rw [Cert.KernelIdeal.PayNode.pay4_at, contrib_at i x0 x1 x2 x3 x4 x5 s Lv n r d J o2 o21 o3 o31 hs hL]

/-! ## Along the grid, for any entry contents -/

section Grid

variable (V : (c : Dev nD) → (b : Ref sig .tc) → Buf (Elt Ideal) ((c : Thread nD τ).loc b)) (c : Dev nD)

/-- The region's input arrays at entry, read as arrays of extended reals: node features, node Laplacian, incidence,
    edge features, node feature map, the node attention column, and the bias as a row. -/
abbrev aX : FVec Ideal (⟨2, ![2048, 128]⟩ : Shape) .f32 := V c main_arg0
abbrev aLv : FVec Ideal (⟨2, ![2048, 2048]⟩ : Shape) .f32 := V c main_arg1
abbrev aInc : FVec Ideal (⟨2, ![2048, 4096]⟩ : Shape) .f32 := V c main_v2
abbrev aE : FVec Ideal (⟨2, ![4096, 16]⟩ : Shape) .f32 := V c main_arg4
abbrev aWn : FVec Ideal (⟨2, ![128, 128]⟩ : Shape) .f32 := V c main_arg5
abbrev aPn : FVec Ideal (⟨2, ![16, 1]⟩ : Shape) .f32 := V c main_arg7
abbrev aB1 : FVec Ideal (⟨2, ![1, 128]⟩ : Shape) .f32 := V c main_v0

/-! The whole-array windows' blocks are the arrays. -/

theorem blk0_eq (t : Fin cfg0.N) : (iblk V c 0 t : Vec Ideal S2048x4096 .bf16) = V c main_v2 := funext fun j => by
  obtain ⟨a, b, rfl⟩ : ∃ (a : Fin 2048) (b : Fin 4096), j = ix2 a b := ⟨j 0, j 1, eq_ix2 j⟩
  exact blk0_at V c t a b

theorem blk2_eq (t : Fin cfg0.N) : (iblk V c 2 t : Vec Ideal S2048x128 .f32) = V c main_arg0 := funext fun j => by
  obtain ⟨a, b, rfl⟩ : ∃ (a : Fin 2048) (b : Fin 128), j = ix2 a b := ⟨j 0, j 1, eq_ix2 j⟩
  exact blk2_at V c t a b

theorem blk3_eq (t : Fin cfg0.N) : (iblk V c 3 t : Vec Ideal S128x128 .f32) = V c main_arg5 := funext fun j => by
  obtain ⟨a, b, rfl⟩ : ∃ (a : Fin 128) (b : Fin 128), j = ix2 a b := ⟨j 0, j 1, eq_ix2 j⟩
  exact blk3_at V c t a b

theorem blk4_eq (t : Fin cfg0.N) : (iblk V c 4 t : Vec Ideal S4096x16 .f32) = V c main_arg4 := funext fun j => by
  obtain ⟨a, b, rfl⟩ : ∃ (a : Fin 4096) (b : Fin 16), j = ix2 a b := ⟨j 0, j 1, eq_ix2 j⟩
  exact blk4_at V c t a b

theorem blk5_eq (t : Fin cfg0.N) : (iblk V c 5 t : Vec Ideal S16x1 .f32) = V c main_arg7 := funext fun j => by
  obtain ⟨a, b, rfl⟩ : ∃ (a : Fin 16) (b : Fin 1), j = ix2 a b := ⟨j 0, j 1, eq_ix2 j⟩
  exact blk5_at V c t a b

theorem blk6_eq (t : Fin cfg0.N) : (iblk V c 6 t : Vec Ideal S1x128 .f32) = V c main_v0 := funext fun j => by
  obtain ⟨a, b, rfl⟩ : ∃ (a : Fin 1) (b : Fin 128), j = ix2 a b := ⟨j 0, j 1, eq_ix2 j⟩
  exact blk6_at V c t a b

/-- The scratch after point `m`, at row `r` of the block: row `n` of row block `m / 4` of the incidence array, scaled
    by the edge scores. It is built at the row's first point and kept along the row. -/
theorem scrAt_at (m : ℕ) : ∀ (h : m < cfg0.N) (r : Fin 512) (k : Fin 4096) (n : Fin 2048), n.val = 512 * (m / 4) + r.val →
    scrAt V c m h (ix2 r k)
      = aInc V c (ix2 n k) * (∑ dd : Fin 16, aPn V c (ix2 dd (0 : Fin 1)) * aE V c (ix2 k dd)) := by
  induction m using Nat.strong_induction_on with
  | _ m ih =>
    intro h r k n hn
    obtain ⟨⟨o1, o11⟩, -⟩ := offs ⟨m, h⟩
    have o1' : k0_off1 (grid0.coords ⟨m, h⟩) (0 : Fin 2) = 512 * (m / 4) := o1
    by_cases h0 : m % 4 = 0
    · rw [scrAt_start V c ⟨m, h⟩ h0, blk0_eq, blk4_eq, blk5_eq]
      exact scrA_at _ _ _ _ _ r k n (by rw [o1']; exact hn.symm) o11
    · rw [scrAt_keep V c ⟨m, h⟩ h0]
      exact ih (m - 1) (by omega) _ r k n (by omega)

/-- The output block after a row's first point. -/
theorem outAt_first (t : Fin cfg0.N) (h0 : t.val % 4 = 0) (r : Fin 512) (d : Fin 128) (n : Fin 2048)
    (hn : n.val = 512 * (t.val / 4) + r.val) :
    outAt V c t.val t.isLt (ix2 r d)
      = (aX V c (ix2 n d) + aB1 V c (ix2 (0 : Fin 1) d)) + nodeBlock (aX V c) (aLv V c) (aInc V c) (aE V c) (aWn V c) (aPn V c) n d 0 := by
  obtain ⟨⟨o1, o11⟩, ⟨o2, o21⟩, ⟨o3, o31⟩, ⟨o4, o41⟩⟩ := offs t
  rw [outAt_start V c t h0 (iblk V c 7 t)]
  unfold outStep
  rw [dif_pos h0, blk0_eq, blk2_eq, blk3_eq, blk4_eq, blk5_eq, blk6_eq]
  exact outA_at _ _ _ _ _ _ _ _ _ _ (V c main_arg1) n r d 0 (by rw [o1]; exact hn.symm) o11 (by rw [o2, h0]; rfl) o21
    (by rw [o3, h0]; rfl) o31 (by rw [o4]; exact hn.symm) o41 (fun c' => blk1_at V c t r c' n 0 hn (by rw [h0]; rfl))

/-- The output block after a later point of a row: what it held, plus the run's contribution. -/
theorem outAt_next (t : Fin cfg0.N) (h0 : ¬ t.val % 4 = 0) (r : Fin 512) (d : Fin 128) (n : Fin 2048) (J : Fin 4)
    (hn : n.val = 512 * (t.val / 4) + r.val) (hJ : J.val = t.val % 4) :
    outAt V c t.val t.isLt (ix2 r d)
      = outAt V c (t.val - 1) (Nat.lt_of_le_of_lt (Nat.sub_le _ _) t.isLt) (ix2 r d) + nodeBlock (aX V c) (aLv V c) (aInc V c) (aE V c) (aWn V c) (aPn V c) n d J := by
  obtain ⟨-, ⟨o2, o21⟩, ⟨o3, o31⟩, -⟩ := offs t
  rw [outAt_succ V c t (fun e => h0 (by rw [e]))]
  unfold outStep
  rw [dif_neg h0, blk0_eq, blk2_eq, blk3_eq]
  exact outB_at _ _ _ _ _ (V c main_arg4) (V c main_arg7) _ _ (V c main_arg1) n r d J (by rw [o2, hJ]) o21 (by rw [o3, hJ]) o31
    (fun k => scrAt_at V c t.val t.isLt r k n hn) (fun c' => blk1_at V c t r c' n J hn hJ)

end Grid

section Row

variable (V : (c : Dev nD) → (b : Ref sig .tc) → Buf (Elt Ideal) ((c : Thread nD τ).loc b)) (c : Dev nD)

/-- The output block after the last point of row block `I`: features plus bias, then the four runs' contributions in
    order. -/
theorem outAt_row (I : ℕ) (hI : I < 4) (r : Fin 512) (d : Fin 128) (n : Fin 2048) (hn : n.val = 512 * I + r.val)
    (h3 : 4 * I + 3 < cfg0.N) :
    outAt V c (4 * I + 3) h3 (ix2 r d)
      = ((((aX V c (ix2 n d) + aB1 V c (ix2 (0 : Fin 1) d)) + nodeBlock (aX V c) (aLv V c) (aInc V c) (aE V c) (aWn V c) (aPn V c) n d 0) + nodeBlock (aX V c) (aLv V c) (aInc V c) (aE V c) (aWn V c) (aPn V c) n d 1) + nodeBlock (aX V c) (aLv V c) (aInc V c) (aE V c) (aWn V c) (aPn V c) n d 2) + nodeBlock (aX V c) (aLv V c) (aInc V c) (aE V c) (aWn V c) (aPn V c) n d 3 := by
  have hN : cfg0.N = 16 := N_0
  have h2 : 4 * I + 2 < cfg0.N := by omega
  have h1 : 4 * I + 1 < cfg0.N := by omega
  have h0 : 4 * I < cfg0.N := by omega
  have e3 := outAt_next V c ⟨4 * I + 3, h3⟩ (by show ¬ (4 * I + 3) % 4 = 0; omega) r d n 3
    (by show n.val = 512 * ((4 * I + 3) / 4) + r.val; omega) (by show (3 : ℕ) = (4 * I + 3) % 4; omega)
  have e2 := outAt_next V c ⟨4 * I + 2, h2⟩ (by show ¬ (4 * I + 2) % 4 = 0; omega) r d n 2
    (by show n.val = 512 * ((4 * I + 2) / 4) + r.val; omega) (by show (2 : ℕ) = (4 * I + 2) % 4; omega)
  have e1 := outAt_next V c ⟨4 * I + 1, h1⟩ (by show ¬ (4 * I + 1) % 4 = 0; omega) r d n 1
    (by show n.val = 512 * ((4 * I + 1) / 4) + r.val; omega) (by show (1 : ℕ) = (4 * I + 1) % 4; omega)
  have e0 := outAt_first V c ⟨4 * I, h0⟩ (by show (4 * I) % 4 = 0; omega) r d n
    (by show n.val = 512 * ((4 * I) / 4) + r.val; omega)
  rw [show outAt V c (4 * I + 3) h3 (ix2 r d) = _ from e3,
    outAt_apply_congr V c (show 4 * I + 3 - 1 = 4 * I + 2 by omega) _ h2 (rfl : ix2 r d = ix2 r d),
    show outAt V c (4 * I + 2) h2 (ix2 r d) = _ from e2,
    outAt_apply_congr V c (show 4 * I + 2 - 1 = 4 * I + 1 by omega) _ h1 (rfl : ix2 r d = ix2 r d),
    show outAt V c (4 * I + 1) h1 (ix2 r d) = _ from e1,
    outAt_apply_congr V c (show 4 * I + 1 - 1 = 4 * I by omega) _ h0 (rfl : ix2 r d = ix2 r d),
    show outAt V c (4 * I) h0 (ix2 r d) = _ from e0]

/-- THE RESULT ARRAY of the node region, for any entry contents whose bias row reads the bias vector `bN`, is the
    specification's node update of the entry contents. -/
theorem outArr_eq_nodes (bN : FVec Ideal (⟨1, ![128]⟩ : Shape) .f32)
    (hb : ∀ d : Fin 128, aB1 V c (ix2 (0 : Fin 1) d) = bN (ix1 d)) :
    outArr V c = Cert.Spec.nodes (aX V c) (aLv V c) (aInc V c) (aE V c) (aWn V c) (aPn V c) bN := by
  funext idx
  obtain ⟨n, d, rfl⟩ : ∃ (n : Fin 2048) (d : Fin 128), idx = ix2 n d := ⟨idx 0, idx 1, eq_ix2 idx⟩
  have hn : n.val < 2048 := n.isLt
  rw [Cert.Spec.nodes_ix2, ← nodes_assemble (aX V c) (aLv V c) (aInc V c) (aE V c) (aWn V c) (aPn V c) bN (aB1 V c) hb n d]
  exact outAt_row V c (n.val / 512) (by omega) ⟨n.val % 512, Nat.mod_lt _ (by decide)⟩ d n
    (by show n.val = 512 * (n.val / 512) + n.val % 512; omega) _

end Row

end Cert.KernelIdeal.NodeBridge

end
-- ==== Proof.KI.NodeBridgeEntry.lean ====
/-
  What the node region finds in its arrays: the host operations before it write only the reshaped biases and the
  incidence array in the narrower float format, so every argument array is as launched; at the ideal instance the
  change of format is the identity, and the bias as a row [1,128] reads the bias vector.
-/
import proofs.«151053_g24051816857981_cont_8to1_1327_4_alg».proof.Proof.Gen.KernelIdeal.Regions
import proofs.«151053_g24051816857981_cont_8to1_1327_4_alg».proof.Proof.KI.NodeBridgeChain

set_option maxRecDepth 16384

noncomputable section

open scoped BigOperators

namespace Cert.KernelIdeal.NodeBridge

open Cert.KernelIdeal Cert.KernelIdeal.Gen Cert.KernelIdeal.Node Cert.BridgeAlg Idealize.ShloMosaic Idealize.ShloMosaic.TcCoe
  Idealize.ShloMosaic.ValueIdx

open Idealize.ShloMosaic.StableHlo

section Entry

variable (m : (ℓ : Loc nD τ sig) → Buf (Elt Ideal) ℓ) (c : Dev nD)

/-- The buffers after the host operations, per core and reference. -/
abbrev E1 : (c : Dev nD) → (b : Ref sig .tc) → Buf (Elt Ideal) ((c : Thread nD τ).loc b) := fun c b => Gen.V1 m c b

/-- A buffer the host operations do not write is as launched. -/
theorem E1_kept (r : Ref sig .tc) (h : r ∉ Gen.hostOps0_W) : E1 m c r = m ((c.tc : Thread nD τ).loc r) :=
  Gen.V1_of m c r h

/-- The incidence array in the narrower format is, at the ideal instance, the incidence array. -/
theorem E1_inc : (E1 m c main_v2 : FVec Ideal (⟨2, ![2048, 4096]⟩ : Shape) .f32) = m ((c.tc : Thread nD τ).loc main_arg3) := by
  show StableHlo.after (Gen.hostOps0 (F := Ideal)) (fun b => m (c, b)) (Proc.devRef .tc main_v2) = _
  after_results
  rfl

/-- The bias as a row reads the bias vector. -/
theorem E1_bias (d : Fin 128) :
    (E1 m c main_v0 : FVec Ideal (⟨2, ![1, 128]⟩ : Shape) .f32) (ix2 (0 : Fin 1) d)
      = (m ((c.tc : Thread nD τ).loc main_arg9) : FVec Ideal (⟨1, ![128]⟩ : Shape) .f32) (ix1 d) := by
  have e : (E1 m c main_v0 : FVec Ideal (⟨2, ![1, 128]⟩ : Shape) .f32)
      = shapeCast S1x128 (m ((c.tc : Thread nD τ).loc main_arg9) : FVec Ideal S128 .f32) shapeCasts_S128_S1x128 := by
    show StableHlo.after (Gen.hostOps0 (F := Ideal)) (fun b => m (c, b)) (Proc.devRef .tc main_v0) = _
    after_results
    rfl
  rw [e]
  exact shapeCast_apply _ shapeCasts_S128_S1x128 (ix2 (0 : Fin 1) d) (ix1 d)
    (by rewrite [Shape.rowMajor_val_one, Shape.rowMajor_val_two]; show d.val = 0 * 128 + d.val; omega)

end Entry

end Cert.KernelIdeal.NodeBridge

end
-- ==== Proof.KI.NodeBridge.lean ====
/-
  The node region's result array, from the launch contents: the specification's node update of the argument arrays.
-/
import proofs.«151053_g24051816857981_cont_8to1_1327_4_alg».proof.Proof.KI.Run
import proofs.«151053_g24051816857981_cont_8to1_1327_4_alg».proof.Proof.KI.NodeBridgeEntry

set_option maxRecDepth 16384

noncomputable section

open scoped BigOperators

namespace Cert.KernelIdeal.NodeBridge

open Cert.KernelIdeal Cert.KernelIdeal.Gen Cert.KernelIdeal.Node Cert.BridgeAlg Idealize.ShloMosaic Idealize.ShloMosaic.TcCoe
  Idealize.ShloMosaic.ValueIdx

/-- THE NODE RESULT: after the node region the result array holds `Cert.Spec.nodes` of the launch contents of the
    argument arrays (node features, node Laplacian, incidence, edge features, node feature map, node attention column,
    node bias). -/
theorem outArr_eq (m : (ℓ : Loc nD τ sig) → Buf (Elt Ideal) ℓ) (c : Dev nD) :
    Cert.KernelIdeal.Node.outArr (Cert.KernelIdeal.Run.V1 m) c
      = Cert.Spec.nodes (m ((c.tc : Thread nD τ).loc main_arg0)) (m ((c.tc : Thread nD τ).loc main_arg1)) (m ((c.tc : Thread nD τ).loc main_arg3)) (m ((c.tc : Thread nD τ).loc main_arg4))
          (m ((c.tc : Thread nD τ).loc main_arg5)) (m ((c.tc : Thread nD τ).loc main_arg7)) (m ((c.tc : Thread nD τ).loc main_arg9)) := by
  have h := outArr_eq_nodes (E1 m) c (m ((c.tc : Thread nD τ).loc main_arg9)) (fun d => E1_bias m c d)
  rw [show aX (E1 m) c = (m ((c.tc : Thread nD τ).loc main_arg0)) from E1_kept m c main_arg0 (by decide),
    show aLv (E1 m) c = (m ((c.tc : Thread nD τ).loc main_arg1)) from E1_kept m c main_arg1 (by decide),
    show aInc (E1 m) c = (m ((c.tc : Thread nD τ).loc main_arg3)) from E1_inc m c,
    show aE (E1 m) c = (m ((c.tc : Thread nD τ).loc main_arg4)) from E1_kept m c main_arg4 (by decide),
    show aWn (E1 m) c = (m ((c.tc : Thread nD τ).loc main_arg5)) from E1_kept m c main_arg5 (by decide),
    show aPn (E1 m) c = (m ((c.tc : Thread nD τ).loc main_arg7)) from E1_kept m c main_arg7 (by decide)] at h
  exact h

end Cert.KernelIdeal.NodeBridge

end
-- ==== Proof.KI.EdgeBridgeGrid.lean ====
/-
  The edge kernel's grid, point by point: point t of the sixty-four is row block t % 8 against run t / 8.
  The windows' block indices and the body's load offsets are decided once over the grid; from them, what each
  window's block and each load of the body reads of the whole arrays, entry by entry.
-/
import proofs.«151053_g24051816857981_cont_8to1_1327_4_alg».proof.Proof.KI.EdgeData
import proofs.«151053_g24051816857981_cont_8to1_1327_4_alg».proof.Proof.BridgeBlocks

set_option maxRecDepth 16384

noncomputable section

open scoped BigOperators

namespace Cert.KernelIdeal.EdgeBridge

open Cert.KernelIdeal Cert.KernelIdeal.Gen Cert.KernelIdeal.Edge Cert.BridgeAlg Idealize.ShloMosaic Idealize.ShloMosaic.TcCoe
  Idealize.ShloMosaic.ValueIdx

/-! ## Decided over the grid -/

/-- The whole-array windows sit at block (0, 0) at every point; the Laplacian window at tile (t % 8, t / 8). -/
theorem idx_in : ∀ t : Fin cfg1.N,
    (win1_0.index t (0 : Fin 2) = 0 ∧ win1_0.index t (1 : Fin 2) = 0)
    ∧ (win1_1.index t (0 : Fin 2) = t.val % 8 ∧ win1_1.index t (1 : Fin 2) = t.val / 8)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0) :=
  (by decide +kernel : ∀ t : Fin grid1.N, _)

/-- The body's first three load offsets: columns of run t / 8 (the scaled columns), columns of row block t % 8
    (the other incidence columns), rows of run t / 8 (the mapped features). -/
theorem offs : ∀ t : Fin cfg1.N,
    (k1_off1 (grid1.coords t) (0 : Fin 2) = 0 ∧ k1_off1 (grid1.coords t) (1 : Fin 2) = 512 * (t.val / 8))
    ∧ (k1_off2 (grid1.coords t) (0 : Fin 2) = 0 ∧ k1_off2 (grid1.coords t) (1 : Fin 2) = 512 * (t.val % 8))
    ∧ (k1_off3 (grid1.coords t) (0 : Fin 2) = 512 * (t.val / 8) ∧ k1_off3 (grid1.coords t) (1 : Fin 2) = 0) :=
  (by decide +kernel : ∀ t : Fin grid1.N, _)

/-! ## The body's loads, entry by entry -/

/-- The columns the scaled-columns scratch is built from: column c' of the loaded block is column k of the incidence array. -/
theorem ld_rInc1 (x : Vec Ideal S2048x4096 .bf16) (i : grid1.Coords) (h : k1_cond1 i = 1#1) (n : Fin 2048) (c' : Fin 512) (k : Fin 4096)
    (h0 : k1_off1 i (0 : Fin 2) = 0) (h1 : k1_off1 i (1 : Fin 2) + c'.val = k.val) :
    View.ld (Val := Elt Ideal) x (rInc1 i h) (ix2 n c') = x (ix2 n k) :=
  congrArg x (funext fun a => Fin.ext (by
    match a with
    | ⟨0, _⟩ => show k1_off1 i (0 : Fin 2) + 1 * n.val = n.val; omega
    | ⟨1, _⟩ => show k1_off1 i (1 : Fin 2) + 1 * c'.val = k.val; omega))

/-- The row block's incidence columns: column r of the loaded block is column k of the incidence array. -/
theorem ld_rInc2 (x : Vec Ideal S2048x4096 .bf16) (i : grid1.Coords) (n : Fin 2048) (r : Fin 512) (k : Fin 4096)
    (h0 : k1_off2 i (0 : Fin 2) = 0) (h1 : k1_off2 i (1 : Fin 2) + r.val = k.val) :
    View.ld (Val := Elt Ideal) x (rInc2 i) (ix2 n r) = x (ix2 n k) :=
  congrArg x (funext fun a => Fin.ext (by
    match a with
    | ⟨0, _⟩ => show k1_off2 i (0 : Fin 2) + 1 * n.val = n.val; omega
    | ⟨1, _⟩ => show k1_off2 i (1 : Fin 2) + 1 * r.val = k.val; omega))

/-- The run's edge features: row c' of the loaded block is row b of the feature array. -/
theorem ld_rE3 (x : Vec Ideal S4096x16 .f32) (i : grid1.Coords) (c' : Fin 512) (q : Fin 16) (b : Fin 4096)
    (h0 : k1_off3 i (0 : Fin 2) + c'.val = b.val) (h1 : k1_off3 i (1 : Fin 2) = 0) :
    View.ld (Val := Elt Ideal) x (rE3 i) (ix2 c' q) = x (ix2 b q) :=
  congrArg x (funext fun a => Fin.ext (by
    match a with
    | ⟨0, _⟩ => show k1_off3 i (0 : Fin 2) + 1 * c'.val = b.val; omega
    | ⟨1, _⟩ => show k1_off3 i (1 : Fin 2) + 1 * q.val = q.val; omega))

/-- A row block of a buffer of 4096 rows: row r of block ρ is row a of the buffer. -/
theorem ld_rows (x : Vec Ideal S4096x16 .f32) (ρ : Fin 8) (r : Fin 512) (d : Fin 16) (a : Fin 4096)
    (ha : a.val = 512 * ρ.val + r.val) :
    View.ld (Val := Elt Ideal) x (rows ρ) (ix2 r d) = x (ix2 a d) :=
  congrArg x (funext fun z => Fin.ext (by
    match z with
    | ⟨0, _⟩ => show 512 * ρ.val + 1 * r.val = a.val; omega
    | ⟨1, _⟩ => show 0 + 1 * d.val = d.val; omega))

/-! ## The windows' blocks, entry by entry -/

section Blocks

variable (V : (c : Dev nD) → (b : Ref sig .tc) → Buf (Elt Ideal) ((c : Thread nD τ).loc b)) (c : Dev nD)

theorem blk0_at (t : Fin cfg1.N) (a : Fin 2048) (b : Fin 4096) : iblk V c 0 t (ix2 a b) = V c main_v2 (ix2 a b) := by
  obtain ⟨⟨q0, q1⟩, -, -, -, -, -, -⟩ := idx_in t
  show V c main_v2 (((cfg1.win 0).blk t).view.emb (ix2 a b)) = V c main_v2 (ix2 a b)
  refine congrArg (V c main_v2) (funext fun z => Fin.ext ?_)
  match z with
  | ⟨0, _⟩ => show win1_0.index t (0 : Fin 2) * 2048 + 1 * a.val = a.val; rw [q0]; omega
  | ⟨1, _⟩ => show win1_0.index t (1 : Fin 2) * 4096 + 1 * b.val = b.val; rw [q1]; omega

theorem blk2_at (t : Fin cfg1.N) (a : Fin 2048) (b : Fin 128) : iblk V c 2 t (ix2 a b) = V c main_arg0 (ix2 a b) := by
  obtain ⟨-, -, ⟨q0, q1⟩, -, -, -, -⟩ := idx_in t
  show V c main_arg0 (((cfg1.win 2).blk t).view.emb (ix2 a b)) = V c main_arg0 (ix2 a b)
  refine congrArg (V c main_arg0) (funext fun z => Fin.ext ?_)
  match z with
  | ⟨0, _⟩ => show win1_2.index t (0 : Fin 2) * 2048 + 1 * a.val = a.val; rw [q0]; omega
  | ⟨1, _⟩ => show win1_2.index t (1 : Fin 2) * 128 + 1 * b.val = b.val; rw [q1]; omega

theorem blk3_at (t : Fin cfg1.N) (a : Fin 128) (b : Fin 1) : iblk V c 3 t (ix2 a b) = V c main_arg8 (ix2 a b) := by
  obtain ⟨-, -, -, ⟨q0, q1⟩, -, -, -⟩ := idx_in t
  show V c main_arg8 (((cfg1.win 3).blk t).view.emb (ix2 a b)) = V c main_arg8 (ix2 a b)
  refine congrArg (V c main_arg8) (funext fun z => Fin.ext ?_)
  match z with
  | ⟨0, _⟩ => show win1_3.index t (0 : Fin 2) * 128 + 1 * a.val = a.val; rw [q0]; omega
  | ⟨1, _⟩ => show win1_3.index t (1 : Fin 2) * 1 + 1 * b.val = b.val; rw [q1]; omega

theorem blk4_at (t : Fin cfg1.N) (a : Fin 4096) (b : Fin 16) : iblk V c 4 t (ix2 a b) = V c main_arg4 (ix2 a b) := by
  obtain ⟨-, -, -, -, ⟨q0, q1⟩, -, -⟩ := idx_in t
  show V c main_arg4 (((cfg1.win 4).blk t).view.emb (ix2 a b)) = V c main_arg4 (ix2 a b)
  refine congrArg (V c main_arg4) (funext fun z => Fin.ext ?_)
  match z with
  | ⟨0, _⟩ => show win1_4.index t (0 : Fin 2) * 4096 + 1 * a.val = a.val; rw [q0]; omega
  | ⟨1, _⟩ => show win1_4.index t (1 : Fin 2) * 16 + 1 * b.val = b.val; rw [q1]; omega

theorem blk5_at (t : Fin cfg1.N) (a : Fin 16) (b : Fin 16) : iblk V c 5 t (ix2 a b) = V c main_arg6 (ix2 a b) := by
  obtain ⟨-, -, -, -, -, ⟨q0, q1⟩, -⟩ := idx_in t
  show V c main_arg6 (((cfg1.win 5).blk t).view.emb (ix2 a b)) = V c main_arg6 (ix2 a b)
  refine congrArg (V c main_arg6) (funext fun z => Fin.ext ?_)
  match z with
  | ⟨0, _⟩ => show win1_5.index t (0 : Fin 2) * 16 + 1 * a.val = a.val; rw [q0]; omega
  | ⟨1, _⟩ => show win1_5.index t (1 : Fin 2) * 16 + 1 * b.val = b.val; rw [q1]; omega

theorem blk6_at (t : Fin cfg1.N) (a : Fin 1) (b : Fin 16) : iblk V c 6 t (ix2 a b) = V c main_v1 (ix2 a b) := by
  obtain ⟨-, -, -, -, -, -, ⟨q0, q1⟩⟩ := idx_in t
  show V c main_v1 (((cfg1.win 6).blk t).view.emb (ix2 a b)) = V c main_v1 (ix2 a b)
  refine congrArg (V c main_v1) (funext fun z => Fin.ext ?_)
  match z with
  | ⟨0, _⟩ => show win1_6.index t (0 : Fin 2) * 1 + 1 * a.val = a.val; rw [q0]; omega
  | ⟨1, _⟩ => show win1_6.index t (1 : Fin 2) * 16 + 1 * b.val = b.val; rw [q1]; omega

/-- The Laplacian window's block at point t is tile (t % 8, t / 8): its entry (r, c') is the array's entry at
    row a of row block t % 8 and column row8 J c' of run J = t / 8. -/
theorem blk1_at (t : Fin cfg1.N) (r c' : Fin 512) (a : Fin 4096) (J : Fin 8)
    (ha : a.val = 512 * (t.val % 8) + r.val) (hJ : J.val = t.val / 8) :
    iblk V c 1 t (ix2 r c') = V c main_arg2 (ix2 a (row8 J c')) := by
  obtain ⟨-, ⟨q0, q1⟩, -⟩ := idx_in t
  show V c main_arg2 (((cfg1.win 1).blk t).view.emb (ix2 r c')) = V c main_arg2 (ix2 a (row8 J c'))
  refine congrArg (V c main_arg2) (funext fun z => Fin.ext ?_)
  match z with
  | ⟨0, _⟩ => show win1_1.index t (0 : Fin 2) * 512 + 1 * r.val = a.val; rw [q0]; omega
  | ⟨1, _⟩ => show win1_1.index t (1 : Fin 2) * 512 + 1 * c'.val = 512 * J.val + c'.val; rw [q1]; omega

/-! The whole-array windows' blocks are the arrays. -/

theorem blk0_eq (t : Fin cfg1.N) : (iblk V c 0 t : Vec Ideal S2048x4096 .bf16) = V c main_v2 := funext fun j => by
  obtain ⟨a, b, rfl⟩ : ∃ (a : Fin 2048) (b : Fin 4096), j = ix2 a b := ⟨j 0, j 1, eq_ix2 j⟩
  exact blk0_at V c t a b

theorem blk2_eq (t : Fin cfg1.N) : (iblk V c 2 t : Vec Ideal S2048x128 .f32) = V c main_arg0 := funext fun j => by
  obtain ⟨a, b, rfl⟩ : ∃ (a : Fin 2048) (b : Fin 128), j = ix2 a b := ⟨j 0, j 1, eq_ix2 j⟩
  exact blk2_at V c t a b

theorem blk3_eq (t : Fin cfg1.N) : (iblk V c 3 t : Vec Ideal S128x1 .f32) = V c main_arg8 := funext fun j => by
  obtain ⟨a, b, rfl⟩ : ∃ (a : Fin 128) (b : Fin 1), j = ix2 a b := ⟨j 0, j 1, eq_ix2 j⟩
  exact blk3_at V c t a b

theorem blk4_eq (t : Fin cfg1.N) : (iblk V c 4 t : Vec Ideal S4096x16 .f32) = V c main_arg4 := funext fun j => by
  obtain ⟨a, b, rfl⟩ : ∃ (a : Fin 4096) (b : Fin 16), j = ix2 a b := ⟨j 0, j 1, eq_ix2 j⟩
  exact blk4_at V c t a b

theorem blk5_eq (t : Fin cfg1.N) : (iblk V c 5 t : Vec Ideal S16x16 .f32) = V c main_arg6 := funext fun j => by
  obtain ⟨a, b, rfl⟩ : ∃ (a : Fin 16) (b : Fin 16), j = ix2 a b := ⟨j 0, j 1, eq_ix2 j⟩
  exact blk5_at V c t a b

theorem blk6_eq (t : Fin cfg1.N) : (iblk V c 6 t : Vec Ideal S1x16 .f32) = V c main_v1 := funext fun j => by
  obtain ⟨a, b, rfl⟩ : ∃ (a : Fin 1) (b : Fin 16), j = ix2 a b := ⟨j 0, j 1, eq_ix2 j⟩
  exact blk6_at V c t a b

end Blocks

end Cert.KernelIdeal.EdgeBridge

end
-- ==== Proof.KI.EdgeBridge.lean ====
/-
  The edge region's result array, for any contents V of the buffers at the region's entry, is the specification's
  edge update of those contents; and at the contents the program enters the region with, of the program's arguments.

  Along run J of the grid the scaled-columns scratch holds, from the run's first point on, the run's incidence
  columns scaled by the node scores. Row block ρ of the accumulator is set at point ρ to features plus bias plus
  run 0's contribution and has run J's contribution added at point 8 J + ρ; at point 56 + ρ the output's row block
  is the accumulator's plus run 7's contribution: the specification's entries for the block's rows, by the assembly
  identity over the eight runs.
-/
import proofs.«151053_g24051816857981_cont_8to1_1327_4_alg».proof.Proof.KI.Run
import proofs.«151053_g24051816857981_cont_8to1_1327_4_alg».proof.Proof.KI.EdgeBridgeGrid

set_option maxRecDepth 16384

noncomputable section

open scoped BigOperators

namespace Cert.KernelIdeal.EdgeBridge

open Cert.KernelIdeal Cert.KernelIdeal.Gen Cert.KernelIdeal.Edge Cert.BridgeAlg Idealize.ShloMosaic Idealize.ShloMosaic.TcCoe
  Idealize.ShloMosaic.ValueIdx

/-! ## One grid point, over arbitrary blocks -/

/-- The scratch a run's first point builds: column c' is column k of the incidence array scaled by the node scores. -/
theorem dNew_at (i : grid1.Coords) (h1 : k1_cond1 i = 1#1) (x0 : Vec Ideal S2048x4096 .bf16) (x2 : Vec Ideal S2048x128 .f32)
    (x3 : Vec Ideal S128x1 .f32) (n : Fin 2048) (c' : Fin 512) (k : Fin 4096)
    (o1 : k1_off1 i (0 : Fin 2) = 0) (o11 : k1_off1 i (1 : Fin 2) + c'.val = k.val) :
    dNew (F := Ideal) i h1 x0 x2 x3 (ix2 n c')
      = x0 (ix2 n k) * (∑ q : Fin 128, x2 (ix2 n q) * x3 (ix2 q (0 : Fin 1))) := by
  unfold dNew
  rw [Cert.KernelIdeal.PayEdge.pay2_at, ld_rInc1 x0 i h1 n c' k o1 o11]

/-- A point's contribution from the scratch d, the row block's incidence columns, the run's edge features and the
    Laplacian tile x1, is the run's contribution of the assembly identity. -/
theorem pay3_grid (i : grid1.Coords) (x0 : Vec Ideal S2048x4096 .bf16) (x1 : Vec Ideal S512x512 .f32)
    (x2 : Vec Ideal S2048x128 .f32) (x3 : Vec Ideal S128x1 .f32) (x4 : Vec Ideal S4096x16 .f32) (x5 : Vec Ideal S16x16 .f32)
    (d : Vec Ideal S2048x512 .bf16) (Le : FVec Ideal (⟨2, ![4096, 4096]⟩ : Shape) .f32)
    (a : Fin 4096) (r : Fin 512) (dd : Fin 16) (J : Fin 8)
    (o2 : k1_off2 i (0 : Fin 2) = 0) (o21 : k1_off2 i (1 : Fin 2) + r.val = a.val)
    (o3 : k1_off3 i (0 : Fin 2) = 512 * J.val) (o31 : k1_off3 i (1 : Fin 2) = 0)
    (hd : ∀ (n : Fin 2048) (c' : Fin 512),
      d (ix2 n c') = x0 (ix2 n (row8 J c')) * (∑ q : Fin 128, x2 (ix2 n q) * x3 (ix2 q (0 : Fin 1))))
    (hL : ∀ c' : Fin 512, x1 (ix2 r c') = Le (ix2 a (row8 J c'))) :
    k1_pay3 (F := Ideal) (View.ld (Val := Elt Ideal) x0 (rInc2 i)) d x1 (View.ld (Val := Elt Ideal) x4 (rE3 i)) x5 (ix2 r dd)
      = edgeBlock x2 Le x0 x4 x5 x3 a dd J :=
  Cert.BridgeBlocks.pay3_eq_edgeBlock _ _ _ _ _ x2 Le x0 x4 x5 x3 a r dd J
    (fun n => ld_rInc2 x0 i n r a o2 o21) hd hL
    (fun c' q => ld_rE3 x4 i c' q (row8 J c') (by rw [o3]; rfl) o31)
    (fun q => rfl)

/-! ## Along the grid, for any entry contents -/

section Grid

variable (V : (c : Dev nD) → (b : Ref sig .tc) → Buf (Elt Ideal) ((c : Thread nD τ).loc b)) (c : Dev nD)

/-- The region's input arrays at entry, read as arrays of extended reals: node features, edge Laplacian, incidence,
    edge features, edge feature map, the edge attention column, and the bias as a row. -/
abbrev aX : FVec Ideal (⟨2, ![2048, 128]⟩ : Shape) .f32 := V c main_arg0
abbrev aLe : FVec Ideal (⟨2, ![4096, 4096]⟩ : Shape) .f32 := V c main_arg2
abbrev aInc : FVec Ideal (⟨2, ![2048, 4096]⟩ : Shape) .f32 := V c main_v2
abbrev aE : FVec Ideal (⟨2, ![4096, 16]⟩ : Shape) .f32 := V c main_arg4
abbrev aWe : FVec Ideal (⟨2, ![16, 16]⟩ : Shape) .f32 := V c main_arg6
abbrev aPe : FVec Ideal (⟨2, ![128, 1]⟩ : Shape) .f32 := V c main_arg8
abbrev aB1 : FVec Ideal (⟨2, ![1, 16]⟩ : Shape) .f32 := V c main_v1

/-- The scaled-columns scratch after point m: column c' is column c' of run m / 8 of the incidence array, scaled by the
    node scores. It is built at the run's first point and kept along the run. -/
theorem dAt_at (m : ℕ) : ∀ (h : m < cfg1.N) (n : Fin 2048) (c' : Fin 512) (J : Fin 8), J.val = m / 8 →
    dAt V c m h (ix2 n c')
      = aInc V c (ix2 n (row8 J c')) * (∑ q : Fin 128, aX V c (ix2 n q) * aPe V c (ix2 q (0 : Fin 1))) := by
  induction m using Nat.strong_induction_on with
  | _ m ih =>
    intro h n c' J hJ
    obtain ⟨⟨o1, o11⟩, -⟩ := offs ⟨m, h⟩
    have o11' : k1_off1 (grid1.coords ⟨m, h⟩) (1 : Fin 2) = 512 * (m / 8) := o11
    by_cases h0 : m % 8 = 0
    · rw [dAt_start V c ⟨m, h⟩ h0, blk0_eq, blk2_eq, blk3_eq]
      exact dNew_at _ _ _ _ _ n c' (row8 J c') o1 (by rw [o11', ← hJ]; rfl)
    · rw [dAt_keep V c ⟨m, h⟩ h0]
      exact ih (m - 1) (by omega) _ n c' J (by omega)

/-- The contribution of point t at row r of its row block: run t / 8's contribution to edge a. -/
theorem contribAt_at (t : Fin cfg1.N) (r : Fin 512) (dd : Fin 16) (a : Fin 4096) (J : Fin 8)
    (ha : a.val = 512 * (t.val % 8) + r.val) (hJ : J.val = t.val / 8) :
    contribAt V c t (ix2 r dd) = edgeBlock (aX V c) (aLe V c) (aInc V c) (aE V c) (aWe V c) (aPe V c) a dd J := by
  obtain ⟨-, ⟨o2, o21⟩, ⟨o3, o31⟩⟩ := offs t
  unfold contribAt contrib
  rw [blk0_eq, blk4_eq, blk5_eq]
  exact pay3_grid (grid1.coords t) (V c main_v2) (iblk V c 1 t) (V c main_arg0) (V c main_arg8) (V c main_arg4) (V c main_arg6)
      (dAt V c t.val t.isLt) (V c main_arg2) a r dd J o2 (by rw [o21]; omega) (by rw [o3, hJ]) o31
      (fun n c' => dAt_at V c t.val t.isLt n c' J hJ) (fun c' => blk1_at V c t r c' a J ha hJ)

/-- What a point of the first run starts its accumulator block at. -/
theorem startVal_at (t : Fin cfg1.N) (r : Fin 512) (dd : Fin 16) (a : Fin 4096) (J : Fin 8)
    (ha : a.val = 512 * (t.val % 8) + r.val) (hJ : J.val = t.val / 8) :
    startVal V c t (ix2 r dd)
      = (aE V c (ix2 a dd) + aB1 V c (ix2 (0 : Fin 1) dd)) + edgeBlock (aX V c) (aLe V c) (aInc V c) (aE V c) (aWe V c) (aPe V c) a dd J := by
  obtain ⟨-, ⟨o2, o21⟩, ⟨o3, o31⟩⟩ := offs t
  unfold startVal startV
  rw [blk0_eq, blk4_eq, blk5_eq, blk6_eq, Cert.KernelIdeal.PayEdge.pay4_at, ld_rows (V c main_arg4) (rowOf t) r dd a ha,
    pay3_grid (grid1.coords t) (V c main_v2) (iblk V c 1 t) (V c main_arg0) (V c main_arg8) (V c main_arg4) (V c main_arg6)
      (dAt V c t.val t.isLt) (V c main_arg2) a r dd J o2 (by rw [o21]; omega) (by rw [o3, hJ]) o31
      (fun n c' => dAt_at V c t.val t.isLt n c' J hJ) (fun c' => blk1_at V c t r c' a J ha hJ)]

/-- What a point of the middle runs makes of its accumulator block p. -/
theorem addVal_at (t : Fin cfg1.N) (p : Vec Ideal S512x16 .f32) (r : Fin 512) (dd : Fin 16) (a : Fin 4096) (J : Fin 8)
    (ha : a.val = 512 * (t.val % 8) + r.val) (hJ : J.val = t.val / 8) :
    addVal V c t p (ix2 r dd) = p (ix2 r dd) + edgeBlock (aX V c) (aLe V c) (aInc V c) (aE V c) (aWe V c) (aPe V c) a dd J := by
  obtain ⟨-, ⟨o2, o21⟩, ⟨o3, o31⟩⟩ := offs t
  unfold addVal addV
  rw [blk0_eq, blk4_eq, blk5_eq, Cert.KernelIdeal.PayEdge.pay5_at,
    pay3_grid (grid1.coords t) (V c main_v2) (iblk V c 1 t) (V c main_arg0) (V c main_arg8) (V c main_arg4) (V c main_arg6)
      (dAt V c t.val t.isLt) (V c main_arg2) a r dd J o2 (by rw [o21]; omega) (by rw [o3, hJ]) o31
      (fun n c' => dAt_at V c t.val t.isLt n c' J hJ) (fun c' => blk1_at V c t r c' a J ha hJ)]

/-- What a point of the last run writes to its output block, from its accumulator block p. -/
theorem outVal_at (t : Fin cfg1.N) (p : Vec Ideal S512x16 .f32) (r : Fin 512) (dd : Fin 16) (a : Fin 4096) (J : Fin 8)
    (ha : a.val = 512 * (t.val % 8) + r.val) (hJ : J.val = t.val / 8) :
    outVal V c t p (ix2 r dd) = p (ix2 r dd) + edgeBlock (aX V c) (aLe V c) (aInc V c) (aE V c) (aWe V c) (aPe V c) a dd J := by
  unfold outVal
  rw [Cert.KernelIdeal.PayEdge.pay1_at, contribAt_at V c t r dd a J ha hJ]

theorem pt_val (n : ℕ) (h : n < 64) : (pt n).val = n := Nat.mod_eq_of_lt h

/-- Row block ρ of the accumulator after its first point. -/
theorem rowAcc_zero_at (ρ : Fin 8) (r : Fin 512) (dd : Fin 16) (a : Fin 4096) (ha : a.val = 512 * ρ.val + r.val) :
    rowAcc V c ρ 0 (ix2 r dd)
      = (aE V c (ix2 a dd) + aB1 V c (ix2 (0 : Fin 1) dd)) + edgeBlock (aX V c) (aLe V c) (aInc V c) (aE V c) (aWe V c) (aPe V c) a dd 0 := by
  have hρ := ρ.isLt
  have hv : (pt ρ.val).val = ρ.val := pt_val _ (by omega)
  show startVal V c (pt ρ.val) (ix2 r dd) = _
  exact startVal_at V c (pt ρ.val) r dd a 0 (by rw [hv]; omega) (by rw [hv]; show (0 : ℕ) = ρ.val / 8; omega)

/-- Row block ρ of the accumulator after the point of run j + 1: what it was, plus the run's contribution. -/
theorem rowAcc_succ_at (ρ : Fin 8) (j : ℕ) (J : Fin 8) (hJ : J.val = j + 1) (hj : j + 1 ≤ 7) (r : Fin 512) (dd : Fin 16) (a : Fin 4096)
    (ha : a.val = 512 * ρ.val + r.val) :
    rowAcc V c ρ (j + 1) (ix2 r dd) = rowAcc V c ρ j (ix2 r dd) + edgeBlock (aX V c) (aLe V c) (aInc V c) (aE V c) (aWe V c) (aPe V c) a dd J := by
  have hρ := ρ.isLt
  have hv : (pt (8 * (j + 1) + ρ.val)).val = 8 * (j + 1) + ρ.val := pt_val _ (by omega)
  show addVal V c (pt (8 * (j + 1) + ρ.val)) (rowAcc V c ρ j) (ix2 r dd) = _
  exact addVal_at V c _ _ r dd a J (by rw [hv]; omega) (by rw [hv]; omega)

/-- Row block ρ of the result: the finished accumulator block plus the last run's contribution. -/
theorem finalRow_at (ρ : Fin 8) (r : Fin 512) (dd : Fin 16) (a : Fin 4096) (ha : a.val = 512 * ρ.val + r.val) :
    finalRow V c ρ (ix2 r dd) = rowAcc V c ρ 6 (ix2 r dd) + edgeBlock (aX V c) (aLe V c) (aInc V c) (aE V c) (aWe V c) (aPe V c) a dd 7 := by
  have hρ := ρ.isLt
  have hv : (pt (56 + ρ.val)).val = 56 + ρ.val := pt_val _ (by omega)
  unfold finalRow
  exact outVal_at V c _ _ r dd a 7 (by rw [hv]; omega) (by rw [hv]; show (7 : ℕ) = (56 + ρ.val) / 8; omega)

/-- Row block ρ of the result: features plus bias, then the eight runs' contributions in order. -/
theorem finalRow_total (ρ : Fin 8) (r : Fin 512) (dd : Fin 16) (a : Fin 4096) (ha : a.val = 512 * ρ.val + r.val) :
    finalRow V c ρ (ix2 r dd)
      = ((((((((aE V c (ix2 a dd) + aB1 V c (ix2 (0 : Fin 1) dd)) + edgeBlock (aX V c) (aLe V c) (aInc V c) (aE V c) (aWe V c) (aPe V c) a dd 0) + edgeBlock (aX V c) (aLe V c) (aInc V c) (aE V c) (aWe V c) (aPe V c) a dd 1)
        + edgeBlock (aX V c) (aLe V c) (aInc V c) (aE V c) (aWe V c) (aPe V c) a dd 2) + edgeBlock (aX V c) (aLe V c) (aInc V c) (aE V c) (aWe V c) (aPe V c) a dd 3) + edgeBlock (aX V c) (aLe V c) (aInc V c) (aE V c) (aWe V c) (aPe V c) a dd 4)
        + edgeBlock (aX V c) (aLe V c) (aInc V c) (aE V c) (aWe V c) (aPe V c) a dd 5) + edgeBlock (aX V c) (aLe V c) (aInc V c) (aE V c) (aWe V c) (aPe V c) a dd 6) + edgeBlock (aX V c) (aLe V c) (aInc V c) (aE V c) (aWe V c) (aPe V c) a dd 7 := by
  rw [finalRow_at V c ρ r dd a ha,
    rowAcc_succ_at V c ρ 5 6 rfl (by omega) r dd a ha, rowAcc_succ_at V c ρ 4 5 rfl (by omega) r dd a ha,
    rowAcc_succ_at V c ρ 3 4 rfl (by omega) r dd a ha, rowAcc_succ_at V c ρ 2 3 rfl (by omega) r dd a ha,
    rowAcc_succ_at V c ρ 1 2 rfl (by omega) r dd a ha, rowAcc_succ_at V c ρ 0 1 rfl (by omega) r dd a ha,
    rowAcc_zero_at V c ρ r dd a ha]

/-- THE RESULT ARRAY of the edge region, for any entry contents whose bias row reads the bias vector bE, is the
    specification's edge update of the entry contents. -/
theorem outArr_eq_edges (bE : FVec Ideal (⟨1, ![16]⟩ : Shape) .f32)
    (hb : ∀ d : Fin 16, aB1 V c (ix2 (0 : Fin 1) d) = bE (ix1 d)) :
    outArr V c = Cert.Spec.edges (aX V c) (aLe V c) (aInc V c) (aE V c) (aWe V c) (aPe V c) bE := by
  funext idx
  obtain ⟨a, dd, rfl⟩ : ∃ (a : Fin 4096) (dd : Fin 16), idx = ix2 a dd := ⟨idx 0, idx 1, eq_ix2 idx⟩
  have ha : a.val < 4096 := a.isLt
  rw [Cert.Spec.edges_ix2, ← edges_assemble (aX V c) (aLe V c) (aInc V c) (aE V c) (aWe V c) (aPe V c) bE (aB1 V c) hb a dd]
  exact finalRow_total V c ⟨a.val / 512, by omega⟩ ⟨a.val % 512, Nat.mod_lt _ (by decide)⟩ dd a
    (by show a.val = 512 * (a.val / 512) + a.val % 512; omega)

end Grid

/-! ## The contents the program enters the region with -/

section Entry

variable (m : (ℓ : Loc nD τ sig) → Buf (Elt Ideal) ℓ) (c : Dev nD)

/-- An argument array no host operation writes reaches the region as launched. -/
theorem V2_arg (b : Ref sig .tc) (h3 : b ≠ main_v3) (hw : b ∉ (hostOps0_W : List (Ref sig .tc))) :
    Run.V2 m c b = m ((c.tc : Thread nD τ).loc b) :=
  ((Run.V2_keep m c b h3).trans (Cert.KernelIdeal.Gen.V1_of m c b hw)).trans rfl

/-- The incidence operand is the incidence argument changed to the narrower float format: at the ideal instance, itself. -/
theorem V2_v2 : @Eq (Vec Ideal S2048x4096 .bf16) (Run.V2 m c main_v2) (m ((c.tc : Thread nD τ).loc main_arg3)) := by
  refine (Run.V2_keep m c main_v2 (by decide)).trans ?_
  have e : @Eq (Vec Ideal S2048x4096 .bf16) (Run.V1 m c main_v2)
      (truncf (F := Ideal) (s := S2048x4096) (φ := .f32) .bf16 (m ((c.tc : Thread nD τ).loc main_arg3)) bitsLt_bf16_f32) := by
    show StableHlo.after hostOps0 (fun b => m (c, b)) (Proc.devRef .tc main_v2) = _
    after_results <;> rfl
  rw [e]
  rfl

/-- The bias operand is the bias argument as one row. -/
theorem V2_v1_at (d : Fin 16) :
    (Run.V2 m c main_v1 : Vec Ideal S1x16 .f32) (ix2 (0 : Fin 1) d)
      = (m ((c.tc : Thread nD τ).loc main_arg10) : FVec Ideal (⟨1, ![16]⟩ : Shape) .f32) (ix1 d) := by
  have e2 : @Eq (Vec Ideal S1x16 .f32) (Run.V2 m c main_v1) (Run.V1 m c main_v1) := Run.V2_keep m c main_v1 (by decide)
  have e : @Eq (Vec Ideal S1x16 .f32) (Run.V1 m c main_v1)
      (shapeCast S1x16 (m ((c.tc : Thread nD τ).loc main_arg10) : Vec Ideal S16 .f32) shapeCasts_S16_S1x16) := by
    show StableHlo.after hostOps0 (fun b => m (c, b)) (Proc.devRef .tc main_v1) = _
    after_results <;> rfl
  rw [e2, e]
  exact shapeCast_apply _ shapeCasts_S16_S1x16 (ix2 (0 : Fin 1) d) (ix1 d) (by
    rw [Shape.rowMajor_val_one, Shape.rowMajor_val_two]
    show d.val = 0 * 16 + d.val
    omega)

/-- THE EDGE RESULT ARRAY of the program is the specification's edge update of the program's arguments. -/
theorem outArr_eq (m : (ℓ : Loc nD τ sig) → Buf (Elt Ideal) ℓ) (c : Dev nD) :
    Cert.KernelIdeal.Edge.outArr (Cert.KernelIdeal.Run.V2 m) c
      = Cert.Spec.edges (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg6)) (m ((c.tc : Thread nD τ).loc main_arg8)) (m ((c.tc : Thread nD τ).loc main_arg10)) := by
  refine (outArr_eq_edges (Run.V2 m) c (m ((c.tc : Thread nD τ).loc main_arg10)) (fun d => V2_v1_at m c d)).trans ?_
  show Cert.Spec.edges (Run.V2 m c main_arg0) (Run.V2 m c main_arg2) (Run.V2 m c main_v2) (Run.V2 m c main_arg4)
      (Run.V2 m c main_arg6) (Run.V2 m c main_arg8) (m ((c.tc : Thread nD τ).loc main_arg10)) = _
  rw [V2_arg m c main_arg0 (by decide) (by decide), V2_arg m c main_arg2 (by decide) (by decide), V2_v2 m c,
    V2_arg m c main_arg4 (by decide) (by decide), V2_arg m c main_arg6 (by decide) (by decide),
    V2_arg m c main_arg8 (by decide) (by decide)]

end Entry

end Cert.KernelIdeal.EdgeBridge

end
-- ==== Proof.RefValue.lean ====
/-
  The reference program's two results, read index by index at the ideal instance, are the specification's
  `Cert.Spec.nodes` and `Cert.Spec.edges` of its argument arrays.

  Each stage of the reference is read at an index given by its coordinates: a contraction is the finite sum over
  the contracted coordinate of left entry times right entry, a transpose swaps the coordinates, a broadcast drops
  the new coordinate, a reshape [a,1] → [a] keeps the coordinate, and a pointwise product or sum is the product
  or sum of the entries. The stages compose to the specification's formulas in the specification's own order of
  factors and brackets, so no algebraic law is used: only equations between indices.
-/
import proofs.«151053_g24051816857981_cont_8to1_1327_4_alg».proof.Proof.RefSpec
import proofs.«151053_g24051816857981_cont_8to1_1327_4_alg».proof.Proof.Gen.ReferenceIdeal.Run
import proofs.«151053_g24051816857981_cont_8to1_1327_4_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic
  Idealize.ShloMosaic.ValueIdx

/-! ## Equations between indices -/

/-- The edge score is read at edge `k`, feature `d`, whatever node row the broadcast put it in. -/
theorem lidx_phiE (n : Fin 2048) (k : Fin 4096) (d : Fin 16) :
    lidx_main_v0 (idx_main_v1 (idx_main_v2 (idx_main_v3 (ix2 n k)))) d = ix2 k d :=
  funext fun a => Fin.ext (by match a with | ⟨0, _⟩ => exact Nat.div_one _ | ⟨1, _⟩ => rfl)

theorem ridx_phiE (n : Fin 2048) (k : Fin 4096) (d : Fin 16) :
    ridx_main_v0 (idx_main_v1 (idx_main_v2 (idx_main_v3 (ix2 n k)))) d = ix2 d (0 : Fin 1) :=
  funext fun a => Fin.ext (by match a with | ⟨0, _⟩ => rfl | ⟨1, _⟩ => rfl)

theorem lidx_v6 (n n' : Fin 2048) (k : Fin 4096) : lidx_main_v6 (ix2 n n') k = ix2 n k :=
  funext fun a => Fin.ext (by match a with | ⟨0, _⟩ => rfl | ⟨1, _⟩ => rfl)

theorem ridx_v6 (n n' : Fin 2048) (k : Fin 4096) : idx_main_v5 (ridx_main_v6 (ix2 n n') k) = ix2 n' k :=
  funext fun a => Fin.ext (by match a with | ⟨0, _⟩ => rfl | ⟨1, _⟩ => rfl)

theorem lidx_v8 (n' : Fin 2048) (d q : Fin 128) : lidx_main_v8 (ix2 n' d) q = ix2 n' q :=
  funext fun a => Fin.ext (by match a with | ⟨0, _⟩ => rfl | ⟨1, _⟩ => rfl)

theorem ridx_v8 (n' : Fin 2048) (d q : Fin 128) : ridx_main_v8 (ix2 n' d) q = ix2 q d :=
  funext fun a => Fin.ext (by match a with | ⟨0, _⟩ => rfl | ⟨1, _⟩ => rfl)

theorem lidx_v9 (n n' : Fin 2048) (d : Fin 128) : lidx_main_v9 (ix2 n d) n' = ix2 n n' :=
  funext fun a => Fin.ext (by match a with | ⟨0, _⟩ => rfl | ⟨1, _⟩ => rfl)

theorem ridx_v9 (n n' : Fin 2048) (d : Fin 128) : ridx_main_v9 (ix2 n d) n' = ix2 n' d :=
  funext fun a => Fin.ext (by match a with | ⟨0, _⟩ => rfl | ⟨1, _⟩ => rfl)

theorem idx_bN (n : Fin 2048) (d : Fin 128) : idx_main_v10 (idx_main_v11 (ix2 n d)) = ix1 d :=
  funext fun a => Fin.ext (by match a with | ⟨0, _⟩ => rfl)

/-- The node score is read at node `n`, feature `q`, whatever edge row the broadcast put it in. -/
theorem lidx_phiV (a : Fin 4096) (n : Fin 2048) (q : Fin 128) :
    lidx_main_v13 (idx_main_v14 (idx_main_v16 (idx_main_v17 (ix2 a n)))) q = ix2 n q :=
  funext fun c => Fin.ext (by match c with | ⟨0, _⟩ => exact Nat.div_one _ | ⟨1, _⟩ => rfl)

theorem ridx_phiV (a : Fin 4096) (n : Fin 2048) (q : Fin 128) :
    ridx_main_v13 (idx_main_v14 (idx_main_v16 (idx_main_v17 (ix2 a n)))) q = ix2 q (0 : Fin 1) :=
  funext fun c => Fin.ext (by match c with | ⟨0, _⟩ => rfl | ⟨1, _⟩ => rfl)

theorem idx_v15 (a : Fin 4096) (n : Fin 2048) : idx_main_v15 (ix2 a n) = ix2 n a :=
  funext fun c => Fin.ext (by match c with | ⟨0, _⟩ => rfl | ⟨1, _⟩ => rfl)

theorem lidx_v19 (a b : Fin 4096) (n : Fin 2048) : lidx_main_v19 (ix2 a b) n = ix2 a n :=
  funext fun c => Fin.ext (by match c with | ⟨0, _⟩ => rfl | ⟨1, _⟩ => rfl)

theorem ridx_v19 (a b : Fin 4096) (n : Fin 2048) : ridx_main_v19 (ix2 a b) n = ix2 n b :=
  funext fun c => Fin.ext (by match c with | ⟨0, _⟩ => rfl | ⟨1, _⟩ => rfl)

theorem lidx_v21 (b : Fin 4096) (d q : Fin 16) : lidx_main_v21 (ix2 b d) q = ix2 b q :=
  funext fun c => Fin.ext (by match c with | ⟨0, _⟩ => rfl | ⟨1, _⟩ => rfl)

theorem ridx_v21 (b : Fin 4096) (d q : Fin 16) : ridx_main_v21 (ix2 b d) q = ix2 q d :=
  funext fun c => Fin.ext (by match c with | ⟨0, _⟩ => rfl | ⟨1, _⟩ => rfl)

theorem lidx_v22 (a b : Fin 4096) (d : Fin 16) : lidx_main_v22 (ix2 a d) b = ix2 a b :=
  funext fun c => Fin.ext (by match c with | ⟨0, _⟩ => rfl | ⟨1, _⟩ => rfl)

theorem ridx_v22 (a b : Fin 4096) (d : Fin 16) : ridx_main_v22 (ix2 a d) b = ix2 b d :=
  funext fun c => Fin.ext (by match c with | ⟨0, _⟩ => rfl | ⟨1, _⟩ => rfl)

theorem idx_bE (a : Fin 4096) (d : Fin 16) : idx_main_v23 (idx_main_v24 (ix2 a d)) = ix1 d :=
  funext fun c => Fin.ext (by match c with | ⟨0, _⟩ => rfl)

/-! ## The node update, stage by stage -/

/-- The broadcast edge score at node row `n`, edge `k`. -/
theorem edgeScore_at (x4 : (⟨S4096x16, .f32⟩ : BufTy).Contents (Elt Ideal)) (x7 : (⟨S16x1, .f32⟩ : BufTy).Contents (Elt Ideal))
    (n : Fin 2048) (k : Fin 4096) :
    val_main_v3 (F := Ideal) x4 x7 (ix2 n k) = Cert.Spec.phiE x4 x7 k := by
  rw [val_main_v3_apply, val_main_v2_apply, val_main_v1_apply, val_main_v0_apply]
  unfold Cert.Spec.phiE
  refine Finset.sum_congr rfl fun d _ => ?_
  rw [lidx_phiE, ridx_phiE]

/-- The node propagation matrix at `(n, n')`: the contraction over the edges, then the Laplacian mask. -/
theorem nodeProp_at (x1 : (⟨S2048x2048, .f32⟩ : BufTy).Contents (Elt Ideal)) (x3 : (⟨S2048x4096, .f32⟩ : BufTy).Contents (Elt Ideal))
    (x4 : (⟨S4096x16, .f32⟩ : BufTy).Contents (Elt Ideal)) (x7 : (⟨S16x1, .f32⟩ : BufTy).Contents (Elt Ideal))
    (n n' : Fin 2048) :
    val_main_v7 (F := Ideal) x1 x3 x4 x7 (ix2 n n') = Cert.Spec.propN x1 x3 x4 x7 n n' := by
  rw [val_main_v7_apply, val_main_v6_apply, Ideal.mulf_def]
  unfold Cert.Spec.propN
  refine congrArg₂ (· * ·) (Finset.sum_congr rfl fun k _ => ?_) rfl
  rw [lidx_v6, val_main_v4_apply, val_main_v5_apply, ridx_v6, edgeScore_at, Ideal.mulf_def]

/-- The node features through the feature map at `(n', d)`. -/
theorem nodeFeat_at (x0 : (⟨S2048x128, .f32⟩ : BufTy).Contents (Elt Ideal)) (x5 : (⟨S128x128, .f32⟩ : BufTy).Contents (Elt Ideal))
    (n' : Fin 2048) (d : Fin 128) :
    val_main_v8 (F := Ideal) x0 x5 (ix2 n' d) = Cert.Spec.xw x0 x5 n' d := by
  rw [val_main_v8_apply]
  unfold Cert.Spec.xw
  refine Finset.sum_congr rfl fun q _ => ?_
  rw [lidx_v8, ridx_v8]

/-- The reference's first result at `(n, d)`. -/
theorem nodes_at (x0 : (⟨S2048x128, .f32⟩ : BufTy).Contents (Elt Ideal)) (x1 : (⟨S2048x2048, .f32⟩ : BufTy).Contents (Elt Ideal))
    (x3 : (⟨S2048x4096, .f32⟩ : BufTy).Contents (Elt Ideal)) (x4 : (⟨S4096x16, .f32⟩ : BufTy).Contents (Elt Ideal))
    (x5 : (⟨S128x128, .f32⟩ : BufTy).Contents (Elt Ideal)) (x7 : (⟨S16x1, .f32⟩ : BufTy).Contents (Elt Ideal))
    (x9 : (⟨S128, .f32⟩ : BufTy).Contents (Elt Ideal)) (n : Fin 2048) (d : Fin 128) :
    val_main_v26 (F := Ideal) x0 x1 x3 x4 x5 x7 x9 (ix2 n d) = Cert.Spec.nodesAt x0 x1 x3 x4 x5 x7 x9 n d := by
  rw [val_main_v26_apply, val_main_v12_apply, val_main_v9_apply, val_main_v11_apply, val_main_v10_apply, idx_bN,
    Ideal.addf_def, Ideal.addf_def]
  unfold Cert.Spec.nodesAt
  refine congrArg₂ (· + ·) rfl (congrArg₂ (· + ·) (Finset.sum_congr rfl fun n' _ => ?_) rfl)
  rw [lidx_v9, ridx_v9, nodeProp_at, nodeFeat_at]

/-- The reference's first result is the specification's new node features. -/
theorem nodes_eq (x0 : (⟨S2048x128, .f32⟩ : BufTy).Contents (Elt Ideal)) (x1 : (⟨S2048x2048, .f32⟩ : BufTy).Contents (Elt Ideal))
    (x3 : (⟨S2048x4096, .f32⟩ : BufTy).Contents (Elt Ideal)) (x4 : (⟨S4096x16, .f32⟩ : BufTy).Contents (Elt Ideal))
    (x5 : (⟨S128x128, .f32⟩ : BufTy).Contents (Elt Ideal)) (x7 : (⟨S16x1, .f32⟩ : BufTy).Contents (Elt Ideal))
    (x9 : (⟨S128, .f32⟩ : BufTy).Contents (Elt Ideal)) :
    val_main_v26 (F := Ideal) x0 x1 x3 x4 x5 x7 x9 = Cert.Spec.nodes x0 x1 x3 x4 x5 x7 x9 := by
  funext i
  obtain ⟨n, d, rfl⟩ : ∃ (n : Fin 2048) (d : Fin 128), i = ix2 n d := ⟨i 0, i 1, eq_ix2 i⟩
  exact nodes_at x0 x1 x3 x4 x5 x7 x9 n d

/-! ## The edge update, stage by stage -/

/-- The broadcast node score at edge row `a`, node `n`. -/
theorem nodeScore_at (x0 : (⟨S2048x128, .f32⟩ : BufTy).Contents (Elt Ideal)) (x8 : (⟨S128x1, .f32⟩ : BufTy).Contents (Elt Ideal))
    (a : Fin 4096) (n : Fin 2048) :
    val_main_v17 (F := Ideal) x0 x8 (ix2 a n) = Cert.Spec.phiV x0 x8 n := by
  rw [val_main_v17_apply, val_main_v16_apply, val_main_v14_apply, val_main_v13_apply]
  unfold Cert.Spec.phiV
  refine Finset.sum_congr rfl fun q _ => ?_
  rw [lidx_phiV, ridx_phiV]

/-- The edge propagation matrix at `(a, b)`: the contraction over the nodes, then the Laplacian mask. -/
theorem edgeProp_at (x0 : (⟨S2048x128, .f32⟩ : BufTy).Contents (Elt Ideal)) (x2 : (⟨S4096x4096, .f32⟩ : BufTy).Contents (Elt Ideal))
    (x3 : (⟨S2048x4096, .f32⟩ : BufTy).Contents (Elt Ideal)) (x8 : (⟨S128x1, .f32⟩ : BufTy).Contents (Elt Ideal))
    (a b : Fin 4096) :
    val_main_v20 (F := Ideal) x0 x2 x3 x8 (ix2 a b) = Cert.Spec.propE x0 x2 x3 x8 a b := by
  rw [val_main_v20_apply, val_main_v19_apply, Ideal.mulf_def]
  unfold Cert.Spec.propE
  refine congrArg₂ (· * ·) (Finset.sum_congr rfl fun n _ => ?_) rfl
  rw [lidx_v19, ridx_v19, val_main_v18_apply, val_main_v15_apply, idx_v15, nodeScore_at, Ideal.mulf_def]

/-- The edge features through the feature map at `(b, d)`. -/
theorem edgeFeat_at (x4 : (⟨S4096x16, .f32⟩ : BufTy).Contents (Elt Ideal)) (x6 : (⟨S16x16, .f32⟩ : BufTy).Contents (Elt Ideal))
    (b : Fin 4096) (d : Fin 16) :
    val_main_v21 (F := Ideal) x4 x6 (ix2 b d) = Cert.Spec.ew x4 x6 b d := by
  rw [val_main_v21_apply]
  unfold Cert.Spec.ew
  refine Finset.sum_congr rfl fun q _ => ?_
  rw [lidx_v21, ridx_v21]

/-- The reference's second result at `(a, d)`. -/
theorem edges_at (x0 : (⟨S2048x128, .f32⟩ : BufTy).Contents (Elt Ideal)) (x2 : (⟨S4096x4096, .f32⟩ : BufTy).Contents (Elt Ideal))
    (x3 : (⟨S2048x4096, .f32⟩ : BufTy).Contents (Elt Ideal)) (x4 : (⟨S4096x16, .f32⟩ : BufTy).Contents (Elt Ideal))
    (x6 : (⟨S16x16, .f32⟩ : BufTy).Contents (Elt Ideal)) (x8 : (⟨S128x1, .f32⟩ : BufTy).Contents (Elt Ideal))
    (x10 : (⟨S16, .f32⟩ : BufTy).Contents (Elt Ideal)) (a : Fin 4096) (d : Fin 16) :
    val_main_v27 (F := Ideal) x0 x2 x3 x4 x6 x8 x10 (ix2 a d) = Cert.Spec.edgesAt x0 x2 x3 x4 x6 x8 x10 a d := by
  rw [val_main_v27_apply, val_main_v25_apply, val_main_v22_apply, val_main_v24_apply, val_main_v23_apply, idx_bE,
    Ideal.addf_def, Ideal.addf_def]
  unfold Cert.Spec.edgesAt
  refine congrArg₂ (· + ·) rfl (congrArg₂ (· + ·) (Finset.sum_congr rfl fun b _ => ?_) rfl)
  rw [lidx_v22, ridx_v22, edgeProp_at, edgeFeat_at]

/-- The reference's second result is the specification's new edge features. -/
theorem edges_eq (x0 : (⟨S2048x128, .f32⟩ : BufTy).Contents (Elt Ideal)) (x2 : (⟨S4096x4096, .f32⟩ : BufTy).Contents (Elt Ideal))
    (x3 : (⟨S2048x4096, .f32⟩ : BufTy).Contents (Elt Ideal)) (x4 : (⟨S4096x16, .f32⟩ : BufTy).Contents (Elt Ideal))
    (x6 : (⟨S16x16, .f32⟩ : BufTy).Contents (Elt Ideal)) (x8 : (⟨S128x1, .f32⟩ : BufTy).Contents (Elt Ideal))
    (x10 : (⟨S16, .f32⟩ : BufTy).Contents (Elt Ideal)) :
    val_main_v27 (F := Ideal) x0 x2 x3 x4 x6 x8 x10 = Cert.Spec.edges x0 x2 x3 x4 x6 x8 x10 := by
  funext i
  obtain ⟨a, d, rfl⟩ : ∃ (a : Fin 4096) (d : Fin 16), i = ix2 a d := ⟨i 0, i 1, eq_ix2 i⟩
  exact edges_at x0 x2 x3 x4 x6 x8 x10 a d

end Cert.ReferenceIdeal.RefValue

end
-- ==== Proof.RefFrame.lean ====
/-
  The reference program's run, stated with the specification: every weakly fair execution terminates with the
  first result at `Cert.Spec.nodes` and the second at `Cert.Spec.edges` of the argument arrays as they were at
  the start, and every argument array unchanged. Dropping the two results gives the reference's frame claim.
-/
import proofs.«151053_g24051816857981_cont_8to1_1327_4_alg».proof.Defs
import proofs.«151053_g24051816857981_cont_8to1_1327_4_alg».proof.Proof.Gen.Pre_finite_inputs
import proofs.«151053_g24051816857981_cont_8to1_1327_4_alg».proof.Proof.RefValue

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo

/-- The reference's run with both results named by the specification, the arguments unchanged; the conjuncts are
    in the order the equivalence claim lists the reference's post: first result, second result, the eleven
    arguments. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v26) = Cert.Spec.nodes (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg9))
      ∧ r.2.mem ((c.tc : Thread nD τ).loc main_v27) = Cert.Spec.edges (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg8)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
      ⟨(h c).1.trans ((val_main_v26_eq _ _ _ _ _ _ _).trans (nodes_eq _ _ _ _ _ _ _)),
       (h c).2.1.trans ((val_main_v27_eq _ _ _ _ _ _ _).trans (edges_eq _ _ _ _ _ _ _)),
       (h c).2.2⟩)
    (Cert.ReferenceIdeal.Value.run (F := Ideal) m ρ)

/-- The same run from a memory whose argument arrays are known to be given arrays `a0 … a10` (one per device):
    the results are the specification's functions of those arrays. The hypothesis is the agreement of two
    memories on the eleven arguments, conjunct by conjunct. -/
theorem run_agree (m : (ℓ : Loc nD τ sig) → Buf (Elt Ideal) ℓ) (ρ : Dev nD → PrngReg)
    (a0 : Dev nD → FVec Ideal (⟨2, ![2048, 128]⟩ : Shape) .f32)
    (a1 : Dev nD → FVec Ideal (⟨2, ![2048, 2048]⟩ : Shape) .f32)
    (a2 : Dev nD → FVec Ideal (⟨2, ![4096, 4096]⟩ : Shape) .f32)
    (a3 : Dev nD → FVec Ideal (⟨2, ![2048, 4096]⟩ : Shape) .f32)
    (a4 : Dev nD → FVec Ideal (⟨2, ![4096, 16]⟩ : Shape) .f32)
    (a5 : Dev nD → FVec Ideal (⟨2, ![128, 128]⟩ : Shape) .f32)
    (a6 : Dev nD → FVec Ideal (⟨2, ![16, 16]⟩ : Shape) .f32)
    (a7 : Dev nD → FVec Ideal (⟨2, ![16, 1]⟩ : Shape) .f32)
    (a8 : Dev nD → FVec Ideal (⟨2, ![128, 1]⟩ : Shape) .f32)
    (a9 : Dev nD → FVec Ideal (⟨1, ![128]⟩ : Shape) .f32)
    (a10 : Dev nD → FVec Ideal (⟨1, ![16]⟩ : Shape) .f32)
    (hagree : ∀ c : Dev nD,
      m ((c.tc : Thread nD τ).loc main_arg0) = a0 c
      ∧ m ((c.tc : Thread nD τ).loc main_arg1) = a1 c
      ∧ m ((c.tc : Thread nD τ).loc main_arg2) = a2 c
      ∧ m ((c.tc : Thread nD τ).loc main_arg3) = a3 c
      ∧ m ((c.tc : Thread nD τ).loc main_arg4) = a4 c
      ∧ m ((c.tc : Thread nD τ).loc main_arg5) = a5 c
      ∧ m ((c.tc : Thread nD τ).loc main_arg6) = a6 c
      ∧ m ((c.tc : Thread nD τ).loc main_arg7) = a7 c
      ∧ m ((c.tc : Thread nD τ).loc main_arg8) = a8 c
      ∧ m ((c.tc : Thread nD τ).loc main_arg9) = a9 c
      ∧ m ((c.tc : Thread nD τ).loc main_arg10) = a10 c) :
    θ_run (defs (F := Ideal)) (onTc (τ := τ) (main (F := Ideal))) ⟨m, fun _ => 0, ρ⟩ fun r => ∀ c : Dev nD,
      r.2.mem ((c.tc : Thread nD τ).loc main_v26) = Cert.Spec.nodes (a0 c) (a1 c) (a3 c) (a4 c) (a5 c) (a7 c) (a9 c)
      ∧ r.2.mem ((c.tc : Thread nD τ).loc main_v27) = Cert.Spec.edges (a0 c) (a2 c) (a3 c) (a4 c) (a6 c) (a8 c) (a10 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => by
      obtain ⟨h0, h1, h2, h3, h4, h5, h6, h7, h8, h9, h10⟩ := hagree c
      rw [← h0, ← h1, ← h2, ← h3, ← h4, ← h5, ← h6, ← h7, ← h8, ← h9, ← h10]
      exact h c)
    (run_spec m ρ)

/-- The reference runs and leaves its argument arrays unchanged: the specified run with its two results dropped. -/
theorem frame : Cert.frame_ReferenceIdeal := fun m ρ _ =>
  (θ_run defs _ _).mono (fun _ h c => (h c).2.2) (run_spec m ρ)

end Cert.ReferenceIdeal.RefValue

end
-- ==== Proof.lean ====
/-
  A graph layer with node and edge updates: for nodes, ((T diag(e p) Tᵀ) ∘ L_v) (x W) + b + x, for edges the transposed
  pattern over the edge set. The kernel computes each result block by block on two grids — a block of the propagation
  matrix is formed on the matrix unit, multiplied entrywise by the Laplacian tile and contracted with a block of the
  projected features, and the contributions of the column blocks are added one after the other into the output block
  (nodes) or into a scratch accumulator (edges). The reference forms the whole propagation matrices and multiplies once.
  Over the extended reals the two agree by commutativity and associativity of + and · alone: a sum over 2048 (4096)
  indices is the sum of its 4 (8) runs of 512, the bias and the residual term are added in another order, and the scaling
  factor sits on the other side of a product; besides, a product accumulated into a zero block is the bare sum (0 + s = s),
  and at the ideal instance a change of float format is the identity. No distributivity is used, so the finiteness of the
  inputs is never opened.

  The kernel's run (both regions, each point of each grid, what every buffer holds afterwards) is Proof/KI/Node*.lean,
  Proof/KI/Edge*.lean and Proof/KI/Run.lean for the idealized program and Proof/K/*.lean, the same argument, for the
  program as printed; the reference's run and its reading as the specification Cert.Spec are Proof/Ref*.lean; the bodies'
  values entry by entry are Proof/KI/Pay*.lean, and the arithmetic joining them to the specification is Proof/Bridge*.lean
  and Proof/KI/*Bridge*.lean.
-/
import proofs.«151053_g24051816857981_cont_8to1_1327_4_alg».proof.Defs
import proofs.«151053_g24051816857981_cont_8to1_1327_4_alg».proof.Proof.Gen.Kernel
import proofs.«151053_g24051816857981_cont_8to1_1327_4_alg».proof.Proof.Gen.KernelIdeal
import proofs.«151053_g24051816857981_cont_8to1_1327_4_alg».proof.Proof.Gen.ReferenceIdeal
import proofs.«151053_g24051816857981_cont_8to1_1327_4_alg».proof.Proof.Gen.Pre_finite_inputs
import proofs.«151053_g24051816857981_cont_8to1_1327_4_alg».proof.Proof.K.Run
import proofs.«151053_g24051816857981_cont_8to1_1327_4_alg».proof.Proof.KI.Run
import proofs.«151053_g24051816857981_cont_8to1_1327_4_alg».proof.Proof.KI.NodeBridge
import proofs.«151053_g24051816857981_cont_8to1_1327_4_alg».proof.Proof.KI.EdgeBridge
import proofs.«151053_g24051816857981_cont_8to1_1327_4_alg».proof.Proof.RefFrame
import Idealize.ShloMosaic.Adequacy
import Idealize.ShloMosaic.Init

noncomputable section

namespace Cert.Proof

open Idealize.ShloMosaic Idealize.SL.Sem

/-- The program as printed runs to the end and leaves its arguments unchanged. -/
theorem frame_kernel : Cert.frame_Kernel := fun m ρ _ => Cert.Kernel.Run.frame (F := Bits) m ρ

/-- So does its idealization. -/
theorem frame_kernelIdeal : Cert.frame_KernelIdeal := fun m ρ _ => Cert.KernelIdeal.Run.frame (F := Ideal) m ρ

/-- Both idealized programs end with the specification's two arrays of the arguments. -/
theorem algebraic : Cert.algebraic_KernelIdeal_ReferenceIdeal := by
  intro m ρ m' ρ' _ hagree
  refine ⟨fun c => Cert.Spec.nodes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)),
    fun c => Cert.Spec.edges (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg10)), ?_, ?_⟩
  · exact (θ_run (Cert.KernelIdeal.defs (F := Ideal)) _ _).mono
      (fun r h c => ⟨(h c).1.trans (Cert.KernelIdeal.NodeBridge.outArr_eq m c), (h c).2.1.trans (Cert.KernelIdeal.EdgeBridge.outArr_eq m c), (h c).2.2⟩)
      (Cert.KernelIdeal.Run.run_read (F := Ideal) m ρ)
  · exact Cert.ReferenceIdeal.RefValue.run_agree m' ρ' _ _ _ _ _ _ _ _ _ _ _ hagree

theorem claim : Cert.Claim := ⟨Cert.Kernel.Gen.facts, Cert.KernelIdeal.Gen.facts, Cert.ReferenceIdeal.Gen.facts, Cert.Pre_finite_inputs.Gen.facts,
  frame_kernel, frame_kernelIdeal, Cert.ReferenceIdeal.RefValue.frame, trivial, algebraic⟩

end Cert.Proof

end
